-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x50 : Shape := ⟨2, ![4096, 50]⟩
abbrev S100000x128 : Shape := ⟨2, ![100000, 128]⟩
abbrev S6400x2048 : Shape := ⟨2, ![6400, 2048]⟩
abbrev S2048 : Shape := ⟨1, ![2048]⟩
abbrev S2048x1000 : Shape := ⟨2, ![2048, 1000]⟩
abbrev S1000 : Shape := ⟨1, ![1000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S6400x2048 : S_.BroadcastsInDim S6400x2048 (![] : Fin 0 → Fin S6400x2048.rank)
  reducesTo_S6400x2048_S_d0_1 : S6400x2048.ReducesTo [0, 1] S_
  bcast_S_S2048 : S_.BroadcastsInDim S2048 (![] : Fin 0 → Fin S2048.rank)
  reducesTo_S2048_S_d0 : S2048.ReducesTo [0] S_
  bcast_S_S2048x1000 : S_.BroadcastsInDim S2048x1000 (![] : Fin 0 → Fin S2048x1000.rank)
  reducesTo_S2048x1000_S_d0_1 : S2048x1000.ReducesTo [0, 1] S_
  bcast_S_S1000 : S_.BroadcastsInDim S1000 (![] : Fin 0 → Fin S1000.rank)
  reducesTo_S1000_S_d0 : S1000.ReducesTo [0] S_
  bcast_S_S4096x50 : S_.BroadcastsInDim S4096x50 (![] : Fin 0 → Fin S4096x50.rank)
  reducesTo_S4096x50_S_d0_1 : S4096x50.ReducesTo [0, 1] S_

variable [Facts]

def fn_part1 {F : FTy → Type} [FloatOps F] (main_arg0 : IVec S4096x50 32) (main_arg5 : FVec F S1000 .f32) (main_v13 : IVec S_ 1) (main_v16 : IVec S2048x1000 1) : IVec S_ 1 :=
  let main_c_5 : IVec S_ 1 := constantI S_ 1 1#1
  let main_v17 : IVec S_ 1 := (fun x v => Host.reduce IntOp.andi x v reducesTo_S2048x1000_S_d0_1 h_S_) main_v16 main_c_5
  let main_v18 : IVec S_ 1 := andi main_v13 main_v17
  let main_v19 : FVec F S1000 .f32 := Host.absf main_arg5
  let main_cst_6 : FVec F S_ .f32 := constant S_ .f32 0x7F800000#32
  let main_v20 : FVec F S1000 .f32 := broadcastInDim S1000 ![] bcast_S_S1000 main_cst_6
  let main_v21 : IVec S1000 1 := cmpf .olt main_v19 main_v20
  let main_c_7 : IVec S_ 1 := constantI S_ 1 1#1
  let main_v22 : IVec S_ 1 := (fun x v => Host.reduce IntOp.andi x v reducesTo_S1000_S_d0 h_S_) main_v21 main_c_7
  let main_v23 : IVec S_ 1 := andi main_v18 main_v22
  let main_c_8 : IVec S_ 32 := constantI S_ 32 0#32
  let main_v24 : IVec S4096x50 32 := broadcastInDim S4096x50 ![] bcast_S_S4096x50 main_c_8
  let main_v25 : IVec S4096x50 1 := cmpi .sge main_arg0 main_v24
  let main_c_9 : IVec S_ 32 := constantI S_ 32 99999#32
  let main_v26 : IVec S4096x50 32 := broadcastInDim S4096x50 ![] bcast_S_S4096x50 main_c_9
  let main_v27 : IVec S4096x50 1 := cmpi .sle main_arg0 main_v26
  let main_v28 : IVec S4096x50 1 := andi main_v25 main_v27
  let main_c_10 : IVec S_ 1 := constantI S_ 1 1#1
  let main_v29 : IVec S_ 1 := (fun x v => Host.reduce IntOp.andi x v reducesTo_S4096x50_S_d0_1 h_S_) main_v28 main_c_10
  let main_v30 : IVec S_ 1 := andi main_v23 main_v29
  main_v30

def fn {F : FTy → Type} [FloatOps F] (main_arg0 : IVec S4096x50 32) (main_arg1 : FVec F S100000x128 .f32) (main_arg2 : FVec F S6400x2048 .f32) (main_arg3 : FVec F S2048 .f32) (main_arg4 : FVec F S2048x1000 .f32) (main_arg5 : FVec F S1000 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S6400x2048 .f32 := Host.absf main_arg2
  let main_cst_0 : FVec F S_ .f32 := constant S_ .f32 0x7F800000#32
  let main_v5 : FVec F S6400x2048 .f32 := broadcastInDim S6400x2048 ![] bcast_S_S6400x2048 main_cst_0
  let main_v6 : IVec S6400x2048 1 := cmpf .olt main_v4 main_v5
  let main_c_1 : IVec S_ 1 := constantI S_ 1 1#1
  let main_v7 : IVec S_ 1 := (fun x v => Host.reduce IntOp.andi x v reducesTo_S6400x2048_S_d0_1 h_S_) main_v6 main_c_1
  let main_v8 : IVec S_ 1 := andi main_v3 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x1000 .f32 := Host.absf main_arg4
  let main_cst_4 : FVec F S_ .f32 := constant S_ .f32 0x7F800000#32
  let main_v15 : FVec F S2048x1000 .f32 := broadcastInDim S2048x1000 ![] bcast_S_S2048x1000 main_cst_4
  let main_v16 : IVec S2048x1000 1 := cmpf .olt main_v14 main_v15
  fn_part1 (F := F) main_arg0 main_arg5 main_v13 main_v16
-- ==== Kernel.lean ====
abbrev S4096x50 : Shape := ⟨2, ![4096, 50]⟩
abbrev S100000x128 : Shape := ⟨2, ![100000, 128]⟩
abbrev S6400x2048 : Shape := ⟨2, ![6400, 2048]⟩
abbrev S2048 : Shape := ⟨1, ![2048]⟩
abbrev S2048x1000 : Shape := ⟨2, ![2048, 1000]⟩
abbrev S1000 : Shape := ⟨1, ![1000]⟩
abbrev S32x128x50 : Shape := ⟨3, ![32, 128, 50]⟩
abbrev S32x50x128 : Shape := ⟨3, ![32, 50, 128]⟩
abbrev S4096x6400 : Shape := ⟨2, ![4096, 6400]⟩
abbrev S50x128 : Shape := ⟨2, ![50, 128]⟩
abbrev S6x128x128 : Shape := ⟨3, ![6, 128, 128]⟩
abbrev S6 : Shape := ⟨1, ![6]⟩
abbrev S_ : Shape := ⟨0, ![]⟩
abbrev S1x50x128 : Shape := ⟨3, ![1, 50, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1 : Shape := ⟨1, ![1]⟩
abbrev S1x2048 : Shape := ⟨2, ![1, 2048]⟩
abbrev S1x1000 : Shape := ⟨2, ![1, 1000]⟩
abbrev S4096x1000 : Shape := ⟨2, ![4096, 1000]⟩
abbrev S256x6400 : Shape := ⟨2, ![256, 6400]⟩
abbrev S256x1000 : Shape := ⟨2, ![256, 1000]⟩
abbrev S256x2048 : Shape := ⟨2, ![256, 2048]⟩

abbrev nBuf : Table → Nat
  | .hbm => 14
  | .local .tc .vmem => 8
  | .local .scVector .vmem => 2
  | _ => 0

abbrev bufTy : (tb : Table) → Fin (nBuf tb) → BufTy
  | .hbm, ⟨0, _⟩ => ⟨S4096x50, .i32⟩
  | .hbm, ⟨1, _⟩ => ⟨S100000x128, .f32⟩
  | .hbm, ⟨2, _⟩ => ⟨S6400x2048, .f32⟩
  | .hbm, ⟨3, _⟩ => ⟨S2048, .f32⟩
  | .hbm, ⟨4, _⟩ => ⟨S2048x1000, .f32⟩
  | .hbm, ⟨5, _⟩ => ⟨S1000, .f32⟩
  | .hbm, ⟨6, _⟩ => ⟨S32x128x50, .i32⟩
  | .hbm, ⟨7, _⟩ => ⟨S32x50x128, .i32⟩
  | .hbm, ⟨8, _⟩ => ⟨S4096x6400, .f32⟩
  | .hbm, ⟨9, _⟩ => ⟨S6400x2048, .bf16⟩
  | .hbm, ⟨10, _⟩ => ⟨S2048x1000, .bf16⟩
  | .hbm, ⟨11, _⟩ => ⟨S1x2048, .f32⟩
  | .hbm, ⟨12, _⟩ => ⟨S1x1000, .f32⟩
  | .hbm, ⟨13, _⟩ => ⟨S4096x1000, .f32⟩
  | .local .tc .vmem, ⟨0, _⟩ => ⟨S256x6400, .f32⟩
  | .local .tc .vmem, ⟨1, _⟩ => ⟨S256x6400, .f32⟩
  | .local .tc .vmem, ⟨2, _⟩ => ⟨S6400x2048, .bf16⟩
  | .local .tc .vmem, ⟨3, _⟩ => ⟨S1x2048, .f32⟩
  | .local .tc .vmem, ⟨4, _⟩ => ⟨S2048x1000, .bf16⟩
  | .local .tc .vmem, ⟨5, _⟩ => ⟨S1x1000, .f32⟩
  | .local .tc .vmem, ⟨6, _⟩ => ⟨S256x1000, .f32⟩
  | .local .tc .vmem, ⟨7, _⟩ => ⟨S256x1000, .f32⟩
  | .local .scVector .vmem, ⟨0, _⟩ => ⟨S50x128, .i32⟩
  | .local .scVector .vmem, ⟨1, _⟩ => ⟨S6x128x128, .f32⟩
  | _, _ => ⟨S4096x50, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 21 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTables nBuf rfl bufTy 4 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v1_scv : Ref sig .scVector := ⟨.hbm, 7, rfl⟩
abbrev main_arg1_scv : Ref sig .scVector := ⟨.hbm, 1, rfl⟩
abbrev main_v2_scv : Ref sig .scVector := ⟨.hbm, 8, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg5_1 : Ref sig .tc := ⟨.vmem, 7, rfl⟩
abbrev cc0_scratch0 : Ref sig .scVector := ⟨.vmem, 0, rfl⟩
abbrev cc0_scratch1 : Ref sig .scVector := ⟨.vmem, 1, rfl⟩
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_81_r0 : BitVec 32 := 0#32
  let c0_i32_82_r0 : BitVec 32 := 0#32
  ![v1.toNat, 0, 0]
@[reducible] def k0_t1_loop : Scf.Loop 32 :=
  let c0_i32_37 : BitVec 32 := 0#32
  let c50_i32 : BitVec 32 := 50#32
  let v38 : BitVec 32 := Scalar.addi c0_i32_37 c50_i32
  let c1_i32_38 : BitVec 32 := 1#32
  ⟨c0_i32_37, v38, c1_i32_38⟩
def k0_off2 (k0_t1 : Fin k0_t1_loop.trips) : Fin 3 → Nat :=
  let c0_i32_37 : BitVec 32 := 0#32
  let c1_i32_38 : BitVec 32 := 1#32
  let arg9 : BitVec 32 := Scf.iv c0_i32_37 c1_i32_38 k0_t1
  let c6_i32 : BitVec 32 := 6#32
  let c0_i32_81 : BitVec 32 := 0#32
  let v88 : BitVec 1 := Scalar.cmpi .eq c6_i32 c0_i32_81
  let c1_i32_82 : BitVec 32 := 1#32
  let v89 : BitVec 32 := Scalar.select v88 c1_i32_82 c6_i32
  let v90 : BitVec 32 := Scalar.remsi arg9 v89
  let c0_i32_84 : BitVec 32 := 0#32
  let v92 : BitVec 1 := Scalar.cmpi .slt v90 c0_i32_84
  let c0_i32_85 : BitVec 32 := 0#32
  let v93 : BitVec 1 := Scalar.cmpi .slt v89 c0_i32_85
  let v94 : BitVec 1 := Scalar.xori v92 v93
  let c0_i32_83 : BitVec 32 := 0#32
  let v91 : BitVec 1 := Scalar.cmpi .ne v90 c0_i32_83
  let v95 : BitVec 1 := Scalar.andi v94 v91
  let v96 : BitVec 32 := Scalar.addi v90 v89
  let v97 : BitVec 32 := Scalar.select v95 v96 v90
  let c0_i32_92 : BitVec 32 := 0#32
  let c0_i32_93 : BitVec 32 := 0#32
  ![v97.toNat, 0, 0]
def k0_off3 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c0_i32_94 : BitVec 32 := 0#32
  ![arg9.toNat, 0]
def k0_off4 (k0_t1 : Fin k0_t1_loop.trips) : Fin 1 → Nat :=
  let c0_i32_37 : BitVec 32 := 0#32
  let c1_i32_38 : BitVec 32 := 1#32
  let arg9 : BitVec 32 := Scf.iv c0_i32_37 c1_i32_38 k0_t1
  let c6_i32_86 : BitVec 32 := 6#32
  let c0_i32_87 : BitVec 32 := 0#32
  let v98 : BitVec 1 := Scalar.cmpi .eq c6_i32_86 c0_i32_87
  let c1_i32_88 : BitVec 32 := 1#32
  let v99 : BitVec 32 := Scalar.select v98 c1_i32_88 c6_i32_86
  let v100 : BitVec 32 := Scalar.remsi arg9 v99
  let c0_i32_90 : BitVec 32 := 0#32
  let v102 : BitVec 1 := Scalar.cmpi .slt v100 c0_i32_90
  let c0_i32_91 : BitVec 32 := 0#32
  let v103 : BitVec 1 := Scalar.cmpi .slt v99 c0_i32_91
  let v104 : BitVec 1 := Scalar.xori v102 v103
  let c0_i32_89 : BitVec 32 := 0#32
  let v101 : BitVec 1 := Scalar.cmpi .ne v100 c0_i32_89
  let v105 : BitVec 1 := Scalar.andi v104 v101
  let v106 : BitVec 32 := Scalar.addi v100 v99
  let v107 : BitVec 32 := Scalar.select v105 v106 v100
  ![v107.toNat]
def k0_off5 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_37 : BitVec 32 := 0#32
  let c1_i32_38 : BitVec 32 := 1#32
  let arg9 : BitVec 32 := Scf.iv c0_i32_37 c1_i32_38 k0_t1
  let c128_i32_103 : BitVec 32 := 128#32
  let v125 : BitVec 32 := Scalar.muli arg9 c128_i32_103
  ![v2.toNat, v125.toNat]
def k0_cond1 (k0_t1 : Fin k0_t1_loop.trips) : BitVec 1 :=
  let c0_i32_37 : BitVec 32 := 0#32
  let c1_i32_38 : BitVec 32 := 1#32
  let arg9 : BitVec 32 := Scf.iv c0_i32_37 c1_i32_38 k0_t1
  let c6_i32_114 : BitVec 32 := 6#32
  let v144 : BitVec 32 := Scalar.addi arg9 c6_i32_114
  let c1_i32_115 : BitVec 32 := 1#32
  let v145 : BitVec 32 := Scalar.subi v144 c1_i32_115
  let c50_i32_116 : BitVec 32 := 50#32
  let v146 : BitVec 1 := Scalar.cmpi .slt v145 c50_i32_116
  let v147 : BitVec 32 := Scalar.extui v146
  let c0_i32_117 : BitVec 32 := 0#32
  let v148 : BitVec 1 := Scalar.cmpi .ne v147 c0_i32_117
  v148

def k0_cond2 (k0_t1 : Fin k0_t1_loop.trips) : BitVec 1 :=
  let c0_i32_37 : BitVec 32 := 0#32
  let c1_i32_38 : BitVec 32 := 1#32
  let arg9 : BitVec 32 := Scf.iv c0_i32_37 c1_i32_38 k0_t1
  let c1_i32_119 : BitVec 32 := 1#32
  let v149 : BitVec 1 := Scalar.cmpi .sge arg9 c1_i32_119
  let v150 : BitVec 32 := Scalar.extui v149
  let c0_i32_120 : BitVec 32 := 0#32
  let v151 : BitVec 1 := Scalar.cmpi .ne v150 c0_i32_120
  v151

def k0_off6 (k0_t1 : Fin k0_t1_loop.trips) : Fin 3 → Nat :=
  let c0_i32_37 : BitVec 32 := 0#32
  let c1_i32_38 : BitVec 32 := 1#32
  let arg9 : BitVec 32 := Scf.iv c0_i32_37 c1_i32_38 k0_t1
  let c1_i32_138 : BitVec 32 := 1#32
  let v179 : BitVec 32 := Scalar.subi arg9 c1_i32_138
  let c6_i32_139 : BitVec 32 := 6#32
  let c0_i32_140 : BitVec 32 := 0#32
  let v180 : BitVec 1 := Scalar.cmpi .eq c6_i32_139 c0_i32_140
  let c1_i32_141 : BitVec 32 := 1#32
  let v181 : BitVec 32 := Scalar.select v180 c1_i32_141 c6_i32_139
  let v182 : BitVec 32 := Scalar.remsi v179 v181
  let c0_i32_143 : BitVec 32 := 0#32
  let v184 : BitVec 1 := Scalar.cmpi .slt v182 c0_i32_143
  let c0_i32_144 : BitVec 32 := 0#32
  let v185 : BitVec 1 := Scalar.cmpi .slt v181 c0_i32_144
  let v186 : BitVec 1 := Scalar.xori v184 v185
  let c0_i32_142 : BitVec 32 := 0#32
  let v183 : BitVec 1 := Scalar.cmpi .ne v182 c0_i32_142
  let v187 : BitVec 1 := Scalar.andi v186 v183
  let v188 : BitVec 32 := Scalar.addi v182 v181
  let v189 : BitVec 32 := Scalar.select v187 v188 v182
  let c0_i32_152 : BitVec 32 := 0#32
  let c0_i32_153 : BitVec 32 := 0#32
  ![v189.toNat, 0, 0]
def k0_off7 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_37 : BitVec 32 := 0#32
  let c1_i32_38 : BitVec 32 := 1#32
  let arg9 : BitVec 32 := Scf.iv c0_i32_37 c1_i32_38 k0_t1
  let c1_i32_138 : BitVec 32 := 1#32
  let v179 : BitVec 32 := Scalar.subi arg9 c1_i32_138
  let c128_i32_145 : BitVec 32 := 128#32
  let v190 : BitVec 32 := Scalar.muli v179 c128_i32_145
  ![v2.toNat, v190.toNat]
def k0_off8 (k0_t1 : Fin k0_t1_loop.trips) : Fin 1 → Nat :=
  let c0_i32_37 : BitVec 32 := 0#32
  let c1_i32_38 : BitVec 32 := 1#32
  let arg9 : BitVec 32 := Scf.iv c0_i32_37 c1_i32_38 k0_t1
  let c1_i32_138 : BitVec 32 := 1#32
  let v179 : BitVec 32 := Scalar.subi arg9 c1_i32_138
  let c6_i32_146 : BitVec 32 := 6#32
  let c0_i32_147 : BitVec 32 := 0#32
  let v191 : BitVec 1 := Scalar.cmpi .eq c6_i32_146 c0_i32_147
  let c1_i32_148 : BitVec 32 := 1#32
  let v192 : BitVec 32 := Scalar.select v191 c1_i32_148 c6_i32_146
  let v193 : BitVec 32 := Scalar.remsi v179 v192
  let c0_i32_150 : BitVec 32 := 0#32
  let v195 : BitVec 1 := Scalar.cmpi .slt v193 c0_i32_150
  let c0_i32_151 : BitVec 32 := 0#32
  let v196 : BitVec 1 := Scalar.cmpi .slt v192 c0_i32_151
  let v197 : BitVec 1 := Scalar.xori v195 v196
  let c0_i32_149 : BitVec 32 := 0#32
  let v194 : BitVec 1 := Scalar.cmpi .ne v193 c0_i32_149
  let v198 : BitVec 1 := Scalar.andi v197 v194
  let v199 : BitVec 32 := Scalar.addi v193 v192
  let v200 : BitVec 32 := Scalar.select v198 v199 v193
  ![v200.toNat]
def k0_off9 (k0_t1 : Fin k0_t1_loop.trips) : Fin 3 → Nat :=
  let c0_i32_37 : BitVec 32 := 0#32
  let c1_i32_38 : BitVec 32 := 1#32
  let arg9 : BitVec 32 := Scf.iv c0_i32_37 c1_i32_38 k0_t1
  let c6_i32_114 : BitVec 32 := 6#32
  let v144 : BitVec 32 := Scalar.addi arg9 c6_i32_114
  let c1_i32_115 : BitVec 32 := 1#32
  let v145 : BitVec 32 := Scalar.subi v144 c1_i32_115
  let c6_i32_121 : BitVec 32 := 6#32
  let c0_i32_122 : BitVec 32 := 0#32
  let v152 : BitVec 1 := Scalar.cmpi .eq c6_i32_121 c0_i32_122
  let c1_i32_123 : BitVec 32 := 1#32
  let v153 : BitVec 32 := Scalar.select v152 c1_i32_123 c6_i32_121
  let v154 : BitVec 32 := Scalar.remsi v145 v153
  let c0_i32_125 : BitVec 32 := 0#32
  let v156 : BitVec 1 := Scalar.cmpi .slt v154 c0_i32_125
  let c0_i32_126 : BitVec 32 := 0#32
  let v157 : BitVec 1 := Scalar.cmpi .slt v153 c0_i32_126
  let v158 : BitVec 1 := Scalar.xori v156 v157
  let c0_i32_124 : BitVec 32 := 0#32
  let v155 : BitVec 1 := Scalar.cmpi .ne v154 c0_i32_124
  let v159 : BitVec 1 := Scalar.andi v158 v155
  let v160 : BitVec 32 := Scalar.addi v154 v153
  let v161 : BitVec 32 := Scalar.select v159 v160 v154
  let c0_i32_133 : BitVec 32 := 0#32
  let c0_i32_134 : BitVec 32 := 0#32
  ![v161.toNat, 0, 0]
def k0_off10 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c6_i32_114 : BitVec 32 := 6#32
  let v144 : BitVec 32 := Scalar.addi arg9 c6_i32_114
  let c1_i32_115 : BitVec 32 := 1#32
  let v145 : BitVec 32 := Scalar.subi v144 c1_i32_115
  let c0_i32_135 : BitVec 32 := 0#32
  ![v145.toNat, 0]
def k0_off11 (k0_t1 : Fin k0_t1_loop.trips) : Fin 1 → Nat :=
  let c0_i32_37 : BitVec 32 := 0#32
  let c1_i32_38 : BitVec 32 := 1#32
  let arg9 : BitVec 32 := Scf.iv c0_i32_37 c1_i32_38 k0_t1
  let c6_i32_114 : BitVec 32 := 6#32
  let v144 : BitVec 32 := Scalar.addi arg9 c6_i32_114
  let c1_i32_115 : BitVec 32 := 1#32
  let v145 : BitVec 32 := Scalar.subi v144 c1_i32_115
  let c6_i32_127 : BitVec 32 := 6#32
  let c0_i32_128 : BitVec 32 := 0#32
  let v162 : BitVec 1 := Scalar.cmpi .eq c6_i32_127 c0_i32_128
  let c1_i32_129 : BitVec 32 := 1#32
  let v163 : BitVec 32 := Scalar.select v162 c1_i32_129 c6_i32_127
  let v164 : BitVec 32 := Scalar.remsi v145 v163
  let c0_i32_131 : BitVec 32 := 0#32
  let v166 : BitVec 1 := Scalar.cmpi .slt v164 c0_i32_131
  let c0_i32_132 : BitVec 32 := 0#32
  let v167 : BitVec 1 := Scalar.cmpi .slt v163 c0_i32_132
  let v168 : BitVec 1 := Scalar.xori v166 v167
  let c0_i32_130 : BitVec 32 := 0#32
  let v165 : BitVec 1 := Scalar.cmpi .ne v164 c0_i32_130
  let v169 : BitVec 1 := Scalar.andi v168 v165
  let v170 : BitVec 32 := Scalar.addi v164 v163
  let v171 : BitVec 32 := Scalar.select v169 v170 v164
  ![v171.toNat]
def k0_off12 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c5632_i32 : BitVec 32 := 5632#32
  ![v2.toNat, 5632]
def k0_off13 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c5760_i32 : BitVec 32 := 5760#32
  ![v2.toNat, 5760]
def k0_off14 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c5888_i32 : BitVec 32 := 5888#32
  ![v2.toNat, 5888]
def k0_off15 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c6016_i32 : BitVec 32 := 6016#32
  ![v2.toNat, 6016]
def k0_off16 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c6144_i32 : BitVec 32 := 6144#32
  ![v2.toNat, 6144]
def k0_off17 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c6272_i32 : BitVec 32 := 6272#32
  ![v2.toNat, 6272]
abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x6400 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S6400x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x1000 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1000 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x1000 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4096x50_S32x128x50 : S4096x50.ShapeCasts S32x128x50
  transposes_S32x128x50_S32x50x128_0_2_1 : S32x128x50.Transposes [0, 2, 1] S32x50x128
  squeezes_S1x50x128_S50x128 : S1x50x128.Squeezes S50x128
  inb_S6x128x128_S1x128x128_0_0_0 : ∀ a, (![0, 0, 0] : Fin 3 → Nat) a + S1x128x128.size a ≤ S6x128x128.size a
  squeezes_S1x128x128_S128x128 : S1x128x128.Squeezes S128x128
  inb_S50x128_S1x128_0_0 : ∀ a, (![0, 0] : Fin 2 → Nat) a + S1x128.size a ≤ S50x128.size a
  squeezes_S1x128_S128 : S1x128.Squeezes S128
  inb_S100000x128_S100000x128_0_0 : ∀ a, (![0, 0] : Fin 2 → Nat) a + S100000x128.size a ≤ S100000x128.size a
  inb_S6_S1_0 : ∀ a, (![0] : Fin 1 → Nat) a + S1.size a ≤ S6.size a
  squeezes_S1_S_ : S1.Squeezes S_
  gathers_S100000x128_S128x128 : S100000x128.Gathers 0 S128x128
  inb_S6x128x128_S1x128x128_1_0_0 : ∀ a, (![1, 0, 0] : Fin 3 → Nat) a + S1x128x128.size a ≤ S6x128x128.size a
  inb_S50x128_S1x128_1_0 : ∀ a, (![1, 0] : Fin 2 → Nat) a + S1x128.size a ≤ S50x128.size a
  inb_S6_S1_1 : ∀ a, (![1] : Fin 1 → Nat) a + S1.size a ≤ S6.size a
  inb_S6x128x128_S1x128x128_2_0_0 : ∀ a, (![2, 0, 0] : Fin 3 → Nat) a + S1x128x128.size a ≤ S6x128x128.size a
  inb_S50x128_S1x128_2_0 : ∀ a, (![2, 0] : Fin 2 → Nat) a + S1x128.size a ≤ S50x128.size a
  inb_S6_S1_2 : ∀ a, (![2] : Fin 1 → Nat) a + S1.size a ≤ S6.size a
  inb_S6x128x128_S1x128x128_3_0_0 : ∀ a, (![3, 0, 0] : Fin 3 → Nat) a + S1x128x128.size a ≤ S6x128x128.size a
  inb_S50x128_S1x128_3_0 : ∀ a, (![3, 0] : Fin 2 → Nat) a + S1x128.size a ≤ S50x128.size a
  inb_S6_S1_3 : ∀ a, (![3] : Fin 1 → Nat) a + S1.size a ≤ S6.size a
  inb_S6x128x128_S1x128x128_4_0_0 : ∀ a, (![4, 0, 0] : Fin 3 → Nat) a + S1x128x128.size a ≤ S6x128x128.size a
  inb_S50x128_S1x128_4_0 : ∀ a, (![4, 0] : Fin 2 → Nat) a + S1x128.size a ≤ S50x128.size a
  inb_S6_S1_4 : ∀ a, (![4] : Fin 1 → Nat) a + S1.size a ≤ S6.size a
  inb_S6x128x128_S1x128x128_5_0_0 : ∀ a, (![5, 0, 0] : Fin 3 → Nat) a + S1x128x128.size a ≤ S6x128x128.size a
  inb_S6_S1_5 : ∀ a, (![5] : Fin 1 → Nat) a + S1.size a ≤ S6.size a
  bitsLt_bf16_f32 : FTy.bits .bf16 < FTy.bits .f32
  shapeCasts_S2048_S1x2048 : S2048.ShapeCasts S1x2048
  shapeCasts_S1000_S1x1000 : S1000.ShapeCasts S1x1000
  inb_S256x6400_S256x6400_0_0 : ∀ a, (![0, 0] : Fin 2 → Nat) a + S256x6400.size a ≤ S256x6400.size a
  h_S256x6400 : 0 < S256x6400.numel
  shapeCasts_S256x6400_S256x6400 : S256x6400.ShapeCasts S256x6400
  inb_S6400x2048_S6400x2048_0_0 : ∀ a, (![0, 0] : Fin 2 → Nat) a + S6400x2048.size a ≤ S6400x2048.size a
  h_S6400x2048 : 0 < S6400x2048.numel
  shapeCasts_S6400x2048_S6400x2048 : S6400x2048.ShapeCasts S6400x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S2048x1000_S2048x1000_0_0 : ∀ a, (![0, 0] : Fin 2 → Nat) a + S2048x1000.size a ≤ S2048x1000.size a
  h_S2048x1000 : 0 < S2048x1000.numel
  shapeCasts_S2048x1000_S2048x1000 : S2048x1000.ShapeCasts S2048x1000
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S256x1000 : S1x1000.Broadcasts S256x1000
  inb_S256x1000_S256x1000_0_0 : ∀ a, (![0, 0] : Fin 2 → Nat) a + S256x1000.size a ≤ S256x1000.size a
  h_S256x1000 : 0 < S256x1000.numel
  dot_S256x6400_S6400x2048_S256x2048_1_0_0_1_n_n_wf : DotDims.WF S256x6400 S6400x2048 S256x2048 [1] [0] [0] [1] [] []
  dot_S256x2048_S2048x1000_S256x1000_1_0_0_1_n_n_wf : DotDims.WF S256x2048 S2048x1000 S256x1000 [1] [0] [0] [1] [] []
  hcc0_scratch2 : 0 + S6.numel ≤ 21
  hcc0_scratch3 : 6 + S6.numel ≤ 21
  hcc0_scoped0 : 12 + S_.numel ≤ 21
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x50x128.size a ≤ S32x50x128.size a
  k0_t1_ok : k0_t1_loop.OK
  k0_off2_inb : ∀ k0_t1 : Fin k0_t1_loop.trips, ∀ a, (k0_off2 k0_t1) a + S1x128x128.size a ≤ S6x128x128.size a
  k0_off3_inb : ∀ k0_t1 : Fin k0_t1_loop.trips, ∀ a, (k0_off3 k0_t1) a + S1x128.size a ≤ S50x128.size a
  k0_off4_inb : ∀ k0_t1 : Fin k0_t1_loop.trips, ∀ a, (k0_off4 k0_t1) a + S1.size a ≤ S6.size a
  k0_off5_inb : ∀ (i : grid0.Coords) (k0_t1 : Fin k0_t1_loop.trips), ∀ a, (k0_off5 i k0_t1) a + S128x128.size a ≤ S4096x6400.size a
  k0_off6_inb : ∀ k0_t1 : Fin k0_t1_loop.trips, ∀ (k0_h1 : k0_cond1 k0_t1 = 1#1), ∀ (k0_h2 : k0_cond2 k0_t1 = 1#1), ∀ a, (k0_off6 k0_t1) a + S1x128x128.size a ≤ S6x128x128.size a
  k0_off7_inb : ∀ (i : grid0.Coords) (k0_t1 : Fin k0_t1_loop.trips), ∀ (k0_h1 : k0_cond1 k0_t1 = 1#1), ∀ (k0_h2 : k0_cond2 k0_t1 = 1#1), ∀ a, (k0_off7 i k0_t1) a + S128x128.size a ≤ S4096x6400.size a
  k0_off8_inb : ∀ k0_t1 : Fin k0_t1_loop.trips, ∀ (k0_h1 : k0_cond1 k0_t1 = 1#1), ∀ (k0_h2 : k0_cond2 k0_t1 = 1#1), ∀ a, (k0_off8 k0_t1) a + S1.size a ≤ S6.size a
  k0_off9_inb : ∀ k0_t1 : Fin k0_t1_loop.trips, ∀ (k0_h1 : k0_cond1 k0_t1 = 1#1), ∀ a, (k0_off9 k0_t1) a + S1x128x128.size a ≤ S6x128x128.size a
  k0_off10_inb : ∀ k0_t1 : Fin k0_t1_loop.trips, ∀ (k0_h1 : k0_cond1 k0_t1 = 1#1), ∀ a, (k0_off10 k0_t1) a + S1x128.size a ≤ S50x128.size a
  k0_off11_inb : ∀ k0_t1 : Fin k0_t1_loop.trips, ∀ (k0_h1 : k0_cond1 k0_t1 = 1#1), ∀ a, (k0_off11 k0_t1) a + S1.size a ≤ S6.size a
  k0_off12_inb : ∀ i : grid0.Coords, ∀ a, (k0_off12 i) a + S128x128.size a ≤ S4096x6400.size a
  k0_off13_inb : ∀ i : grid0.Coords, ∀ a, (k0_off13 i) a + S128x128.size a ≤ S4096x6400.size a
  k0_off14_inb : ∀ i : grid0.Coords, ∀ a, (k0_off14 i) a + S128x128.size a ≤ S4096x6400.size a
  k0_off15_inb : ∀ i : grid0.Coords, ∀ a, (k0_off15 i) a + S128x128.size a ≤ S4096x6400.size a
  k0_off16_inb : ∀ i : grid0.Coords, ∀ a, (k0_off16 i) a + S128x128.size a ≤ S4096x6400.size a
  k0_off17_inb : ∀ i : grid0.Coords, ∀ a, (k0_off17 i) a + S128x128.size a ≤ S4096x6400.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x6400.size a ≤ S4096x6400.size a
  hwx1_0 : ∀ i : grid1.Coords, EltTy.bits .f32 = 32 ∨ (Rect.block (s := S4096x6400) S256x6400.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S6400x2048.size a ≤ S6400x2048.size a
  hwx1_1 : ∀ i : grid1.Coords, EltTy.bits .bf16 = 32 ∨ (Rect.block (s := S6400x2048) S6400x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2048x1000.size a ≤ S2048x1000.size a
  hwx1_3 : ∀ i : grid1.Coords, EltTy.bits .bf16 = 32 ∨ (Rect.block (s := S2048x1000) S2048x1000.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1000.size a ≤ S1x1000.size a
  hwx1_4 : ∀ i : grid1.Coords, EltTy.bits .f32 = 32 ∨ (Rect.block (s := S1x1000) S1x1000.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x1000.size a ≤ S4096x1000.size a
  hwx1_5 : ∀ i : grid1.Coords, EltTy.bits .f32 = 32 ∨ (Rect.block (s := S4096x1000) S256x1000.size (cc1_transform_5 i) (hinb1_5 i)).WholeWords (EltTy.packing .f32)

variable [Facts₀]

abbrev cc0_scratch2 : DmaSems sig S6 := SemArray.consecutive 0 S6 hcc0_scratch2
abbrev cc0_scratch3 : DmaSems sig S6 := SemArray.consecutive 6 S6 hcc0_scratch3
abbrev cc0_scoped0 : DmaSems sig S_ := SemArray.consecutive 12 S_ hcc0_scoped0
def dot_S256x6400_S6400x2048_S256x2048_1_0_0_1_n_n : DotDims S256x6400 S6400x2048 S256x2048 where
  lhsContracting := [1]
  rhsContracting := [0]
  lhsNonContracting := [0]
  rhsNonContracting := [1]
  lhsBatch := []
  rhsBatch := []
  wf := dot_S256x6400_S6400x2048_S256x2048_1_0_0_1_n_n_wf
def dot_S256x2048_S2048x1000_S256x1000_1_0_0_1_n_n : DotDims S256x2048 S2048x1000 S256x1000 where
  lhsContracting := [1]
  rhsContracting := [0]
  lhsNonContracting := [0]
  rhsNonContracting := [1]
  lhsBatch := []
  rhsBatch := []
  wf := dot_S256x2048_S2048x1000_S256x1000_1_0_0_1_n_n_wf

abbrev win1_0 : Pipeline.Window sig grid1 :=
  Pipeline.Window.ofSpec (Memref.whole main_v2) S256x6400.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S6400x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S2048x1000.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x1000.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S256x1000.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4096x50 : Shape := ⟨2, ![4096, 50]⟩
abbrev S100000x128 : Shape := ⟨2, ![100000, 128]⟩
abbrev S6400x2048 : Shape := ⟨2, ![6400, 2048]⟩
abbrev S2048 : Shape := ⟨1, ![2048]⟩
abbrev S2048x1000 : Shape := ⟨2, ![2048, 1000]⟩
abbrev S1000 : Shape := ⟨1, ![1000]⟩
abbrev S_ : Shape := ⟨0, ![]⟩
abbrev S4096x50x1 : Shape := ⟨3, ![4096, 50, 1]⟩
abbrev S1 : Shape := ⟨1, ![1]⟩
abbrev S1x1x1 : Shape := ⟨3, ![1, 1, 1]⟩
abbrev S4096x50x128 : Shape := ⟨3, ![4096, 50, 128]⟩
abbrev S4096x6400 : Shape := ⟨2, ![4096, 6400]⟩
abbrev S4096x2048 : Shape := ⟨2, ![4096, 2048]⟩
abbrev S1x2048 : Shape := ⟨2, ![1, 2048]⟩
abbrev S4096x1000 : Shape := ⟨2, ![4096, 1000]⟩
abbrev S1x1000 : Shape := ⟨2, ![1, 1000]⟩

abbrev nBuf : Space → Nat
  | .hbm => 38
  | .vmem => 0
  | .smem => 0
  | _ => 0

abbrev bufTy : (tb : Table) → Fin (tcTables nBuf tb) → BufTy
  | .hbm, ⟨0, _⟩ => ⟨S4096x50, .i32⟩
  | .hbm, ⟨1, _⟩ => ⟨S100000x128, .f32⟩
  | .hbm, ⟨2, _⟩ => ⟨S6400x2048, .f32⟩
  | .hbm, ⟨3, _⟩ => ⟨S2048, .f32⟩
  | .hbm, ⟨4, _⟩ => ⟨S2048x1000, .f32⟩
  | .hbm, ⟨5, _⟩ => ⟨S1000, .f32⟩
  | .hbm, ⟨6, _⟩ => ⟨S_, .i32⟩
  | .hbm, ⟨7, _⟩ => ⟨S4096x50, .i32⟩
  | .hbm, ⟨8, _⟩ => ⟨S4096x50, .i1⟩
  | .hbm, ⟨9, _⟩ => ⟨S_, .i32⟩
  | .hbm, ⟨10, _⟩ => ⟨S4096x50, .i32⟩
  | .hbm, ⟨11, _⟩ => ⟨S4096x50, .i32⟩
  | .hbm, ⟨12, _⟩ => ⟨S4096x50, .i32⟩
  | .hbm, ⟨13, _⟩ => ⟨S4096x50x1, .i32⟩
  | .hbm, ⟨14, _⟩ => ⟨S1, .i32⟩
  | .hbm, ⟨15, _⟩ => ⟨S_, .i32⟩
  | .hbm, ⟨16, _⟩ => ⟨S4096x50x1, .i32⟩
  | .hbm, ⟨17, _⟩ => ⟨S4096x50x1, .i1⟩
  | .hbm, ⟨18, _⟩ => ⟨S1x1x1, .i32⟩
  | .hbm, ⟨19, _⟩ => ⟨S4096x50x1, .i32⟩
  | .hbm, ⟨20, _⟩ => ⟨S4096x50x1, .i1⟩
  | .hbm, ⟨21, _⟩ => ⟨S4096x50x1, .i1⟩
  | .hbm, ⟨22, _⟩ => ⟨S_, .i1⟩
  | .hbm, ⟨23, _⟩ => ⟨S4096x50, .i1⟩
  | .hbm, ⟨24, _⟩ => ⟨S4096x50x128, .f32⟩
  | .hbm, ⟨25, _⟩ => ⟨S4096x50x128, .i1⟩
  | .hbm, ⟨26, _⟩ => ⟨S_, .f32⟩
  | .hbm, ⟨27, _⟩ => ⟨S4096x50x128, .f32⟩
  | .hbm, ⟨28, _⟩ => ⟨S4096x50x128, .f32⟩
  | .hbm, ⟨29, _⟩ => ⟨S4096x6400, .f32⟩
  | .hbm, ⟨30, _⟩ => ⟨S4096x2048, .f32⟩
  | .hbm, ⟨31, _⟩ => ⟨S1x2048, .f32⟩
  | .hbm, ⟨32, _⟩ => ⟨S4096x2048, .f32⟩
  | .hbm, ⟨33, _⟩ => ⟨S4096x2048, .f32⟩
  | .hbm, ⟨34, _⟩ => ⟨S4096x1000, .f32⟩
  | .hbm, ⟨35, _⟩ => ⟨S1x1000, .f32⟩
  | .hbm, ⟨36, _⟩ => ⟨S4096x1000, .f32⟩
  | .hbm, ⟨37, _⟩ => ⟨S4096x1000, .f32⟩
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩

abbrev nD : Nat := 1
abbrev τ : Topo := Topo.v7x

variable {F : FTy → Type} [FloatOps F]

class Facts₀ : Prop where
  bcast_S_S4096x50 : S_.BroadcastsInDim S4096x50 (![] : Fin 0 → Fin S4096x50.rank)
  bcast_S4096x50_S4096x50x1_0_1 : S4096x50.BroadcastsInDim S4096x50x1 (![0, 1] : Fin 2 → Fin S4096x50x1.rank)
  bcast_S_S4096x50x1 : S_.BroadcastsInDim S4096x50x1 (![] : Fin 0 → Fin S4096x50x1.rank)
  bcast_S1_S1x1x1_2 : S1.BroadcastsInDim S1x1x1 (![2] : Fin 1 → Fin S1x1x1.rank)
  bcast_S1x1x1_S4096x50x1_0_1_2 : S1x1x1.BroadcastsInDim S4096x50x1 (![0, 1, 2] : Fin 3 → Fin S4096x50x1.rank)
  reducesTo_S4096x50x1_S4096x50_d2 : S4096x50x1.ReducesTo [2] S4096x50
  h_S_ : 0 < S_.numel
  bcast_S4096x50_S4096x50x128_0_1 : S4096x50.BroadcastsInDim S4096x50x128 (![0, 1] : Fin 2 → Fin S4096x50x128.rank)
  bcast_S_S4096x50x128 : S_.BroadcastsInDim S4096x50x128 (![] : Fin 0 → Fin S4096x50x128.rank)
  shapeCasts_S4096x50x128_S4096x6400 : S4096x50x128.ShapeCasts S4096x6400
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S1000_S1x1000_1 : S1000.BroadcastsInDim S1x1000 (![1] : Fin 1 → Fin S1x1000.rank)
  bcast_S1x1000_S4096x1000_0_1 : S1x1000.BroadcastsInDim S4096x1000 (![0, 1] : Fin 2 → Fin S4096x1000.rank)
  gather_S100000x128_S4096x50x1_S4096x50x128_2_0_n_n_0_2_1128_wf : GatherDims.WF S100000x128 S4096x50x1 S4096x50x128 [2] [0] [] [0] [] 2 ![1, 128]
  dot_S4096x6400_S6400x2048_S4096x2048_1_0_0_1_n_n_wf : DotDims.WF S4096x6400 S6400x2048 S4096x2048 [1] [0] [0] [1] [] []
  dot_S4096x2048_S2048x1000_S4096x1000_1_0_0_1_n_n_wf : DotDims.WF S4096x2048 S2048x1000 S4096x1000 [1] [0] [0] [1] [] []

variable [Facts₀]

def gather_S100000x128_S4096x50x1_S4096x50x128_2_0_n_n_0_2_1128 : GatherDims S100000x128 S4096x50x1 S4096x50x128 where
  offsetDims := [2]
  collapsedSliceDims := [0]
  operandBatchingDims := []
  startIndicesBatchingDims := []
  startIndexMap := [0]
  indexVectorDim := 2
  sliceSizes := ![1, 128]
  wf := gather_S100000x128_S4096x50x1_S4096x50x128_2_0_n_n_0_2_1128_wf
def dot_S4096x6400_S6400x2048_S4096x2048_1_0_0_1_n_n : DotDims S4096x6400 S6400x2048 S4096x2048 where
  lhsContracting := [1]
  rhsContracting := [0]
  lhsNonContracting := [0]
  rhsNonContracting := [1]
  lhsBatch := []
  rhsBatch := []
  wf := dot_S4096x6400_S6400x2048_S4096x2048_1_0_0_1_n_n_wf
def dot_S4096x2048_S2048x1000_S4096x1000_1_0_0_1_n_n : DotDims S4096x2048 S2048x1000 S4096x1000 where
  lhsContracting := [1]
  rhsContracting := [0]
  lhsNonContracting := [0]
  rhsNonContracting := [1]
  lhsBatch := []
  rhsBatch := []
  wf := dot_S4096x2048_S2048x1000_S4096x1000_1_0_0_1_n_n_wf

class Facts : Prop extends Facts₀ where

variable [Facts]
-- ==== Proof.Spec.lean ====
/-
  The function both programs compute, stated once over the argument arrays.

  A batch row `b` holds 50 token words. Token `s` of row `b` names row `row (x[b, s])` of the embedding table; the 50 rows
  selected for `b` are laid side by side into one vector of 6400 = 50 · 128 entries (`flat`), so entry `k` of it is column
  `k % 128` of the table row that token `k / 128` names. Two dense layers follow: `hidden = flat · W1 + b1` over 2048 units
  and `logit = hidden · W2 + b2` over 1000 classes, every sum and product taken on the extended reals.
-/
import Idealize.ShloMosaic.PureOps.Ideal
import Idealize.ShloMosaic.Lib.ValueIdx

noncomputable section

open scoped BigOperators

namespace Cert.Spec

open Idealize.ShloMosaic Idealize.ShloMosaic.ValueIdx

/-- The table row a token word names: the word read as a natural number, reduced below the table's 100000 rows (the
    reduction does nothing on a word already in range). -/
def row (w : BitVec 32) : Fin 100000 := ⟨w.toNat % 100000, Nat.mod_lt _ (by norm_num)⟩

theorem row_val_of_lt (w : BitVec 32) (h : w.toNat < 100000) : (row w).val = w.toNat := Nat.mod_eq_of_lt h

/-- Which token of a batch row an entry of the flat vector belongs to. -/
def tok (k : Fin 6400) : Fin 50 := ⟨k.val / 128, by have := k.isLt; omega⟩
/-- Which column of the table row an entry of the flat vector is. -/
def col (k : Fin 6400) : Fin 128 := ⟨k.val % 128, Nat.mod_lt _ (by norm_num)⟩

/-- The gathered embeddings of batch row `b`, flattened: entry `k` is column `col k` of the table row token `tok k` names. -/
def flat (x : IVec ⟨2, ![4096, 50]⟩ 32) (T : FVec Ideal ⟨2, ![100000, 128]⟩ .f32) (b : Fin 4096) (k : Fin 6400) : EReal :=
  T (ix2 (row (x (ix2 b (tok k)))) (col k))

/-- The first dense layer at batch row `b`, unit `h`. -/
def hidden (x : IVec ⟨2, ![4096, 50]⟩ 32) (T : FVec Ideal ⟨2, ![100000, 128]⟩ .f32) (W1 : FVec Ideal ⟨2, ![6400, 2048]⟩ .f32)
    (b1 : FVec Ideal ⟨1, ![2048]⟩ .f32) (b : Fin 4096) (h : Fin 2048) : EReal :=
  (∑ k : Fin 6400, flat x T b k * W1 (ix2 k h)) + b1 (ix1 h)

/-- The second dense layer at batch row `b`, class `c`. -/
def logit (x : IVec ⟨2, ![4096, 50]⟩ 32) (T : FVec Ideal ⟨2, ![100000, 128]⟩ .f32) (W1 : FVec Ideal ⟨2, ![6400, 2048]⟩ .f32)
    (b1 : FVec Ideal ⟨1, ![2048]⟩ .f32) (W2 : FVec Ideal ⟨2, ![2048, 1000]⟩ .f32) (b2 : FVec Ideal ⟨1, ![1000]⟩ .f32)
    (b : Fin 4096) (c : Fin 1000) : EReal :=
  (∑ h : Fin 2048, hidden x T W1 b1 b h * W2 (ix2 h c)) + b2 (ix1 c)

/-- The whole result array: the logits of every batch row. -/
def G (x : IVec ⟨2, ![4096, 50]⟩ 32) (T : FVec Ideal ⟨2, ![100000, 128]⟩ .f32) (W1 : FVec Ideal ⟨2, ![6400, 2048]⟩ .f32)
    (b1 : FVec Ideal ⟨1, ![2048]⟩ .f32) (W2 : FVec Ideal ⟨2, ![2048, 1000]⟩ .f32) (b2 : FVec Ideal ⟨1, ![1000]⟩ .f32) :
    FVec Ideal ⟨2, ![4096, 1000]⟩ .f32 :=
  fun i => logit x T W1 b1 W2 b2 ⟨(i 0).val, idx2_lt0 i⟩ ⟨(i 1).val, idx2_lt1 i⟩

/-- The token words are in range: read signed they lie in [0, 99999] — what the input domain states of the token array. -/
def InRange (x : IVec ⟨2, ![4096, 50]⟩ 32) : Prop := ∀ i, 0 ≤ (x i).toInt ∧ (x i).toInt ≤ 99999

theorem InRange.toNat_lt {x : IVec ⟨2, ![4096, 50]⟩ 32} (h : InRange x) (i) : (x i).toNat < 100000 := by
  have := h i
  have h2 := BitVec.toInt_eq_toNat_cond (x i)
  have h3 := (x i).isLt
  split at h2 <;> omega

end Cert.Spec

end
-- ==== Proof.Setup.lean ====
/-
  The program as the launch theorem sees it, and what the handshakes of its one SparseCore call carry.

  The call gathers embedding rows. Tile `(c, i)` — SparseCore `c`, vector subcore `i` — is worker `w = 2 i + c` of 32.
  Worker `w` owns row-block `w` of the transposed token array (50 lists of 128 token words: list `j` holds token `j` of
  the 128 batch rows `128 w …`), reads the whole table, and owns rows `128 w … 128 w + 127` of the flat output. It is
  handed exactly those: its block of the token array, a read share of the table, its rows of the output; and hands
  them back with the output rows at the gathered values (`gout`).
-/
import proofs.«203293_g38809324487172_cont_8to1_b_1330_62_alg».proof.Defs
import proofs.«203293_g38809324487172_cont_8to1_b_1330_62_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import Idealize.ShloMosaic.Lib.ValueIdx
import proofs.«203293_g38809324487172_cont_8to1_b_1330_62_alg».proof.Proof.Gen.KernelIdeal
import proofs.«203293_g38809324487172_cont_8to1_b_1330_62_alg».proof.Proof.Gen.KernelIdeal.Skeleton
import proofs.«203293_g38809324487172_cont_8to1_b_1330_62_alg».proof.Proof.Gen.KernelIdeal.Launch

noncomputable section

namespace Cert.KernelIdeal.Sc

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP; infer_instance

/-! ## The launch memory and the arrays -/

variable (m : (ℓ : Loc nD τ sig) → Buf (Elt F) ℓ) (ρ : Dev nD → PrngReg)

/-- The token array as launched, the table, the transposed token array the call reads, the flat output it writes. -/
abbrev aLoc (d : Dev nD) : Loc nD τ sig := (SparseCore.T d).loc main_arg0
abbrev tLoc (d : Dev nD) : Loc nD τ sig := (SparseCore.T d).loc main_arg1
abbrev xLoc (d : Dev nD) : Loc nD τ sig := (SparseCore.T d).loc main_v1
abbrev oLoc (d : Dev nD) : Loc nD τ sig := (SparseCore.T d).loc main_v2

/-- Worker number of tile `(c, i)`. -/
def wid (c : Fin 2) (i : Fin 16) : Fin 32 := ⟨2 * i.val + c.val, by have := c.isLt; have := i.isLt; omega⟩

/-- The transposed token array: entry `(w, j, r)` is token `j` of batch row `128 w + r`. -/
def xt (d : Dev nD) : Buf (Elt F) (xLoc d) := fun (i : S32x50x128.Idx) =>
  m (aLoc d) (ix2 (n0 := 4096) (n1 := 50) ⟨128 * (i 0).val + (i 2).val, by
      have h0 : (i 0).val < 32 := (i 0).isLt
      have h2 : (i 2).val < 128 := (i 2).isLt
      omega⟩ ⟨(i 1).val, show (i 1).val < 50 from (i 1).isLt⟩)

/-- The gathered output: entry `(b, k)` is column `k % 128` of the table row that token `k / 128` of batch row `b` names. -/
def gout (d : Dev nD) : Buf (Elt F) (oLoc d) := fun (i : S4096x6400.Idx) =>
  m (tLoc d) (ix2 (n0 := 100000) (n1 := 128)
    (Spec.row (m (aLoc d) (ix2 (n0 := 4096) (n1 := 50) ⟨(i 0).val, show (i 0).val < 4096 from (i 0).isLt⟩
      (Spec.tok ⟨(i 1).val, show (i 1).val < 6400 from (i 1).isLt⟩))))
    (Spec.col ⟨(i 1).val, show (i 1).val < 6400 from (i 1).isLt⟩))

/-- What the proofs ask of the launch memory: every token word, read signed, lies in [0, 99999] (the input domain's conjunct on
    the token array). -/
def PreOK : Prop := ∀ d : Dev nD, Spec.InRange (m (aLoc d))

theorem xdiv : 32 ∣ S32x50x128.size 0 := ⟨1, rfl⟩
theorem odiv : 32 ∣ S4096x6400.size 0 := ⟨128, rfl⟩
/-- Worker `w`'s block of the transposed token array and its rows of the output. -/
abbrev xBlk (w : Fin 32) : Rect S32x50x128 := Rect.part (s := S32x50x128) (a₀ := 0) xdiv w
abbrev oBlk (w : Fin 32) : Rect S4096x6400 := Rect.part (s := S4096x6400) (a₀ := 0) odiv w
abbrev xSet (w : Fin 32) : Finset S32x50x128.Idx := (xBlk w).set
abbrev oSet (w : Fin 32) : Finset S4096x6400.Idx := (oBlk w).set

/-- Worker `w`'s read share of the table: one of 32 tokens split off the full share. -/
abbrev tq (w : Fin 32) : PosShare TreeShare := Transfers.shareTok fullShare 32 w

variable [FloatOps F]

/-! ## What the handshakes carry -/

abbrev xPts (d : Dev nD) : sProp 𝕄 := xLoc d ↦{fullShare} xt m d
abbrev tPts (d : Dev nD) : sProp 𝕄 := tLoc d ↦{fullShare} m (tLoc d)
abbrev oPts (d : Dev nD) (f : Buf (Elt F) (oLoc d)) : sProp 𝕄 := oLoc d ↦{fullShare} f
abbrev xBlkPts (d : Dev nD) (w : Fin 32) : sProp 𝕄 := xLoc d ↦[xSet w]{fullShare} xt m d
abbrev tTokPts (d : Dev nD) (w : Fin 32) : sProp 𝕄 := tLoc d ↦{tq w} m (tLoc d)
abbrev oBlkPts (d : Dev nD) (w : Fin 32) (f : Buf (Elt F) (oLoc d)) : sProp 𝕄 := oLoc d ↦[oSet w]{fullShare} f

/-- What a task is handed and what it hands back. -/
def goP (d : Dev nD) (w : Fin 32) : sProp 𝕄 := iprop(xBlkPts m d w ∗ tTokPts m d w ∗ oBlkPts d w (m (oLoc d)))
def tdP (d : Dev nD) (w : Fin 32) : sProp 𝕄 := iprop(xBlkPts m d w ∗ tTokPts m d w ∗ oBlkPts d w (gout m d))

/-- The one call: a SparseCore is handed its sixteen tasks' holdings at once, and hands them back so. -/
def P : (K (F := F)).Pay (nD := nD) (Val := Elt F) (Name := ℕ) (U := UU) where
  st := fun q d c => match q with | 0 => bigSep Finset.univ fun i : Fin 16 => goP m d (wid (Fin.cast nCore_zero c) i)
  dn := fun q d c => match q with | 0 => bigSep Finset.univ fun i : Fin 16 => tdP m d (wid (Fin.cast nCore_zero c) i)
  go := fun q d c i => match q with | 0 => goP m d (wid (Fin.cast nCore_zero c) (Fin.cast nSub_zero i))
  td := fun q d c i => match q with | 0 => tdP m d (wid (Fin.cast nCore_zero c) (Fin.cast nSub_zero i))
  x := fun _ _ => iprop(emp)

theorem P_st (d : Dev nD) (c) : (P (F := F) m).st 0 d c = bigSep Finset.univ fun i : Fin 16 => goP m d (wid (Fin.cast nCore_zero c) i) := rfl
theorem P_dn (d : Dev nD) (c) : (P (F := F) m).dn 0 d c = bigSep Finset.univ fun i : Fin 16 => tdP m d (wid (Fin.cast nCore_zero c) i) := rfl
theorem P_go (d : Dev nD) (c) (i) : (P (F := F) m).go 0 d c i = goP m d (wid (Fin.cast nCore_zero c) (Fin.cast nSub_zero i)) := rfl
theorem P_td (d : Dev nD) (c) (i) : (P (F := F) m).td 0 d c i = tdP m d (wid (Fin.cast nCore_zero c) (Fin.cast nSub_zero i)) := rfl

instance goP_storable (d : Dev nD) (w : Fin 32) : BI.Storable (upEmb : UEmb _ 𝕄) (goP m d w) := by unfold goP; infer_instance
instance tdP_storable (d : Dev nD) (w : Fin 32) : BI.Storable (upEmb : UEmb _ 𝕄) (tdP m d w) := by unfold tdP; infer_instance

instance P_storable : (P (F := F) m).IsStorable where
  st q d c := match q with | 0 => by rw [P_st]; infer_instance
  dn q d c := match q with | 0 => by rw [P_dn]; infer_instance
  go q d c i := match q with | 0 => by rw [P_go]; infer_instance
  td q d c i := match q with | 0 => by rw [P_td]; infer_instance

end Cert.KernelIdeal.Sc

end
-- ==== Proof.LaunchSplit.lean ====
/-
  How the call's arrays split among the 32 workers and join again.

  Worker `w = wid c i` of SparseCore `c`, vector subcore `i`: `wid` is a bijection of the 2 × 16 tiles with the 32
  workers, so a product over the workers is a product over the SparseCores of a product over their tiles. The
  transposed token array and the output are the disjoint unions of their 32 row-blocks along axis 0; the table goes
  out as 32 read shares split off the full share, the remainder kept aside. Every output block comes back stated at
  the ONE function `gout`, so the blocks join at `gout` by the union of their index sets.
-/
import proofs.«203293_g38809324487172_cont_8to1_b_1330_62_alg».proof.Proof.Setup

noncomputable section

namespace Cert.KernelIdeal.Sc

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ)

/-! ## Workers as tiles -/

/-- `wid` as a bijection: worker `w` is tile `(w % 2, w / 2)`. -/
def widE : Fin 2 × Fin 16 ≃ Fin 32 where
  toFun p := wid p.1 p.2
  invFun w := (⟨w.val % 2, Nat.mod_lt _ (by norm_num)⟩, ⟨w.val / 2, by have := w.isLt; omega⟩)
  left_inv p := by
    rcases p with ⟨c, i⟩
    exact Prod.ext (Fin.ext (by show (2 * i.val + c.val) % 2 = c.val; have := c.isLt; omega))
      (Fin.ext (by show (2 * i.val + c.val) / 2 = i.val; have := c.isLt; omega))
  right_inv w := Fin.ext (by show 2 * (w.val / 2) + w.val % 2 = w.val; omega)

/-- A product over the 32 workers is one over the SparseCores of one over their tiles. -/
theorem bigSep_wid (Φ : Fin 32 → sProp 𝕄) :
    bigSep Finset.univ Φ = bigSep Finset.univ fun c : Fin 2 => bigSep Finset.univ fun i : Fin 16 => Φ (wid c i) := by
  rw [bigSep_univ_equiv widE Φ, bigSep_univ_prod]; rfl

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-! ## The arrays as their 32 blocks -/

theorem x_blocks (d : Dev nD) (f : Buf (Elt F) (xLoc d)) :
    (xLoc d ↦{fullShare} f : sProp 𝕄) = bigSep Finset.univ fun w : Fin 32 => xLoc d ↦[xSet w]{fullShare} f := by
  rw [← pointsTo_biUnion Finset.univ (ℓ := xLoc d) xSet (fun _ _ _ _ h => Rect.part_disjoint xdiv h), Rect.biUnion_part xdiv]; try rfl

theorem o_blocks (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet (fun _ _ _ _ h => Rect.part_disjoint odiv h), Rect.biUnion_part odiv]; try rfl

/-- The table's share kept aside while the 32 read shares are out. -/
abbrev tRest (d : Dev nD) : sProp 𝕄 := tLoc d ↦{Transfers.shareDrop fullShare 32} m (tLoc d)

variable [FloatOps F]

theorem goP_all (d : Dev nD) :
    (bigSep Finset.univ fun w : Fin 32 => goP m d w)
      = iprop((bigSep Finset.univ fun w : Fin 32 => xBlkPts m d w) ∗ (bigSep Finset.univ fun w : Fin 32 => tTokPts m d w)
          ∗ bigSep Finset.univ fun w : Fin 32 => oBlkPts d w (m (oLoc d))) := by
  unfold goP; rw [bigSep_sep', bigSep_sep']

theorem tdP_all (d : Dev nD) :
    (bigSep Finset.univ fun w : Fin 32 => tdP m d w)
      = iprop((bigSep Finset.univ fun w : Fin 32 => xBlkPts m d w) ∗ (bigSep Finset.univ fun w : Fin 32 => tTokPts m d w)
          ∗ bigSep Finset.univ fun w : Fin 32 => oBlkPts d w (gout m d)) := by
  unfold tdP; rw [bigSep_sep', bigSep_sep']

/-- The three arrays whole are the table's remainder and the 32 workers' holdings, -/
theorem arrays_split (d : Dev nD) :
    iprop(xPts m d ∗ tPts m d ∗ oPts d (m (oLoc d))) ⊢ iprop(tRest m d ∗ bigSep Finset.univ fun w : Fin 32 => goP m d w) := by
  rw [goP_all]
  unfold xPts tPts oPts tRest xBlkPts tTokPts oBlkPts
  rw [x_blocks, o_blocks]
  iintro ⟨Hx, Ht, Ho⟩
  ihave Ht' := (Transfers.pointsTo_toks_split fullShare 32) $$ Ht
  icases Ht' with ⟨Hr, Htk⟩
  isplitl [Hr]; · iexact Hr
  isplitl [Hx]; · iexact Hx
  isplitl [Htk]; · iexact Htk
  iexact Ho

/-- and the holdings handed back, with the remainder, are the arrays whole, the output at the gathered values. -/
theorem arrays_join (d : Dev nD) :
    iprop(tRest m d ∗ bigSep Finset.univ fun w : Fin 32 => tdP m d w) ⊢ iprop(xPts m d ∗ tPts m d ∗ oPts d (gout m d)) := by
  rw [tdP_all]
  unfold xPts tPts oPts tRest xBlkPts tTokPts oBlkPts
  rw [x_blocks, o_blocks]
  iintro ⟨Hr, Hx, Htk, Ho⟩
  isplitl [Hx]; · iexact Hx
  isplitl [Hr Htk]
  · iapply (Transfers.pointsTo_toks_join fullShare 32)
    isplitl [Hr] <;> iassumption
  iexact Ho

/-! ## The same over the 2 × 16 tiles, as the call takes and returns them -/

theorem st_all (d : Dev nD) :
    (bigSep Finset.univ fun c : Fin ((K (F := F)).nCore 0) => (P m).st 0 d c) = bigSep Finset.univ fun w : Fin 32 => goP m d w := by
  simp only [P_st]
  rw [bigSep_cores (F := F) (fun c => bigSep Finset.univ fun i : Fin 16 => goP m d (wid c i)), ← bigSep_wid (fun w => goP m d w)]

theorem dn_all (d : Dev nD) :
    (bigSep Finset.univ fun c : Fin ((K (F := F)).nCore 0) => (P m).dn 0 d c) = bigSep Finset.univ fun w : Fin 32 => tdP m d w := by
  simp only [P_dn]
  rw [bigSep_cores (F := F) (fun c => bigSep Finset.univ fun i : Fin 16 => tdP m d (wid c i)), ← bigSep_wid (fun w => tdP m d w)]

/-- What @main hands the call for the two SparseCores, the table's remainder kept aside, -/
theorem st0_split (d : Dev nD) :
    iprop(xPts m d ∗ tPts m d ∗ oPts d (m (oLoc d)))
      ⊢ iprop(tRest m d ∗ bigSep Finset.univ fun c : Fin ((K (F := F)).nCore 0) => (P m).st 0 d c) := by
  rw [st_all]; exact arrays_split m d

/-- and what it gets back. -/
theorem dn0_join (d : Dev nD) :
    iprop(tRest m d ∗ bigSep Finset.univ fun c : Fin ((K (F := F)).nCore 0) => (P m).dn 0 d c)
      ⊢ iprop(xPts m d ∗ tPts m d ∗ oPts d (gout m d)) := by
  rw [dn_all]; exact arrays_join m d

/-- The same two entailments spelt over the tiles. -/
theorem tiles_split (d : Dev nD) :
    iprop(xPts m d ∗ tPts m d ∗ oPts d (m (oLoc d)))
      ⊢ iprop(tRest m d ∗ bigSep Finset.univ fun c : Fin 2 => bigSep Finset.univ fun i : Fin 16 => goP m d (wid c i)) := by
  rw [← bigSep_wid (fun w => goP m d w)]; exact arrays_split m d

theorem tiles_join (d : Dev nD) :
    iprop(tRest m d ∗ bigSep Finset.univ fun c : Fin 2 => bigSep Finset.univ fun i : Fin 16 => tdP m d (wid c i))
      ⊢ iprop(xPts m d ∗ tPts m d ∗ oPts d (gout m d)) := by
  rw [← bigSep_wid (fun w => tdP m d w)]; exact arrays_join m d

/-! ## A SparseCore's holdings among its sixteen tiles -/

/-- A SparseCore is handed its sixteen tasks' holdings at once and hands them back so: the split is a re-indexing. -/
theorem vecSplit : (K (F := F)).VecSplit' (P m) 0 := by
  intro d c
  simp only [P_go, P_td]
  rw [P_st, P_dn, bigSep_tasks (F := F) (fun i => goP m d (wid (Fin.cast nCore_zero c) i)),
    bigSep_tasks (F := F) (fun i => tdP m d (wid (Fin.cast nCore_zero c) i))]
  iintro H; imodintro
  isplitl [H]; · iexact H
  iintro H; iexact H

end Cert.KernelIdeal.Sc

end
-- ==== Proof.LaunchElem.lean ====
/-
  The launch element of the ghost state.

  Three components side by side: the handshakes' rounds at their cells and duty tokens, the TensorCore pipeline's
  rounds at its staging cells and the tokens of the transfers its loop issues, and the transfers' counters at their
  unit. The first is what the launch theorem asks; the second funds, per device, the staging cells' ghost state and
  the loop's duty tokens, which @main holds until it enters the TensorCore region; the kernel's proof consumes nothing
  of the launch's.
-/
import proofs.«203293_g38809324487172_cont_8to1_b_1330_62_alg».proof.Proof.Setup

noncomputable section

namespace Cert.KernelIdeal.Sc

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ)

/-- The launch element. -/
def u₀ : UU :=
  (initOf (K (F := F)).hsCells (K (F := F)).hsToks,
    (initOf (Pipeline.cells (nD := nD) (τ := τ) cfgs cellOf_inj) (Pipeline.launchToks (nD := nD) (τ := τ) cfgs cellOf_inj), 1))

/-- What @main starts from on device `d` beyond what the launch deals it: the TensorCore pipeline's staging cells'
    ghost state and its loop's duty tokens. -/
abbrev G (d : Dev nD) : sProp 𝕄 :=
  iprop(Pipeline.cellsGhost (nD := nD) (τ := τ) cfgs (EP (F := F)) 0 d ∗ Pipeline.toksInit (nD := nD) (τ := τ) cfgs (EP (F := F)) 0 d)

/-- The element's three components, the counters dropped. -/
theorem ownU_split (a : UH) (b : UP) (c : Counters) :
    (ownU ((a, (b, c)) : UU) : sProp 𝕄) ⊢ iprop(BI.own (EH a) ∗ BI.own ((EP (F := F)) b)) := by
  unfold EP
  iintro Hu
  ihave H := (ownU_pair _ _) $$ Hu
  icases H with ⟨HH, HR⟩
  ihave HR' := (own_pair_emb (embR : Emb (UP × Counters) 𝕄) _ _) $$ HR
  icases HR' with ⟨HP, -⟩
  isplitl [HH]; · iexact HH
  iexact HP

/-- The pipeline's funded ghost state, regrouped per device. -/
theorem ghost_deal :
    iprop((bigSep Finset.univ fun c : Dev nD => bigSep Finset.univ fun p : Fin 1 => Pipeline.cellsGhost (nD := nD) (τ := τ) cfgs (EP (F := F)) p c)
        ∗ (bigSep Finset.univ fun c : Dev nD => bigSep Finset.univ fun p : Fin 1 => (Pipeline.toksInit (nD := nD) (τ := τ) cfgs (EP (F := F)) p c : sProp 𝕄)))
      ⊢ bigSep Finset.univ fun d : Dev nD => G (F := F) d := by
  rw [bigSep_sep']
  simp only [bigSep_univ_of_subsingleton (0 : Fin 1)]
  exact .rfl

theorem bigSep_emp' {I : Type} (s : Finset I) : (bigSep s fun _ => iprop(emp)) = (iprop(emp) : sProp 𝕄) := bigSep_emp_const s

variable [FloatOps F]

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_split _ _ _) $$ Hu
  icases H with ⟨HH, HP⟩
  imod (Pipeline.fund_ghost (nD := nD) (τ := τ) cfgs (EP (F := F)) cellOf_inj) $$ HP with ⟨Hg, Ht⟩
  imodintro
  isplitl [HH]; · iexact HH
  isplitl [Hg Ht]
  · iapply (ghost_deal (F := F))
    isplitl [Hg] <;> iassumption
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.KernelIdeal.Sc

end
-- ==== Proof.LaunchMain.lean ====
/-
  @main on the TensorCore.

  The reshape and the transpose bring the token array to the transposed form the SparseCore call reads; the call is
  handed the transposed array, the table and the flat output split among the 32 workers and returns them with the
  output at the gathered values; four host operations prepare the dense layers' operands; the TensorCore region
  computes the result from them. What is kept for the claim: the six argument arrays at their launch contents and the
  result array at the region's value.
-/
import Idealize.ShloMosaic.Lib.ValueLayout
import proofs.«203293_g38809324487172_cont_8to1_b_1330_62_alg».proof.Proof.Setup
import proofs.«203293_g38809324487172_cont_8to1_b_1330_62_alg».proof.Proof.LaunchSplit
import proofs.«203293_g38809324487172_cont_8to1_b_1330_62_alg».proof.Proof.LaunchElem

noncomputable section

namespace Cert.KernelIdeal.Sc

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The TensorCore's arrays -/

/-- Array `b` of device `d`'s TensorCore whole at contents `f`. -/
abbrev pl (d : Dev nD) (b : Ref sig .tc) (f : Buf (Elt F) ((SparseCore.T d : Thread nD τ).loc b)) : sProp 𝕄 :=
  ((SparseCore.T d : Thread nD τ).loc b) ↦{fullShare} f

theorem unscopedBufs_eq (d : Dev nD) (W : (b : Ref sig .tc) → Buf (Elt F) ((d.tc : Thread nD τ).loc b)) :
    (unscopedBufs d W : sProp 𝕄)
      = iprop(pl d main_arg0 (W main_arg0) ∗ pl d main_arg1 (W main_arg1) ∗ pl d main_arg2 (W main_arg2) ∗ pl d main_arg3 (W main_arg3)
          ∗ pl d main_arg4 (W main_arg4) ∗ pl d main_arg5 (W main_arg5) ∗ pl d main_v0 (W main_v0) ∗ pl d main_v1 (W main_v1)
          ∗ pl d main_v2 (W main_v2) ∗ pl d main_v3 (W main_v3) ∗ pl d main_v4 (W main_v4) ∗ pl d main_v5 (W main_v5)
          ∗ pl d main_v6 (W main_v6) ∗ pl d main_v7 (W main_v7)) := by
  unfold unscopedBufs
  rw [show (Finset.univ.filter fun b : Ref sig .tc => ¬ b.isScoped)
      = {main_arg0, main_arg1, main_arg2, main_arg3, main_arg4, main_arg5, main_v0, main_v1, main_v2, main_v3, main_v4, main_v5, main_v6, main_v7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- Two arrays held for an operation that reads one and writes the other. -/
theorem held_two (d : Dev nD) {x y : Ref sig .tc} (hxy : x ≠ y) (V : Valuation τ sig (Elt F)) :
    (held (SparseCore.T d) ({Proc.devRef .tc x, Proc.devRef .tc y} : Finset (DevRef τ sig)) V : sProp 𝕄)
      = iprop(pl d x (V (Proc.devRef .tc x)) ∗ pl d y (V (Proc.devRef .tc y))) := by
  unfold held
  rw [SparseCore.bigSep_insert' (by rw [Finset.mem_singleton]; exact StableHlo.devRef_ne_of_ne hxy), bigSep_singleton]

/-- The launch valuation. -/
def V0 (d : Dev nD) : Valuation τ sig (Elt F) := fun b => m (d, b)

/-! ## The token array, reshaped and transposed -/

/-- The token array as 32 blocks of 128 batch rows. -/
def t0 (d : Dev nD) : Buf (Elt F) ((SparseCore.T d : Thread nD τ).loc main_v0) :=
  fun i => shapeCast S32x128x50 (m (aLoc d)) shapeCasts_S4096x50_S32x128x50 i

/-- Each block transposed is the transposed token array. -/
theorem transpose_t0 (d : Dev nD) :
    transpose S32x50x128 [0, 2, 1] (t0 m d) transposes_S32x128x50_S32x50x128_0_2_1 = xt m d := by
  funext i
  obtain ⟨k, j, l, rfl⟩ : ∃ (k : Fin 32) (j : Fin 50) (l : Fin 128), i = ix3 k j l := ⟨i 0, i 1, i 2, eq_ix3 i⟩
  rw [transpose_ix3_021_apply]
  unfold t0 xt
  refine shapeCast_apply (s := S4096x50) (t := S32x128x50) (m (aLoc d)) shapeCasts_S4096x50_S32x128x50 _ _ ?_
  rw [Shape.rowMajor_val_two, Shape.rowMajor_val_three]
  show (128 * k.val + l.val) * 50 + j.val = (k.val * 128 + l.val) * 50 + j.val
  rw [Nat.mul_comm 128]

/-! ## The host operations -/

variable [FloatOps F]

abbrev op1 : HloOp τ sig (Elt F) := StableHlo.reshape main_arg0 main_v0 rfl shapeCasts_S4096x50_S32x128x50
abbrev op2 : HloOp τ sig (Elt F) :=
  StableHlo.unary main_v0 main_v1 ((transpose S32x50x128 [0, 2, 1] · transposes_S32x128x50_S32x50x128_0_2_1) : (⟨S32x128x50, .i32⟩ : BufTy).Contents (Elt F) → (⟨S32x50x128, .i32⟩ : BufTy).Contents (Elt F))
abbrev op3 : HloOp τ sig (Elt F) :=
  StableHlo.unary main_arg2 main_v3 ((truncf .bf16 · bitsLt_bf16_f32) : (⟨S6400x2048, .f32⟩ : BufTy).Contents (Elt F) → (⟨S6400x2048, .bf16⟩ : BufTy).Contents (Elt F))
abbrev op4 : HloOp τ sig (Elt F) :=
  StableHlo.unary main_arg4 main_v4 ((truncf .bf16 · bitsLt_bf16_f32) : (⟨S2048x1000, .f32⟩ : BufTy).Contents (Elt F) → (⟨S2048x1000, .bf16⟩ : BufTy).Contents (Elt F))
abbrev op5 : HloOp τ sig (Elt F) := StableHlo.reshape main_arg3 main_v5 rfl shapeCasts_S2048_S1x2048
abbrev op6 : HloOp τ sig (Elt F) := StableHlo.reshape main_arg5 main_v6 rfl shapeCasts_S1000_S1x1000

/-- The dense layers' operands as the host operations leave them. -/
def w3 (d : Dev nD) : Buf (Elt F) ((SparseCore.T d : Thread nD τ).loc main_v3) := truncf .bf16 (m ((SparseCore.T d : Thread nD τ).loc main_arg2)) bitsLt_bf16_f32
def w4 (d : Dev nD) : Buf (Elt F) ((SparseCore.T d : Thread nD τ).loc main_v4) := truncf .bf16 (m ((SparseCore.T d : Thread nD τ).loc main_arg4)) bitsLt_bf16_f32
def w5 (d : Dev nD) : Buf (Elt F) ((SparseCore.T d : Thread nD τ).loc main_v5) :=
  fun i => shapeCast S1x2048 (m ((SparseCore.T d : Thread nD τ).loc main_arg3)) shapeCasts_S2048_S1x2048 i
def w6 (d : Dev nD) : Buf (Elt F) ((SparseCore.T d : Thread nD τ).loc main_v6) :=
  fun i => shapeCast S1x1000 (m ((SparseCore.T d : Thread nD τ).loc main_arg5)) shapeCasts_S1000_S1x1000 i

/-- The valuation after the reshape. -/
def V1 (d : Dev nD) : Valuation τ sig (Elt F) := (op1 (F := F)).result (V0 m d)

theorem V1_v0 (d : Dev nD) : V1 m d (Proc.devRef .tc main_v0) = t0 m d := by
  unfold V1; rw [StableHlo.reshape_result]; rfl
theorem V1_v1 (d : Dev nD) : V1 m d (Proc.devRef .tc main_v1) = m ((SparseCore.T d : Thread nD τ).loc main_v1) := by
  unfold V1; rw [StableHlo.reshape_result_ne (h := show main_v1 ≠ main_v0 by decide)]; rfl

theorem held1_pre (d : Dev nD) :
    (held (SparseCore.T d) (op1 (F := F)).bufs (V0 m d) : sProp 𝕄)
      = iprop(pl d main_arg0 (m (aLoc d)) ∗ pl d main_v0 (m ((SparseCore.T d : Thread nD τ).loc main_v0))) := by
  rw [show (op1 (F := F)).bufs = {Proc.devRef .tc main_arg0, Proc.devRef .tc main_v0} from rfl, held_two d (by decide)]; rfl
theorem held1_post (d : Dev nD) :
    (held (SparseCore.T d) (op1 (F := F)).bufs ((op1 (F := F)).result (V0 m d)) : sProp 𝕄)
      = iprop(pl d main_arg0 (m (aLoc d)) ∗ pl d main_v0 (t0 m d)) := by
  rw [show (op1 (F := F)).bufs = {Proc.devRef .tc main_arg0, Proc.devRef .tc main_v0} from rfl, held_two d (by decide),
    StableHlo.reshape_result_ne (h := show main_arg0 ≠ main_v0 by decide), show (op1 (F := F)).result (V0 m d) = V1 m d from rfl, V1_v0]; rfl

theorem held2_pre (d : Dev nD) :
    (held (SparseCore.T d) (op2 (F := F)).bufs (V1 m d) : sProp 𝕄)
      = iprop(pl d main_v0 (t0 m d) ∗ pl d main_v1 (m ((SparseCore.T d : Thread nD τ).loc main_v1))) := by
  rw [show (op2 (F := F)).bufs = {Proc.devRef .tc main_v0, Proc.devRef .tc main_v1} from rfl, held_two d (by decide), V1_v0, V1_v1]
theorem held2_post (d : Dev nD) :
    (held (SparseCore.T d) (op2 (F := F)).bufs ((op2 (F := F)).result (V1 m d)) : sProp 𝕄)
      = iprop(pl d main_v0 (t0 m d) ∗ pl d main_v1 (xt m d)) := by
  rw [show (op2 (F := F)).bufs = {Proc.devRef .tc main_v0, Proc.devRef .tc main_v1} from rfl, held_two d (by decide),
    StableHlo.unary_result_ne (h := show main_v0 ≠ main_v1 by decide), StableHlo.unary_result, V1_v0, transpose_t0]

theorem held3_pre (d : Dev nD) :
    (held (SparseCore.T d) (op3 (F := F)).bufs (V0 m d) : sProp 𝕄)
      = iprop(pl d main_arg2 (m ((SparseCore.T d : Thread nD τ).loc main_arg2)) ∗ pl d main_v3 (m ((SparseCore.T d : Thread nD τ).loc main_v3))) := by
  rw [show (op3 (F := F)).bufs = {Proc.devRef .tc main_arg2, Proc.devRef .tc main_v3} from rfl, held_two d (by decide)]; rfl
theorem held3_post (d : Dev nD) :
    (held (SparseCore.T d) (op3 (F := F)).bufs ((op3 (F := F)).result (V0 m d)) : sProp 𝕄)
      = iprop(pl d main_arg2 (m ((SparseCore.T d : Thread nD τ).loc main_arg2)) ∗ pl d main_v3 (w3 m d)) := by
  rw [show (op3 (F := F)).bufs = {Proc.devRef .tc main_arg2, Proc.devRef .tc main_v3} from rfl, held_two d (by decide),
    StableHlo.unary_result_ne (h := show main_arg2 ≠ main_v3 by decide), StableHlo.unary_result]; rfl

theorem held4_pre (d : Dev nD) :
    (held (SparseCore.T d) (op4 (F := F)).bufs (V0 m d) : sProp 𝕄)
      = iprop(pl d main_arg4 (m ((SparseCore.T d : Thread nD τ).loc main_arg4)) ∗ pl d main_v4 (m ((SparseCore.T d : Thread nD τ).loc main_v4))) := by
  rw [show (op4 (F := F)).bufs = {Proc.devRef .tc main_arg4, Proc.devRef .tc main_v4} from rfl, held_two d (by decide)]; rfl
theorem held4_post (d : Dev nD) :
    (held (SparseCore.T d) (op4 (F := F)).bufs ((op4 (F := F)).result (V0 m d)) : sProp 𝕄)
      = iprop(pl d main_arg4 (m ((SparseCore.T d : Thread nD τ).loc main_arg4)) ∗ pl d main_v4 (w4 m d)) := by
  rw [show (op4 (F := F)).bufs = {Proc.devRef .tc main_arg4, Proc.devRef .tc main_v4} from rfl, held_two d (by decide),
    StableHlo.unary_result_ne (h := show main_arg4 ≠ main_v4 by decide), StableHlo.unary_result]; rfl

theorem held5_pre (d : Dev nD) :
    (held (SparseCore.T d) (op5 (F := F)).bufs (V0 m d) : sProp 𝕄)
      = iprop(pl d main_arg3 (m ((SparseCore.T d : Thread nD τ).loc main_arg3)) ∗ pl d main_v5 (m ((SparseCore.T d : Thread nD τ).loc main_v5))) := by
  rw [show (op5 (F := F)).bufs = {Proc.devRef .tc main_arg3, Proc.devRef .tc main_v5} from rfl, held_two d (by decide)]; rfl
theorem held5_post (d : Dev nD) :
    (held (SparseCore.T d) (op5 (F := F)).bufs ((op5 (F := F)).result (V0 m d)) : sProp 𝕄)
      = iprop(pl d main_arg3 (m ((SparseCore.T d : Thread nD τ).loc main_arg3)) ∗ pl d main_v5 (w5 m d)) := by
  rw [show (op5 (F := F)).bufs = {Proc.devRef .tc main_arg3, Proc.devRef .tc main_v5} from rfl, held_two d (by decide),
    StableHlo.reshape_result_ne (h := show main_arg3 ≠ main_v5 by decide), StableHlo.reshape_result]; rfl

theorem held6_pre (d : Dev nD) :
    (held (SparseCore.T d) (op6 (F := F)).bufs (V0 m d) : sProp 𝕄)
      = iprop(pl d main_arg5 (m ((SparseCore.T d : Thread nD τ).loc main_arg5)) ∗ pl d main_v6 (m ((SparseCore.T d : Thread nD τ).loc main_v6))) := by
  rw [show (op6 (F := F)).bufs = {Proc.devRef .tc main_arg5, Proc.devRef .tc main_v6} from rfl, held_two d (by decide)]; rfl
theorem held6_post (d : Dev nD) :
    (held (SparseCore.T d) (op6 (F := F)).bufs ((op6 (F := F)).result (V0 m d)) : sProp 𝕄)
      = iprop(pl d main_arg5 (m ((SparseCore.T d : Thread nD τ).loc main_arg5)) ∗ pl d main_v6 (w6 m d)) := by
  rw [show (op6 (F := F)).bufs = {Proc.devRef .tc main_arg5, Proc.devRef .tc main_v6} from rfl, held_two d (by decide),
    StableHlo.reshape_result_ne (h := show main_arg5 ≠ main_v6 by decide), StableHlo.reshape_result]; rfl

/-! ## The TensorCore's handshake state around the region -/

/-- With one call every level is at most 7: any record of waits sits at or below a bound from 7 on. -/
theorem wbelow_all (thr : Thread nD τ) (W : Waits sig (HIx 1)) (b : ℕ) (hb : 7 ≤ b) : (K (F := F)).WBelow thr W b := by
  rintro ⟨sm, ι⟩ _
  cases ι with
  | none => exact Nat.zero_le _
  | some q =>
    have h1 := (K (F := F)).lev_some_le (nD := nD) (thr, sm) q
    have h2 := q.isLt
    show (K (F := F)).lev (thr, sm) (some q) ≤ b
    omega

/-- After its one call the TensorCore owes nothing; its `owes` may be taken out of its state and put back with any
    record of waits. -/
theorem tcSt_open (d : Dev nD) (n : ℕ) (hn : n = 1) :
    ((K (F := F)).tcSt EH d n : sProp 𝕄)
      ⊢ iprop((∃ W, owes (SparseCore.T d : Thread nD τ) (0 : CellTallies nD τ sig (HIx 1)) W)
        ∗ ((∃ W, owes (SparseCore.T d : Thread nD τ) (0 : CellTallies nD τ sig (HIx 1)) W) -∗ (K (F := F)).tcSt EH d 1)) := by
  subst hn
  unfold SparseCore.Cfg.tcSt
  rw [(K (F := F)).Otc_end d (le_refl 1)]
  iintro ⟨⟨%W, %_hW, HO⟩, Hrest⟩
  isplitl [HO]; · iexists W; iexact HO
  iintro ⟨%W', HO'⟩
  isplitl [HO']
  · iexists W'; isplitr
    · ipureintro; exact wbelow_all _ _ _ (by norm_num)
    · iexact HO'
  iexact Hrest

/-! ## @main -/

/-- The TensorCore region's step as @main meets it: from the level facts, the boundary, the pipeline's ghost state, the
    TensorCore's `owes` (nothing owed), the five operand arrays and the result array at some contents, the region's
    call runs to the boundary, the `owes`, the operands unchanged and the result array at `outF d`. -/
def RegionStep (outF : (d : Dev nD) → Buf (Elt F) ((SparseCore.T d : Thread nD τ).loc main_v7)) : Prop :=
  ∀ (d : Dev nD) (Ψ : PUnit → sProp 𝕄),
    iprop(levAts (K (F := F)).L (K (F := F)).lev ∗ boundary (SparseCore.T d : Thread nD τ) ∗ G (F := F) d
        ∗ (∃ W, owes (SparseCore.T d : Thread nD τ) (0 : CellTallies nD τ sig (HIx 1)) W)
        ∗ pl d main_v2 (gout m d) ∗ pl d main_v3 (w3 m d) ∗ pl d main_v5 (w5 m d) ∗ pl d main_v4 (w4 m d) ∗ pl d main_v6 (w6 m d)
        ∗ pl d main_v7 (m ((SparseCore.T d : Thread nD τ).loc main_v7))
        ∗ ((boundary (SparseCore.T d : Thread nD τ) ∗ (∃ W, owes (SparseCore.T d : Thread nD τ) (0 : CellTallies nD τ sig (HIx 1)) W)
            ∗ pl d main_v2 (gout m d) ∗ pl d main_v3 (w3 m d) ∗ pl d main_v5 (w5 m d) ∗ pl d main_v4 (w4 m d) ∗ pl d main_v6 (w6 m d)
            ∗ pl d main_v7 (outF d)) -∗ Ψ ⟨⟩))
      ⊢ wp frame (wpE ((K (F := F)).defs (D (F := F))) 𝒱 (SparseCore.T d) none) Set.univ
          (Prog.lift (.customCall (SparseCore.inner (Pipeline.entry 0)) ())) Ψ

/-- What @main leaves the claim: the six argument arrays at their launch contents, the result array at `outF d`. -/
abbrev FIN (outF : (d : Dev nD) → Buf (Elt F) ((SparseCore.T d : Thread nD τ).loc main_v7)) (d : Dev nD) : sProp 𝕄 :=
  iprop(pl d main_arg0 (m ((SparseCore.T d : Thread nD τ).loc main_arg0)) ∗ pl d main_arg1 (m ((SparseCore.T d : Thread nD τ).loc main_arg1))
    ∗ pl d main_arg2 (m ((SparseCore.T d : Thread nD τ).loc main_arg2)) ∗ pl d main_arg3 (m ((SparseCore.T d : Thread nD τ).loc main_arg3))
    ∗ pl d main_arg4 (m ((SparseCore.T d : Thread nD τ).loc main_arg4)) ∗ pl d main_arg5 (m ((SparseCore.T d : Thread nD τ).loc main_arg5))
    ∗ pl d main_v7 (outF d))

/-- @main on device `d`'s TensorCore. -/
theorem hmain {outF : (d : Dev nD) → Buf (Elt F) ((SparseCore.T d : Thread nD τ).loc main_v7)} (hreg : RegionStep m outF)
    (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m outF d) := by
  unfold SparseCore.Cfg.tcRes
  rw [unscopedBufs_eq]
  simp only [main, wp_bind, wp_pure]
  iintro ⟨#Hctx, Hst, ⟨Hb, ⟨Ha0, Ha1, Ha2, Ha3, Ha4, Ha5, Hv0, Hv1, Hv2, Hv3, Hv4, Hv5, Hv6, Hv7⟩, -, -⟩, HG⟩
  -- the reshape of the token array
  iapply (wp_hlo_within 𝒱 (SparseCore.T d) none Set.univ (op := op1) (S := (op1 (F := F)).bufs) (Finset.Subset.refl _) (V := V0 m d)) $$ [Hb Ha0 Hv0]
  · isplitl [Hb]; · iexact Hb
    rw [held1_pre]
    isplitl [Ha0]; · iexact Ha0
    iexact Hv0
  iintro ⟨Hb, Hh⟩
  ihave Hh' := (Entails.of_eq (held1_post m d)) $$ Hh
  icases Hh' with ⟨Ha0, Hv0⟩
  rw [wp_ret]; imodintro
  -- its transpose
  iapply (wp_hlo_within 𝒱 (SparseCore.T d) none Set.univ (op := op2) (S := (op2 (F := F)).bufs) (Finset.Subset.refl _) (V := V1 m d)) $$ [Hb Hv0 Hv1]
  · isplitl [Hb]; · iexact Hb
    rw [held2_pre]
    isplitl [Hv0]; · iexact Hv0
    iexact Hv1
  iintro ⟨Hb, Hh⟩
  ihave Hh' := (Entails.of_eq (held2_post m d)) $$ Hh
  icases Hh' with ⟨Hv0, Hv1⟩
  rw [wp_ret]; imodintro
  -- the SparseCore call: the three arrays split among the workers, the table's remainder kept aside
  ihave Hs := (st0_split m d) $$ [Hv1 Ha1 Hv2]
  · isplitl [Hv1]; · iexact Hv1
    isplitl [Ha1]; · iexact Ha1
    iexact Hv2
  icases Hs with ⟨Hrest, Hsts⟩
  iapply ((K (F := F)).wp_run (D (F := F)) 𝒱 (EH := EH) (P := P m) κ d 0) $$ [Hst Hsts Hrest Hb Ha0 Ha2 Ha3 Ha4 Ha5 Hv0 Hv3 Hv4 Hv5 Hv6 Hv7 HG]
  isplitr; · iexact Hctx
  isplitl [Hst]; · iexact Hst
  isplitl [Hsts]; · iexact Hsts
  iintro ⟨Hst, Hdn⟩
  ihave Hj := (dn0_join m d) $$ [Hrest Hdn]
  · isplitl [Hrest] <;> iassumption
  icases Hj with ⟨Hv1, Ha1, Hv2⟩
  -- the dense layers' operands
  iapply (wp_hlo_within 𝒱 (SparseCore.T d) none Set.univ (op := op3) (S := (op3 (F := F)).bufs) (Finset.Subset.refl _) (V := V0 m d)) $$ [Hb Ha2 Hv3]
  · isplitl [Hb]; · iexact Hb
    rw [held3_pre]
    isplitl [Ha2]; · iexact Ha2
    iexact Hv3
  iintro ⟨Hb, Hh⟩
  ihave Hh' := (Entails.of_eq (held3_post m d)) $$ Hh
  icases Hh' with ⟨Ha2, Hv3⟩
  rw [wp_ret]; imodintro
  iapply (wp_hlo_within 𝒱 (SparseCore.T d) none Set.univ (op := op4) (S := (op4 (F := F)).bufs) (Finset.Subset.refl _) (V := V0 m d)) $$ [Hb Ha4 Hv4]
  · isplitl [Hb]; · iexact Hb
    rw [held4_pre]
    isplitl [Ha4]; · iexact Ha4
    iexact Hv4
  iintro ⟨Hb, Hh⟩
  ihave Hh' := (Entails.of_eq (held4_post m d)) $$ Hh
  icases Hh' with ⟨Ha4, Hv4⟩
  rw [wp_ret]; imodintro
  iapply (wp_hlo_within 𝒱 (SparseCore.T d) none Set.univ (op := op5) (S := (op5 (F := F)).bufs) (Finset.Subset.refl _) (V := V0 m d)) $$ [Hb Ha3 Hv5]
  · isplitl [Hb]; · iexact Hb
    rw [held5_pre]
    isplitl [Ha3]; · iexact Ha3
    iexact Hv5
  iintro ⟨Hb, Hh⟩
  ihave Hh' := (Entails.of_eq (held5_post m d)) $$ Hh
  icases Hh' with ⟨Ha3, Hv5⟩
  rw [wp_ret]; imodintro
  iapply (wp_hlo_within 𝒱 (SparseCore.T d) none Set.univ (op := op6) (S := (op6 (F := F)).bufs) (Finset.Subset.refl _) (V := V0 m d)) $$ [Hb Ha5 Hv6]
  · isplitl [Hb]; · iexact Hb
    rw [held6_pre]
    isplitl [Ha5]; · iexact Ha5
    iexact Hv6
  iintro ⟨Hb, Hh⟩
  ihave Hh' := (Entails.of_eq (held6_post m d)) $$ Hh
  icases Hh' with ⟨Ha5, Hv6⟩
  rw [wp_ret]; imodintro
  -- the TensorCore region
  ihave Ho := (tcSt_open d ((0 : Fin 1).val + 1) rfl) $$ Hst
  icases Ho with ⟨HO, Hclose⟩
  ihave Hlev := (SparseCore.Cfg.ctx_levAts (K := K (F := F)) (EH := EH) (P := P m) κ) $$ Hctx
  iapply (hreg d _) $$ [Hlev Hb HG HO Hv2 Hv3 Hv5 Hv4 Hv6 Hv7 Hclose Ha0 Ha1 Ha2 Ha3 Ha4 Ha5 Hv0 Hv1]
  isplitl [Hlev]; · iexact Hlev
  isplitl [Hb]; · iexact Hb
  isplitl [HG]; · iexact HG
  isplitl [HO]; · iexact HO
  isplitl [Hv2]; · iexact Hv2
  isplitl [Hv3]; · iexact Hv3
  isplitl [Hv5]; · iexact Hv5
  isplitl [Hv4]; · iexact Hv4
  isplitl [Hv6]; · iexact Hv6
  isplitl [Hv7]; · iexact Hv7
  iintro ⟨Hb, HO, Hv2, Hv3, Hv5, Hv4, Hv6, Hv7⟩
  imodintro
  isplitl [HO Hclose]
  · iapply Hclose; iexact HO
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  iexact Hv7

end Cert.KernelIdeal.Sc

end
-- ==== Proof.TcRegion.lean ====
import proofs.«203293_g38809324487172_cont_8to1_b_1330_62_alg».proof.Proof.Gen.KernelIdeal.Launch
import proofs.«203293_g38809324487172_cont_8to1_b_1330_62_alg».proof.Proof.Gen.KernelIdeal.Skeleton
import proofs.«203293_g38809324487172_cont_8to1_b_1330_62_alg».proof.Proof.Gen.KernelIdeal.Points
import Idealize.ShloMosaic.Lib.Pipeline.FrameBody
import Idealize.ShloMosaic.Lib.Pipeline.Regions
import Idealize.ShloMosaic.Lib.Pipeline.Value
import Idealize.ShloMosaic.Lib.Ring
import Idealize.ShloMosaic.Lib.ValueIdx
import Idealize.ShloMosaic.Lib.Tactic

/-!
The TensorCore region of the program: the two-layer perceptron on row blocks.

The region's pipeline has sixteen points; point `t` stages rows `256 t … 256 t + 255` of the
gathered features (window 0), the two weight matrices and the two bias rows whole (windows 1–4,
staged once), and writes back rows `256 t … 256 t + 255` of the result (window 5). The body reads
the five staged inputs and stores one block: `((x W₁ + b₁) W₂ + b₂)` on the block of rows.

This module states what each window's staging buffer holds around the body, proves the body's
triple, assembles the pipeline's proof data and body obligation, names the whole result array
(`out7`) and proves that the write-backs assemble it, and packages the region as a record with
its entry and exit states spelt as chains of points-to facts.
-/

set_option maxRecDepth 16384

noncomputable section

namespace Cert.KernelIdeal.TcRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The region's pipeline reads no prefetched table: its admissible contents are the empty ones. -/
abbrev adm : (p : Fin 1) → (pcfgs (F := F) p).Adm := fun p => (cfgs p).toPCfg_adm

-- The TensorCore's unscoped buffers when the region is entered, and what the core owes across it.
variable (V : (c : Dev nD) → (b : Ref sig .tc) → Buf (Elt F) ((c : Thread nD τ).loc b))
variable (O : Dev nD → CellTallies nD τ sig Ix)

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any
    proof data whose array is `V`'s and whose body leaves the block in place: an unfetched window's index has
    not moved; the window is uncut and never idle. -/
theorem before0_of {c : Dev nD} (dat : Dat τ (Elt F) Ix Name U Lvl cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any
    proof data whose array is `V`'s and whose body leaves the block in place: an unfetched window's index has
    not moved; the window is uncut and never idle. -/
theorem before1_of {c : Dev nD} (dat : Dat τ (Elt F) Ix Name U Lvl cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any
    proof data whose array is `V`'s and whose body leaves the block in place: an unfetched window's index has
    not moved; the window is uncut and never idle. -/
theorem before2_of {c : Dev nD} (dat : Dat τ (Elt F) Ix Name U Lvl cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any
    proof data whose array is `V`'s and whose body leaves the block in place: an unfetched window's index has
    not moved; the window is uncut and never idle. -/
theorem before3_of {c : Dev nD} (dat : Dat τ (Elt F) Ix Name U Lvl cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any
    proof data whose array is `V`'s and whose body leaves the block in place: an unfetched window's index has
    not moved; the window is uncut and never idle. -/
theorem before4_of {c : Dev nD} (dat : Dat τ (Elt F) Ix Name U Lvl cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0 : Rect S256x6400 := Rect.unit (s := S256x6400) ![0, 0] S256x6400.size inb_S256x6400_S256x6400_0_0
abbrev r1 : Rect S6400x2048 := Rect.unit (s := S6400x2048) ![0, 0] S6400x2048.size inb_S6400x2048_S6400x2048_0_0
abbrev r2 : Rect S1x2048 := Rect.unit (s := S1x2048) ![0, 0] S1x2048.size inb_S1x2048_S1x2048_0_0
abbrev r3 : Rect S2048x1000 := Rect.unit (s := S2048x1000) ![0, 0] S2048x1000.size inb_S2048x1000_S2048x1000_0_0
abbrev r4 : Rect S1x1000 := Rect.unit (s := S1x1000) ![0, 0] S1x1000.size inb_S1x1000_S1x1000_0_0
abbrev r5 : Rect S256x1000 := Rect.unit (s := S256x1000) ![0, 0] S256x1000.size inb_S256x1000_S256x1000_0_0

/-! ## What the body leaves in the result window's buffer -/

/-- Window 5's staging buffer after the body, from the input windows' blocks: its one store, of the
    two-layer payload over the five loaded blocks, through the whole-block rectangle. -/
def out5 (x0 : Vec F S256x6400 .f32) (x1 : Vec F S6400x2048 .bf16) (x2 : Vec F S1x2048 .f32) (x3 : Vec F S2048x1000 .bf16) (x4 : Vec F S1x1000 .f32) : Vec F S256x1000 .f32 :=
  View.canon [⟨r5, k1_pay1 (View.ld x0 r0) (View.ld x1 r1) (View.ld x2 r2) (View.ld x3 r3) (View.ld x4 r4)⟩]

/-- The one store tiles the buffer, so it covers it. -/
theorem cover5 (p0 : Vec F S256x1000 .f32) (y : S256x1000.Idx) :
    ∃ pc ∈ ([⟨r5, p0⟩] : List (View.Piece (Elt F) S256x1000 .f32)), y ∈ pc.1.set :=
  View.cover_of_tiled [⟨r5, p0⟩] S256x1000.size (by rfl) y

/-- The store being through the whole block, the buffer holds the payload itself. -/
theorem out5_eq (x0 : Vec F S256x6400 .f32) (x1 : Vec F S6400x2048 .bf16) (x2 : Vec F S1x2048 .f32) (x3 : Vec F S2048x1000 .bf16) (x4 : Vec F S1x1000 .f32) : out5 x0 x1 x2 x3 x4 = k1_pay1 x0 x1 x2 x3 x4 := by
  have hz : (![0, 0] : Fin 2 → Nat) = fun _ => 0 := by funext a; fin_cases a <;> rfl
  unfold out5
  rw [View.canon_unit_zero hz]
  simp only [View.ld_unit_zero (S := S256x6400) hz, View.ld_unit_zero (S := S6400x2048) hz, View.ld_unit_zero (S := S1x2048) hz,
    View.ld_unit_zero (S := S2048x1000) hz, View.ld_unit_zero (S := S1x1000) hz]

/-! ## The body's triple -/

set_option maxHeartbeats 1000000 in
/-- The kernel body on whole staging memrefs, the five inputs' at contents `xW` and the result's at anything,
    runs to the continuation holding the inputs' as they were and the result's at `out5` of the inputs'. -/
theorem sound_kernel (c : Dev nD) (E : Set Name) (i : grid1.Coords) (arg1 : Memref sig .tc .vmem S256x6400 .f32) (harg1 : arg1.IsWhole) (arg2 : Memref sig .tc .vmem S6400x2048 .bf16) (harg2 : arg2.IsWhole) (arg3 : Memref sig .tc .vmem S1x2048 .f32) (harg3 : arg3.IsWhole) (arg4 : Memref sig .tc .vmem S2048x1000 .bf16) (harg4 : arg4.IsWhole) (arg5 : Memref sig .tc .vmem S1x1000 .f32) (harg5 : arg5.IsWhole) (arg6 : Memref sig .tc .vmem S256x1000 .f32) (harg6 : arg6.IsWhole)
    (x0 : Vec F S256x6400 .f32) (x1 : Vec F S6400x2048 .bf16) (x2 : Vec F S1x2048 .f32) (x3 : Vec F S2048x1000 .bf16) (x4 : Vec F S1x1000 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5 x0 x1 x2 x3 x4)) -∗ K ⟨⟩))
      ⊢ wp frame (wpE (defs₀ (F := F)) Variants.none c none) E (cc1__mlp_body i arg1 harg1 arg2 harg2 arg3 harg3 arg4 harg4 arg5 harg5 arg6 harg6) K := by
  simp only [cc1__mlp_body_eq_skeleton]; unfold cc1__mlp_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _)

/-! ## The pipeline's proof data -/

/-- The proof data of the region's pipeline on core `c`: the arrays as the region finds them (`V`); after the
    body at point `t` each input's buffer at its block and the result's at `out5` of the input blocks; no
    invariant of the body's own (the core has no scoped buffer beside the staging buffers); the core owing `O c`
    throughout (the body pays nothing and takes on nothing); full shares. -/
def dat1 (c : Dev nD) : Dat τ (Elt F) Ix Name U Lvl cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out5 (iblk V c 0 t) (iblk V c 1 t) (iblk V c 2 t) (iblk V c 3 t) (iblk V c 4 t)
  Φ _ := iprop(emp)
  q _ := fullShare
  owed _ := O c

/-- The one pipeline's proof data, as the region record takes it. -/
def dats : (p : Fin 1) → (c : Dev nD) → Dat τ (Elt F) Ix Name U Lvl (Pipeline.pin (pcfgs (F := F)) adm p) c :=
  fun _ c => dat1 V O c

theorem dats_zero (c : Dev nD) : dats (Name := Name) (U := U) (Lvl := Lvl) V O 0 c = dat1 V O c := rfl

/-- The proof data's arrays are the region-entry contents. -/
theorem A_eq (c : Dev nD) (w : Fin cfg1.W) : (dat1 (Name := Name) (U := U) (Lvl := Lvl) V O c).A w = V c (Pipeline.arrRef spec1 w) := by
  dsimp only [dat1]

/-- What the body leaves, window by window. -/
theorem after0 (c : Dev nD) (t : Fin cfg1.N) : (dat1 (Name := Name) (U := U) (Lvl := Lvl) V O c).after 0 t = iblk V c 0 t := by dsimp only [dat1]
theorem after1 (c : Dev nD) (t : Fin cfg1.N) : (dat1 (Name := Name) (U := U) (Lvl := Lvl) V O c).after 1 t = iblk V c 1 t := by dsimp only [dat1]
theorem after2 (c : Dev nD) (t : Fin cfg1.N) : (dat1 (Name := Name) (U := U) (Lvl := Lvl) V O c).after 2 t = iblk V c 2 t := by dsimp only [dat1]
theorem after3 (c : Dev nD) (t : Fin cfg1.N) : (dat1 (Name := Name) (U := U) (Lvl := Lvl) V O c).after 3 t = iblk V c 3 t := by dsimp only [dat1]
theorem after4 (c : Dev nD) (t : Fin cfg1.N) : (dat1 (Name := Name) (U := U) (Lvl := Lvl) V O c).after 4 t = iblk V c 4 t := by dsimp only [dat1]
theorem after5 (c : Dev nD) (t : Fin cfg1.N) : (dat1 (Name := Name) (U := U) (Lvl := Lvl) V O c).after 5 t = out5 (iblk V c 0 t) (iblk V c 1 t) (iblk V c 2 t) (iblk V c 3 t) (iblk V c 4 t) := by dsimp only [dat1]

/-- Each input's current staging buffer holds its block at every point, fetched there or not. -/
theorem before0 (c : Dev nD) (t : Fin cfg1.N) (d) : (dat1 (Name := Name) (U := U) (Lvl := Lvl) V O c).before 0 t d = iblk V c 0 t :=
  before0_of V (dat1 V O c) (A_eq V O c 0) (after0 V O c) t d
theorem before1 (c : Dev nD) (t : Fin cfg1.N) (d) : (dat1 (Name := Name) (U := U) (Lvl := Lvl) V O c).before 1 t d = iblk V c 1 t :=
  before1_of V (dat1 V O c) (A_eq V O c 1) (after1 V O c) t d
theorem before2 (c : Dev nD) (t : Fin cfg1.N) (d) : (dat1 (Name := Name) (U := U) (Lvl := Lvl) V O c).before 2 t d = iblk V c 2 t :=
  before2_of V (dat1 V O c) (A_eq V O c 2) (after2 V O c) t d
theorem before3 (c : Dev nD) (t : Fin cfg1.N) (d) : (dat1 (Name := Name) (U := U) (Lvl := Lvl) V O c).before 3 t d = iblk V c 3 t :=
  before3_of V (dat1 V O c) (A_eq V O c 3) (after3 V O c) t d
theorem before4 (c : Dev nD) (t : Fin cfg1.N) (d) : (dat1 (Name := Name) (U := U) (Lvl := Lvl) V O c).before 4 t d = iblk V c 4 t :=
  before4_of V (dat1 V O c) (A_eq V O c 4) (after4 V O c) t d

local notation "𝔇" => dat1 (Name := Name) (U := U) (Lvl := Lvl) V O

/-! ## The body obligation, at a generic point -/

/-- What the body is called with at point `t`, the windows one by one, -/
def bodyPre (ι : Ix) (c : Dev nD) (t : Fin cfg1.N) : sProp 𝕄 :=
  iprop((𝔇 c).Φ t.castSucc ∗ (𝔇 c).owesAt ι t.castSucc
    ∗ (∃ d, owns (c : Thread nD τ) (st1_0 t) fullShare ((𝔇 c).before 0 t d))
    ∗ (∃ d, owns (c : Thread nD τ) (st1_1 t) fullShare ((𝔇 c).before 1 t d))
    ∗ (∃ d, owns (c : Thread nD τ) (st1_2 t) fullShare ((𝔇 c).before 2 t d))
    ∗ (∃ d, owns (c : Thread nD τ) (st1_3 t) fullShare ((𝔇 c).before 3 t d))
    ∗ (∃ d, owns (c : Thread nD τ) (st1_4 t) fullShare ((𝔇 c).before 4 t d))
    ∗ (∃ d, owns (c : Thread nD τ) (st1_5 t) fullShare ((𝔇 c).before 5 t d)))

/-- and what it returns. -/
def bodyPost (ι : Ix) (c : Dev nD) (t : Fin cfg1.N) : sProp 𝕄 :=
  iprop((𝔇 c).Φ t.succ ∗ (𝔇 c).owesAt ι t.succ
    ∗ owns (c : Thread nD τ) (st1_0 t) fullShare ((𝔇 c).after 0 t)
    ∗ owns (c : Thread nD τ) (st1_1 t) fullShare ((𝔇 c).after 1 t)
    ∗ owns (c : Thread nD τ) (st1_2 t) fullShare ((𝔇 c).after 2 t)
    ∗ owns (c : Thread nD τ) (st1_3 t) fullShare ((𝔇 c).after 3 t)
    ∗ owns (c : Thread nD τ) (st1_4 t) fullShare ((𝔇 c).after 4 t)
    ∗ owns (c : Thread nD τ) (st1_5 t) fullShare ((𝔇 c).after 5 t))

/-- The body at any point: the inputs' memrefs hold their blocks, so `sound_kernel` applies; the invariant and
    the core's `owes` pass through unread. -/
theorem sound_body (ι : Ix) (c : Dev nD) (t : Fin cfg1.N) :
    bodyPre (Name := Name) (U := U) (Lvl := Lvl) V O ι c t ⊢ wp frame (wpE (defs₀ (F := F)) Variants.none c none) Set.univ (bodyAt1 t) (fun _ => bodyPost (Name := Name) (U := U) (Lvl := Lvl) V O ι c t) := by
  unfold bodyPre bodyPost bodyAt1
  simp only [before0, before1, before2, before3, before4]
  rw [show (𝔇 c).Φ t.succ = (𝔇 c).Φ t.castSucc from rfl,
    show (𝔇 c).owesAt ι t.succ = (𝔇 c).owesAt ι t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point, -/
theorem body_obligation' (ι : Ix) (c : Dev nD) : BodyObligation (𝔇 c) (defs₀ (F := F)) Variants.none ι Set.univ := fun t => by
  rw [bigSep_W1, bigSep_W1]
  exact sound_body V O ι c t

/-- and in the loose form the region record takes. -/
theorem body_obligation (ι : Ix) (c : Dev nD) :
    BodyObligationLoose (dats (F := F) (Name := Name) (U := U) (Lvl := Lvl) V O 0 c) (defs₀ (F := F)) Variants.none ι Set.univ :=
  (body_obligation' V O ι c).loose

/-! ## The whole result array -/

open Idealize.ShloMosaic.ValueIdx in
/-- The point whose block holds row `i 0` of the result: `i 0 / 256`. -/
def ptOf (i : S4096x1000.Idx) : Fin cfg1.N :=
  ⟨(i 0).val / 256, by rw [show cfg1.N = 16 from N_1]; have := idx2_lt0 i; omega⟩

open Idealize.ShloMosaic.ValueIdx in
/-- An index of the result inside its block: row `i 0 % 256`, the same column. -/
def inBlk (i : S4096x1000.Idx) : S256x1000.Idx :=
  ix2 ⟨(i 0).val % 256, Nat.mod_lt _ (by decide)⟩ ⟨(i 1).val, idx2_lt1 i⟩

/-- What the result array holds after the region, as one function of the region-entry contents of the five
    inputs: at row `i 0`, the two-layer payload of the block of 256 gathered rows that holds it, the two weight
    matrices and the two bias rows, read at the row's place in the block. -/
def out7 (c : Dev nD) : Vec F S4096x1000 .f32 := fun i =>
  k1_pay1 (iblk V c 0 (ptOf i)) (V c main_v3) (V c main_v5) (V c main_v4) (V c main_v6) (inBlk i)

/-- The printed index maps, decided over the grid: the row-blocked windows are at block `t`, column block 0; the
    whole-array windows at block 0 on both axes. -/
theorem idx_facts : ∀ t : Fin cfg1.N, win1_5.index t (0 : Fin 2) = t.val ∧ win1_5.index t (1 : Fin 2) = 0
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- A block of the gathered features, index by index: row `256 t + y 0`, column `y 1`. -/
theorem iblk0_apply (c : Dev nD) (t : Fin cfg1.N) (y : S256x6400.Idx) (i : S4096x6400.Idx)
    (h0 : (i 0).val = t.val * 256 + (y 0).val) (h1 : (i 1).val = (y 1).val) :
    iblk V c 0 t y = V c main_v2 i := by
  obtain ⟨-, -, e0, e1, -⟩ := idx_facts t
  show V c main_v2 (((cfg1.win 0).blk t).view.emb y) = V c main_v2 i
  congr 1
  funext a; apply Fin.ext
  match a with
  | ⟨0, _⟩ => show win1_0.index t (0 : Fin 2) * 256 + 1 * (y 0).val = (i 0).val; omega
  | ⟨1, _⟩ => show win1_0.index t (1 : Fin 2) * 6400 + 1 * (y 1).val = (i 1).val; omega

/-- The windows staged whole hold their arrays. -/
theorem iblk1_eq (c : Dev nD) (t : Fin cfg1.N) : iblk V c 1 t = V c main_v3 := by
  obtain ⟨-, -, -, -, e0, e1, -⟩ := idx_facts t
  funext y
  show V c main_v3 (((cfg1.win 1).blk t).view.emb y) = V c main_v3 y
  congr 1
  funext a; apply Fin.ext
  match a with
  | ⟨0, _⟩ => show win1_1.index t (0 : Fin 2) * 6400 + 1 * (y 0).val = (y 0).val; omega
  | ⟨1, _⟩ => show win1_1.index t (1 : Fin 2) * 2048 + 1 * (y 1).val = (y 1).val; omega
theorem iblk2_eq (c : Dev nD) (t : Fin cfg1.N) : iblk V c 2 t = V c main_v5 := by
  obtain ⟨-, -, -, -, -, -, e0, e1, -⟩ := idx_facts t
  funext y
  show V c main_v5 (((cfg1.win 2).blk t).view.emb y) = V c main_v5 y
  congr 1
  funext a; apply Fin.ext
  match a with
  | ⟨0, _⟩ => show win1_2.index t (0 : Fin 2) * 1 + 1 * (y 0).val = (y 0).val; omega
  | ⟨1, _⟩ => show win1_2.index t (1 : Fin 2) * 2048 + 1 * (y 1).val = (y 1).val; omega
theorem iblk3_eq (c : Dev nD) (t : Fin cfg1.N) : iblk V c 3 t = V c main_v4 := by
  obtain ⟨-, -, -, -, -, -, -, -, e0, e1, -⟩ := idx_facts t
  funext y
  show V c main_v4 (((cfg1.win 3).blk t).view.emb y) = V c main_v4 y
  congr 1
  funext a; apply Fin.ext
  match a with
  | ⟨0, _⟩ => show win1_3.index t (0 : Fin 2) * 2048 + 1 * (y 0).val = (y 0).val; omega
  | ⟨1, _⟩ => show win1_3.index t (1 : Fin 2) * 1000 + 1 * (y 1).val = (y 1).val; omega
theorem iblk4_eq (c : Dev nD) (t : Fin cfg1.N) : iblk V c 4 t = V c main_v6 := by
  obtain ⟨-, -, -, -, -, -, -, -, -, -, e0, e1⟩ := idx_facts t
  funext y
  show V c main_v6 (((cfg1.win 4).blk t).view.emb y) = V c main_v6 y
  congr 1
  funext a; apply Fin.ext
  match a with
  | ⟨0, _⟩ => show win1_4.index t (0 : Fin 2) * 1 + 1 * (y 0).val = (y 0).val; omega
  | ⟨1, _⟩ => show win1_4.index t (1 : Fin 2) * 1000 + 1 * (y 1).val = (y 1).val; omega

open Idealize.ShloMosaic.ValueIdx in
/-- An index of block `t` of the result, seen in the array, is in point `t`'s rows at its own place. -/
theorem pt_emb (t : Fin cfg1.N) (j : S256x1000.Idx) :
    ptOf (((cfg1.win 5).blk t).view.emb j) = t ∧ inBlk (((cfg1.win 5).blk t).view.emb j) = j := by
  obtain ⟨e0, e1, -⟩ := idx_facts t
  have hj0 := idx2_lt0 j
  have hj1 := idx2_lt1 j
  have h0 : ((((cfg1.win 5).blk t).view.emb j) 0).val = win1_5.index t (0 : Fin 2) * 256 + 1 * (j 0).val := rfl
  have h1 : ((((cfg1.win 5).blk t).view.emb j) 1).val = win1_5.index t (1 : Fin 2) * 1000 + 1 * (j 1).val := rfl
  constructor
  · apply Fin.ext
    show ((((cfg1.win 5).blk t).view.emb j) 0).val / 256 = t.val
    rw [h0]; omega
  · funext a; apply Fin.ext
    match a with
    | ⟨0, _⟩ => show ((((cfg1.win 5).blk t).view.emb j) 0).val % 256 = (j 0).val; rw [h0]; omega
    | ⟨1, _⟩ => show ((((cfg1.win 5).blk t).view.emb j) 1).val = (j 1).val; rw [h1]; omega

/-- What point `t` writes back is block `t` of `out7`. -/
theorem flushed5_eq (c : Dev nD) (t : Fin cfg1.N) :
    (dat1 (Name := Name) (U := U) (Lvl := Lvl) V O c).flushed 5 t = ((cfg1.win 5).blk t).view.read (Elt F) (out7 V c) := by
  show (cfg1.win 5).cut (grid1.coords t) ((dat1 V O c).after 5 t) = _
  rw [after5, out5_eq, iblk1_eq, iblk2_eq, iblk3_eq, iblk4_eq]
  funext j
  show k1_pay1 (iblk V c 0 t) (V c main_v3) (V c main_v5) (V c main_v4) (V c main_v6) j = out7 V c (((cfg1.win 5).blk t).view.emb j)
  unfold out7
  rw [(pt_emb t j).1, (pt_emb t j).2]

/-- An index of the result is in point `t`'s block iff each coordinate is in the block's range on its axis. -/
theorem mem_blk5 (t : Fin cfg1.N) (i : S4096x1000.Idx) :
    i ∈ ((cfg1.win 5).blk t).view.set ↔ ∀ a : Fin 2, win1_5.index t a * S256x1000.size a ≤ (i a).val ∧ (i a).val < win1_5.index t a * S256x1000.size a + S256x1000.size a := by
  show i ∈ ((View.whole main_v7).slice (win1_5.rect t)).set ↔ _
  rw [View.set_slice_whole, Rect.mem_set_unit]
  exact Iff.rfl

open Idealize.ShloMosaic.ValueIdx in
/-- Every index of the result is written back by the point that holds its row. -/
theorem covered5 (i : S4096x1000.Idx) : ∃ t : Fin cfg1.N, (cfg1.win 5).flush t = true ∧ i ∈ ((cfg1.win 5).blk t).view.set := by
  refine ⟨ptOf i, flush1_5 _, ?_⟩
  rw [mem_blk5]
  obtain ⟨e0, e1, -⟩ := idx_facts (ptOf i)
  have hi0 := idx2_lt0 i
  have hi1 := idx2_lt1 i
  have hp : (ptOf i).val = (i 0).val / 256 := rfl
  intro a
  match a with
  | ⟨0, _⟩ => show win1_5.index (ptOf i) (0 : Fin 2) * 256 ≤ (i 0).val ∧ (i 0).val < win1_5.index (ptOf i) (0 : Fin 2) * 256 + 256; omega
  | ⟨1, _⟩ => show win1_5.index (ptOf i) (1 : Fin 2) * 1000 ≤ (i 1).val ∧ (i 1).val < win1_5.index (ptOf i) (1 : Fin 2) * 1000 + 1000; omega

/-- The result array after the region is `out7`; -/
theorem arrAt_v7 (c : Dev nD) : (dats (Name := Name) (U := U) (Lvl := Lvl) V O 0 c).arrAt 5 cfg1.N = out7 V c :=
  (dat1 V O c).arrAt_eq_of_cover 5 (out7 V c) (fun t _ => flushed5_eq V O c t) covered5

/-- the five inputs are as the region found them. -/
theorem arrAt_v2 (c : Dev nD) (n : Nat) : (dats (Name := Name) (U := U) (Lvl := Lvl) V O 0 c).arrAt 0 n = V c main_v2 :=
  ((dat1 V O c).arrAt_in 0 rfl n).trans (A_eq V O c 0)
theorem arrAt_v3 (c : Dev nD) (n : Nat) : (dats (Name := Name) (U := U) (Lvl := Lvl) V O 0 c).arrAt 1 n = V c main_v3 :=
  ((dat1 V O c).arrAt_in 1 rfl n).trans (A_eq V O c 1)
theorem arrAt_v5 (c : Dev nD) (n : Nat) : (dats (Name := Name) (U := U) (Lvl := Lvl) V O 0 c).arrAt 2 n = V c main_v5 :=
  ((dat1 V O c).arrAt_in 2 rfl n).trans (A_eq V O c 2)
theorem arrAt_v4 (c : Dev nD) (n : Nat) : (dats (Name := Name) (U := U) (Lvl := Lvl) V O 0 c).arrAt 3 n = V c main_v4 :=
  ((dat1 V O c).arrAt_in 3 rfl n).trans (A_eq V O c 3)
theorem arrAt_v6 (c : Dev nD) (n : Nat) : (dats (Name := Name) (U := U) (Lvl := Lvl) V O 0 c).arrAt 4 n = V c main_v6 :=
  ((dat1 V O c).arrAt_in 4 rfl n).trans (A_eq V O c 4)
theorem arrAt_v7_zero (c : Dev nD) : (dats (Name := Name) (U := U) (Lvl := Lvl) V O 0 c).arrAt 5 0 = V c main_v7 := A_eq V O c 5

/-! ## The region record -/

local notation "𝔻𝕤" => dats (Name := Name) (U := U) (Lvl := Lvl) V O

/-- A buffer of core `c` whole at the full share, spelt at the location. -/
abbrev pl (c : Dev nD) (b : Ref sig .tc) (f : b.ty.Contents (Elt F)) : sProp 𝕄 := ((c : Thread nD τ).loc b) ↦{fullShare} f

/-- The region's arrays at contents `Fa` are the six buffers held whole, in the windows' order. -/
theorem arrays_eq (c : Dev nD) (Fa) : ((𝔻𝕤 0 c).arrays Fa : sProp 𝕄)
    = iprop(pl c main_v2 (Fa 0) ∗ pl c main_v3 (Fa 1) ∗ pl c main_v5 (Fa 2) ∗ pl c main_v4 (Fa 3) ∗ pl c main_v6 (Fa 4) ∗ pl c main_v7 (Fa 5)) := by
  rw [Pipeline.arrays_eq (Pipeline.pin (pcfgs (F := F)) adm) (𝔻𝕤) 0 c launch1.arr_whole ((𝔻𝕤 0 c).share_full fun _ => rfl) Fa, bigSep_W1]

/-- What the core owes as the pipeline holds it, at every point: the tallies `O c`, its recorded pairs unconstrained. -/
theorem owesAt_eq (ι : Ix) (c : Dev nD) (t : Fin (cfg1.N + 1)) :
    ((𝔻𝕤 0 c).owesAt ι t : sProp 𝕄) = Pipeline.owesWithin c (O c) (Set.univ ∪ cfg1.waitPairs ι) := rfl

/-- The core's `owes` at `O c`, whatever pairs it has recorded, is that; -/
theorem owes_intro (ι : Ix) (c : Dev nD) (W : Finset (SemLoc sig × Ix)) :
    (owes (c : Thread nD τ) (O c) W : sProp 𝕄) ⊢ Pipeline.owesWithin c (O c) (Set.univ ∪ cfg1.waitPairs ι) := by
  iintro H; iexists W; isplitr; · ipureintro; exact fun _ _ => Or.inl trivial
  iexact H

/-- and gives it back, at some recorded pairs. -/
theorem owes_elim (ι : Ix) (c : Dev nD) :
    (Pipeline.owesWithin c (O c) (Set.univ ∪ cfg1.waitPairs ι) : sProp 𝕄) ⊢ iprop(∃ W, owes (c : Thread nD τ) (O c) W) := by
  iintro ⟨%W, -, H⟩; iexists W; iexact H

/-- THE REGION: entered holding the six arrays whole at `V` and the core's `owes` at `O c`; left holding the five
    inputs as found, the result at `out7`, and the same `owes`. No semaphores of the body's own; nothing enters the
    pipeline's invariant and nothing bypasses the region. -/
def R (ι : Ix) (L : GSem nD τ sig → Finset Ix) (lv : GSem nD τ sig → Ix → Lvl)
    (hwaits : ∀ c, (levAts L lv : sProp 𝕄) ⊢ Pipeline.cellsWaits (Pipeline.pin (pcfgs (F := F)) adm) (𝔻𝕤) ι 0 c) :
    Pipeline.RegionSeg (pcfgs (F := F)) adm (𝔻𝕤) ι (defs₀ (F := F)) Variants.none L lv 0 where
  win := launch1.win.to₀
  block_pos := launch1.block_pos
  stage_whole := launch1.stage_whole
  K := PEmpty
  osem k := k.elim
  ho := Pipeline.OwnSemFacts.none _
  hbody c := body_obligation V O ι c
  hwaits := hwaits
  pre c := iprop((𝔻𝕤 0 c).arrays ((𝔻𝕤 0 c).arrAt · 0) ∗ (𝔻𝕤 0 c).owesAt ι 0)
  post c := iprop((𝔻𝕤 0 c).arrays ((𝔻𝕤 0 c).arrAt · cfg1.N) ∗ (𝔻𝕤 0 c).owesAt ι (Fin.last cfg1.N))
  X _ := iprop(emp)
  Y _ := iprop(emp)
  Z _ := iprop(emp)
  hentry c := by
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iexact HO
    isplitr <;> iempintro
  hin c := by iintro -; iempintro
  hout c := by
    rw [Pipeline.ownSems0_none, scopedRest1_eq]
    iintro -; isplitr; · iempintro
    isplitr <;> iempintro
  hexit c := by
    iintro ⟨Ha, HO, -, -⟩
    imodintro
    isplitl [Ha]; · iexact Ha
    iexact HO

/-- The entry state, buffer by buffer: the six arrays whole at `V`, and the core's `owes`. -/
theorem pre_eq (ι : Ix) (L : GSem nD τ sig → Finset Ix) (lv : GSem nD τ sig → Ix → Lvl)
    (hwaits : ∀ c, (levAts L lv : sProp 𝕄) ⊢ Pipeline.cellsWaits (Pipeline.pin (pcfgs (F := F)) adm) (𝔻𝕤) ι 0 c) (c : Dev nD) :
    (R (Name := Name) (U := U) (Lvl := Lvl) V O ι L lv hwaits).pre c
    = iprop((pl c main_v2 (V c main_v2) ∗ pl c main_v3 (V c main_v3) ∗ pl c main_v5 (V c main_v5) ∗ pl c main_v4 (V c main_v4) ∗ pl c main_v6 (V c main_v6) ∗ pl c main_v7 (V c main_v7))
        ∗ Pipeline.owesWithin c (O c) (Set.univ ∪ cfg1.waitPairs ι)) := by
  have h : (R (Name := Name) (U := U) (Lvl := Lvl) V O ι L lv hwaits).pre c = iprop((𝔻𝕤 0 c).arrays ((𝔻𝕤 0 c).arrAt · 0) ∗ (𝔻𝕤 0 c).owesAt ι 0) := rfl
  rw [h, arrays_eq, owesAt_eq, arrAt_v2, arrAt_v3, arrAt_v5, arrAt_v4, arrAt_v6, arrAt_v7_zero]

/-- The exit state, buffer by buffer: the five inputs as found, the result at `out7`, and the core's `owes`. -/
theorem post_eq (ι : Ix) (L : GSem nD τ sig → Finset Ix) (lv : GSem nD τ sig → Ix → Lvl)
    (hwaits : ∀ c, (levAts L lv : sProp 𝕄) ⊢ Pipeline.cellsWaits (Pipeline.pin (pcfgs (F := F)) adm) (𝔻𝕤) ι 0 c) (c : Dev nD) :
    (R (Name := Name) (U := U) (Lvl := Lvl) V O ι L lv hwaits).post c
    = iprop((pl c main_v2 (V c main_v2) ∗ pl c main_v3 (V c main_v3) ∗ pl c main_v5 (V c main_v5) ∗ pl c main_v4 (V c main_v4) ∗ pl c main_v6 (V c main_v6) ∗ pl c main_v7 (out7 V c))
        ∗ Pipeline.owesWithin c (O c) (Set.univ ∪ cfg1.waitPairs ι)) := by
  have h : (R (Name := Name) (U := U) (Lvl := Lvl) V O ι L lv hwaits).post c = iprop((𝔻𝕤 0 c).arrays ((𝔻𝕤 0 c).arrAt · cfg1.N) ∗ (𝔻𝕤 0 c).owesAt ι (Fin.last cfg1.N)) := rfl
  rw [h, arrays_eq, owesAt_eq, arrAt_v2, arrAt_v3, arrAt_v5, arrAt_v4, arrAt_v6, arrAt_v7]

/-- info: 'Cert.KernelIdeal.TcRegion.R' depends on axioms: [propext, Classical.choice, Quot.sound] -/
#guard_msgs in #print axioms R
/-- info: 'Cert.KernelIdeal.TcRegion.pre_eq' depends on axioms: [propext, Classical.choice, Quot.sound] -/
#guard_msgs in #print axioms pre_eq
/-- info: 'Cert.KernelIdeal.TcRegion.post_eq' depends on axioms: [propext, Classical.choice, Quot.sound] -/
#guard_msgs in #print axioms post_eq

end Cert.KernelIdeal.TcRegion

end
-- ==== Proof.LaunchRegion.lean ====
/-
  The TensorCore region's step of @main.

  The region record is entered at the valuation the host operations and the SparseCore call produce: the flat output
  at the gathered values, the dense layers' operands as converted and reshaped, every other array at its launch
  contents. After its one SparseCore call the TensorCore owes nothing, so the pipeline's waits need no evidence
  beyond that; the staging cells' ghost state is the launch element's. The call is a call of the extended body
  table, entered through the lifting of the certificate's table.
-/
import proofs.«203293_g38809324487172_cont_8to1_b_1330_62_alg».proof.Proof.Setup
import proofs.«203293_g38809324487172_cont_8to1_b_1330_62_alg».proof.Proof.LaunchSplit
import proofs.«203293_g38809324487172_cont_8to1_b_1330_62_alg».proof.Proof.LaunchElem
import proofs.«203293_g38809324487172_cont_8to1_b_1330_62_alg».proof.Proof.LaunchMain
import proofs.«203293_g38809324487172_cont_8to1_b_1330_62_alg».proof.Proof.TcRegion

noncomputable section

namespace Cert.KernelIdeal.Sc

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ)

variable [FloatOps F]

/-- The valuation the region is entered at. -/
def VR (c : Dev nD) : (b : Ref sig .tc) → Buf (Elt F) ((c.tc : Thread nD τ).loc b) :=
  Function.update (Function.update (Function.update (Function.update (Function.update
    (fun b => m ((SparseCore.T c : Thread nD τ).loc b)) main_v2 (gout m c)) main_v3 (w3 m c)) main_v4 (w4 m c)) main_v5 (w5 m c)) main_v6 (w6 m c)

theorem VR_v2 (c : Dev nD) : VR m c main_v2 = gout m c := by
  unfold VR
  rw [Function.update_of_ne (show main_v2 ≠ main_v6 by decide), Function.update_of_ne (show main_v2 ≠ main_v5 by decide),
    Function.update_of_ne (show main_v2 ≠ main_v4 by decide), Function.update_of_ne (show main_v2 ≠ main_v3 by decide), Function.update_self]
theorem VR_v3 (c : Dev nD) : VR m c main_v3 = w3 m c := by
  unfold VR
  rw [Function.update_of_ne (show main_v3 ≠ main_v6 by decide), Function.update_of_ne (show main_v3 ≠ main_v5 by decide),
    Function.update_of_ne (show main_v3 ≠ main_v4 by decide), Function.update_self]
theorem VR_v4 (c : Dev nD) : VR m c main_v4 = w4 m c := by
  unfold VR
  rw [Function.update_of_ne (show main_v4 ≠ main_v6 by decide), Function.update_of_ne (show main_v4 ≠ main_v5 by decide), Function.update_self]
theorem VR_v5 (c : Dev nD) : VR m c main_v5 = w5 m c := by
  unfold VR
  rw [Function.update_of_ne (show main_v5 ≠ main_v6 by decide), Function.update_self]
theorem VR_v6 (c : Dev nD) : VR m c main_v6 = w6 m c := by
  unfold VR
  rw [Function.update_self]
theorem VR_v7 (c : Dev nD) : VR m c main_v7 = m ((SparseCore.T c : Thread nD τ).loc main_v7) := by
  unfold VR
  rw [Function.update_of_ne (show main_v7 ≠ main_v6 by decide), Function.update_of_ne (show main_v7 ≠ main_v5 by decide),
    Function.update_of_ne (show main_v7 ≠ main_v4 by decide), Function.update_of_ne (show main_v7 ≠ main_v3 by decide),
    Function.update_of_ne (show main_v7 ≠ main_v2 by decide)]

/-- The result array as the region leaves it. -/
def outFinal (d : Dev nD) : Buf (Elt F) ((SparseCore.T d : Thread nD τ).loc main_v7) := TcRegion.out7 (VR m) d

/-- The TensorCore owes nothing during the region. -/
abbrev O0 : Dev nD → CellTallies nD τ sig (HIx 1) := fun _ => 0

theorem hwaits0 (c : Dev nD) :
    (levAts (K (F := F)).L (K (F := F)).lev : sProp 𝕄)
      ⊢ Pipeline.cellsWaits (Pipeline.pin (pcfgs (F := F)) TcRegion.adm) (TcRegion.dats (Name := ℕ) (U := UU) (Lvl := ℕ) (VR m) O0) (none : HIx 1) 0 c :=
  (show (levAts (K (F := F)).L (K (F := F)).lev : sProp 𝕄) ⊢ BI.emp from by iintro -; iempintro).trans
    (Pipeline.cellsWaits_of_owed_zero (Pipeline.pin (pcfgs (F := F)) TcRegion.adm) (TcRegion.dats (Name := ℕ) (U := UU) (Lvl := ℕ) (VR m) O0) (none : HIx 1) 0 c fun _ => rfl)

/-- The region record @main enters. -/
abbrev RR : Pipeline.RegionSeg (pcfgs (F := F)) TcRegion.adm (TcRegion.dats (Name := ℕ) (U := UU) (Lvl := ℕ) (VR m) O0) (none : HIx 1) (defs₀ (F := F)) Variants.none
    (K (F := F)).L (K (F := F)).lev 0 :=
  TcRegion.R (Name := ℕ) (U := UU) (Lvl := ℕ) (VR m) O0 (none : HIx 1) (K (F := F)).L (K (F := F)).lev (hwaits0 m)

/-- The region's call in the extended body table is the lifting of the call in the certificate's. -/
theorem lift_call :
    SparseCore.liftProg (nD := nD) (τ := τ) (sig := sig) (Val := Elt F) (Q := 1) (Prog.op (.customCall (Pipeline.entry (Λ₀ := Λ₀) (A := fun p => (pcfgs (F := F) p).Adm) (0 : Fin 1)) ()) fun _ => Prog.ret ⟨⟩)
      = (Prog.lift (.customCall (SparseCore.inner (Pipeline.entry (0 : Fin 1))) ()) : Prog (TpuEff nD τ sig (Elt F) (SparseCore.Sig (ΛP (F := F)) 1) .tc) PUnit) := rfl

/-- What @main holds before the region is what the region's rule asks: the arrays at the entry valuation, the
    `owes` as the pipeline holds it, the level facts and the staging cells' ghost state; and what the rule gives back
    is what @main's continuation asks. -/
theorem region_entry (d : Dev nD) (Ψ : PUnit → sProp 𝕄) :
    iprop(levAts (K (F := F)).L (K (F := F)).lev ∗ boundary (SparseCore.T d : Thread nD τ) ∗ G (F := F) d
        ∗ (∃ W, owes (SparseCore.T d : Thread nD τ) (0 : CellTallies nD τ sig (HIx 1)) W)
        ∗ pl d main_v2 (gout m d) ∗ pl d main_v3 (w3 m d) ∗ pl d main_v5 (w5 m d) ∗ pl d main_v4 (w4 m d) ∗ pl d main_v6 (w6 m d)
        ∗ pl d main_v7 (m ((SparseCore.T d : Thread nD τ).loc main_v7))
        ∗ ((boundary (SparseCore.T d : Thread nD τ) ∗ (∃ W, owes (SparseCore.T d : Thread nD τ) (0 : CellTallies nD τ sig (HIx 1)) W)
            ∗ pl d main_v2 (gout m d) ∗ pl d main_v3 (w3 m d) ∗ pl d main_v5 (w5 m d) ∗ pl d main_v4 (w4 m d) ∗ pl d main_v6 (w6 m d)
            ∗ pl d main_v7 (outFinal m d)) -∗ Ψ ⟨⟩))
      ⊢ iprop((iprop(boundary (d.tc : Thread nD τ) ∗ (RR m).post d) -∗ wp frame (wpE (D (F := F)) 𝒱 (d.tc : Thread nD τ) none) Set.univ (Prog.ret ⟨⟩) Ψ)
        ∗ boundary (d.tc : Thread nD τ) ∗ (RR m).pre d ∗ levAts (K (F := F)).L (K (F := F)).lev
        ∗ Pipeline.cellsGhost (Pipeline.pin (pcfgs (F := F)) TcRegion.adm) (EP (F := F)) 0 d
        ∗ Pipeline.toksInit (Pipeline.pin (pcfgs (F := F)) TcRegion.adm) (EP (F := F)) 0 d) := by
  unfold RR
  rw [TcRegion.pre_eq, TcRegion.post_eq, VR_v2, VR_v3, VR_v4, VR_v5, VR_v6, VR_v7]
  iintro ⟨Hlev, Hb, ⟨Hg, Ht⟩, ⟨%W, HO⟩, Hv2, Hv3, Hv5, Hv4, Hv6, Hv7, Hk⟩
  isplitl [Hk]
  · iintro ⟨Hb, ⟨Hv2, Hv3, Hv5, Hv4, Hv6, Hv7⟩, HO⟩
    rw [wp_ret]; imodintro
    iapply Hk
    isplitl [Hb]; · iexact Hb
    isplitl [HO]; · iapply (TcRegion.owes_elim (F := F) (Name := ℕ) (U := UU) (Lvl := ℕ) O0 (none : HIx 1) d); iexact HO
    isplitl [Hv2]; · iexact Hv2
    isplitl [Hv3]; · iexact Hv3
    isplitl [Hv5]; · iexact Hv5
    isplitl [Hv4]; · iexact Hv4
    isplitl [Hv6]; · iexact Hv6
    iexact Hv7
  isplitl [Hb]; · iexact Hb
  isplitl [Hv2 Hv3 Hv5 Hv4 Hv6 Hv7 HO]
  · isplitr [HO]
    · isplitl [Hv2]; · iexact Hv2
      isplitl [Hv3]; · iexact Hv3
      isplitl [Hv5]; · iexact Hv5
      isplitl [Hv4]; · iexact Hv4
      isplitl [Hv6]; · iexact Hv6
      iexact Hv7
    · iapply (TcRegion.owes_intro (F := F) (Name := ℕ) (U := UU) (Lvl := ℕ) O0 (none : HIx 1) d W); iexact HO
  isplitl [Hlev]; · iexact Hlev
  isplitl [Hg]; · iexact Hg
  iexact Ht

set_option backward.isDefEq.respectTransparency.types false in
theorem regionStep [∀ e, Nonempty (Elt F e)] : RegionStep m (outFinal m) := by
  intro d Ψ
  have h1 := ((K (F := F)).wp_liftProg (D (F := F)) 𝒱 (SparseCore.T d) Set.univ none
    (Prog.op (.customCall (Pipeline.entry 0) ()) fun _ => Prog.ret ⟨⟩) Ψ)
  rw [lift_call] at h1
  have h2 := (Pipeline.RegionSeg.wp (pcfgs (F := F)) TcRegion.adm (TcRegion.dats (Name := ℕ) (U := UU) (Lvl := ℕ) (VR m) O0) (none : HIx 1)
    cellOf_inj (EP (F := F)) (defs₀ (F := F)) Variants.none (K (F := F)).L (K (F := F)).lev (RR m) d none (by intro u h; cases h) (fun _ => Prog.ret ⟨⟩) Ψ)
  exact (region_entry m d Ψ).trans (h2.trans h1)

end Cert.KernelIdeal.Sc

end
-- ==== Proof.LaunchRun.lean ====
/-
  The run of the whole program and what its final memory says.

  The launch theorem for a SparseCore program, at this program's one vector-subcore call: the tile's obligation is a
  hypothesis; the split of a SparseCore's holdings among its tiles, the launch element, @main on the TensorCore and
  the TensorCore region's step are the modules before this one. The final assertion of each TensorCore holds the six
  argument arrays at their launch contents and the result array at the region's value, which the final memory
  therefore holds.
-/
import proofs.«203293_g38809324487172_cont_8to1_b_1330_62_alg».proof.Proof.Setup
import proofs.«203293_g38809324487172_cont_8to1_b_1330_62_alg».proof.Proof.LaunchSplit
import proofs.«203293_g38809324487172_cont_8to1_b_1330_62_alg».proof.Proof.LaunchElem
import proofs.«203293_g38809324487172_cont_8to1_b_1330_62_alg».proof.Proof.LaunchMain
import proofs.«203293_g38809324487172_cont_8to1_b_1330_62_alg».proof.Proof.LaunchRegion

noncomputable section

namespace Cert.KernelIdeal.Sc

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-- What device `d`'s final assertion says of a final state. -/
def fq (d : Dev nD) (s' : Phys nD τ sig (Elt F)) : Prop :=
  s'.mem.mem ((SparseCore.T d : Thread nD τ).loc main_v7) = outFinal m d
    ∧ s'.mem.mem ((SparseCore.T d : Thread nD τ).loc main_arg0) = m ((SparseCore.T d : Thread nD τ).loc main_arg0)
    ∧ s'.mem.mem ((SparseCore.T d : Thread nD τ).loc main_arg1) = m ((SparseCore.T d : Thread nD τ).loc main_arg1)
    ∧ s'.mem.mem ((SparseCore.T d : Thread nD τ).loc main_arg2) = m ((SparseCore.T d : Thread nD τ).loc main_arg2)
    ∧ s'.mem.mem ((SparseCore.T d : Thread nD τ).loc main_arg3) = m ((SparseCore.T d : Thread nD τ).loc main_arg3)
    ∧ s'.mem.mem ((SparseCore.T d : Thread nD τ).loc main_arg4) = m ((SparseCore.T d : Thread nD τ).loc main_arg4)
    ∧ s'.mem.mem ((SparseCore.T d : Thread nD τ).loc main_arg5) = m ((SparseCore.T d : Thread nD τ).loc main_arg5)

theorem hfin (d : Dev nD) (s' : Phys nD τ sig (Elt F)) : iprop(FIN m (outFinal m) d ∗ SI s') ⊢ (⌜fq m d s'⌝ : sProp 𝕄) := by
  iintro ⟨⟨H0, H1, H2, H3, H4, H5, H7⟩, HSI⟩
  ihave H := (persistent_entails_right (SI_pointsTo_agree (st := s') (ℓ := ((SparseCore.T d : Thread nD τ).loc main_arg0)) (I := Finset.univ) (q := fullShare) (f := m ((SparseCore.T d : Thread nD τ).loc main_arg0)))) $$ [HSI H0]
  · isplitl [HSI] <;> iassumption
  icases H with ⟨%h0, HSI, -⟩
  ihave H := (persistent_entails_right (SI_pointsTo_agree (st := s') (ℓ := ((SparseCore.T d : Thread nD τ).loc main_arg1)) (I := Finset.univ) (q := fullShare) (f := m ((SparseCore.T d : Thread nD τ).loc main_arg1)))) $$ [HSI H1]
  · isplitl [HSI] <;> iassumption
  icases H with ⟨%h1, HSI, -⟩
  ihave H := (persistent_entails_right (SI_pointsTo_agree (st := s') (ℓ := ((SparseCore.T d : Thread nD τ).loc main_arg2)) (I := Finset.univ) (q := fullShare) (f := m ((SparseCore.T d : Thread nD τ).loc main_arg2)))) $$ [HSI H2]
  · isplitl [HSI] <;> iassumption
  icases H with ⟨%h2, HSI, -⟩
  ihave H := (persistent_entails_right (SI_pointsTo_agree (st := s') (ℓ := ((SparseCore.T d : Thread nD τ).loc main_arg3)) (I := Finset.univ) (q := fullShare) (f := m ((SparseCore.T d : Thread nD τ).loc main_arg3)))) $$ [HSI H3]
  · isplitl [HSI] <;> iassumption
  icases H with ⟨%h3, HSI, -⟩
  ihave H := (persistent_entails_right (SI_pointsTo_agree (st := s') (ℓ := ((SparseCore.T d : Thread nD τ).loc main_arg4)) (I := Finset.univ) (q := fullShare) (f := m ((SparseCore.T d : Thread nD τ).loc main_arg4)))) $$ [HSI H4]
  · isplitl [HSI] <;> iassumption
  icases H with ⟨%h4, HSI, -⟩
  ihave H := (persistent_entails_right (SI_pointsTo_agree (st := s') (ℓ := ((SparseCore.T d : Thread nD τ).loc main_arg5)) (I := Finset.univ) (q := fullShare) (f := m ((SparseCore.T d : Thread nD τ).loc main_arg5)))) $$ [HSI H5]
  · isplitl [HSI] <;> iassumption
  icases H with ⟨%h5, HSI, -⟩
  ihave H := (SI_pointsTo_agree (st := s') (ℓ := ((SparseCore.T d : Thread nD τ).loc main_v7)) (I := Finset.univ) (q := fullShare) (f := outFinal m d)) $$ [HSI H7]
  · isplitl [HSI] <;> iassumption
  icases H with %h7
  ipureintro
  exact ⟨funext fun i => h7 i (Finset.mem_univ i), funext fun i => h0 i (Finset.mem_univ i), funext fun i => h1 i (Finset.mem_univ i),
    funext fun i => h2 i (Finset.mem_univ i), funext fun i => h3 i (Finset.mem_univ i), funext fun i => h4 i (Finset.mem_univ i),
    funext fun i => h5 i (Finset.mem_univ i)⟩

/-! ## The program's run -/

/-- The final memory: on every device the result array at the region's value and the six argument arrays unchanged. -/
def QC : PUnit × MemSt nD τ sig (Elt F) → Prop := fun r => ∀ c : Dev nD,
  r.2.mem ((c.tc : Thread nD τ).loc main_v7) = outFinal m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)

theorem run_main [∀ e, Nonempty (Elt F e)] (hpre : PreOK m) (htile : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun d => G (F := F) d) (FIN m (outFinal m)) (u₀ (F := F)) (sep_elim_left.trans (hu₀ m)) (hmain m ρ (regionStep m)) (fq m) (hfin m) (QC m) (fun _ h => h)

end Cert.KernelIdeal.Sc

end
-- ==== Proof.SetupBits.lean ====
/-
  The program as the launch theorem sees it, and what the handshakes of its one SparseCore call carry.

  The call gathers embedding rows. Tile `(c, i)` — SparseCore `c`, vector subcore `i` — is worker `w = 2 i + c` of 32.
  Worker `w` owns row-block `w` of the transposed token array (50 lists of 128 token words: list `j` holds token `j` of
  the 128 batch rows `128 w …`), reads the whole table, and owns rows `128 w … 128 w + 127` of the flat output. It is
  handed exactly those: its block of the token array, a read share of the table, its rows of the output; and hands
  them back with the output rows at the gathered values (`gout`).
-/
import proofs.«203293_g38809324487172_cont_8to1_b_1330_62_alg».proof.Defs
import proofs.«203293_g38809324487172_cont_8to1_b_1330_62_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import Idealize.ShloMosaic.Lib.ValueIdx
import proofs.«203293_g38809324487172_cont_8to1_b_1330_62_alg».proof.Proof.Gen.Kernel
import proofs.«203293_g38809324487172_cont_8to1_b_1330_62_alg».proof.Proof.Gen.Kernel.Skeleton
import proofs.«203293_g38809324487172_cont_8to1_b_1330_62_alg».proof.Proof.Gen.Kernel.Launch

noncomputable section

namespace Cert.Kernel.Sc

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP; infer_instance

/-! ## The launch memory and the arrays -/

variable (m : (ℓ : Loc nD τ sig) → Buf (Elt F) ℓ) (ρ : Dev nD → PrngReg)

/-- The token array as launched, the table, the transposed token array the call reads, the flat output it writes. -/
abbrev aLoc (d : Dev nD) : Loc nD τ sig := (SparseCore.T d).loc main_arg0
abbrev tLoc (d : Dev nD) : Loc nD τ sig := (SparseCore.T d).loc main_arg1
abbrev xLoc (d : Dev nD) : Loc nD τ sig := (SparseCore.T d).loc main_v1
abbrev oLoc (d : Dev nD) : Loc nD τ sig := (SparseCore.T d).loc main_v2

/-- Worker number of tile `(c, i)`. -/
def wid (c : Fin 2) (i : Fin 16) : Fin 32 := ⟨2 * i.val + c.val, by have := c.isLt; have := i.isLt; omega⟩

/-- The transposed token array: entry `(w, j, r)` is token `j` of batch row `128 w + r`. -/
def xt (d : Dev nD) : Buf (Elt F) (xLoc d) := fun (i : S32x50x128.Idx) =>
  m (aLoc d) (ix2 (n0 := 4096) (n1 := 50) ⟨128 * (i 0).val + (i 2).val, by
      have h0 : (i 0).val < 32 := (i 0).isLt
      have h2 : (i 2).val < 128 := (i 2).isLt
      omega⟩ ⟨(i 1).val, show (i 1).val < 50 from (i 1).isLt⟩)

/-- The gathered output: entry `(b, k)` is column `k % 128` of the table row that token `k / 128` of batch row `b` names. -/
def gout (d : Dev nD) : Buf (Elt F) (oLoc d) := fun (i : S4096x6400.Idx) =>
  m (tLoc d) (ix2 (n0 := 100000) (n1 := 128)
    (Spec.row (m (aLoc d) (ix2 (n0 := 4096) (n1 := 50) ⟨(i 0).val, show (i 0).val < 4096 from (i 0).isLt⟩
      (Spec.tok ⟨(i 1).val, show (i 1).val < 6400 from (i 1).isLt⟩))))
    (Spec.col ⟨(i 1).val, show (i 1).val < 6400 from (i 1).isLt⟩))

/-- What the proofs ask of the launch memory: every token word, read signed, lies in [0, 99999] (the input domain's conjunct on
    the token array). -/
def PreOK : Prop := ∀ d : Dev nD, Spec.InRange (m (aLoc d))

theorem xdiv : 32 ∣ S32x50x128.size 0 := ⟨1, rfl⟩
theorem odiv : 32 ∣ S4096x6400.size 0 := ⟨128, rfl⟩
/-- Worker `w`'s block of the transposed token array and its rows of the output. -/
abbrev xBlk (w : Fin 32) : Rect S32x50x128 := Rect.part (s := S32x50x128) (a₀ := 0) xdiv w
abbrev oBlk (w : Fin 32) : Rect S4096x6400 := Rect.part (s := S4096x6400) (a₀ := 0) odiv w
abbrev xSet (w : Fin 32) : Finset S32x50x128.Idx := (xBlk w).set
abbrev oSet (w : Fin 32) : Finset S4096x6400.Idx := (oBlk w).set

/-- Worker `w`'s read share of the table: one of 32 tokens split off the full share. -/
abbrev tq (w : Fin 32) : PosShare TreeShare := Transfers.shareTok fullShare 32 w

variable [FloatOps F]

/-! ## What the handshakes carry -/

abbrev xPts (d : Dev nD) : sProp 𝕄 := xLoc d ↦{fullShare} xt m d
abbrev tPts (d : Dev nD) : sProp 𝕄 := tLoc d ↦{fullShare} m (tLoc d)
abbrev oPts (d : Dev nD) (f : Buf (Elt F) (oLoc d)) : sProp 𝕄 := oLoc d ↦{fullShare} f
abbrev xBlkPts (d : Dev nD) (w : Fin 32) : sProp 𝕄 := xLoc d ↦[xSet w]{fullShare} xt m d
abbrev tTokPts (d : Dev nD) (w : Fin 32) : sProp 𝕄 := tLoc d ↦{tq w} m (tLoc d)
abbrev oBlkPts (d : Dev nD) (w : Fin 32) (f : Buf (Elt F) (oLoc d)) : sProp 𝕄 := oLoc d ↦[oSet w]{fullShare} f

/-- What a task is handed and what it hands back. -/
def goP (d : Dev nD) (w : Fin 32) : sProp 𝕄 := iprop(xBlkPts m d w ∗ tTokPts m d w ∗ oBlkPts d w (m (oLoc d)))
def tdP (d : Dev nD) (w : Fin 32) : sProp 𝕄 := iprop(xBlkPts m d w ∗ tTokPts m d w ∗ oBlkPts d w (gout m d))

/-- The one call: a SparseCore is handed its sixteen tasks' holdings at once, and hands them back so. -/
def P : (K (F := F)).Pay (nD := nD) (Val := Elt F) (Name := ℕ) (U := UU) where
  st := fun q d c => match q with | 0 => bigSep Finset.univ fun i : Fin 16 => goP m d (wid (Fin.cast nCore_zero c) i)
  dn := fun q d c => match q with | 0 => bigSep Finset.univ fun i : Fin 16 => tdP m d (wid (Fin.cast nCore_zero c) i)
  go := fun q d c i => match q with | 0 => goP m d (wid (Fin.cast nCore_zero c) (Fin.cast nSub_zero i))
  td := fun q d c i => match q with | 0 => tdP m d (wid (Fin.cast nCore_zero c) (Fin.cast nSub_zero i))
  x := fun _ _ => iprop(emp)

theorem P_st (d : Dev nD) (c) : (P (F := F) m).st 0 d c = bigSep Finset.univ fun i : Fin 16 => goP m d (wid (Fin.cast nCore_zero c) i) := rfl
theorem P_dn (d : Dev nD) (c) : (P (F := F) m).dn 0 d c = bigSep Finset.univ fun i : Fin 16 => tdP m d (wid (Fin.cast nCore_zero c) i) := rfl
theorem P_go (d : Dev nD) (c) (i) : (P (F := F) m).go 0 d c i = goP m d (wid (Fin.cast nCore_zero c) (Fin.cast nSub_zero i)) := rfl
theorem P_td (d : Dev nD) (c) (i) : (P (F := F) m).td 0 d c i = tdP m d (wid (Fin.cast nCore_zero c) (Fin.cast nSub_zero i)) := rfl

instance goP_storable (d : Dev nD) (w : Fin 32) : BI.Storable (upEmb : UEmb _ 𝕄) (goP m d w) := by unfold goP; infer_instance
instance tdP_storable (d : Dev nD) (w : Fin 32) : BI.Storable (upEmb : UEmb _ 𝕄) (tdP m d w) := by unfold tdP; infer_instance

instance P_storable : (P (F := F) m).IsStorable where
  st q d c := match q with | 0 => by rw [P_st]; infer_instance
  dn q d c := match q with | 0 => by rw [P_dn]; infer_instance
  go q d c i := match q with | 0 => by rw [P_go]; infer_instance
  td q d c i := match q with | 0 => by rw [P_td]; infer_instance

end Cert.Kernel.Sc

end
-- ==== Proof.LaunchSplitBits.lean ====
/-
  How the call's arrays split among the 32 workers and join again.

  Worker `w = wid c i` of SparseCore `c`, vector subcore `i`: `wid` is a bijection of the 2 × 16 tiles with the 32
  workers, so a product over the workers is a product over the SparseCores of a product over their tiles. The
  transposed token array and the output are the disjoint unions of their 32 row-blocks along axis 0; the table goes
  out as 32 read shares split off the full share, the remainder kept aside. Every output block comes back stated at
  the ONE function `gout`, so the blocks join at `gout` by the union of their index sets.
-/
import proofs.«203293_g38809324487172_cont_8to1_b_1330_62_alg».proof.Proof.SetupBits

noncomputable section

namespace Cert.Kernel.Sc

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ)

/-! ## Workers as tiles -/

/-- `wid` as a bijection: worker `w` is tile `(w % 2, w / 2)`. -/
def widE : Fin 2 × Fin 16 ≃ Fin 32 where
  toFun p := wid p.1 p.2
  invFun w := (⟨w.val % 2, Nat.mod_lt _ (by norm_num)⟩, ⟨w.val / 2, by have := w.isLt; omega⟩)
  left_inv p := by
    rcases p with ⟨c, i⟩
    exact Prod.ext (Fin.ext (by show (2 * i.val + c.val) % 2 = c.val; have := c.isLt; omega))
      (Fin.ext (by show (2 * i.val + c.val) / 2 = i.val; have := c.isLt; omega))
  right_inv w := Fin.ext (by show 2 * (w.val / 2) + w.val % 2 = w.val; omega)

/-- A product over the 32 workers is one over the SparseCores of one over their tiles. -/
theorem bigSep_wid (Φ : Fin 32 → sProp 𝕄) :
    bigSep Finset.univ Φ = bigSep Finset.univ fun c : Fin 2 => bigSep Finset.univ fun i : Fin 16 => Φ (wid c i) := by
  rw [bigSep_univ_equiv widE Φ, bigSep_univ_prod]; rfl

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-! ## The arrays as their 32 blocks -/

theorem x_blocks (d : Dev nD) (f : Buf (Elt F) (xLoc d)) :
    (xLoc d ↦{fullShare} f : sProp 𝕄) = bigSep Finset.univ fun w : Fin 32 => xLoc d ↦[xSet w]{fullShare} f := by
  rw [← pointsTo_biUnion Finset.univ (ℓ := xLoc d) xSet (fun _ _ _ _ h => Rect.part_disjoint xdiv h), Rect.biUnion_part xdiv]; try rfl

theorem o_blocks (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet (fun _ _ _ _ h => Rect.part_disjoint odiv h), Rect.biUnion_part odiv]; try rfl

/-- The table's share kept aside while the 32 read shares are out. -/
abbrev tRest (d : Dev nD) : sProp 𝕄 := tLoc d ↦{Transfers.shareDrop fullShare 32} m (tLoc d)

variable [FloatOps F]

theorem goP_all (d : Dev nD) :
    (bigSep Finset.univ fun w : Fin 32 => goP m d w)
      = iprop((bigSep Finset.univ fun w : Fin 32 => xBlkPts m d w) ∗ (bigSep Finset.univ fun w : Fin 32 => tTokPts m d w)
          ∗ bigSep Finset.univ fun w : Fin 32 => oBlkPts d w (m (oLoc d))) := by
  unfold goP; rw [bigSep_sep', bigSep_sep']

theorem tdP_all (d : Dev nD) :
    (bigSep Finset.univ fun w : Fin 32 => tdP m d w)
      = iprop((bigSep Finset.univ fun w : Fin 32 => xBlkPts m d w) ∗ (bigSep Finset.univ fun w : Fin 32 => tTokPts m d w)
          ∗ bigSep Finset.univ fun w : Fin 32 => oBlkPts d w (gout m d)) := by
  unfold tdP; rw [bigSep_sep', bigSep_sep']

/-- The three arrays whole are the table's remainder and the 32 workers' holdings, -/
theorem arrays_split (d : Dev nD) :
    iprop(xPts m d ∗ tPts m d ∗ oPts d (m (oLoc d))) ⊢ iprop(tRest m d ∗ bigSep Finset.univ fun w : Fin 32 => goP m d w) := by
  rw [goP_all]
  unfold xPts tPts oPts tRest xBlkPts tTokPts oBlkPts
  rw [x_blocks, o_blocks]
  iintro ⟨Hx, Ht, Ho⟩
  ihave Ht' := (Transfers.pointsTo_toks_split fullShare 32) $$ Ht
  icases Ht' with ⟨Hr, Htk⟩
  isplitl [Hr]; · iexact Hr
  isplitl [Hx]; · iexact Hx
  isplitl [Htk]; · iexact Htk
  iexact Ho

/-- and the holdings handed back, with the remainder, are the arrays whole, the output at the gathered values. -/
theorem arrays_join (d : Dev nD) :
    iprop(tRest m d ∗ bigSep Finset.univ fun w : Fin 32 => tdP m d w) ⊢ iprop(xPts m d ∗ tPts m d ∗ oPts d (gout m d)) := by
  rw [tdP_all]
  unfold xPts tPts oPts tRest xBlkPts tTokPts oBlkPts
  rw [x_blocks, o_blocks]
  iintro ⟨Hr, Hx, Htk, Ho⟩
  isplitl [Hx]; · iexact Hx
  isplitl [Hr Htk]
  · iapply (Transfers.pointsTo_toks_join fullShare 32)
    isplitl [Hr] <;> iassumption
  iexact Ho

/-! ## The same over the 2 × 16 tiles, as the call takes and returns them -/

theorem st_all (d : Dev nD) :
    (bigSep Finset.univ fun c : Fin ((K (F := F)).nCore 0) => (P m).st 0 d c) = bigSep Finset.univ fun w : Fin 32 => goP m d w := by
  simp only [P_st]
  rw [bigSep_cores (F := F) (fun c => bigSep Finset.univ fun i : Fin 16 => goP m d (wid c i)), ← bigSep_wid (fun w => goP m d w)]

theorem dn_all (d : Dev nD) :
    (bigSep Finset.univ fun c : Fin ((K (F := F)).nCore 0) => (P m).dn 0 d c) = bigSep Finset.univ fun w : Fin 32 => tdP m d w := by
  simp only [P_dn]
  rw [bigSep_cores (F := F) (fun c => bigSep Finset.univ fun i : Fin 16 => tdP m d (wid c i)), ← bigSep_wid (fun w => tdP m d w)]

/-- What @main hands the call for the two SparseCores, the table's remainder kept aside, -/
theorem st0_split (d : Dev nD) :
    iprop(xPts m d ∗ tPts m d ∗ oPts d (m (oLoc d)))
      ⊢ iprop(tRest m d ∗ bigSep Finset.univ fun c : Fin ((K (F := F)).nCore 0) => (P m).st 0 d c) := by
  rw [st_all]; exact arrays_split m d

/-- and what it gets back. -/
theorem dn0_join (d : Dev nD) :
    iprop(tRest m d ∗ bigSep Finset.univ fun c : Fin ((K (F := F)).nCore 0) => (P m).dn 0 d c)
      ⊢ iprop(xPts m d ∗ tPts m d ∗ oPts d (gout m d)) := by
  rw [dn_all]; exact arrays_join m d

/-- The same two entailments spelt over the tiles. -/
theorem tiles_split (d : Dev nD) :
    iprop(xPts m d ∗ tPts m d ∗ oPts d (m (oLoc d)))
      ⊢ iprop(tRest m d ∗ bigSep Finset.univ fun c : Fin 2 => bigSep Finset.univ fun i : Fin 16 => goP m d (wid c i)) := by
  rw [← bigSep_wid (fun w => goP m d w)]; exact arrays_split m d

theorem tiles_join (d : Dev nD) :
    iprop(tRest m d ∗ bigSep Finset.univ fun c : Fin 2 => bigSep Finset.univ fun i : Fin 16 => tdP m d (wid c i))
      ⊢ iprop(xPts m d ∗ tPts m d ∗ oPts d (gout m d)) := by
  rw [← bigSep_wid (fun w => tdP m d w)]; exact arrays_join m d

/-! ## A SparseCore's holdings among its sixteen tiles -/

/-- A SparseCore is handed its sixteen tasks' holdings at once and hands them back so: the split is a re-indexing. -/
theorem vecSplit : (K (F := F)).VecSplit' (P m) 0 := by
  intro d c
  simp only [P_go, P_td]
  rw [P_st, P_dn, bigSep_tasks (F := F) (fun i => goP m d (wid (Fin.cast nCore_zero c) i)),
    bigSep_tasks (F := F) (fun i => tdP m d (wid (Fin.cast nCore_zero c) i))]
  iintro H; imodintro
  isplitl [H]; · iexact H
  iintro H; iexact H

end Cert.Kernel.Sc

end
-- ==== Proof.LaunchElemBits.lean ====
/-
  The launch element of the ghost state.

  Three components side by side: the handshakes' rounds at their cells and duty tokens, the TensorCore pipeline's
  rounds at its staging cells and the tokens of the transfers its loop issues, and the transfers' counters at their
  unit. The first is what the launch theorem asks; the second funds, per device, the staging cells' ghost state and
  the loop's duty tokens, which @main holds until it enters the TensorCore region; the kernel's proof consumes nothing
  of the launch's.
-/
import proofs.«203293_g38809324487172_cont_8to1_b_1330_62_alg».proof.Proof.SetupBits

noncomputable section

namespace Cert.Kernel.Sc

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ)

/-- The launch element. -/
def u₀ : UU :=
  (initOf (K (F := F)).hsCells (K (F := F)).hsToks,
    (initOf (Pipeline.cells (nD := nD) (τ := τ) cfgs cellOf_inj) (Pipeline.launchToks (nD := nD) (τ := τ) cfgs cellOf_inj), 1))

/-- What @main starts from on device `d` beyond what the launch deals it: the TensorCore pipeline's staging cells'
    ghost state and its loop's duty tokens. -/
abbrev G (d : Dev nD) : sProp 𝕄 :=
  iprop(Pipeline.cellsGhost (nD := nD) (τ := τ) cfgs (EP (F := F)) 0 d ∗ Pipeline.toksInit (nD := nD) (τ := τ) cfgs (EP (F := F)) 0 d)

/-- The element's three components, the counters dropped. -/
theorem ownU_split (a : UH) (b : UP) (c : Counters) :
    (ownU ((a, (b, c)) : UU) : sProp 𝕄) ⊢ iprop(BI.own (EH a) ∗ BI.own ((EP (F := F)) b)) := by
  unfold EP
  iintro Hu
  ihave H := (ownU_pair _ _) $$ Hu
  icases H with ⟨HH, HR⟩
  ihave HR' := (own_pair_emb (embR : Emb (UP × Counters) 𝕄) _ _) $$ HR
  icases HR' with ⟨HP, -⟩
  isplitl [HH]; · iexact HH
  iexact HP

/-- The pipeline's funded ghost state, regrouped per device. -/
theorem ghost_deal :
    iprop((bigSep Finset.univ fun c : Dev nD => bigSep Finset.univ fun p : Fin 1 => Pipeline.cellsGhost (nD := nD) (τ := τ) cfgs (EP (F := F)) p c)
        ∗ (bigSep Finset.univ fun c : Dev nD => bigSep Finset.univ fun p : Fin 1 => (Pipeline.toksInit (nD := nD) (τ := τ) cfgs (EP (F := F)) p c : sProp 𝕄)))
      ⊢ bigSep Finset.univ fun d : Dev nD => G (F := F) d := by
  rw [bigSep_sep']
  simp only [bigSep_univ_of_subsingleton (0 : Fin 1)]
  exact .rfl

theorem bigSep_emp' {I : Type} (s : Finset I) : (bigSep s fun _ => iprop(emp)) = (iprop(emp) : sProp 𝕄) := bigSep_emp_const s

variable [FloatOps F]

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_split _ _ _) $$ Hu
  icases H with ⟨HH, HP⟩
  imod (Pipeline.fund_ghost (nD := nD) (τ := τ) cfgs (EP (F := F)) cellOf_inj) $$ HP with ⟨Hg, Ht⟩
  imodintro
  isplitl [HH]; · iexact HH
  isplitl [Hg Ht]
  · iapply (ghost_deal (F := F))
    isplitl [Hg] <;> iassumption
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Kernel.Sc

end
-- ==== Proof.LaunchMainBits.lean ====
/-
  @main on the TensorCore.

  The reshape and the transpose bring the token array to the transposed form the SparseCore call reads; the call is
  handed the transposed array, the table and the flat output split among the 32 workers and returns them with the
  output at the gathered values; four host operations prepare the dense layers' operands; the TensorCore region
  computes the result from them. What is kept for the claim: the six argument arrays at their launch contents and the
  result array at the region's value.
-/
import Idealize.ShloMosaic.Lib.ValueLayout
import proofs.«203293_g38809324487172_cont_8to1_b_1330_62_alg».proof.Proof.SetupBits
import proofs.«203293_g38809324487172_cont_8to1_b_1330_62_alg».proof.Proof.LaunchSplitBits
import proofs.«203293_g38809324487172_cont_8to1_b_1330_62_alg».proof.Proof.LaunchElemBits

noncomputable section

namespace Cert.Kernel.Sc

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The TensorCore's arrays -/

/-- Array `b` of device `d`'s TensorCore whole at contents `f`. -/
abbrev pl (d : Dev nD) (b : Ref sig .tc) (f : Buf (Elt F) ((SparseCore.T d : Thread nD τ).loc b)) : sProp 𝕄 :=
  ((SparseCore.T d : Thread nD τ).loc b) ↦{fullShare} f

theorem unscopedBufs_eq (d : Dev nD) (W : (b : Ref sig .tc) → Buf (Elt F) ((d.tc : Thread nD τ).loc b)) :
    (unscopedBufs d W : sProp 𝕄)
      = iprop(pl d main_arg0 (W main_arg0) ∗ pl d main_arg1 (W main_arg1) ∗ pl d main_arg2 (W main_arg2) ∗ pl d main_arg3 (W main_arg3)
          ∗ pl d main_arg4 (W main_arg4) ∗ pl d main_arg5 (W main_arg5) ∗ pl d main_v0 (W main_v0) ∗ pl d main_v1 (W main_v1)
          ∗ pl d main_v2 (W main_v2) ∗ pl d main_v3 (W main_v3) ∗ pl d main_v4 (W main_v4) ∗ pl d main_v5 (W main_v5)
          ∗ pl d main_v6 (W main_v6) ∗ pl d main_v7 (W main_v7)) := by
  unfold unscopedBufs
  rw [show (Finset.univ.filter fun b : Ref sig .tc => ¬ b.isScoped)
      = {main_arg0, main_arg1, main_arg2, main_arg3, main_arg4, main_arg5, main_v0, main_v1, main_v2, main_v3, main_v4, main_v5, main_v6, main_v7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- Two arrays held for an operation that reads one and writes the other. -/
theorem held_two (d : Dev nD) {x y : Ref sig .tc} (hxy : x ≠ y) (V : Valuation τ sig (Elt F)) :
    (held (SparseCore.T d) ({Proc.devRef .tc x, Proc.devRef .tc y} : Finset (DevRef τ sig)) V : sProp 𝕄)
      = iprop(pl d x (V (Proc.devRef .tc x)) ∗ pl d y (V (Proc.devRef .tc y))) := by
  unfold held
  rw [SparseCore.bigSep_insert' (by rw [Finset.mem_singleton]; exact StableHlo.devRef_ne_of_ne hxy), bigSep_singleton]

/-- The launch valuation. -/
def V0 (d : Dev nD) : Valuation τ sig (Elt F) := fun b => m (d, b)

/-! ## The token array, reshaped and transposed -/

/-- The token array as 32 blocks of 128 batch rows. -/
def t0 (d : Dev nD) : Buf (Elt F) ((SparseCore.T d : Thread nD τ).loc main_v0) :=
  fun i => shapeCast S32x128x50 (m (aLoc d)) shapeCasts_S4096x50_S32x128x50 i

/-- Each block transposed is the transposed token array. -/
theorem transpose_t0 (d : Dev nD) :
    transpose S32x50x128 [0, 2, 1] (t0 m d) transposes_S32x128x50_S32x50x128_0_2_1 = xt m d := by
  funext i
  obtain ⟨k, j, l, rfl⟩ : ∃ (k : Fin 32) (j : Fin 50) (l : Fin 128), i = ix3 k j l := ⟨i 0, i 1, i 2, eq_ix3 i⟩
  rw [transpose_ix3_021_apply]
  unfold t0 xt
  refine shapeCast_apply (s := S4096x50) (t := S32x128x50) (m (aLoc d)) shapeCasts_S4096x50_S32x128x50 _ _ ?_
  rw [Shape.rowMajor_val_two, Shape.rowMajor_val_three]
  show (128 * k.val + l.val) * 50 + j.val = (k.val * 128 + l.val) * 50 + j.val
  rw [Nat.mul_comm 128]

/-! ## The host operations -/

variable [FloatOps F]

abbrev op1 : HloOp τ sig (Elt F) := StableHlo.reshape main_arg0 main_v0 rfl shapeCasts_S4096x50_S32x128x50
abbrev op2 : HloOp τ sig (Elt F) :=
  StableHlo.unary main_v0 main_v1 ((transpose S32x50x128 [0, 2, 1] · transposes_S32x128x50_S32x50x128_0_2_1) : (⟨S32x128x50, .i32⟩ : BufTy).Contents (Elt F) → (⟨S32x50x128, .i32⟩ : BufTy).Contents (Elt F))
abbrev op3 : HloOp τ sig (Elt F) :=
  StableHlo.unary main_arg2 main_v3 ((truncf .bf16 · bitsLt_bf16_f32) : (⟨S6400x2048, .f32⟩ : BufTy).Contents (Elt F) → (⟨S6400x2048, .bf16⟩ : BufTy).Contents (Elt F))
abbrev op4 : HloOp τ sig (Elt F) :=
  StableHlo.unary main_arg4 main_v4 ((truncf .bf16 · bitsLt_bf16_f32) : (⟨S2048x1000, .f32⟩ : BufTy).Contents (Elt F) → (⟨S2048x1000, .bf16⟩ : BufTy).Contents (Elt F))
abbrev op5 : HloOp τ sig (Elt F) := StableHlo.reshape main_arg3 main_v5 rfl shapeCasts_S2048_S1x2048
abbrev op6 : HloOp τ sig (Elt F) := StableHlo.reshape main_arg5 main_v6 rfl shapeCasts_S1000_S1x1000

/-- The dense layers' operands as the host operations leave them. -/
def w3 (d : Dev nD) : Buf (Elt F) ((SparseCore.T d : Thread nD τ).loc main_v3) := truncf .bf16 (m ((SparseCore.T d : Thread nD τ).loc main_arg2)) bitsLt_bf16_f32
def w4 (d : Dev nD) : Buf (Elt F) ((SparseCore.T d : Thread nD τ).loc main_v4) := truncf .bf16 (m ((SparseCore.T d : Thread nD τ).loc main_arg4)) bitsLt_bf16_f32
def w5 (d : Dev nD) : Buf (Elt F) ((SparseCore.T d : Thread nD τ).loc main_v5) :=
  fun i => shapeCast S1x2048 (m ((SparseCore.T d : Thread nD τ).loc main_arg3)) shapeCasts_S2048_S1x2048 i
def w6 (d : Dev nD) : Buf (Elt F) ((SparseCore.T d : Thread nD τ).loc main_v6) :=
  fun i => shapeCast S1x1000 (m ((SparseCore.T d : Thread nD τ).loc main_arg5)) shapeCasts_S1000_S1x1000 i

/-- The valuation after the reshape. -/
def V1 (d : Dev nD) : Valuation τ sig (Elt F) := (op1 (F := F)).result (V0 m d)

theorem V1_v0 (d : Dev nD) : V1 m d (Proc.devRef .tc main_v0) = t0 m d := by
  unfold V1; rw [StableHlo.reshape_result]; rfl
theorem V1_v1 (d : Dev nD) : V1 m d (Proc.devRef .tc main_v1) = m ((SparseCore.T d : Thread nD τ).loc main_v1) := by
  unfold V1; rw [StableHlo.reshape_result_ne (h := show main_v1 ≠ main_v0 by decide)]; rfl

theorem held1_pre (d : Dev nD) :
    (held (SparseCore.T d) (op1 (F := F)).bufs (V0 m d) : sProp 𝕄)
      = iprop(pl d main_arg0 (m (aLoc d)) ∗ pl d main_v0 (m ((SparseCore.T d : Thread nD τ).loc main_v0))) := by
  rw [show (op1 (F := F)).bufs = {Proc.devRef .tc main_arg0, Proc.devRef .tc main_v0} from rfl, held_two d (by decide)]; rfl
theorem held1_post (d : Dev nD) :
    (held (SparseCore.T d) (op1 (F := F)).bufs ((op1 (F := F)).result (V0 m d)) : sProp 𝕄)
      = iprop(pl d main_arg0 (m (aLoc d)) ∗ pl d main_v0 (t0 m d)) := by
  rw [show (op1 (F := F)).bufs = {Proc.devRef .tc main_arg0, Proc.devRef .tc main_v0} from rfl, held_two d (by decide),
    StableHlo.reshape_result_ne (h := show main_arg0 ≠ main_v0 by decide), show (op1 (F := F)).result (V0 m d) = V1 m d from rfl, V1_v0]; rfl

theorem held2_pre (d : Dev nD) :
    (held (SparseCore.T d) (op2 (F := F)).bufs (V1 m d) : sProp 𝕄)
      = iprop(pl d main_v0 (t0 m d) ∗ pl d main_v1 (m ((SparseCore.T d : Thread nD τ).loc main_v1))) := by
  rw [show (op2 (F := F)).bufs = {Proc.devRef .tc main_v0, Proc.devRef .tc main_v1} from rfl, held_two d (by decide), V1_v0, V1_v1]
theorem held2_post (d : Dev nD) :
    (held (SparseCore.T d) (op2 (F := F)).bufs ((op2 (F := F)).result (V1 m d)) : sProp 𝕄)
      = iprop(pl d main_v0 (t0 m d) ∗ pl d main_v1 (xt m d)) := by
  rw [show (op2 (F := F)).bufs = {Proc.devRef .tc main_v0, Proc.devRef .tc main_v1} from rfl, held_two d (by decide),
    StableHlo.unary_result_ne (h := show main_v0 ≠ main_v1 by decide), StableHlo.unary_result, V1_v0, transpose_t0]

theorem held3_pre (d : Dev nD) :
    (held (SparseCore.T d) (op3 (F := F)).bufs (V0 m d) : sProp 𝕄)
      = iprop(pl d main_arg2 (m ((SparseCore.T d : Thread nD τ).loc main_arg2)) ∗ pl d main_v3 (m ((SparseCore.T d : Thread nD τ).loc main_v3))) := by
  rw [show (op3 (F := F)).bufs = {Proc.devRef .tc main_arg2, Proc.devRef .tc main_v3} from rfl, held_two d (by decide)]; rfl
theorem held3_post (d : Dev nD) :
    (held (SparseCore.T d) (op3 (F := F)).bufs ((op3 (F := F)).result (V0 m d)) : sProp 𝕄)
      = iprop(pl d main_arg2 (m ((SparseCore.T d : Thread nD τ).loc main_arg2)) ∗ pl d main_v3 (w3 m d)) := by
  rw [show (op3 (F := F)).bufs = {Proc.devRef .tc main_arg2, Proc.devRef .tc main_v3} from rfl, held_two d (by decide),
    StableHlo.unary_result_ne (h := show main_arg2 ≠ main_v3 by decide), StableHlo.unary_result]; rfl

theorem held4_pre (d : Dev nD) :
    (held (SparseCore.T d) (op4 (F := F)).bufs (V0 m d) : sProp 𝕄)
      = iprop(pl d main_arg4 (m ((SparseCore.T d : Thread nD τ).loc main_arg4)) ∗ pl d main_v4 (m ((SparseCore.T d : Thread nD τ).loc main_v4))) := by
  rw [show (op4 (F := F)).bufs = {Proc.devRef .tc main_arg4, Proc.devRef .tc main_v4} from rfl, held_two d (by decide)]; rfl
theorem held4_post (d : Dev nD) :
    (held (SparseCore.T d) (op4 (F := F)).bufs ((op4 (F := F)).result (V0 m d)) : sProp 𝕄)
      = iprop(pl d main_arg4 (m ((SparseCore.T d : Thread nD τ).loc main_arg4)) ∗ pl d main_v4 (w4 m d)) := by
  rw [show (op4 (F := F)).bufs = {Proc.devRef .tc main_arg4, Proc.devRef .tc main_v4} from rfl, held_two d (by decide),
    StableHlo.unary_result_ne (h := show main_arg4 ≠ main_v4 by decide), StableHlo.unary_result]; rfl

theorem held5_pre (d : Dev nD) :
    (held (SparseCore.T d) (op5 (F := F)).bufs (V0 m d) : sProp 𝕄)
      = iprop(pl d main_arg3 (m ((SparseCore.T d : Thread nD τ).loc main_arg3)) ∗ pl d main_v5 (m ((SparseCore.T d : Thread nD τ).loc main_v5))) := by
  rw [show (op5 (F := F)).bufs = {Proc.devRef .tc main_arg3, Proc.devRef .tc main_v5} from rfl, held_two d (by decide)]; rfl
theorem held5_post (d : Dev nD) :
    (held (SparseCore.T d) (op5 (F := F)).bufs ((op5 (F := F)).result (V0 m d)) : sProp 𝕄)
      = iprop(pl d main_arg3 (m ((SparseCore.T d : Thread nD τ).loc main_arg3)) ∗ pl d main_v5 (w5 m d)) := by
  rw [show (op5 (F := F)).bufs = {Proc.devRef .tc main_arg3, Proc.devRef .tc main_v5} from rfl, held_two d (by decide),
    StableHlo.reshape_result_ne (h := show main_arg3 ≠ main_v5 by decide), StableHlo.reshape_result]; rfl

theorem held6_pre (d : Dev nD) :
    (held (SparseCore.T d) (op6 (F := F)).bufs (V0 m d) : sProp 𝕄)
      = iprop(pl d main_arg5 (m ((SparseCore.T d : Thread nD τ).loc main_arg5)) ∗ pl d main_v6 (m ((SparseCore.T d : Thread nD τ).loc main_v6))) := by
  rw [show (op6 (F := F)).bufs = {Proc.devRef .tc main_arg5, Proc.devRef .tc main_v6} from rfl, held_two d (by decide)]; rfl
theorem held6_post (d : Dev nD) :
    (held (SparseCore.T d) (op6 (F := F)).bufs ((op6 (F := F)).result (V0 m d)) : sProp 𝕄)
      = iprop(pl d main_arg5 (m ((SparseCore.T d : Thread nD τ).loc main_arg5)) ∗ pl d main_v6 (w6 m d)) := by
  rw [show (op6 (F := F)).bufs = {Proc.devRef .tc main_arg5, Proc.devRef .tc main_v6} from rfl, held_two d (by decide),
    StableHlo.reshape_result_ne (h := show main_arg5 ≠ main_v6 by decide), StableHlo.reshape_result]; rfl

/-! ## The TensorCore's handshake state around the region -/

/-- With one call every level is at most 7: any record of waits sits at or below a bound from 7 on. -/
theorem wbelow_all (thr : Thread nD τ) (W : Waits sig (HIx 1)) (b : ℕ) (hb : 7 ≤ b) : (K (F := F)).WBelow thr W b := by
  rintro ⟨sm, ι⟩ _
  cases ι with
  | none => exact Nat.zero_le _
  | some q =>
    have h1 := (K (F := F)).lev_some_le (nD := nD) (thr, sm) q
    have h2 := q.isLt
    show (K (F := F)).lev (thr, sm) (some q) ≤ b
    omega

/-- After its one call the TensorCore owes nothing; its `owes` may be taken out of its state and put back with any
    record of waits. -/
theorem tcSt_open (d : Dev nD) (n : ℕ) (hn : n = 1) :
    ((K (F := F)).tcSt EH d n : sProp 𝕄)
      ⊢ iprop((∃ W, owes (SparseCore.T d : Thread nD τ) (0 : CellTallies nD τ sig (HIx 1)) W)
        ∗ ((∃ W, owes (SparseCore.T d : Thread nD τ) (0 : CellTallies nD τ sig (HIx 1)) W) -∗ (K (F := F)).tcSt EH d 1)) := by
  subst hn
  unfold SparseCore.Cfg.tcSt
  rw [(K (F := F)).Otc_end d (le_refl 1)]
  iintro ⟨⟨%W, %_hW, HO⟩, Hrest⟩
  isplitl [HO]; · iexists W; iexact HO
  iintro ⟨%W', HO'⟩
  isplitl [HO']
  · iexists W'; isplitr
    · ipureintro; exact wbelow_all _ _ _ (by norm_num)
    · iexact HO'
  iexact Hrest

/-! ## @main -/

/-- The TensorCore region's step as @main meets it: from the level facts, the boundary, the pipeline's ghost state, the
    TensorCore's `owes` (nothing owed), the five operand arrays and the result array at some contents, the region's
    call runs to the boundary, the `owes`, the operands unchanged and the result array at `outF d`. -/
def RegionStep (outF : (d : Dev nD) → Buf (Elt F) ((SparseCore.T d : Thread nD τ).loc main_v7)) : Prop :=
  ∀ (d : Dev nD) (Ψ : PUnit → sProp 𝕄),
    iprop(levAts (K (F := F)).L (K (F := F)).lev ∗ boundary (SparseCore.T d : Thread nD τ) ∗ G (F := F) d
        ∗ (∃ W, owes (SparseCore.T d : Thread nD τ) (0 : CellTallies nD τ sig (HIx 1)) W)
        ∗ pl d main_v2 (gout m d) ∗ pl d main_v3 (w3 m d) ∗ pl d main_v5 (w5 m d) ∗ pl d main_v4 (w4 m d) ∗ pl d main_v6 (w6 m d)
        ∗ pl d main_v7 (m ((SparseCore.T d : Thread nD τ).loc main_v7))
        ∗ ((boundary (SparseCore.T d : Thread nD τ) ∗ (∃ W, owes (SparseCore.T d : Thread nD τ) (0 : CellTallies nD τ sig (HIx 1)) W)
            ∗ pl d main_v2 (gout m d) ∗ pl d main_v3 (w3 m d) ∗ pl d main_v5 (w5 m d) ∗ pl d main_v4 (w4 m d) ∗ pl d main_v6 (w6 m d)
            ∗ pl d main_v7 (outF d)) -∗ Ψ ⟨⟩))
      ⊢ wp frame (wpE ((K (F := F)).defs (D (F := F))) 𝒱 (SparseCore.T d) none) Set.univ
          (Prog.lift (.customCall (SparseCore.inner (Pipeline.entry 0)) ())) Ψ

/-- What @main leaves the claim: the six argument arrays at their launch contents, the result array at `outF d`. -/
abbrev FIN (outF : (d : Dev nD) → Buf (Elt F) ((SparseCore.T d : Thread nD τ).loc main_v7)) (d : Dev nD) : sProp 𝕄 :=
  iprop(pl d main_arg0 (m ((SparseCore.T d : Thread nD τ).loc main_arg0)) ∗ pl d main_arg1 (m ((SparseCore.T d : Thread nD τ).loc main_arg1))
    ∗ pl d main_arg2 (m ((SparseCore.T d : Thread nD τ).loc main_arg2)) ∗ pl d main_arg3 (m ((SparseCore.T d : Thread nD τ).loc main_arg3))
    ∗ pl d main_arg4 (m ((SparseCore.T d : Thread nD τ).loc main_arg4)) ∗ pl d main_arg5 (m ((SparseCore.T d : Thread nD τ).loc main_arg5))
    ∗ pl d main_v7 (outF d))

/-- @main on device `d`'s TensorCore. -/
theorem hmain {outF : (d : Dev nD) → Buf (Elt F) ((SparseCore.T d : Thread nD τ).loc main_v7)} (hreg : RegionStep m outF)
    (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m outF d) := by
  unfold SparseCore.Cfg.tcRes
  rw [unscopedBufs_eq]
  simp only [main, wp_bind, wp_pure]
  iintro ⟨#Hctx, Hst, ⟨Hb, ⟨Ha0, Ha1, Ha2, Ha3, Ha4, Ha5, Hv0, Hv1, Hv2, Hv3, Hv4, Hv5, Hv6, Hv7⟩, -, -⟩, HG⟩
  -- the reshape of the token array
  iapply (wp_hlo_within 𝒱 (SparseCore.T d) none Set.univ (op := op1) (S := (op1 (F := F)).bufs) (Finset.Subset.refl _) (V := V0 m d)) $$ [Hb Ha0 Hv0]
  · isplitl [Hb]; · iexact Hb
    rw [held1_pre]
    isplitl [Ha0]; · iexact Ha0
    iexact Hv0
  iintro ⟨Hb, Hh⟩
  ihave Hh' := (Entails.of_eq (held1_post m d)) $$ Hh
  icases Hh' with ⟨Ha0, Hv0⟩
  rw [wp_ret]; imodintro
  -- its transpose
  iapply (wp_hlo_within 𝒱 (SparseCore.T d) none Set.univ (op := op2) (S := (op2 (F := F)).bufs) (Finset.Subset.refl _) (V := V1 m d)) $$ [Hb Hv0 Hv1]
  · isplitl [Hb]; · iexact Hb
    rw [held2_pre]
    isplitl [Hv0]; · iexact Hv0
    iexact Hv1
  iintro ⟨Hb, Hh⟩
  ihave Hh' := (Entails.of_eq (held2_post m d)) $$ Hh
  icases Hh' with ⟨Hv0, Hv1⟩
  rw [wp_ret]; imodintro
  -- the SparseCore call: the three arrays split among the workers, the table's remainder kept aside
  ihave Hs := (st0_split m d) $$ [Hv1 Ha1 Hv2]
  · isplitl [Hv1]; · iexact Hv1
    isplitl [Ha1]; · iexact Ha1
    iexact Hv2
  icases Hs with ⟨Hrest, Hsts⟩
  iapply ((K (F := F)).wp_run (D (F := F)) 𝒱 (EH := EH) (P := P m) κ d 0) $$ [Hst Hsts Hrest Hb Ha0 Ha2 Ha3 Ha4 Ha5 Hv0 Hv3 Hv4 Hv5 Hv6 Hv7 HG]
  isplitr; · iexact Hctx
  isplitl [Hst]; · iexact Hst
  isplitl [Hsts]; · iexact Hsts
  iintro ⟨Hst, Hdn⟩
  ihave Hj := (dn0_join m d) $$ [Hrest Hdn]
  · isplitl [Hrest] <;> iassumption
  icases Hj with ⟨Hv1, Ha1, Hv2⟩
  -- the dense layers' operands
  iapply (wp_hlo_within 𝒱 (SparseCore.T d) none Set.univ (op := op3) (S := (op3 (F := F)).bufs) (Finset.Subset.refl _) (V := V0 m d)) $$ [Hb Ha2 Hv3]
  · isplitl [Hb]; · iexact Hb
    rw [held3_pre]
    isplitl [Ha2]; · iexact Ha2
    iexact Hv3
  iintro ⟨Hb, Hh⟩
  ihave Hh' := (Entails.of_eq (held3_post m d)) $$ Hh
  icases Hh' with ⟨Ha2, Hv3⟩
  rw [wp_ret]; imodintro
  iapply (wp_hlo_within 𝒱 (SparseCore.T d) none Set.univ (op := op4) (S := (op4 (F := F)).bufs) (Finset.Subset.refl _) (V := V0 m d)) $$ [Hb Ha4 Hv4]
  · isplitl [Hb]; · iexact Hb
    rw [held4_pre]
    isplitl [Ha4]; · iexact Ha4
    iexact Hv4
  iintro ⟨Hb, Hh⟩
  ihave Hh' := (Entails.of_eq (held4_post m d)) $$ Hh
  icases Hh' with ⟨Ha4, Hv4⟩
  rw [wp_ret]; imodintro
  iapply (wp_hlo_within 𝒱 (SparseCore.T d) none Set.univ (op := op5) (S := (op5 (F := F)).bufs) (Finset.Subset.refl _) (V := V0 m d)) $$ [Hb Ha3 Hv5]
  · isplitl [Hb]; · iexact Hb
    rw [held5_pre]
    isplitl [Ha3]; · iexact Ha3
    iexact Hv5
  iintro ⟨Hb, Hh⟩
  ihave Hh' := (Entails.of_eq (held5_post m d)) $$ Hh
  icases Hh' with ⟨Ha3, Hv5⟩
  rw [wp_ret]; imodintro
  iapply (wp_hlo_within 𝒱 (SparseCore.T d) none Set.univ (op := op6) (S := (op6 (F := F)).bufs) (Finset.Subset.refl _) (V := V0 m d)) $$ [Hb Ha5 Hv6]
  · isplitl [Hb]; · iexact Hb
    rw [held6_pre]
    isplitl [Ha5]; · iexact Ha5
    iexact Hv6
  iintro ⟨Hb, Hh⟩
  ihave Hh' := (Entails.of_eq (held6_post m d)) $$ Hh
  icases Hh' with ⟨Ha5, Hv6⟩
  rw [wp_ret]; imodintro
  -- the TensorCore region
  ihave Ho := (tcSt_open d ((0 : Fin 1).val + 1) rfl) $$ Hst
  icases Ho with ⟨HO, Hclose⟩
  ihave Hlev := (SparseCore.Cfg.ctx_levAts (K := K (F := F)) (EH := EH) (P := P m) κ) $$ Hctx
  iapply (hreg d _) $$ [Hlev Hb HG HO Hv2 Hv3 Hv5 Hv4 Hv6 Hv7 Hclose Ha0 Ha1 Ha2 Ha3 Ha4 Ha5 Hv0 Hv1]
  isplitl [Hlev]; · iexact Hlev
  isplitl [Hb]; · iexact Hb
  isplitl [HG]; · iexact HG
  isplitl [HO]; · iexact HO
  isplitl [Hv2]; · iexact Hv2
  isplitl [Hv3]; · iexact Hv3
  isplitl [Hv5]; · iexact Hv5
  isplitl [Hv4]; · iexact Hv4
  isplitl [Hv6]; · iexact Hv6
  isplitl [Hv7]; · iexact Hv7
  iintro ⟨Hb, HO, Hv2, Hv3, Hv5, Hv4, Hv6, Hv7⟩
  imodintro
  isplitl [HO Hclose]
  · iapply Hclose; iexact HO
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  iexact Hv7

end Cert.Kernel.Sc

end
-- ==== Proof.TcRegionBits.lean ====
import proofs.«203293_g38809324487172_cont_8to1_b_1330_62_alg».proof.Proof.Gen.Kernel.Launch
import proofs.«203293_g38809324487172_cont_8to1_b_1330_62_alg».proof.Proof.Gen.Kernel.Skeleton
import proofs.«203293_g38809324487172_cont_8to1_b_1330_62_alg».proof.Proof.Gen.Kernel.Points
import Idealize.ShloMosaic.Lib.Pipeline.FrameBody
import Idealize.ShloMosaic.Lib.Pipeline.Regions
import Idealize.ShloMosaic.Lib.Pipeline.Value
import Idealize.ShloMosaic.Lib.Ring
import Idealize.ShloMosaic.Lib.ValueIdx
import Idealize.ShloMosaic.Lib.Tactic

/-!
The TensorCore region of the program: the two-layer perceptron on row blocks.

The region's pipeline has sixteen points; point `t` stages rows `256 t … 256 t + 255` of the
gathered features (window 0), the two weight matrices and the two bias rows whole (windows 1–4,
staged once), and writes back rows `256 t … 256 t + 255` of the result (window 5). The body reads
the five staged inputs and stores one block: `((x W₁ + b₁) W₂ + b₂)` on the block of rows.

This module states what each window's staging buffer holds around the body, proves the body's
triple, assembles the pipeline's proof data and body obligation, names the whole result array
(`out7`) and proves that the write-backs assemble it, and packages the region as a record with
its entry and exit states spelt as chains of points-to facts.
-/

set_option maxRecDepth 16384

noncomputable section

namespace Cert.Kernel.TcRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The region's pipeline reads no prefetched table: its admissible contents are the empty ones. -/
abbrev adm : (p : Fin 1) → (pcfgs (F := F) p).Adm := fun p => (cfgs p).toPCfg_adm

-- The TensorCore's unscoped buffers when the region is entered, and what the core owes across it.
variable (V : (c : Dev nD) → (b : Ref sig .tc) → Buf (Elt F) ((c : Thread nD τ).loc b))
variable (O : Dev nD → CellTallies nD τ sig Ix)

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any
    proof data whose array is `V`'s and whose body leaves the block in place: an unfetched window's index has
    not moved; the window is uncut and never idle. -/
theorem before0_of {c : Dev nD} (dat : Dat τ (Elt F) Ix Name U Lvl cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any
    proof data whose array is `V`'s and whose body leaves the block in place: an unfetched window's index has
    not moved; the window is uncut and never idle. -/
theorem before1_of {c : Dev nD} (dat : Dat τ (Elt F) Ix Name U Lvl cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any
    proof data whose array is `V`'s and whose body leaves the block in place: an unfetched window's index has
    not moved; the window is uncut and never idle. -/
theorem before2_of {c : Dev nD} (dat : Dat τ (Elt F) Ix Name U Lvl cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any
    proof data whose array is `V`'s and whose body leaves the block in place: an unfetched window's index has
    not moved; the window is uncut and never idle. -/
theorem before3_of {c : Dev nD} (dat : Dat τ (Elt F) Ix Name U Lvl cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any
    proof data whose array is `V`'s and whose body leaves the block in place: an unfetched window's index has
    not moved; the window is uncut and never idle. -/
theorem before4_of {c : Dev nD} (dat : Dat τ (Elt F) Ix Name U Lvl cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0 : Rect S256x6400 := Rect.unit (s := S256x6400) ![0, 0] S256x6400.size inb_S256x6400_S256x6400_0_0
abbrev r1 : Rect S6400x2048 := Rect.unit (s := S6400x2048) ![0, 0] S6400x2048.size inb_S6400x2048_S6400x2048_0_0
abbrev r2 : Rect S1x2048 := Rect.unit (s := S1x2048) ![0, 0] S1x2048.size inb_S1x2048_S1x2048_0_0
abbrev r3 : Rect S2048x1000 := Rect.unit (s := S2048x1000) ![0, 0] S2048x1000.size inb_S2048x1000_S2048x1000_0_0
abbrev r4 : Rect S1x1000 := Rect.unit (s := S1x1000) ![0, 0] S1x1000.size inb_S1x1000_S1x1000_0_0
abbrev r5 : Rect S256x1000 := Rect.unit (s := S256x1000) ![0, 0] S256x1000.size inb_S256x1000_S256x1000_0_0

/-! ## What the body leaves in the result window's buffer -/

/-- Window 5's staging buffer after the body, from the input windows' blocks: its one store, of the
    two-layer payload over the five loaded blocks, through the whole-block rectangle. -/
def out5 (x0 : Vec F S256x6400 .f32) (x1 : Vec F S6400x2048 .bf16) (x2 : Vec F S1x2048 .f32) (x3 : Vec F S2048x1000 .bf16) (x4 : Vec F S1x1000 .f32) : Vec F S256x1000 .f32 :=
  View.canon [⟨r5, k1_pay1 (View.ld x0 r0) (View.ld x1 r1) (View.ld x2 r2) (View.ld x3 r3) (View.ld x4 r4)⟩]

/-- The one store tiles the buffer, so it covers it. -/
theorem cover5 (p0 : Vec F S256x1000 .f32) (y : S256x1000.Idx) :
    ∃ pc ∈ ([⟨r5, p0⟩] : List (View.Piece (Elt F) S256x1000 .f32)), y ∈ pc.1.set :=
  View.cover_of_tiled [⟨r5, p0⟩] S256x1000.size (by rfl) y

/-- The store being through the whole block, the buffer holds the payload itself. -/
theorem out5_eq (x0 : Vec F S256x6400 .f32) (x1 : Vec F S6400x2048 .bf16) (x2 : Vec F S1x2048 .f32) (x3 : Vec F S2048x1000 .bf16) (x4 : Vec F S1x1000 .f32) : out5 x0 x1 x2 x3 x4 = k1_pay1 x0 x1 x2 x3 x4 := by
  have hz : (![0, 0] : Fin 2 → Nat) = fun _ => 0 := by funext a; fin_cases a <;> rfl
  unfold out5
  rw [View.canon_unit_zero hz]
  simp only [View.ld_unit_zero (S := S256x6400) hz, View.ld_unit_zero (S := S6400x2048) hz, View.ld_unit_zero (S := S1x2048) hz,
    View.ld_unit_zero (S := S2048x1000) hz, View.ld_unit_zero (S := S1x1000) hz]

/-! ## The body's triple -/

set_option maxHeartbeats 1000000 in
/-- The kernel body on whole staging memrefs, the five inputs' at contents `xW` and the result's at anything,
    runs to the continuation holding the inputs' as they were and the result's at `out5` of the inputs'. -/
theorem sound_kernel (c : Dev nD) (E : Set Name) (i : grid1.Coords) (arg1 : Memref sig .tc .vmem S256x6400 .f32) (harg1 : arg1.IsWhole) (arg2 : Memref sig .tc .vmem S6400x2048 .bf16) (harg2 : arg2.IsWhole) (arg3 : Memref sig .tc .vmem S1x2048 .f32) (harg3 : arg3.IsWhole) (arg4 : Memref sig .tc .vmem S2048x1000 .bf16) (harg4 : arg4.IsWhole) (arg5 : Memref sig .tc .vmem S1x1000 .f32) (harg5 : arg5.IsWhole) (arg6 : Memref sig .tc .vmem S256x1000 .f32) (harg6 : arg6.IsWhole)
    (x0 : Vec F S256x6400 .f32) (x1 : Vec F S6400x2048 .bf16) (x2 : Vec F S1x2048 .f32) (x3 : Vec F S2048x1000 .bf16) (x4 : Vec F S1x1000 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5 x0 x1 x2 x3 x4)) -∗ K ⟨⟩))
      ⊢ wp frame (wpE (defs₀ (F := F)) Variants.none c none) E (cc1__mlp_body i arg1 harg1 arg2 harg2 arg3 harg3 arg4 harg4 arg5 harg5 arg6 harg6) K := by
  simp only [cc1__mlp_body_eq_skeleton]; unfold cc1__mlp_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _)

/-! ## The pipeline's proof data -/

/-- The proof data of the region's pipeline on core `c`: the arrays as the region finds them (`V`); after the
    body at point `t` each input's buffer at its block and the result's at `out5` of the input blocks; no
    invariant of the body's own (the core has no scoped buffer beside the staging buffers); the core owing `O c`
    throughout (the body pays nothing and takes on nothing); full shares. -/
def dat1 (c : Dev nD) : Dat τ (Elt F) Ix Name U Lvl cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out5 (iblk V c 0 t) (iblk V c 1 t) (iblk V c 2 t) (iblk V c 3 t) (iblk V c 4 t)
  Φ _ := iprop(emp)
  q _ := fullShare
  owed _ := O c

/-- The one pipeline's proof data, as the region record takes it. -/
def dats : (p : Fin 1) → (c : Dev nD) → Dat τ (Elt F) Ix Name U Lvl (Pipeline.pin (pcfgs (F := F)) adm p) c :=
  fun _ c => dat1 V O c

theorem dats_zero (c : Dev nD) : dats (Name := Name) (U := U) (Lvl := Lvl) V O 0 c = dat1 V O c := rfl

/-- The proof data's arrays are the region-entry contents. -/
theorem A_eq (c : Dev nD) (w : Fin cfg1.W) : (dat1 (Name := Name) (U := U) (Lvl := Lvl) V O c).A w = V c (Pipeline.arrRef spec1 w) := by
  dsimp only [dat1]

/-- What the body leaves, window by window. -/
theorem after0 (c : Dev nD) (t : Fin cfg1.N) : (dat1 (Name := Name) (U := U) (Lvl := Lvl) V O c).after 0 t = iblk V c 0 t := by dsimp only [dat1]
theorem after1 (c : Dev nD) (t : Fin cfg1.N) : (dat1 (Name := Name) (U := U) (Lvl := Lvl) V O c).after 1 t = iblk V c 1 t := by dsimp only [dat1]
theorem after2 (c : Dev nD) (t : Fin cfg1.N) : (dat1 (Name := Name) (U := U) (Lvl := Lvl) V O c).after 2 t = iblk V c 2 t := by dsimp only [dat1]
theorem after3 (c : Dev nD) (t : Fin cfg1.N) : (dat1 (Name := Name) (U := U) (Lvl := Lvl) V O c).after 3 t = iblk V c 3 t := by dsimp only [dat1]
theorem after4 (c : Dev nD) (t : Fin cfg1.N) : (dat1 (Name := Name) (U := U) (Lvl := Lvl) V O c).after 4 t = iblk V c 4 t := by dsimp only [dat1]
theorem after5 (c : Dev nD) (t : Fin cfg1.N) : (dat1 (Name := Name) (U := U) (Lvl := Lvl) V O c).after 5 t = out5 (iblk V c 0 t) (iblk V c 1 t) (iblk V c 2 t) (iblk V c 3 t) (iblk V c 4 t) := by dsimp only [dat1]

/-- Each input's current staging buffer holds its block at every point, fetched there or not. -/
theorem before0 (c : Dev nD) (t : Fin cfg1.N) (d) : (dat1 (Name := Name) (U := U) (Lvl := Lvl) V O c).before 0 t d = iblk V c 0 t :=
  before0_of V (dat1 V O c) (A_eq V O c 0) (after0 V O c) t d
theorem before1 (c : Dev nD) (t : Fin cfg1.N) (d) : (dat1 (Name := Name) (U := U) (Lvl := Lvl) V O c).before 1 t d = iblk V c 1 t :=
  before1_of V (dat1 V O c) (A_eq V O c 1) (after1 V O c) t d
theorem before2 (c : Dev nD) (t : Fin cfg1.N) (d) : (dat1 (Name := Name) (U := U) (Lvl := Lvl) V O c).before 2 t d = iblk V c 2 t :=
  before2_of V (dat1 V O c) (A_eq V O c 2) (after2 V O c) t d
theorem before3 (c : Dev nD) (t : Fin cfg1.N) (d) : (dat1 (Name := Name) (U := U) (Lvl := Lvl) V O c).before 3 t d = iblk V c 3 t :=
  before3_of V (dat1 V O c) (A_eq V O c 3) (after3 V O c) t d
theorem before4 (c : Dev nD) (t : Fin cfg1.N) (d) : (dat1 (Name := Name) (U := U) (Lvl := Lvl) V O c).before 4 t d = iblk V c 4 t :=
  before4_of V (dat1 V O c) (A_eq V O c 4) (after4 V O c) t d

local notation "𝔇" => dat1 (Name := Name) (U := U) (Lvl := Lvl) V O

/-! ## The body obligation, at a generic point -/

/-- What the body is called with at point `t`, the windows one by one, -/
def bodyPre (ι : Ix) (c : Dev nD) (t : Fin cfg1.N) : sProp 𝕄 :=
  iprop((𝔇 c).Φ t.castSucc ∗ (𝔇 c).owesAt ι t.castSucc
    ∗ (∃ d, owns (c : Thread nD τ) (st1_0 t) fullShare ((𝔇 c).before 0 t d))
    ∗ (∃ d, owns (c : Thread nD τ) (st1_1 t) fullShare ((𝔇 c).before 1 t d))
    ∗ (∃ d, owns (c : Thread nD τ) (st1_2 t) fullShare ((𝔇 c).before 2 t d))
    ∗ (∃ d, owns (c : Thread nD τ) (st1_3 t) fullShare ((𝔇 c).before 3 t d))
    ∗ (∃ d, owns (c : Thread nD τ) (st1_4 t) fullShare ((𝔇 c).before 4 t d))
    ∗ (∃ d, owns (c : Thread nD τ) (st1_5 t) fullShare ((𝔇 c).before 5 t d)))

/-- and what it returns. -/
def bodyPost (ι : Ix) (c : Dev nD) (t : Fin cfg1.N) : sProp 𝕄 :=
  iprop((𝔇 c).Φ t.succ ∗ (𝔇 c).owesAt ι t.succ
    ∗ owns (c : Thread nD τ) (st1_0 t) fullShare ((𝔇 c).after 0 t)
    ∗ owns (c : Thread nD τ) (st1_1 t) fullShare ((𝔇 c).after 1 t)
    ∗ owns (c : Thread nD τ) (st1_2 t) fullShare ((𝔇 c).after 2 t)
    ∗ owns (c : Thread nD τ) (st1_3 t) fullShare ((𝔇 c).after 3 t)
    ∗ owns (c : Thread nD τ) (st1_4 t) fullShare ((𝔇 c).after 4 t)
    ∗ owns (c : Thread nD τ) (st1_5 t) fullShare ((𝔇 c).after 5 t))

/-- The body at any point: the inputs' memrefs hold their blocks, so `sound_kernel` applies; the invariant and
    the core's `owes` pass through unread. -/
theorem sound_body (ι : Ix) (c : Dev nD) (t : Fin cfg1.N) :
    bodyPre (Name := Name) (U := U) (Lvl := Lvl) V O ι c t ⊢ wp frame (wpE (defs₀ (F := F)) Variants.none c none) Set.univ (bodyAt1 t) (fun _ => bodyPost (Name := Name) (U := U) (Lvl := Lvl) V O ι c t) := by
  unfold bodyPre bodyPost bodyAt1
  simp only [before0, before1, before2, before3, before4]
  rw [show (𝔇 c).Φ t.succ = (𝔇 c).Φ t.castSucc from rfl,
    show (𝔇 c).owesAt ι t.succ = (𝔇 c).owesAt ι t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point, -/
theorem body_obligation' (ι : Ix) (c : Dev nD) : BodyObligation (𝔇 c) (defs₀ (F := F)) Variants.none ι Set.univ := fun t => by
  rw [bigSep_W1, bigSep_W1]
  exact sound_body V O ι c t

/-- and in the loose form the region record takes. -/
theorem body_obligation (ι : Ix) (c : Dev nD) :
    BodyObligationLoose (dats (F := F) (Name := Name) (U := U) (Lvl := Lvl) V O 0 c) (defs₀ (F := F)) Variants.none ι Set.univ :=
  (body_obligation' V O ι c).loose

/-! ## The whole result array -/

open Idealize.ShloMosaic.ValueIdx in
/-- The point whose block holds row `i 0` of the result: `i 0 / 256`. -/
def ptOf (i : S4096x1000.Idx) : Fin cfg1.N :=
  ⟨(i 0).val / 256, by rw [show cfg1.N = 16 from N_1]; have := idx2_lt0 i; omega⟩

open Idealize.ShloMosaic.ValueIdx in
/-- An index of the result inside its block: row `i 0 % 256`, the same column. -/
def inBlk (i : S4096x1000.Idx) : S256x1000.Idx :=
  ix2 ⟨(i 0).val % 256, Nat.mod_lt _ (by decide)⟩ ⟨(i 1).val, idx2_lt1 i⟩

/-- What the result array holds after the region, as one function of the region-entry contents of the five
    inputs: at row `i 0`, the two-layer payload of the block of 256 gathered rows that holds it, the two weight
    matrices and the two bias rows, read at the row's place in the block. -/
def out7 (c : Dev nD) : Vec F S4096x1000 .f32 := fun i =>
  k1_pay1 (iblk V c 0 (ptOf i)) (V c main_v3) (V c main_v5) (V c main_v4) (V c main_v6) (inBlk i)

/-- The printed index maps, decided over the grid: the row-blocked windows are at block `t`, column block 0; the
    whole-array windows at block 0 on both axes. -/
theorem idx_facts : ∀ t : Fin cfg1.N, win1_5.index t (0 : Fin 2) = t.val ∧ win1_5.index t (1 : Fin 2) = 0
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- A block of the gathered features, index by index: row `256 t + y 0`, column `y 1`. -/
theorem iblk0_apply (c : Dev nD) (t : Fin cfg1.N) (y : S256x6400.Idx) (i : S4096x6400.Idx)
    (h0 : (i 0).val = t.val * 256 + (y 0).val) (h1 : (i 1).val = (y 1).val) :
    iblk V c 0 t y = V c main_v2 i := by
  obtain ⟨-, -, e0, e1, -⟩ := idx_facts t
  show V c main_v2 (((cfg1.win 0).blk t).view.emb y) = V c main_v2 i
  congr 1
  funext a; apply Fin.ext
  match a with
  | ⟨0, _⟩ => show win1_0.index t (0 : Fin 2) * 256 + 1 * (y 0).val = (i 0).val; omega
  | ⟨1, _⟩ => show win1_0.index t (1 : Fin 2) * 6400 + 1 * (y 1).val = (i 1).val; omega

/-- The windows staged whole hold their arrays. -/
theorem iblk1_eq (c : Dev nD) (t : Fin cfg1.N) : iblk V c 1 t = V c main_v3 := by
  obtain ⟨-, -, -, -, e0, e1, -⟩ := idx_facts t
  funext y
  show V c main_v3 (((cfg1.win 1).blk t).view.emb y) = V c main_v3 y
  congr 1
  funext a; apply Fin.ext
  match a with
  | ⟨0, _⟩ => show win1_1.index t (0 : Fin 2) * 6400 + 1 * (y 0).val = (y 0).val; omega
  | ⟨1, _⟩ => show win1_1.index t (1 : Fin 2) * 2048 + 1 * (y 1).val = (y 1).val; omega
theorem iblk2_eq (c : Dev nD) (t : Fin cfg1.N) : iblk V c 2 t = V c main_v5 := by
  obtain ⟨-, -, -, -, -, -, e0, e1, -⟩ := idx_facts t
  funext y
  show V c main_v5 (((cfg1.win 2).blk t).view.emb y) = V c main_v5 y
  congr 1
  funext a; apply Fin.ext
  match a with
  | ⟨0, _⟩ => show win1_2.index t (0 : Fin 2) * 1 + 1 * (y 0).val = (y 0).val; omega
  | ⟨1, _⟩ => show win1_2.index t (1 : Fin 2) * 2048 + 1 * (y 1).val = (y 1).val; omega
theorem iblk3_eq (c : Dev nD) (t : Fin cfg1.N) : iblk V c 3 t = V c main_v4 := by
  obtain ⟨-, -, -, -, -, -, -, -, e0, e1, -⟩ := idx_facts t
  funext y
  show V c main_v4 (((cfg1.win 3).blk t).view.emb y) = V c main_v4 y
  congr 1
  funext a; apply Fin.ext
  match a with
  | ⟨0, _⟩ => show win1_3.index t (0 : Fin 2) * 2048 + 1 * (y 0).val = (y 0).val; omega
  | ⟨1, _⟩ => show win1_3.index t (1 : Fin 2) * 1000 + 1 * (y 1).val = (y 1).val; omega
theorem iblk4_eq (c : Dev nD) (t : Fin cfg1.N) : iblk V c 4 t = V c main_v6 := by
  obtain ⟨-, -, -, -, -, -, -, -, -, -, e0, e1⟩ := idx_facts t
  funext y
  show V c main_v6 (((cfg1.win 4).blk t).view.emb y) = V c main_v6 y
  congr 1
  funext a; apply Fin.ext
  match a with
  | ⟨0, _⟩ => show win1_4.index t (0 : Fin 2) * 1 + 1 * (y 0).val = (y 0).val; omega
  | ⟨1, _⟩ => show win1_4.index t (1 : Fin 2) * 1000 + 1 * (y 1).val = (y 1).val; omega

open Idealize.ShloMosaic.ValueIdx in
/-- An index of block `t` of the result, seen in the array, is in point `t`'s rows at its own place. -/
theorem pt_emb (t : Fin cfg1.N) (j : S256x1000.Idx) :
    ptOf (((cfg1.win 5).blk t).view.emb j) = t ∧ inBlk (((cfg1.win 5).blk t).view.emb j) = j := by
  obtain ⟨e0, e1, -⟩ := idx_facts t
  have hj0 := idx2_lt0 j
  have hj1 := idx2_lt1 j
  have h0 : ((((cfg1.win 5).blk t).view.emb j) 0).val = win1_5.index t (0 : Fin 2) * 256 + 1 * (j 0).val := rfl
  have h1 : ((((cfg1.win 5).blk t).view.emb j) 1).val = win1_5.index t (1 : Fin 2) * 1000 + 1 * (j 1).val := rfl
  constructor
  · apply Fin.ext
    show ((((cfg1.win 5).blk t).view.emb j) 0).val / 256 = t.val
    rw [h0]; omega
  · funext a; apply Fin.ext
    match a with
    | ⟨0, _⟩ => show ((((cfg1.win 5).blk t).view.emb j) 0).val % 256 = (j 0).val; rw [h0]; omega
    | ⟨1, _⟩ => show ((((cfg1.win 5).blk t).view.emb j) 1).val = (j 1).val; rw [h1]; omega

/-- What point `t` writes back is block `t` of `out7`. -/
theorem flushed5_eq (c : Dev nD) (t : Fin cfg1.N) :
    (dat1 (Name := Name) (U := U) (Lvl := Lvl) V O c).flushed 5 t = ((cfg1.win 5).blk t).view.read (Elt F) (out7 V c) := by
  show (cfg1.win 5).cut (grid1.coords t) ((dat1 V O c).after 5 t) = _
  rw [after5, out5_eq, iblk1_eq, iblk2_eq, iblk3_eq, iblk4_eq]
  funext j
  show k1_pay1 (iblk V c 0 t) (V c main_v3) (V c main_v5) (V c main_v4) (V c main_v6) j = out7 V c (((cfg1.win 5).blk t).view.emb j)
  unfold out7
  rw [(pt_emb t j).1, (pt_emb t j).2]

/-- An index of the result is in point `t`'s block iff each coordinate is in the block's range on its axis. -/
theorem mem_blk5 (t : Fin cfg1.N) (i : S4096x1000.Idx) :
    i ∈ ((cfg1.win 5).blk t).view.set ↔ ∀ a : Fin 2, win1_5.index t a * S256x1000.size a ≤ (i a).val ∧ (i a).val < win1_5.index t a * S256x1000.size a + S256x1000.size a := by
  show i ∈ ((View.whole main_v7).slice (win1_5.rect t)).set ↔ _
  rw [View.set_slice_whole, Rect.mem_set_unit]
  exact Iff.rfl

open Idealize.ShloMosaic.ValueIdx in
/-- Every index of the result is written back by the point that holds its row. -/
theorem covered5 (i : S4096x1000.Idx) : ∃ t : Fin cfg1.N, (cfg1.win 5).flush t = true ∧ i ∈ ((cfg1.win 5).blk t).view.set := by
  refine ⟨ptOf i, flush1_5 _, ?_⟩
  rw [mem_blk5]
  obtain ⟨e0, e1, -⟩ := idx_facts (ptOf i)
  have hi0 := idx2_lt0 i
  have hi1 := idx2_lt1 i
  have hp : (ptOf i).val = (i 0).val / 256 := rfl
  intro a
  match a with
  | ⟨0, _⟩ => show win1_5.index (ptOf i) (0 : Fin 2) * 256 ≤ (i 0).val ∧ (i 0).val < win1_5.index (ptOf i) (0 : Fin 2) * 256 + 256; omega
  | ⟨1, _⟩ => show win1_5.index (ptOf i) (1 : Fin 2) * 1000 ≤ (i 1).val ∧ (i 1).val < win1_5.index (ptOf i) (1 : Fin 2) * 1000 + 1000; omega

/-- The result array after the region is `out7`; -/
theorem arrAt_v7 (c : Dev nD) : (dats (Name := Name) (U := U) (Lvl := Lvl) V O 0 c).arrAt 5 cfg1.N = out7 V c :=
  (dat1 V O c).arrAt_eq_of_cover 5 (out7 V c) (fun t _ => flushed5_eq V O c t) covered5

/-- the five inputs are as the region found them. -/
theorem arrAt_v2 (c : Dev nD) (n : Nat) : (dats (Name := Name) (U := U) (Lvl := Lvl) V O 0 c).arrAt 0 n = V c main_v2 :=
  ((dat1 V O c).arrAt_in 0 rfl n).trans (A_eq V O c 0)
theorem arrAt_v3 (c : Dev nD) (n : Nat) : (dats (Name := Name) (U := U) (Lvl := Lvl) V O 0 c).arrAt 1 n = V c main_v3 :=
  ((dat1 V O c).arrAt_in 1 rfl n).trans (A_eq V O c 1)
theorem arrAt_v5 (c : Dev nD) (n : Nat) : (dats (Name := Name) (U := U) (Lvl := Lvl) V O 0 c).arrAt 2 n = V c main_v5 :=
  ((dat1 V O c).arrAt_in 2 rfl n).trans (A_eq V O c 2)
theorem arrAt_v4 (c : Dev nD) (n : Nat) : (dats (Name := Name) (U := U) (Lvl := Lvl) V O 0 c).arrAt 3 n = V c main_v4 :=
  ((dat1 V O c).arrAt_in 3 rfl n).trans (A_eq V O c 3)
theorem arrAt_v6 (c : Dev nD) (n : Nat) : (dats (Name := Name) (U := U) (Lvl := Lvl) V O 0 c).arrAt 4 n = V c main_v6 :=
  ((dat1 V O c).arrAt_in 4 rfl n).trans (A_eq V O c 4)
theorem arrAt_v7_zero (c : Dev nD) : (dats (Name := Name) (U := U) (Lvl := Lvl) V O 0 c).arrAt 5 0 = V c main_v7 := A_eq V O c 5

/-! ## The region record -/

local notation "𝔻𝕤" => dats (Name := Name) (U := U) (Lvl := Lvl) V O

/-- A buffer of core `c` whole at the full share, spelt at the location. -/
abbrev pl (c : Dev nD) (b : Ref sig .tc) (f : b.ty.Contents (Elt F)) : sProp 𝕄 := ((c : Thread nD τ).loc b) ↦{fullShare} f

/-- The region's arrays at contents `Fa` are the six buffers held whole, in the windows' order. -/
theorem arrays_eq (c : Dev nD) (Fa) : ((𝔻𝕤 0 c).arrays Fa : sProp 𝕄)
    = iprop(pl c main_v2 (Fa 0) ∗ pl c main_v3 (Fa 1) ∗ pl c main_v5 (Fa 2) ∗ pl c main_v4 (Fa 3) ∗ pl c main_v6 (Fa 4) ∗ pl c main_v7 (Fa 5)) := by
  rw [Pipeline.arrays_eq (Pipeline.pin (pcfgs (F := F)) adm) (𝔻𝕤) 0 c launch1.arr_whole ((𝔻𝕤 0 c).share_full fun _ => rfl) Fa, bigSep_W1]

/-- What the core owes as the pipeline holds it, at every point: the tallies `O c`, its recorded pairs unconstrained. -/
theorem owesAt_eq (ι : Ix) (c : Dev nD) (t : Fin (cfg1.N + 1)) :
    ((𝔻𝕤 0 c).owesAt ι t : sProp 𝕄) = Pipeline.owesWithin c (O c) (Set.univ ∪ cfg1.waitPairs ι) := rfl

/-- The core's `owes` at `O c`, whatever pairs it has recorded, is that; -/
theorem owes_intro (ι : Ix) (c : Dev nD) (W : Finset (SemLoc sig × Ix)) :
    (owes (c : Thread nD τ) (O c) W : sProp 𝕄) ⊢ Pipeline.owesWithin c (O c) (Set.univ ∪ cfg1.waitPairs ι) := by
  iintro H; iexists W; isplitr; · ipureintro; exact fun _ _ => Or.inl trivial
  iexact H

/-- and gives it back, at some recorded pairs. -/
theorem owes_elim (ι : Ix) (c : Dev nD) :
    (Pipeline.owesWithin c (O c) (Set.univ ∪ cfg1.waitPairs ι) : sProp 𝕄) ⊢ iprop(∃ W, owes (c : Thread nD τ) (O c) W) := by
  iintro ⟨%W, -, H⟩; iexists W; iexact H

/-- THE REGION: entered holding the six arrays whole at `V` and the core's `owes` at `O c`; left holding the five
    inputs as found, the result at `out7`, and the same `owes`. No semaphores of the body's own; nothing enters the
    pipeline's invariant and nothing bypasses the region. -/
def R (ι : Ix) (L : GSem nD τ sig → Finset Ix) (lv : GSem nD τ sig → Ix → Lvl)
    (hwaits : ∀ c, (levAts L lv : sProp 𝕄) ⊢ Pipeline.cellsWaits (Pipeline.pin (pcfgs (F := F)) adm) (𝔻𝕤) ι 0 c) :
    Pipeline.RegionSeg (pcfgs (F := F)) adm (𝔻𝕤) ι (defs₀ (F := F)) Variants.none L lv 0 where
  win := launch1.win.to₀
  block_pos := launch1.block_pos
  stage_whole := launch1.stage_whole
  K := PEmpty
  osem k := k.elim
  ho := Pipeline.OwnSemFacts.none _
  hbody c := body_obligation V O ι c
  hwaits := hwaits
  pre c := iprop((𝔻𝕤 0 c).arrays ((𝔻𝕤 0 c).arrAt · 0) ∗ (𝔻𝕤 0 c).owesAt ι 0)
  post c := iprop((𝔻𝕤 0 c).arrays ((𝔻𝕤 0 c).arrAt · cfg1.N) ∗ (𝔻𝕤 0 c).owesAt ι (Fin.last cfg1.N))
  X _ := iprop(emp)
  Y _ := iprop(emp)
  Z _ := iprop(emp)
  hentry c := by
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iexact HO
    isplitr <;> iempintro
  hin c := by iintro -; iempintro
  hout c := by
    rw [Pipeline.ownSems0_none, scopedRest1_eq]
    iintro -; isplitr; · iempintro
    isplitr <;> iempintro
  hexit c := by
    iintro ⟨Ha, HO, -, -⟩
    imodintro
    isplitl [Ha]; · iexact Ha
    iexact HO

/-- The entry state, buffer by buffer: the six arrays whole at `V`, and the core's `owes`. -/
theorem pre_eq (ι : Ix) (L : GSem nD τ sig → Finset Ix) (lv : GSem nD τ sig → Ix → Lvl)
    (hwaits : ∀ c, (levAts L lv : sProp 𝕄) ⊢ Pipeline.cellsWaits (Pipeline.pin (pcfgs (F := F)) adm) (𝔻𝕤) ι 0 c) (c : Dev nD) :
    (R (Name := Name) (U := U) (Lvl := Lvl) V O ι L lv hwaits).pre c
    = iprop((pl c main_v2 (V c main_v2) ∗ pl c main_v3 (V c main_v3) ∗ pl c main_v5 (V c main_v5) ∗ pl c main_v4 (V c main_v4) ∗ pl c main_v6 (V c main_v6) ∗ pl c main_v7 (V c main_v7))
        ∗ Pipeline.owesWithin c (O c) (Set.univ ∪ cfg1.waitPairs ι)) := by
  have h : (R (Name := Name) (U := U) (Lvl := Lvl) V O ι L lv hwaits).pre c = iprop((𝔻𝕤 0 c).arrays ((𝔻𝕤 0 c).arrAt · 0) ∗ (𝔻𝕤 0 c).owesAt ι 0) := rfl
  rw [h, arrays_eq, owesAt_eq, arrAt_v2, arrAt_v3, arrAt_v5, arrAt_v4, arrAt_v6, arrAt_v7_zero]

/-- The exit state, buffer by buffer: the five inputs as found, the result at `out7`, and the core's `owes`. -/
theorem post_eq (ι : Ix) (L : GSem nD τ sig → Finset Ix) (lv : GSem nD τ sig → Ix → Lvl)
    (hwaits : ∀ c, (levAts L lv : sProp 𝕄) ⊢ Pipeline.cellsWaits (Pipeline.pin (pcfgs (F := F)) adm) (𝔻𝕤) ι 0 c) (c : Dev nD) :
    (R (Name := Name) (U := U) (Lvl := Lvl) V O ι L lv hwaits).post c
    = iprop((pl c main_v2 (V c main_v2) ∗ pl c main_v3 (V c main_v3) ∗ pl c main_v5 (V c main_v5) ∗ pl c main_v4 (V c main_v4) ∗ pl c main_v6 (V c main_v6) ∗ pl c main_v7 (out7 V c))
        ∗ Pipeline.owesWithin c (O c) (Set.univ ∪ cfg1.waitPairs ι)) := by
  have h : (R (Name := Name) (U := U) (Lvl := Lvl) V O ι L lv hwaits).post c = iprop((𝔻𝕤 0 c).arrays ((𝔻𝕤 0 c).arrAt · cfg1.N) ∗ (𝔻𝕤 0 c).owesAt ι (Fin.last cfg1.N)) := rfl
  rw [h, arrays_eq, owesAt_eq, arrAt_v2, arrAt_v3, arrAt_v5, arrAt_v4, arrAt_v6, arrAt_v7]

/-- info: 'Cert.Kernel.TcRegion.R' depends on axioms: [propext, Classical.choice, Quot.sound] -/
#guard_msgs in #print axioms R
/-- info: 'Cert.Kernel.TcRegion.pre_eq' depends on axioms: [propext, Classical.choice, Quot.sound] -/
#guard_msgs in #print axioms pre_eq
/-- info: 'Cert.Kernel.TcRegion.post_eq' depends on axioms: [propext, Classical.choice, Quot.sound] -/
#guard_msgs in #print axioms post_eq

end Cert.Kernel.TcRegion

end
-- ==== Proof.LaunchRegionBits.lean ====
/-
  The TensorCore region's step of @main.

  The region record is entered at the valuation the host operations and the SparseCore call produce: the flat output
  at the gathered values, the dense layers' operands as converted and reshaped, every other array at its launch
  contents. After its one SparseCore call the TensorCore owes nothing, so the pipeline's waits need no evidence
  beyond that; the staging cells' ghost state is the launch element's. The call is a call of the extended body
  table, entered through the lifting of the certificate's table.
-/
import proofs.«203293_g38809324487172_cont_8to1_b_1330_62_alg».proof.Proof.SetupBits
import proofs.«203293_g38809324487172_cont_8to1_b_1330_62_alg».proof.Proof.LaunchSplitBits
import proofs.«203293_g38809324487172_cont_8to1_b_1330_62_alg».proof.Proof.LaunchElemBits
import proofs.«203293_g38809324487172_cont_8to1_b_1330_62_alg».proof.Proof.LaunchMainBits
import proofs.«203293_g38809324487172_cont_8to1_b_1330_62_alg».proof.Proof.TcRegionBits

noncomputable section

namespace Cert.Kernel.Sc

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ)

variable [FloatOps F]

/-- The valuation the region is entered at. -/
def VR (c : Dev nD) : (b : Ref sig .tc) → Buf (Elt F) ((c.tc : Thread nD τ).loc b) :=
  Function.update (Function.update (Function.update (Function.update (Function.update
    (fun b => m ((SparseCore.T c : Thread nD τ).loc b)) main_v2 (gout m c)) main_v3 (w3 m c)) main_v4 (w4 m c)) main_v5 (w5 m c)) main_v6 (w6 m c)

theorem VR_v2 (c : Dev nD) : VR m c main_v2 = gout m c := by
  unfold VR
  rw [Function.update_of_ne (show main_v2 ≠ main_v6 by decide), Function.update_of_ne (show main_v2 ≠ main_v5 by decide),
    Function.update_of_ne (show main_v2 ≠ main_v4 by decide), Function.update_of_ne (show main_v2 ≠ main_v3 by decide), Function.update_self]
theorem VR_v3 (c : Dev nD) : VR m c main_v3 = w3 m c := by
  unfold VR
  rw [Function.update_of_ne (show main_v3 ≠ main_v6 by decide), Function.update_of_ne (show main_v3 ≠ main_v5 by decide),
    Function.update_of_ne (show main_v3 ≠ main_v4 by decide), Function.update_self]
theorem VR_v4 (c : Dev nD) : VR m c main_v4 = w4 m c := by
  unfold VR
  rw [Function.update_of_ne (show main_v4 ≠ main_v6 by decide), Function.update_of_ne (show main_v4 ≠ main_v5 by decide), Function.update_self]
theorem VR_v5 (c : Dev nD) : VR m c main_v5 = w5 m c := by
  unfold VR
  rw [Function.update_of_ne (show main_v5 ≠ main_v6 by decide), Function.update_self]
theorem VR_v6 (c : Dev nD) : VR m c main_v6 = w6 m c := by
  unfold VR
  rw [Function.update_self]
theorem VR_v7 (c : Dev nD) : VR m c main_v7 = m ((SparseCore.T c : Thread nD τ).loc main_v7) := by
  unfold VR
  rw [Function.update_of_ne (show main_v7 ≠ main_v6 by decide), Function.update_of_ne (show main_v7 ≠ main_v5 by decide),
    Function.update_of_ne (show main_v7 ≠ main_v4 by decide), Function.update_of_ne (show main_v7 ≠ main_v3 by decide),
    Function.update_of_ne (show main_v7 ≠ main_v2 by decide)]

/-- The result array as the region leaves it. -/
def outFinal (d : Dev nD) : Buf (Elt F) ((SparseCore.T d : Thread nD τ).loc main_v7) := TcRegion.out7 (VR m) d

/-- The TensorCore owes nothing during the region. -/
abbrev O0 : Dev nD → CellTallies nD τ sig (HIx 1) := fun _ => 0

theorem hwaits0 (c : Dev nD) :
    (levAts (K (F := F)).L (K (F := F)).lev : sProp 𝕄)
      ⊢ Pipeline.cellsWaits (Pipeline.pin (pcfgs (F := F)) TcRegion.adm) (TcRegion.dats (Name := ℕ) (U := UU) (Lvl := ℕ) (VR m) O0) (none : HIx 1) 0 c :=
  (show (levAts (K (F := F)).L (K (F := F)).lev : sProp 𝕄) ⊢ BI.emp from by iintro -; iempintro).trans
    (Pipeline.cellsWaits_of_owed_zero (Pipeline.pin (pcfgs (F := F)) TcRegion.adm) (TcRegion.dats (Name := ℕ) (U := UU) (Lvl := ℕ) (VR m) O0) (none : HIx 1) 0 c fun _ => rfl)

/-- The region record @main enters. -/
abbrev RR : Pipeline.RegionSeg (pcfgs (F := F)) TcRegion.adm (TcRegion.dats (Name := ℕ) (U := UU) (Lvl := ℕ) (VR m) O0) (none : HIx 1) (defs₀ (F := F)) Variants.none
    (K (F := F)).L (K (F := F)).lev 0 :=
  TcRegion.R (Name := ℕ) (U := UU) (Lvl := ℕ) (VR m) O0 (none : HIx 1) (K (F := F)).L (K (F := F)).lev (hwaits0 m)

/-- The region's call in the extended body table is the lifting of the call in the certificate's. -/
theorem lift_call :
    SparseCore.liftProg (nD := nD) (τ := τ) (sig := sig) (Val := Elt F) (Q := 1) (Prog.op (.customCall (Pipeline.entry (Λ₀ := Λ₀) (A := fun p => (pcfgs (F := F) p).Adm) (0 : Fin 1)) ()) fun _ => Prog.ret ⟨⟩)
      = (Prog.lift (.customCall (SparseCore.inner (Pipeline.entry (0 : Fin 1))) ()) : Prog (TpuEff nD τ sig (Elt F) (SparseCore.Sig (ΛP (F := F)) 1) .tc) PUnit) := rfl

/-- What @main holds before the region is what the region's rule asks: the arrays at the entry valuation, the
    `owes` as the pipeline holds it, the level facts and the staging cells' ghost state; and what the rule gives back
    is what @main's continuation asks. -/
theorem region_entry (d : Dev nD) (Ψ : PUnit → sProp 𝕄) :
    iprop(levAts (K (F := F)).L (K (F := F)).lev ∗ boundary (SparseCore.T d : Thread nD τ) ∗ G (F := F) d
        ∗ (∃ W, owes (SparseCore.T d : Thread nD τ) (0 : CellTallies nD τ sig (HIx 1)) W)
        ∗ pl d main_v2 (gout m d) ∗ pl d main_v3 (w3 m d) ∗ pl d main_v5 (w5 m d) ∗ pl d main_v4 (w4 m d) ∗ pl d main_v6 (w6 m d)
        ∗ pl d main_v7 (m ((SparseCore.T d : Thread nD τ).loc main_v7))
        ∗ ((boundary (SparseCore.T d : Thread nD τ) ∗ (∃ W, owes (SparseCore.T d : Thread nD τ) (0 : CellTallies nD τ sig (HIx 1)) W)
            ∗ pl d main_v2 (gout m d) ∗ pl d main_v3 (w3 m d) ∗ pl d main_v5 (w5 m d) ∗ pl d main_v4 (w4 m d) ∗ pl d main_v6 (w6 m d)
            ∗ pl d main_v7 (outFinal m d)) -∗ Ψ ⟨⟩))
      ⊢ iprop((iprop(boundary (d.tc : Thread nD τ) ∗ (RR m).post d) -∗ wp frame (wpE (D (F := F)) 𝒱 (d.tc : Thread nD τ) none) Set.univ (Prog.ret ⟨⟩) Ψ)
        ∗ boundary (d.tc : Thread nD τ) ∗ (RR m).pre d ∗ levAts (K (F := F)).L (K (F := F)).lev
        ∗ Pipeline.cellsGhost (Pipeline.pin (pcfgs (F := F)) TcRegion.adm) (EP (F := F)) 0 d
        ∗ Pipeline.toksInit (Pipeline.pin (pcfgs (F := F)) TcRegion.adm) (EP (F := F)) 0 d) := by
  unfold RR
  rw [TcRegion.pre_eq, TcRegion.post_eq, VR_v2, VR_v3, VR_v4, VR_v5, VR_v6, VR_v7]
  iintro ⟨Hlev, Hb, ⟨Hg, Ht⟩, ⟨%W, HO⟩, Hv2, Hv3, Hv5, Hv4, Hv6, Hv7, Hk⟩
  isplitl [Hk]
  · iintro ⟨Hb, ⟨Hv2, Hv3, Hv5, Hv4, Hv6, Hv7⟩, HO⟩
    rw [wp_ret]; imodintro
    iapply Hk
    isplitl [Hb]; · iexact Hb
    isplitl [HO]; · iapply (TcRegion.owes_elim (F := F) (Name := ℕ) (U := UU) (Lvl := ℕ) O0 (none : HIx 1) d); iexact HO
    isplitl [Hv2]; · iexact Hv2
    isplitl [Hv3]; · iexact Hv3
    isplitl [Hv5]; · iexact Hv5
    isplitl [Hv4]; · iexact Hv4
    isplitl [Hv6]; · iexact Hv6
    iexact Hv7
  isplitl [Hb]; · iexact Hb
  isplitl [Hv2 Hv3 Hv5 Hv4 Hv6 Hv7 HO]
  · isplitr [HO]
    · isplitl [Hv2]; · iexact Hv2
      isplitl [Hv3]; · iexact Hv3
      isplitl [Hv5]; · iexact Hv5
      isplitl [Hv4]; · iexact Hv4
      isplitl [Hv6]; · iexact Hv6
      iexact Hv7
    · iapply (TcRegion.owes_intro (F := F) (Name := ℕ) (U := UU) (Lvl := ℕ) O0 (none : HIx 1) d W); iexact HO
  isplitl [Hlev]; · iexact Hlev
  isplitl [Hg]; · iexact Hg
  iexact Ht

set_option backward.isDefEq.respectTransparency.types false in
theorem regionStep [∀ e, Nonempty (Elt F e)] : RegionStep m (outFinal m) := by
  intro d Ψ
  have h1 := ((K (F := F)).wp_liftProg (D (F := F)) 𝒱 (SparseCore.T d) Set.univ none
    (Prog.op (.customCall (Pipeline.entry 0) ()) fun _ => Prog.ret ⟨⟩) Ψ)
  rw [lift_call] at h1
  have h2 := (Pipeline.RegionSeg.wp (pcfgs (F := F)) TcRegion.adm (TcRegion.dats (Name := ℕ) (U := UU) (Lvl := ℕ) (VR m) O0) (none : HIx 1)
    cellOf_inj (EP (F := F)) (defs₀ (F := F)) Variants.none (K (F := F)).L (K (F := F)).lev (RR m) d none (by intro u h; cases h) (fun _ => Prog.ret ⟨⟩) Ψ)
  exact (region_entry m d Ψ).trans (h2.trans h1)

end Cert.Kernel.Sc

end
-- ==== Proof.LaunchRunBits.lean ====
/-
  The run of the whole program and what its final memory says.

  The launch theorem for a SparseCore program, at this program's one vector-subcore call: the tile's obligation is a
  hypothesis; the split of a SparseCore's holdings among its tiles, the launch element, @main on the TensorCore and
  the TensorCore region's step are the modules before this one. The final assertion of each TensorCore holds the six
  argument arrays at their launch contents and the result array at the region's value, which the final memory
  therefore holds.
-/
import proofs.«203293_g38809324487172_cont_8to1_b_1330_62_alg».proof.Proof.SetupBits
import proofs.«203293_g38809324487172_cont_8to1_b_1330_62_alg».proof.Proof.LaunchSplitBits
import proofs.«203293_g38809324487172_cont_8to1_b_1330_62_alg».proof.Proof.LaunchElemBits
import proofs.«203293_g38809324487172_cont_8to1_b_1330_62_alg».proof.Proof.LaunchMainBits
import proofs.«203293_g38809324487172_cont_8to1_b_1330_62_alg».proof.Proof.LaunchRegionBits

noncomputable section

namespace Cert.Kernel.Sc

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-- What device `d`'s final assertion says of a final state. -/
def fq (d : Dev nD) (s' : Phys nD τ sig (Elt F)) : Prop :=
  s'.mem.mem ((SparseCore.T d : Thread nD τ).loc main_v7) = outFinal m d
    ∧ s'.mem.mem ((SparseCore.T d : Thread nD τ).loc main_arg0) = m ((SparseCore.T d : Thread nD τ).loc main_arg0)
    ∧ s'.mem.mem ((SparseCore.T d : Thread nD τ).loc main_arg1) = m ((SparseCore.T d : Thread nD τ).loc main_arg1)
    ∧ s'.mem.mem ((SparseCore.T d : Thread nD τ).loc main_arg2) = m ((SparseCore.T d : Thread nD τ).loc main_arg2)
    ∧ s'.mem.mem ((SparseCore.T d : Thread nD τ).loc main_arg3) = m ((SparseCore.T d : Thread nD τ).loc main_arg3)
    ∧ s'.mem.mem ((SparseCore.T d : Thread nD τ).loc main_arg4) = m ((SparseCore.T d : Thread nD τ).loc main_arg4)
    ∧ s'.mem.mem ((SparseCore.T d : Thread nD τ).loc main_arg5) = m ((SparseCore.T d : Thread nD τ).loc main_arg5)

theorem hfin (d : Dev nD) (s' : Phys nD τ sig (Elt F)) : iprop(FIN m (outFinal m) d ∗ SI s') ⊢ (⌜fq m d s'⌝ : sProp 𝕄) := by
  iintro ⟨⟨H0, H1, H2, H3, H4, H5, H7⟩, HSI⟩
  ihave H := (persistent_entails_right (SI_pointsTo_agree (st := s') (ℓ := ((SparseCore.T d : Thread nD τ).loc main_arg0)) (I := Finset.univ) (q := fullShare) (f := m ((SparseCore.T d : Thread nD τ).loc main_arg0)))) $$ [HSI H0]
  · isplitl [HSI] <;> iassumption
  icases H with ⟨%h0, HSI, -⟩
  ihave H := (persistent_entails_right (SI_pointsTo_agree (st := s') (ℓ := ((SparseCore.T d : Thread nD τ).loc main_arg1)) (I := Finset.univ) (q := fullShare) (f := m ((SparseCore.T d : Thread nD τ).loc main_arg1)))) $$ [HSI H1]
  · isplitl [HSI] <;> iassumption
  icases H with ⟨%h1, HSI, -⟩
  ihave H := (persistent_entails_right (SI_pointsTo_agree (st := s') (ℓ := ((SparseCore.T d : Thread nD τ).loc main_arg2)) (I := Finset.univ) (q := fullShare) (f := m ((SparseCore.T d : Thread nD τ).loc main_arg2)))) $$ [HSI H2]
  · isplitl [HSI] <;> iassumption
  icases H with ⟨%h2, HSI, -⟩
  ihave H := (persistent_entails_right (SI_pointsTo_agree (st := s') (ℓ := ((SparseCore.T d : Thread nD τ).loc main_arg3)) (I := Finset.univ) (q := fullShare) (f := m ((SparseCore.T d : Thread nD τ).loc main_arg3)))) $$ [HSI H3]
  · isplitl [HSI] <;> iassumption
  icases H with ⟨%h3, HSI, -⟩
  ihave H := (persistent_entails_right (SI_pointsTo_agree (st := s') (ℓ := ((SparseCore.T d : Thread nD τ).loc main_arg4)) (I := Finset.univ) (q := fullShare) (f := m ((SparseCore.T d : Thread nD τ).loc main_arg4)))) $$ [HSI H4]
  · isplitl [HSI] <;> iassumption
  icases H with ⟨%h4, HSI, -⟩
  ihave H := (persistent_entails_right (SI_pointsTo_agree (st := s') (ℓ := ((SparseCore.T d : Thread nD τ).loc main_arg5)) (I := Finset.univ) (q := fullShare) (f := m ((SparseCore.T d : Thread nD τ).loc main_arg5)))) $$ [HSI H5]
  · isplitl [HSI] <;> iassumption
  icases H with ⟨%h5, HSI, -⟩
  ihave H := (SI_pointsTo_agree (st := s') (ℓ := ((SparseCore.T d : Thread nD τ).loc main_v7)) (I := Finset.univ) (q := fullShare) (f := outFinal m d)) $$ [HSI H7]
  · isplitl [HSI] <;> iassumption
  icases H with %h7
  ipureintro
  exact ⟨funext fun i => h7 i (Finset.mem_univ i), funext fun i => h0 i (Finset.mem_univ i), funext fun i => h1 i (Finset.mem_univ i),
    funext fun i => h2 i (Finset.mem_univ i), funext fun i => h3 i (Finset.mem_univ i), funext fun i => h4 i (Finset.mem_univ i),
    funext fun i => h5 i (Finset.mem_univ i)⟩

/-! ## The program's run -/

/-- The final memory: on every device the result array at the region's value and the six argument arrays unchanged. -/
def QC : PUnit × MemSt nD τ sig (Elt F) → Prop := fun r => ∀ c : Dev nD,
  r.2.mem ((c.tc : Thread nD τ).loc main_v7) = outFinal m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)

theorem run_main [∀ e, Nonempty (Elt F e)] (hpre : PreOK m) (htile : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun d => G (F := F) d) (FIN m (outFinal m)) (u₀ (F := F)) (sep_elim_left.trans (hu₀ m)) (hmain m ρ (regionStep m)) (fq m) (hfin m) (QC m) (fun _ h => h)

end Cert.Kernel.Sc

end
-- ==== Proof.TcValue.lean ====
import proofs.«203293_g38809324487172_cont_8to1_b_1330_62_alg».proof.Proof.TcRegion
import Idealize.ShloMosaic.Lib.ValueIdx
import Idealize.ShloMosaic.Lib.Pipeline.Value
import Idealize.ShloMosaic.PureOps.Ideal.Laws

/-!
The value of the TensorCore region's result at the ideal values.

At the ideal values the narrowing format changes and the shape casts to the same shape are the
identity, a matrix product into the zero accumulator is the plain sum over the contracted
coordinate, and a one-row vector laid along every row reads the row's entry. So the body's payload
at row `p`, column `q` of a block is `∑ h, ((∑ k, x (p, k) W₁ (k, h)) + b₁ (0, h)) W₂ (h, q) + b₂ (0, q)`
(`pay_apply`), and the whole result array, read at an index, is the same expression over the
region-entry contents of the five inputs (`out7_apply`).
-/

set_option maxRecDepth 16384

noncomputable section

namespace Cert.KernelIdeal.TcValue

open Cert.KernelIdeal Cert.KernelIdeal.Gen
open Idealize.ShloMosaic Idealize.ShloMosaic.ValueIdx Idealize.ShloMosaic.TcCoe
open Idealize.SL.Sem
open scoped BigOperators

/-! ## The two matrix products at an index -/

/-- The first layer's product, into the zero accumulator, at an index: the sum over the 6400 features. -/
theorem mm1_apply (a : FVec Ideal S256x6400 .bf16) (b : FVec Ideal S6400x2048 .bf16) (p : Fin 256) (q : Fin 2048) :
    matmul dot_S256x6400_S6400x2048_S256x2048_1_0_0_1_n_n none a b (constant (F := Ideal) S256x2048 .f32 0x00000000#32) (ix2 p q)
      = ∑ k : Fin 6400, a (ix2 p k) * b (ix2 k q) := by
  show FloatOps.matmul dot_S256x6400_S6400x2048_S256x2048_1_0_0_1_n_n none a b (constant S256x2048 .f32 0x00000000#32) (ix2 p q) = _
  rw [Ideal.matmul_constant_zero_apply, ← Equiv.sum_comp (contrEquiv1 dot_S256x6400_S6400x2048_S256x2048_1_0_0_1_n_n 6400 rfl rfl).symm]
  refine Finset.sum_congr rfl fun k _ => ?_
  have c2 := contrEquiv1_symm_val dot_S256x6400_S6400x2048_S256x2048_1_0_0_1_n_n 6400 rfl rfl k
  have l2 : (dot_S256x6400_S6400x2048_S256x2048_1_0_0_1_n_n).lhsIdx (ix2 p q) ((contrEquiv1 dot_S256x6400_S6400x2048_S256x2048_1_0_0_1_n_n 6400 rfl rfl).symm k) = ix2 p k := by
    funext ax; apply Fin.ext
    match ax with
    | ⟨0, _⟩ => simp [DotDims.lhsIdx, dot_S256x6400_S6400x2048_S256x2048_1_0_0_1_n_n]; rfl
    | ⟨1, _⟩ => exact (DotDims.lhsIdx_val_of_single dot_S256x6400_S6400x2048_S256x2048_1_0_0_1_n_n (cl := 1) rfl _ _).trans c2
  have r2 : (dot_S256x6400_S6400x2048_S256x2048_1_0_0_1_n_n).rhsIdx (ix2 p q) ((contrEquiv1 dot_S256x6400_S6400x2048_S256x2048_1_0_0_1_n_n 6400 rfl rfl).symm k) = ix2 k q := by
    funext ax; apply Fin.ext
    match ax with
    | ⟨0, _⟩ => exact (DotDims.rhsIdx_val_of_single dot_S256x6400_S6400x2048_S256x2048_1_0_0_1_n_n (cr := 0) rfl _ _).trans c2
    | ⟨1, _⟩ => simp [DotDims.rhsIdx, dot_S256x6400_S6400x2048_S256x2048_1_0_0_1_n_n]; rfl
  rw [l2, r2]

/-- The second layer's product, into the zero accumulator, at an index: the sum over the 2048 hidden units. -/
theorem mm2_apply (a : FVec Ideal S256x2048 .bf16) (b : FVec Ideal S2048x1000 .bf16) (p : Fin 256) (q : Fin 1000) :
    matmul dot_S256x2048_S2048x1000_S256x1000_1_0_0_1_n_n none a b (constant (F := Ideal) S256x1000 .f32 0x00000000#32) (ix2 p q)
      = ∑ k : Fin 2048, a (ix2 p k) * b (ix2 k q) := by
  show FloatOps.matmul dot_S256x2048_S2048x1000_S256x1000_1_0_0_1_n_n none a b (constant S256x1000 .f32 0x00000000#32) (ix2 p q) = _
  rw [Ideal.matmul_constant_zero_apply, ← Equiv.sum_comp (contrEquiv1 dot_S256x2048_S2048x1000_S256x1000_1_0_0_1_n_n 2048 rfl rfl).symm]
  refine Finset.sum_congr rfl fun k _ => ?_
  have c2 := contrEquiv1_symm_val dot_S256x2048_S2048x1000_S256x1000_1_0_0_1_n_n 2048 rfl rfl k
  have l2 : (dot_S256x2048_S2048x1000_S256x1000_1_0_0_1_n_n).lhsIdx (ix2 p q) ((contrEquiv1 dot_S256x2048_S2048x1000_S256x1000_1_0_0_1_n_n 2048 rfl rfl).symm k) = ix2 p k := by
    funext ax; apply Fin.ext
    match ax with
    | ⟨0, _⟩ => simp [DotDims.lhsIdx, dot_S256x2048_S2048x1000_S256x1000_1_0_0_1_n_n]; rfl
    | ⟨1, _⟩ => exact (DotDims.lhsIdx_val_of_single dot_S256x2048_S2048x1000_S256x1000_1_0_0_1_n_n (cl := 1) rfl _ _).trans c2
  have r2 : (dot_S256x2048_S2048x1000_S256x1000_1_0_0_1_n_n).rhsIdx (ix2 p q) ((contrEquiv1 dot_S256x2048_S2048x1000_S256x1000_1_0_0_1_n_n 2048 rfl rfl).symm k) = ix2 k q := by
    funext ax; apply Fin.ext
    match ax with
    | ⟨0, _⟩ => exact (DotDims.rhsIdx_val_of_single dot_S256x2048_S2048x1000_S256x1000_1_0_0_1_n_n (cr := 0) rfl _ _).trans c2
    | ⟨1, _⟩ => simp [DotDims.rhsIdx, dot_S256x2048_S2048x1000_S256x1000_1_0_0_1_n_n]; rfl
  rw [l2, r2]

/-! ## The bias rows laid along every row -/

/-- A one-row vector laid along each of `m` rows, at an index: the row's entry in that column. -/
theorem bias_apply {m n : Nat} {α : Type} (x : (⟨2, ![1, n]⟩ : Shape).Idx → α) (hb : (⟨2, ![1, n]⟩ : Shape).Broadcasts ⟨2, ![m, n]⟩)
    (p : Fin m) (q : Fin n) : broadcastTo ⟨2, ![m, n]⟩ x hb (ix2 p q) = x (ix2 (0 : Fin 1) q) :=
  broadcastTo_apply x hb (ix2 p q) (ix2 (0 : Fin 1) q) (by
    intro a
    match a with
    | ⟨0, _⟩ => rfl
    | ⟨1, _⟩ =>
      show q.val = if n = 1 then 0 else q.val
      split
      · have := q.isLt; omega
      · rfl)

/-! ## The body's payload at an index -/

/-- The two-layer payload of a block at row `p`, column `q`: the hidden layer `x W₁ + b₁` contracted with `W₂`, plus `b₂`. -/
theorem pay_apply (x0 : Vec Ideal S256x6400 .f32) (x1 : Vec Ideal S6400x2048 .bf16) (x2 : Vec Ideal S1x2048 .f32)
    (x3 : Vec Ideal S2048x1000 .bf16) (x4 : Vec Ideal S1x1000 .f32) (p : Fin 256) (q : Fin 1000) :
    k1_pay1 x0 x1 x2 x3 x4 (ix2 p q)
      = (∑ h : Fin 2048, ((∑ k : Fin 6400, x0 (ix2 p k) * x1 (ix2 k h)) + x2 (ix2 (0 : Fin 1) h)) * x3 (ix2 h q)) + x4 (ix2 (0 : Fin 1) q) := by
  unfold k1_pay1
  simp only [shapeCast_self]
  rw [addf_apply, mm2_apply, bias_apply]
  refine congrArg (· + x4 (ix2 (0 : Fin 1) q)) (Finset.sum_congr rfl fun h _ => ?_)
  rw [truncf_apply, addf_apply, mm1_apply, bias_apply]
  rfl

/-! ## The whole result array at an index -/

variable (V : (c : Dev nD) → (b : Ref sig .tc) → Buf (Elt Ideal) ((c : Thread nD τ).loc b))

/-- The five inputs as the region finds them, at their vector types: the gathered features, the two weight
    matrices (in bf16, which at the ideal values is the same numbers) and the two bias rows. -/
abbrev feats (c : Dev nD) : Vec Ideal S4096x6400 .f32 := V c main_v2
abbrev w1 (c : Dev nD) : Vec Ideal S6400x2048 .bf16 := V c main_v3
abbrev b1 (c : Dev nD) : Vec Ideal S1x2048 .f32 := V c main_v5
abbrev w2 (c : Dev nD) : Vec Ideal S2048x1000 .bf16 := V c main_v4
abbrev b2 (c : Dev nD) : Vec Ideal S1x1000 .f32 := V c main_v6

/-- THE RESULT at row `i 0`, column `i 1`: the gathered row times the first weight matrix plus the first bias,
    contracted with the second weight matrix, plus the second bias — all read off the region-entry contents. -/
theorem out7_apply (c : Dev nD) (i : S4096x1000.Idx) :
    TcRegion.out7 (F := Ideal) V c i
      = (∑ h : Fin 2048, ((∑ k : Fin 6400, feats V c (ix2 ⟨(i 0).val, idx2_lt0 i⟩ k) * w1 V c (ix2 k h)) + b1 V c (ix2 (0 : Fin 1) h))
            * w2 V c (ix2 h ⟨(i 1).val, idx2_lt1 i⟩))
          + b2 V c (ix2 (0 : Fin 1) ⟨(i 1).val, idx2_lt1 i⟩) := by
  unfold TcRegion.out7 TcRegion.inBlk
  refine (pay_apply _ _ _ _ _ _ _).trans ?_
  refine congrArg (· + _) (Finset.sum_congr rfl fun h _ => ?_)
  refine congrArg (fun s => (s + _) * _) (Finset.sum_congr rfl fun k _ => ?_)
  refine congrArg (· * _) ?_
  exact TcRegion.iblk0_apply V c (TcRegion.ptOf i) (ix2 ⟨(i 0).val % 256, Nat.mod_lt _ (by decide)⟩ k) (ix2 ⟨(i 0).val, idx2_lt0 i⟩ k)
    (by show (i 0).val = (i 0).val / 256 * 256 + (i 0).val % 256; omega) rfl

/-- info: 'Cert.KernelIdeal.TcValue.out7_apply' depends on axioms: [propext, Classical.choice, Quot.sound] -/
#guard_msgs in #print axioms out7_apply

end Cert.KernelIdeal.TcValue

end
-- ==== Proof.LaunchValue.lean ====
/-
  The result at the ideal instance is the specified function of the arguments.

  The region's result at an index is the second dense layer over the first over the region's operands. Read at an
  index, the flat output at the gathered values is the flattened embedding of the specification; the converted weight
  matrices are the weight matrices (a format change is the identity on the extended reals); the reshaped bias vectors
  are the bias vectors at their one row.
-/
import Idealize.ShloMosaic.Lib.ValueLayout
import proofs.«203293_g38809324487172_cont_8to1_b_1330_62_alg».proof.Proof.Setup
import proofs.«203293_g38809324487172_cont_8to1_b_1330_62_alg».proof.Proof.LaunchMain
import proofs.«203293_g38809324487172_cont_8to1_b_1330_62_alg».proof.Proof.LaunchRegion
import proofs.«203293_g38809324487172_cont_8to1_b_1330_62_alg».proof.Proof.TcValue

noncomputable section

namespace Cert.KernelIdeal.Sc

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open scoped BigOperators

variable (m : (ℓ : Loc nD τ sig) → Buf (Elt Ideal) ℓ)

theorem outFinal_eq (c : Dev nD) :
    outFinal m c = Cert.Spec.G (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  funext i
  unfold outFinal
  rw [TcValue.out7_apply]
  unfold Cert.Spec.G Cert.Spec.logit
  refine congrArg₂ (· + ·) (Finset.sum_congr rfl fun h _ => ?_) ?_
  · refine congrArg₂ (· * ·) ?_ ?_
    · unfold Cert.Spec.hidden
      refine congrArg₂ (· + ·) (Finset.sum_congr rfl fun k _ => ?_) ?_
      · refine congrArg₂ (· * ·) ?_ ?_
        · show VR m c main_v2 (ix2 _ k) = _
          rw [VR_v2]; rfl
        · show VR m c main_v3 (ix2 k h) = _
          rw [VR_v3]; rfl
      · show VR m c main_v5 (ix2 (0 : Fin 1) h) = _
        rw [VR_v5]; unfold w5
        exact shapeCast_a_1a_apply _ _ (0 : Fin 1) h
    · show VR m c main_v4 (ix2 h _) = _
      rw [VR_v4]; rfl
  · show VR m c main_v6 (ix2 (0 : Fin 1) _) = _
    rw [VR_v6]; unfold w6
    exact shapeCast_a_1a_apply _ _ (0 : Fin 1) _

end Cert.KernelIdeal.Sc

end
-- ==== Proof.PreRange.lean ====
/-
  The input domain's last conjunct, read back: every token word, read signed, lies in [0, 99999].

  The domain predicate is a chain of conjunctions of all-reductions; its value being 1 makes every conjunct 1, in particular
  the last one, the all-reduction of (x ≥ 0) ∧ (x ≤ 99999) over the token array, so that conjunction is 1 at every index.
-/
import proofs.«203293_g38809324487172_cont_8to1_b_1330_62_alg».proof.Pre_input_domain
import proofs.«203293_g38809324487172_cont_8to1_b_1330_62_alg».proof.Proof.Spec
import Idealize.ShloMosaic.Lib.ReduceAll
import Idealize.ShloMosaic.Lib.ValueIdx

noncomputable section

namespace Cert.PreRange

open Idealize.ShloMosaic Cert.Pre_input_domain

/-- The rank-0 shape has one index. -/
instance : Subsingleton S_.Idx := ⟨fun a b => funext fun d => d.elim0⟩

theorem inRange {F : FTy → Type} [FloatOps F] [Cert.Pre_input_domain.Facts]
    (a0 : IVec Cert.Pre_input_domain.S4096x50 32) (a1 : FVec F Cert.Pre_input_domain.S100000x128 .f32) (a2 : FVec F Cert.Pre_input_domain.S6400x2048 .f32)
    (a3 : FVec F Cert.Pre_input_domain.S2048 .f32) (a4 : FVec F Cert.Pre_input_domain.S2048x1000 .f32) (a5 : FVec F Cert.Pre_input_domain.S1000 .f32)
    (h : Cert.Pre_input_domain.fn (F := F) a0 a1 a2 a3 a4 a5 = (fun _ => 1#1)) : Cert.Spec.InRange a0 := by
  intro i
  have e := congrFun h (fun d => d.elim0)
  unfold Cert.Pre_input_domain.fn Cert.Pre_input_domain.fn_part1 at e
  -- the outermost conjunction: its right operand is the all-reduction over the token array
  have e2 := (IntOp.andi_eq_one.1 e).2
  have e3 := Host.reduce_andi_all _ _ _ _ _ e2 i
  obtain ⟨h0, h1⟩ := IntOp.andi_eq_one.1 e3
  have h0' := IntOp.cmpi_sge.1 h0
  have h1' := IntOp.cmpi_sle.1 h1
  exact ⟨h0', h1'⟩

end Cert.PreRange

end
-- ==== Proof.RefOps.lean ====
/-
  The reference program's run, read back as one term of its arguments.

  @main is a straight line of host operations: the table lookup's (the call's body, its operations in order over the
  call's own buffers), then the flattening, the two dense layers and their bias adds. Every weakly fair execution
  terminates with the result buffer at the operations' composed term `out` of the launch contents of the six
  arguments, and the arguments unchanged.
-/
import proofs.«203293_g38809324487172_cont_8to1_b_1330_62_alg».proof.ReferenceIdeal
import Idealize.ShloMosaic.Lib.StableHlo.Run

noncomputable section

namespace Cert.ReferenceIdeal.RefValue

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-! ## The composed term, stage by stage -/

/-- The lookup's index words: a negative token word is wrapped by the table's height, any other kept. -/
def wrapIdx (x : IVec S4096x50 32) : IVec S4096x50 32 :=
  select (cmpi .slt x (broadcastInDim S4096x50 ![] bcast_S_S4096x50 (constantI S_ 32 0#32)))
    (addi x (broadcastInDim S4096x50 ![] bcast_S_S4096x50 (constantI S_ 32 100000#32))) x

/-- The index words as the gather's start-index table, one coordinate per token. -/
def idx3 (x : IVec S4096x50 32) : IVec S4096x50x1 32 :=
  broadcastInDim S4096x50x1 ![0, 1] bcast_S4096x50_S4096x50x1_0_1 (wrapIdx x)

/-- Per token, whether its index word lies in [0, 99999] signed. -/
def inMask (x : IVec S4096x50 32) : IVec S4096x50 1 :=
  Host.reduce IntOp.andi
    (andi (cmpi .sge (idx3 x) (broadcastInDim S4096x50x1 ![] bcast_S_S4096x50x1 (constantI S_ 32 0#32)))
      (cmpi .sle (idx3 x)
        (broadcastInDim S4096x50x1 ![0, 1, 2] bcast_S1x1x1_S4096x50x1_0_1_2
          (broadcastInDim S1x1x1 ![2] bcast_S1_S1x1x1_2 (constantI S1 32 99999#32)))))
    (constantI S_ 1 1#1) reducesTo_S4096x50x1_S4096x50_d2 h_S_

/-- The lookup: the gathered table rows where the index is in range, the fill value elsewhere. -/
def take (T : FVec F S100000x128 .f32) (x : IVec S4096x50 32) : FVec F S4096x50x128 .f32 :=
  select (broadcastInDim S4096x50x128 ![0, 1] bcast_S4096x50_S4096x50x128_0_1 (inMask x))
    (Host.gather gather_S100000x128_S4096x50x1_S4096x50x128_2_0_n_n_0_2_1128 T (idx3 x))
    (broadcastInDim S4096x50x128 ![] bcast_S_S4096x50x128 (constant S_ .f32 0x7FC00000#32))

/-- The gathered rows of each batch row laid side by side. -/
def flatV (T : FVec F S100000x128 .f32) (x : IVec S4096x50 32) : FVec F S4096x6400 .f32 :=
  shapeCast S4096x6400 (take T x) shapeCasts_S4096x50x128_S4096x6400

/-- The first dense layer. -/
def hid (x : IVec S4096x50 32) (T : FVec F S100000x128 .f32) (W1 : FVec F S6400x2048 .f32) (b1 : FVec F S2048 .f32) :
    FVec F S4096x2048 .f32 :=
  addf (Host.dotGeneral dot_S4096x6400_S6400x2048_S4096x2048_1_0_0_1_n_n none (flatV T x) W1)
    (broadcastInDim S4096x2048 ![0, 1] bcast_S1x2048_S4096x2048_0_1 (broadcastInDim S1x2048 ![1] bcast_S2048_S1x2048_1 b1))

/-- The second dense layer: the program's result. -/
def out (x : IVec S4096x50 32) (T : FVec F S100000x128 .f32) (W1 : FVec F S6400x2048 .f32) (b1 : FVec F S2048 .f32)
    (W2 : FVec F S2048x1000 .f32) (b2 : FVec F S1000 .f32) : FVec F S4096x1000 .f32 :=
  addf (Host.dotGeneral dot_S4096x2048_S2048x1000_S4096x1000_1_0_0_1_n_n none (hid x T W1 b1) W2)
    (broadcastInDim S4096x1000 ![0, 1] bcast_S1x1000_S4096x1000_0_1 (broadcastInDim S1x1000 ![1] bcast_S1000_S1x1000_1 b2))

/-! ## The operations and the run -/

/-- @main's 33 operations in order: the lookup's 23 (the call's body over the call's buffers, its select among them),
    then @main's own 10. -/
abbrev ops : List (HloOp τ sig (Elt F)) :=
  [ TRef.nullary main_call0.c (constantI S_ 32 0#32),
    TRef.unary main_call0.c main_call0.v0 (broadcastInDim S4096x50 ![] bcast_S_S4096x50),
    TRef.binary (.of main_arg0) main_call0.v0 main_call0.v1 (cmpi .slt),
    TRef.nullary main_call0.c_0 (constantI S_ 32 100000#32),
    TRef.unary main_call0.c_0 main_call0.v2 (broadcastInDim S4096x50 ![] bcast_S_S4096x50),
    TRef.binary (.of main_arg0) main_call0.v2 main_call0.v3 addi,
    TRef.ternary main_call0.v1 main_call0.v3 (.of main_arg0) main_call0.call0.v0 select,
    TRef.unary main_call0.call0.v0 main_call0.v5 (broadcastInDim S4096x50x1 ![0, 1] bcast_S4096x50_S4096x50x1_0_1),
    TRef.nullary main_call0.c_1 (constantI S1 32 99999#32),
    TRef.nullary main_call0.c_2 (constantI S_ 32 0#32),
    TRef.unary main_call0.c_2 main_call0.v6 (broadcastInDim S4096x50x1 ![] bcast_S_S4096x50x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x50x1 ![0, 1, 2] bcast_S1x1x1_S4096x50x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x50x1_S4096x50_d2 h_S_),
    TRef.binary (.of main_arg1) main_call0.v5 main_call0.v13 (fun x i => Host.gather gather_S100000x128_S4096x50x1_S4096x50x128_2_0_n_n_0_2_1128 x i),
    TRef.unary main_call0.v12 main_call0.v14 (broadcastInDim S4096x50x128 ![0, 1] bcast_S4096x50_S4096x50x128_0_1),
    TRef.nullary main_call0.cst (constant S_ .f32 0x7FC00000#32),
    TRef.unary main_call0.cst main_call0.v15 (broadcastInDim S4096x50x128 ![] bcast_S_S4096x50x128),
    TRef.ternary main_call0.v14 main_call0.v13 main_call0.v15 main_call0.v16 select,
    reshape main_v0 main_v1 rfl shapeCasts_S4096x50x128_S4096x6400,
    binary main_v1 main_arg2 main_v2 ((fun l r => Host.dotGeneral dot_S4096x6400_S6400x2048_S4096x2048_1_0_0_1_n_n none l r) : (⟨S4096x6400, .f32⟩ : BufTy).Contents (Elt F) → (⟨S6400x2048, .f32⟩ : BufTy).Contents (Elt F) → (⟨S4096x2048, .f32⟩ : BufTy).Contents (Elt F)),
    unary main_arg3 main_v3 (broadcastInDim S1x2048 ![1] bcast_S2048_S1x2048_1 : (⟨S2048, .f32⟩ : BufTy).Contents (Elt F) → (⟨S1x2048, .f32⟩ : BufTy).Contents (Elt F)),
    unary main_v3 main_v4 (broadcastInDim S4096x2048 ![0, 1] bcast_S1x2048_S4096x2048_0_1 : (⟨S1x2048, .f32⟩ : BufTy).Contents (Elt F) → (⟨S4096x2048, .f32⟩ : BufTy).Contents (Elt F)),
    binary main_v2 main_v4 main_v5 (addf : (⟨S4096x2048, .f32⟩ : BufTy).Contents (Elt F) → (⟨S4096x2048, .f32⟩ : BufTy).Contents (Elt F) → (⟨S4096x2048, .f32⟩ : BufTy).Contents (Elt F)),
    binary main_v5 main_arg4 main_v6 ((fun l r => Host.dotGeneral dot_S4096x2048_S2048x1000_S4096x1000_1_0_0_1_n_n none l r) : (⟨S4096x2048, .f32⟩ : BufTy).Contents (Elt F) → (⟨S2048x1000, .f32⟩ : BufTy).Contents (Elt F) → (⟨S4096x1000, .f32⟩ : BufTy).Contents (Elt F)),
    unary main_arg5 main_v7 (broadcastInDim S1x1000 ![1] bcast_S1000_S1x1000_1 : (⟨S1000, .f32⟩ : BufTy).Contents (Elt F) → (⟨S1x1000, .f32⟩ : BufTy).Contents (Elt F)),
    unary main_v7 main_v8 (broadcastInDim S4096x1000 ![0, 1] bcast_S1x1000_S4096x1000_0_1 : (⟨S1x1000, .f32⟩ : BufTy).Contents (Elt F) → (⟨S4096x1000, .f32⟩ : BufTy).Contents (Elt F)),
    binary main_v6 main_v8 main_v9 (addf : (⟨S4096x1000, .f32⟩ : BufTy).Contents (Elt F) → (⟨S4096x1000, .f32⟩ : BufTy).Contents (Elt F) → (⟨S4096x1000, .f32⟩ : BufTy).Contents (Elt F)) ]

set_option maxRecDepth 1024 in
/-- @main is that straight line: the two functions' definitions unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    reshape_bufs_sub .., binary_bufs_sub .., unary_bufs_sub .., unary_bufs_sub .., binary_bufs_sub .., binary_bufs_sub ..,
    unary_bufs_sub .., unary_bufs_sub .., binary_bufs_sub ..⟩

end Cert.ReferenceIdeal.RefValue

end
-- ==== Proof.RefRead.lean ====
/-
  The reference's composed term read at an index: under the token range it is the specification.

  Stage by stage over variables. A token word in [0, 99999] is not wrapped; its index word passes the range mask, so the
  lookup's select keeps the gathered value; the gather reads the table at (clamped index, column), and the clamp does
  nothing in range; the flattening reads entry k of a batch row at token k / 128, column k % 128; each dense layer at the
  extended reals is the sum over its one contraction axis of the operands' products, plus the bias.
-/
import proofs.«203293_g38809324487172_cont_8to1_b_1330_62_alg».proof.Proof.RefOps
import proofs.«203293_g38809324487172_cont_8to1_b_1330_62_alg».proof.Proof.Spec
import Idealize.ShloMosaic.Lib.ValueIdx
import Idealize.ShloMosaic.Lib.Pipeline.Value
import Idealize.ShloMosaic.Lib.Affine
import Idealize.ShloMosaic.PureOps.Ideal.Laws
import Idealize.ShloMosaic.PureOps.Reduce

noncomputable section

open scoped BigOperators

namespace Cert.ReferenceIdeal.RefValue

open Cert.ReferenceIdeal Cert.ReferenceIdeal.Facts₀ Idealize.ShloMosaic Idealize.ShloMosaic.ValueIdx

variable [Cert.ReferenceIdeal.Facts]

local notation "GD" => gather_S100000x128_S4096x50x1_S4096x50x128_2_0_n_n_0_2_1128

/-! ## Words -/

theorem toInt_zero32 : (0#32 : BitVec 32).toInt = 0 := by decide
theorem toInt_99999 : (99999#32 : BitVec 32).toInt = 99999 := by decide

/-- A word in [0, 99999] signed: its signed reading clamped to the table's last row is its unsigned reading. -/
theorem clamp_of_range (w : BitVec 32) (h0 : 0 ≤ w.toInt) (h1 : w.toInt ≤ 99999) : min w.toInt.toNat 99999 = w.toNat := by
  have h2 := BitVec.toInt_eq_toNat_cond w
  have h3 := w.isLt
  split at h2 <;> omega

/-- A conjunction of ones is one. -/
theorem foldl_andi_one {ι : Type} (f : ι → BitVec 1) (hf : ∀ i, f i = 1#1) :
    ∀ l : List ι, l.foldl (fun r i => IntOp.andi r (f i)) 1#1 = 1#1
  | [] => rfl
  | a :: l => by
    rw [List.foldl_cons, hf a, show IntOp.andi 1#1 1#1 = 1#1 from by decide]
    exact foldl_andi_one f hf l

/-! ## The lookup -/

theorem idx3_lt0 {n0 n1 n2 : Nat} (j : (⟨3, ![n0, n1, n2]⟩ : Shape).Idx) : (j 0).val < n0 := (j 0).isLt
theorem idx3_lt1 {n0 n1 n2 : Nat} (j : (⟨3, ![n0, n1, n2]⟩ : Shape).Idx) : (j 1).val < n1 := (j 1).isLt
theorem idx3_lt2 {n0 n1 n2 : Nat} (j : (⟨3, ![n0, n1, n2]⟩ : Shape).Idx) : (j 2).val < n2 := (j 2).isLt

/-- The two token coordinates of an index of the start-index table or of the gathered array. -/
abbrev tok2 {n : Nat} (j : (⟨3, ![4096, 50, n]⟩ : Shape).Idx) : S4096x50.Idx :=
  ix2 ⟨(j 0).val, idx3_lt0 j⟩ ⟨(j 1).val, idx3_lt1 j⟩

/-- A nonnegative token word is not wrapped. -/
theorem wrapIdx_apply (x : IVec S4096x50 32) (i : S4096x50.Idx) (h0 : 0 ≤ (x i).toInt) : wrapIdx x i = x i := by
  unfold wrapIdx
  rw [select_apply]
  have hc : cmpi .slt x (broadcastInDim S4096x50 ![] bcast_S_S4096x50 (constantI S_ 32 0#32)) i = 0#1 := by
    apply eq_zero_of_ne_one
    intro h
    have h' : IntOp.cmpi .slt (x i) 0#32 = 1#1 := h
    rw [IntOp.cmpi_slt, toInt_zero32] at h'
    omega
  rw [hc, select_zero]

/-- The start-index table at (b, s, 0) is the index word of token (b, s). -/
theorem idx3_apply (x : IVec S4096x50 32) (j : S4096x50x1.Idx) : idx3 x j = wrapIdx x (tok2 j) := by
  unfold idx3
  exact broadcastInDim_apply _ _ _ j _ (fun a => match a with | ⟨0, _⟩ => rfl | ⟨1, _⟩ => rfl)

theorem idx3_of_range (x : IVec S4096x50 32) (hx : Cert.Spec.InRange x) (j : S4096x50x1.Idx) : idx3 x j = x (tok2 j) :=
  (idx3_apply x j).trans (wrapIdx_apply x _ (hx _).1)

/-- Under the token range every token passes the range mask. -/
theorem inMask_apply (x : IVec S4096x50 32) (hx : Cert.Spec.InRange x) (i : S4096x50.Idx) : inMask x i = 1#1 := by
  unfold inMask
  rw [Host.reduce_eq_foldl]
  refine foldl_andi_one _ (fun j => ?_) _
  have hj := hx (tok2 j)
  have e := idx3_of_range x hx j
  refine IntOp.andi_eq_one.2 ⟨?_, ?_⟩
  · show IntOp.cmpi .sge (idx3 x j) 0#32 = 1#1
    rw [IntOp.cmpi_sge, e, toInt_zero32]; exact hj.1
  · show IntOp.cmpi .sle (idx3 x j) 99999#32 = 1#1
    rw [IntOp.cmpi_sle, e, toInt_99999]; exact hj.2

/-- The gather at (b, s, e): the table at the start index of token (b, s), read signed and clamped to the last row, column e. -/
theorem gather_apply {α : Type} (T : S100000x128.Idx → α) (idx : IVec S4096x50x1 32) (j : S4096x50x128.Idx) :
    Host.gather GD T idx j
      = T (ix2 ⟨min (idx (ix3 ⟨(j 0).val, idx3_lt0 j⟩ ⟨(j 1).val, idx3_lt1 j⟩ ⟨0, Nat.one_pos⟩)).toInt.toNat 99999, by omega⟩
            ⟨(j 2).val, idx3_lt2 j⟩) := by
  unfold Host.gather
  congr 1
  funext a
  refine Fin.ext ?_
  show (GD).start j idx a + (GD).batchCoord j a + (GD).offCoord j a = _
  rw [GatherDims.batchCoord_eq_zero _ _ _ List.not_mem_nil]
  have h2 : ∀ a : Fin 2, a = 0 ∨ a = 1 := by decide
  have h01 : (1 : Fin 2) ≠ 0 := by decide
  rcases h2 a with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (GD).startIndexMap from List.mem_singleton.mpr rfl)]
    have hsi : (GD).siIdx j ⟨List.idxOf (0 : Fin 2) (GD).startIndexMap,
        List.idxOf_lt_length_iff.2 (List.mem_singleton.mpr rfl)⟩
          = ix3 ⟨(j 0).val, idx3_lt0 j⟩ ⟨(j 1).val, idx3_lt1 j⟩ ⟨0, Nat.one_pos⟩ := by
      funext b; refine Fin.ext ?_
      match b with
      | ⟨0, _⟩ => rfl
      | ⟨1, _⟩ => rfl
      | ⟨2, _⟩ => rfl
    rw [hsi]
    rfl
  · unfold GatherDims.start
    rw [dif_neg (show (1 : Fin 2) ∉ (GD).startIndexMap from fun h => h01 (List.mem_singleton.mp h))]
    unfold GatherDims.offCoord
    rw [dif_pos (show (1 : Fin 2) ∈ (GD).sKept from
      ((GD).mem_sKept 1).2 ⟨fun h => h01 (List.mem_singleton.mp h), List.not_mem_nil⟩)]
    simp only [Nat.zero_add, Nat.add_zero]
    rfl

/-- The lookup at (b, s, e) under the token range: the table row the token names, column e. -/
theorem take_apply (T : FVec Ideal S100000x128 .f32) (x : IVec S4096x50 32) (hx : Cert.Spec.InRange x) (j : S4096x50x128.Idx) :
    take T x j = T (ix2 (Cert.Spec.row (x (tok2 j))) ⟨(j 2).val, idx3_lt2 j⟩) := by
  unfold take
  rw [select_apply]
  have hm : broadcastInDim S4096x50x128 ![0, 1] bcast_S4096x50_S4096x50x128_0_1 (inMask x) j = 1#1 := by
    rw [broadcastInDim_apply _ _ _ j (tok2 j) (fun a => match a with | ⟨0, _⟩ => rfl | ⟨1, _⟩ => rfl)]
    exact inMask_apply x hx _
  rw [hm, select_one, gather_apply]
  have hr : ∀ (h : min (idx3 x (ix3 ⟨(j 0).val, idx3_lt0 j⟩ ⟨(j 1).val, idx3_lt1 j⟩ ⟨0, Nat.one_pos⟩)).toInt.toNat 99999 < 100000),
      (⟨_, h⟩ : Fin 100000) = Cert.Spec.row (x (tok2 j)) := by
    intro h
    apply Fin.ext
    show min (idx3 x _).toInt.toNat 99999 = (Cert.Spec.row (x (tok2 j))).val
    rw [Cert.Spec.row_val_of_lt _ (hx.toNat_lt _), idx3_of_range x hx]
    exact clamp_of_range _ (hx _).1 (hx _).2
  rw [hr]

/-! ## The flattening -/

/-- Entry k of batch row b of the flat array is the flat vector of the specification. -/
theorem flatV_apply (T : FVec Ideal S100000x128 .f32) (x : IVec S4096x50 32) (hx : Cert.Spec.InRange x) (b : Fin 4096) (k : Fin 6400) :
    flatV T x (ix2 b k) = Cert.Spec.flat x T b k := by
  unfold flatV Cert.Spec.flat
  rw [shapeCast_apply _ _ (ix2 b k) (ix3 b (Cert.Spec.tok k) (Cert.Spec.col k))
    (by rw [Shape.rowMajor_val_three, Shape.rowMajor_val_two]
        show (b.val * 50 + k.val / 128) * 128 + k.val % 128 = b.val * 6400 + k.val
        omega)]
  rw [take_apply T x hx]

/-! ## A dense layer -/

/-- A product over one contraction axis, rows times columns, read at an index: the sum over the axis. -/
theorem dot_apply {M K N : Nat} (D : DotDims ⟨2, ![M, K]⟩ ⟨2, ![K, N]⟩ ⟨2, ![M, N]⟩) (hr : D.contr.rank = 1)
    (hs : D.contr.size ⟨0, by omega⟩ = K)
    (hL : ∀ (j : (⟨2, ![M, N]⟩ : Shape).Idx) (q : D.contr.Idx),
      D.lhsIdx j q = ix2 ⟨(j 0).val, idx2_lt0 j⟩ (contrEquiv1 D K hr hs q))
    (hR : ∀ (j : (⟨2, ![M, N]⟩ : Shape).Idx) (q : D.contr.Idx),
      D.rhsIdx j q = ix2 (contrEquiv1 D K hr hs q) ⟨(j 1).val, idx2_lt1 j⟩)
    (l : FVec Ideal ⟨2, ![M, K]⟩ .f32) (r : FVec Ideal ⟨2, ![K, N]⟩ .f32) (j : (⟨2, ![M, N]⟩ : Shape).Idx) :
    Host.dotGeneral D none l r j
      = ∑ k : Fin K, l (ix2 ⟨(j 0).val, idx2_lt0 j⟩ k) * r (ix2 k ⟨(j 1).val, idx2_lt1 j⟩) := by
  show FloatOps.dotGeneral D none .single l r j = _
  rw [Ideal.dotGeneral_apply]
  exact Fintype.sum_equiv (contrEquiv1 D K hr hs) _ _ (fun q => by rw [hL, hR])

/-! ## The two layers of the program -/

local notation "D1" => dot_S4096x6400_S6400x2048_S4096x2048_1_0_0_1_n_n
local notation "D2" => dot_S4096x2048_S2048x1000_S4096x1000_1_0_0_1_n_n

theorem d1_rank : (D1).contr.rank = 1 := rfl
theorem d1_size : (D1).contr.size ⟨0, by rw [d1_rank]; exact Nat.one_pos⟩ = 6400 := rfl
theorem d2_rank : (D2).contr.rank = 1 := rfl
theorem d2_size : (D2).contr.size ⟨0, by rw [d2_rank]; exact Nat.one_pos⟩ = 2048 := rfl

theorem d1_lhs (j : S4096x2048.Idx) (q : (D1).contr.Idx) :
    (D1).lhsIdx j q = ix2 ⟨(j 0).val, idx2_lt0 j⟩ (contrEquiv1 D1 6400 d1_rank d1_size q) := by
  funext a; refine Fin.ext ?_
  match a with
  | ⟨0, _⟩ => rfl
  | ⟨1, _⟩ => rfl

theorem d1_rhs (j : S4096x2048.Idx) (q : (D1).contr.Idx) :
    (D1).rhsIdx j q = ix2 (contrEquiv1 D1 6400 d1_rank d1_size q) ⟨(j 1).val, idx2_lt1 j⟩ := by
  funext a; refine Fin.ext ?_
  match a with
  | ⟨0, _⟩ => rfl
  | ⟨1, _⟩ => rfl

theorem d2_lhs (j : S4096x1000.Idx) (q : (D2).contr.Idx) :
    (D2).lhsIdx j q = ix2 ⟨(j 0).val, idx2_lt0 j⟩ (contrEquiv1 D2 2048 d2_rank d2_size q) := by
  funext a; refine Fin.ext ?_
  match a with
  | ⟨0, _⟩ => rfl
  | ⟨1, _⟩ => rfl

theorem d2_rhs (j : S4096x1000.Idx) (q : (D2).contr.Idx) :
    (D2).rhsIdx j q = ix2 (contrEquiv1 D2 2048 d2_rank d2_size q) ⟨(j 1).val, idx2_lt1 j⟩ := by
  funext a; refine Fin.ext ?_
  match a with
  | ⟨0, _⟩ => rfl
  | ⟨1, _⟩ => rfl

/-- The first bias, broadcast over the batch rows, read at an index. -/
theorem bias1_apply (b1 : FVec Ideal S2048 .f32) (j : S4096x2048.Idx) :
    broadcastInDim S4096x2048 ![0, 1] bcast_S1x2048_S4096x2048_0_1 (broadcastInDim S1x2048 ![1] bcast_S2048_S1x2048_1 b1) j
      = b1 (ix1 ⟨(j 1).val, idx2_lt1 j⟩) := by
  rw [broadcastInDim_apply _ _ _ j (ix2 ⟨0, Nat.one_pos⟩ ⟨(j 1).val, idx2_lt1 j⟩)
    (fun a => match a with | ⟨0, _⟩ => rfl | ⟨1, _⟩ => rfl)]
  rw [broadcastInDim_apply _ _ _ _ (ix1 ⟨(j 1).val, idx2_lt1 j⟩) (fun a => match a with | ⟨0, _⟩ => rfl)]

/-- The second bias, broadcast over the batch rows, read at an index. -/
theorem bias2_apply (b2 : FVec Ideal S1000 .f32) (j : S4096x1000.Idx) :
    broadcastInDim S4096x1000 ![0, 1] bcast_S1x1000_S4096x1000_0_1 (broadcastInDim S1x1000 ![1] bcast_S1000_S1x1000_1 b2) j
      = b2 (ix1 ⟨(j 1).val, idx2_lt1 j⟩) := by
  rw [broadcastInDim_apply _ _ _ j (ix2 ⟨0, Nat.one_pos⟩ ⟨(j 1).val, idx2_lt1 j⟩)
    (fun a => match a with | ⟨0, _⟩ => rfl | ⟨1, _⟩ => rfl)]
  rw [broadcastInDim_apply _ _ _ _ (ix1 ⟨(j 1).val, idx2_lt1 j⟩) (fun a => match a with | ⟨0, _⟩ => rfl)]

/-- The first layer at (b, h) under the token range is the specification's. -/
theorem hid_apply (x : IVec S4096x50 32) (T : FVec Ideal S100000x128 .f32) (W1 : FVec Ideal S6400x2048 .f32)
    (b1 : FVec Ideal S2048 .f32) (hx : Cert.Spec.InRange x) (b : Fin 4096) (h : Fin 2048) :
    hid x T W1 b1 (ix2 b h) = Cert.Spec.hidden x T W1 b1 b h := by
  unfold hid Cert.Spec.hidden
  rw [addf_apply, dot_apply D1 d1_rank d1_size d1_lhs d1_rhs, bias1_apply]
  show (∑ k : Fin 6400, flatV T x (ix2 b k) * W1 (ix2 k h)) + b1 (ix1 h) = _
  have e : ∀ k : Fin 6400, flatV T x (ix2 b k) = Cert.Spec.flat x T b k := fun k => flatV_apply T x hx b k
  simp only [e]

/-- THE REFERENCE'S TERM IS THE SPECIFICATION under the token range. -/
theorem out_eq_G (x : IVec S4096x50 32) (T : FVec Ideal S100000x128 .f32) (W1 : FVec Ideal S6400x2048 .f32)
    (b1 : FVec Ideal S2048 .f32) (W2 : FVec Ideal S2048x1000 .f32) (b2 : FVec Ideal S1000 .f32) (hx : Cert.Spec.InRange x) :
    out x T W1 b1 W2 b2 = Cert.Spec.G x T W1 b1 W2 b2 := by
  funext i
  show out x T W1 b1 W2 b2 i = Cert.Spec.logit x T W1 b1 W2 b2 ⟨(i 0).val, idx2_lt0 i⟩ ⟨(i 1).val, idx2_lt1 i⟩
  unfold out Cert.Spec.logit
  rw [addf_apply, dot_apply D2 d2_rank d2_size d2_lhs d2_rhs, bias2_apply]
  have e : ∀ h : Fin 2048, hid x T W1 b1 (ix2 ⟨(i 0).val, idx2_lt0 i⟩ h)
      = Cert.Spec.hidden x T W1 b1 ⟨(i 0).val, idx2_lt0 i⟩ h := fun h => hid_apply x T W1 b1 hx _ h
  simp only [e]

end Cert.ReferenceIdeal.RefValue

end
-- ==== Proof.RefRun.lean ====
/-
  The reference's run: every weakly fair execution of @main terminates with the result buffer at the specification of
  the six argument arrays, given the token range, and the arguments unchanged.

  The run itself is the library's straight-line rule over the operation list; the result buffer's fold over the list is
  the composed term `out` by computation (the reduction and the gather kept folded meanwhile: the equation never looks
  inside them), and that term is the specification index by index.
-/
import proofs.«203293_g38809324487172_cont_8to1_b_1330_62_alg».proof.Proof.RefOps
import proofs.«203293_g38809324487172_cont_8to1_b_1330_62_alg».proof.Proof.RefRead

noncomputable section

namespace Cert.ReferenceIdeal.RefValue

open Cert.ReferenceIdeal Cert.ReferenceIdeal.Facts₀ Idealize.ShloMosaic Idealize.ShloMosaic.TcCoe Idealize.SL.Sem Idealize.ShloMosaic.StableHlo

section AnyFloat

variable {F : FTy → Type} [FloatOps F] [Cert.ReferenceIdeal.Facts]

attribute [local irreducible] Host.reduce Host.gather in
set_option maxRecDepth 16384 in
set_option maxHeartbeats 800000 in
/-- The fold at the result buffer is `out` of the arguments' contents, by computation. -/
theorem out_eq (V : Valuation τ sig (Elt F)) :
    after ops V (main_v9 : DevRef τ sig)
      = out (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  simp only [after_cons, after_nil]
  rfl

set_option maxRecDepth 16384 in
/-- On every device, for any float values, from any memory with zero counters: every weakly fair execution of @main
    terminates with the result buffer at `out` of the arguments' launch contents and the arguments unchanged. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v9)
          = out (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v9).trans (out_eq (launchContents m c)),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp)⟩)
    (run_seq scopedRefs_eq scopedSems_eq defs main (fun _ => ops) main_eq (fun _ => ops_sub) m ρ)

end AnyFloat

/-- THE REFERENCE'S RUN at the extended reals: from any memory whose token words are in range, with zero counters, every
    weakly fair execution of @main terminates with the result buffer at the specification of the six argument arrays and
    the arguments unchanged. -/
theorem run [Cert.ReferenceIdeal.Facts]
    (m : (ℓ : Loc Cert.ReferenceIdeal.nD Cert.ReferenceIdeal.τ Cert.ReferenceIdeal.sig) → Buf (Elt Ideal) ℓ) (g : Dev Cert.ReferenceIdeal.nD → PrngReg)
    (hx : ∀ c : Dev Cert.ReferenceIdeal.nD, Cert.Spec.InRange (m ((c.tc : Thread Cert.ReferenceIdeal.nD Cert.ReferenceIdeal.τ).loc Cert.ReferenceIdeal.main_arg0))) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v9)
          = Cert.Spec.G (m ((c.tc : Thread _ _).loc Cert.ReferenceIdeal.main_arg0)) (m ((c.tc : Thread _ _).loc Cert.ReferenceIdeal.main_arg1)) (m ((c.tc : Thread _ _).loc Cert.ReferenceIdeal.main_arg2)) (m ((c.tc : Thread _ _).loc Cert.ReferenceIdeal.main_arg3)) (m ((c.tc : Thread _ _).loc Cert.ReferenceIdeal.main_arg4)) (m ((c.tc : Thread _ _).loc Cert.ReferenceIdeal.main_arg5))
        ∧ r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1)
        ∧ r.2.mem ((c.tc : Thread _ _).loc Cert.ReferenceIdeal.main_arg2) = m ((c.tc : Thread _ _).loc Cert.ReferenceIdeal.main_arg2)
        ∧ r.2.mem ((c.tc : Thread _ _).loc Cert.ReferenceIdeal.main_arg3) = m ((c.tc : Thread _ _).loc Cert.ReferenceIdeal.main_arg3)
        ∧ r.2.mem ((c.tc : Thread _ _).loc Cert.ReferenceIdeal.main_arg4) = m ((c.tc : Thread _ _).loc Cert.ReferenceIdeal.main_arg4)
        ∧ r.2.mem ((c.tc : Thread _ _).loc Cert.ReferenceIdeal.main_arg5) = m ((c.tc : Thread _ _).loc Cert.ReferenceIdeal.main_arg5)) :=
  (θ_run _ _ _).mono (fun _ h c => ⟨(h c).1.trans (out_eq_G _ _ _ _ _ _ (hx c)), (h c).2⟩) (run_out m g)

end Cert.ReferenceIdeal.RefValue

end
-- ==== Proof.Claims.lean ====
/-
  The five claims from the two runs.

  The kernel's run, at either instance, ends with the result array at the region's value and the argument arrays
  unchanged, given the tile's obligation; the reference's run ends with its result at the specified function of the
  arguments. The frames drop the values. At the ideal instance the region's value is the specified function of the
  kernel's arguments, which the reference's are by hypothesis: the two results agree. The token range both runs ask is
  the input domain's last conjunct.
-/
import proofs.«203293_g38809324487172_cont_8to1_b_1330_62_alg».proof.Defs
import proofs.«203293_g38809324487172_cont_8to1_b_1330_62_alg».proof.Proof.LaunchRun
import proofs.«203293_g38809324487172_cont_8to1_b_1330_62_alg».proof.Proof.LaunchRunBits
import proofs.«203293_g38809324487172_cont_8to1_b_1330_62_alg».proof.Proof.LaunchValue
import proofs.«203293_g38809324487172_cont_8to1_b_1330_62_alg».proof.Proof.PreRange
import proofs.«203293_g38809324487172_cont_8to1_b_1330_62_alg».proof.Proof.RefRun
import proofs.«203293_g38809324487172_cont_8to1_b_1330_62_alg».proof.Proof.Gen.Kernel
import proofs.«203293_g38809324487172_cont_8to1_b_1330_62_alg».proof.Proof.Gen.KernelIdeal
import proofs.«203293_g38809324487172_cont_8to1_b_1330_62_alg».proof.Proof.Gen.ReferenceIdeal
import proofs.«203293_g38809324487172_cont_8to1_b_1330_62_alg».proof.Proof.Gen.Pre_input_domain

noncomputable section

namespace Cert.Proof

open Idealize.ShloMosaic Idealize.SL.Sem

/-! ## The token range from the precondition -/

theorem preOK_Kernel (m : (ℓ : Loc Cert.Kernel.nD Cert.Kernel.τ Cert.Kernel.sig) → Buf (Elt Bits) ℓ) (h : Cert.Pre_Kernel m) :
    Cert.Kernel.Sc.PreOK (F := Bits) m :=
  fun d => Cert.PreRange.inRange (F := Bits) _ _ _ _ _ _ (h d)

theorem preOK_KernelIdeal (m : (ℓ : Loc Cert.KernelIdeal.nD Cert.KernelIdeal.τ Cert.KernelIdeal.sig) → Buf (Elt Ideal) ℓ) (h : Cert.Pre_KernelIdeal m) :
    Cert.KernelIdeal.Sc.PreOK (F := Ideal) m :=
  fun d => Cert.PreRange.inRange (F := Ideal) _ _ _ _ _ _ (h d)

/-- The tile's obligation at the word-level program and at the idealized one, as the launch takes it. -/
abbrev TileK : Prop := ∀ m : (ℓ : Loc Cert.Kernel.nD Cert.Kernel.τ Cert.Kernel.sig) → Buf (Elt Bits) ℓ, Cert.Kernel.Sc.PreOK (F := Bits) m →
  (Cert.Kernel.Sc.K (F := Bits)).TileObl (Cert.Kernel.Sc.D (F := Bits)) Cert.Kernel.Sc.𝒱 (Cert.Kernel.Sc.P m) Cert.Kernel.Sc.v₀ 0
abbrev TileKI : Prop := ∀ m : (ℓ : Loc Cert.KernelIdeal.nD Cert.KernelIdeal.τ Cert.KernelIdeal.sig) → Buf (Elt Ideal) ℓ, Cert.KernelIdeal.Sc.PreOK (F := Ideal) m →
  (Cert.KernelIdeal.Sc.K (F := Ideal)).TileObl (Cert.KernelIdeal.Sc.D (F := Ideal)) Cert.KernelIdeal.Sc.𝒱 (Cert.KernelIdeal.Sc.P m) Cert.KernelIdeal.Sc.v₀ 0

/-! ## The frames -/

theorem frame_Kernel (hT : TileK) : Cert.frame_Kernel := fun m g hpre =>
  (θ_run Cert.Kernel.defs _ _).mono (fun _ h c => (h c).2)
    (Cert.Kernel.Sc.run_main (F := Bits) m g (preOK_Kernel m hpre) (hT m (preOK_Kernel m hpre)))

theorem frame_KernelIdeal (hT : TileKI) : Cert.frame_KernelIdeal := fun m g hpre =>
  (θ_run Cert.KernelIdeal.defs _ _).mono (fun _ h c => (h c).2)
    (Cert.KernelIdeal.Sc.run_main (F := Ideal) m g (preOK_KernelIdeal m hpre) (hT m (preOK_KernelIdeal m hpre)))

theorem frame_ReferenceIdeal : Cert.frame_ReferenceIdeal := fun m g hpre =>
  (θ_run Cert.ReferenceIdeal.defs _ _).mono (fun _ h c => (h c).2)
    (Cert.ReferenceIdeal.RefValue.run m g fun c => Cert.PreRange.inRange (F := Ideal) _ _ _ _ _ _ (hpre c))

/-! ## The two results agree -/

theorem algebraic (hT : TileKI) : Cert.algebraic_KernelIdeal_ReferenceIdeal := fun m g m' g' hpre hag =>
  ⟨Cert.KernelIdeal.Sc.outFinal m,
    Cert.KernelIdeal.Sc.run_main (F := Ideal) m g (preOK_KernelIdeal m hpre) (hT m (preOK_KernelIdeal m hpre)),
    (θ_run Cert.ReferenceIdeal.defs _ _).mono
      (fun _ h c => ⟨(h c).1.trans (by
          obtain ⟨e0, e1, e2, e3, e4, e5⟩ := hag c
          show _ = Cert.KernelIdeal.Sc.outFinal m c
          rw [Cert.KernelIdeal.Sc.outFinal_eq m c, e0, e1, e2, e3, e4, e5]), (h c).2⟩)
      (Cert.ReferenceIdeal.RefValue.run m' g' fun c => by
        have e0 := (hag c).1
        rw [e0]
        exact preOK_KernelIdeal m hpre c)⟩

/-! ## The claim -/

theorem claim_of (hK : TileK) (hKI : TileKI) : Cert.Claim :=
  ⟨Cert.Kernel.Gen.facts, Cert.KernelIdeal.Gen.facts, Cert.ReferenceIdeal.Gen.facts, Cert.Pre_input_domain.Gen.facts,
    frame_Kernel hK, frame_KernelIdeal hKI, frame_ReferenceIdeal, trivial, algebraic hKI⟩

end Cert.Proof

end
-- ==== Proof.TileOffs.lean ====
/-
  The ring's arithmetic. Group `t` of the fifty lives in slot `t % 6` of the six row buffers; group `t + 5` (issued in
  trip `t`) and group `t - 1` (whose write-out trip `t` waits for) share slot `(t + 5) % 6`. The kernel computes these
  slots by signed remainders of 32-bit words; over the fifty trips they are the plain remainders, decided here.
-/
import proofs.«203293_g38809324487172_cont_8to1_b_1330_62_alg».proof.Proof.Gen.KernelIdeal

namespace Cert.KernelIdeal.Sc

open Cert.KernelIdeal Cert.KernelIdeal.Gen Idealize.ShloMosaic

theorem trips_eq : k0_t1_loop.trips = 50 := by decide +kernel

theorem off2_eq : ∀ t : Fin k0_t1_loop.trips, k0_off2 t = ![t.val % 6, 0, 0] := by decide +kernel
theorem off4_eq : ∀ t : Fin k0_t1_loop.trips, k0_off4 t = ![t.val % 6] := by decide +kernel
theorem off6_eq : ∀ t : Fin k0_t1_loop.trips, k0_off6 t = ![(t.val + 5) % 6, 0, 0] := by decide +kernel
theorem off8_eq : ∀ t : Fin k0_t1_loop.trips, k0_off8 t = ![(t.val + 5) % 6] := by decide +kernel
theorem off9_eq : ∀ t : Fin k0_t1_loop.trips, k0_off9 t = ![(t.val + 5) % 6, 0, 0] := by decide +kernel
theorem off11_eq : ∀ t : Fin k0_t1_loop.trips, k0_off11 t = ![(t.val + 5) % 6] := by decide +kernel
theorem cond1_iff : ∀ t : Fin k0_t1_loop.trips, k0_cond1 t = 1#1 ↔ t.val + 5 < 50 := by decide +kernel
theorem cond2_iff : ∀ t : Fin k0_t1_loop.trips, k0_cond2 t = 1#1 ↔ 1 ≤ t.val := by decide +kernel
theorem off7_eq : ∀ (i : grid0.Coords) (t : Fin k0_t1_loop.trips), 1 ≤ t.val → k0_off7 i t = ![256 * (i 1).val + 128 * (i 0).val, 128 * (t.val - 1)] := by decide +kernel

end Cert.KernelIdeal.Sc
-- ==== Proof.TileDefs.lean ====
/-
  A tile's holdings, spelt as its task's body addresses them: the worker's block of the transposed token array, the two
  scratch buffers, and the thirteen DMA cells — six for the ring's gathers, six for its write-outs, one for the list fetch.
-/
import proofs.«203293_g38809324487172_cont_8to1_b_1330_62_alg».proof.Proof.Setup
import proofs.«203293_g38809324487172_cont_8to1_b_1330_62_alg».proof.Proof.TileOffs

noncomputable section

namespace Cert.KernelIdeal.Sc

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "iV" => (Memref.whole Cert.KernelIdeal.main_v1_scv : Memref Cert.KernelIdeal.sig Kind.scVector Space.hbm Cert.KernelIdeal.S32x50x128 EltTy.i32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S4096x6400 EltTy.f32)
local notation "sI" => (Memref.whole Cert.KernelIdeal.cc0_scratch0 : Memref Cert.KernelIdeal.sig Kind.scVector Space.vmem Cert.KernelIdeal.S50x128 EltTy.i32)
local notation "sR" => (Memref.whole Cert.KernelIdeal.cc0_scratch1 : Memref Cert.KernelIdeal.sig Kind.scVector Space.vmem Cert.KernelIdeal.S6x128x128 EltTy.f32)

variable [FloatOps F]

section Tile

variable (d : Dev nD) (L : grid0.Coords)

abbrev cV (L : grid0.Coords) : Fin τ.nSC := (L 0).castLE hcore0
abbrev jV (L : grid0.Coords) : Fin τ.nSub := (L 1).castLE hsub0
/-- The worker number of the tile at grid point `L`. -/
def widL (L : grid0.Coords) : Fin 32 := wid ⟨(L 0).val, (L 0).isLt⟩ ⟨(L 1).val, (L 1).isLt⟩

/-! ## The task's holdings, spelt as the body addresses them -/

/-- The worker's block of the transposed token array as the body slices it: block `2 i + c`, squeezed to [50, 128]. -/
abbrev iRowK (L : grid0.Coords) : Memref sig .scVector .hbm S50x128 .i32 :=
  ((iV).slice (Rect.unit (s := S32x50x128) (k0_off1 L) S1x50x128.size (k0_off1_inb L)) (fun _ => rfl)).squeeze S50x128 squeezes_S1x50x128_S50x128

omit [FloatOps F] in
theorem xBlkK_eq : Rect.unit (s := S32x50x128) (k0_off1 L) S1x50x128.size (k0_off1_inb L) = xBlk (widL L) := by
  unfold xBlk Rect.part Rect.block
  congr 1 <;> funext a
  · rw [k0_off1_eq]
    match a with
    | 0 => simp [Shape.partIx, Shape.partSize, widL, wid]
    | 1 => simp [Shape.partIx, Shape.partSize]
    | 2 => simp [Shape.partIx, Shape.partSize]
  · match a with
    | 0 => simp [Shape.partSize]
    | 1 => simp [Shape.partSize]
    | 2 => simp [Shape.partSize]

omit [FloatOps F] in
theorem set_iRowK : (iRowK L).view.set = xSet (widL L) := by
  show (((iV).view.slice (Rect.unit (s := S32x50x128) (k0_off1 L) S1x50x128.size (k0_off1_inb L))).reshape S50x128 squeezes_S1x50x128_S50x128.numel_eq).set = _
  rw [View.set_reshape]
  show ((View.whole (main_v1_scv : Ref sig .scVector)).slice (Rect.unit (s := S32x50x128) (k0_off1 L) S1x50x128.size (k0_off1_inb L))).set = (xBlk (widL L)).set
  rw [View.set_slice, xBlkK_eq]; exact Finset.map_refl

omit [FloatOps F] in
theorem pts_iRowK (f : Buf (Elt F) (xLoc d)) :
    ((iRowK L).view.loc (V d (cV L) (jV L)) ↦[(iRowK L).view.set]{fullShare} f : sProp 𝕄) = xLoc d ↦[xSet (widL L)]{fullShare} f := by
  rw [set_iRowK]

/-- The cell of the list fetch, and the ring's cells: slot `k`'s gather completes on cell `k`, its write-out on cell `6 + k`. -/
abbrev scell (thr : Thread nD τ) : GSem nD τ sig := (thr, .dma (⟨12, by show 12 < 21; omega⟩ : DmaSem sig))
abbrev gsemK (k : Fin 6) : DmaSem sig := ⟨k.val, by have := k.isLt; show k.val < 21; omega⟩
abbrev wsemK (k : Fin 6) : DmaSem sig := ⟨6 + k.val, by have := k.isLt; show 6 + k.val < 21; omega⟩
abbrev gcell (thr : Thread nD τ) (k : Fin 6) : GSem nD τ sig := (thr, .dma (gsemK k))
abbrev wcell (thr : Thread nD τ) (k : Fin 6) : GSem nD τ sig := (thr, .dma (wsemK k))

def gEmb (thr : Thread nD τ) : Fin 6 ↪ GSem nD τ sig := ⟨gcell thr, fun a b h => by
  simp only [gcell, gsemK, Prod.mk.injEq, SemLoc.dma.injEq, Fin.mk.injEq, _root_.true_and] at h; exact Fin.ext h⟩
def wEmb (thr : Thread nD τ) : Fin 6 ↪ GSem nD τ sig := ⟨wcell thr, fun a b h => by
  simp only [wcell, wsemK, Prod.mk.injEq, SemLoc.dma.injEq, Fin.mk.injEq, _root_.true_and] at h; exact Fin.ext (by omega)⟩

/-- The tile's thirteen DMA cells named one by one, beside the rest of its scoped cells. -/
def otherCells (thr : Thread nD τ) : Finset (GSem nD τ sig) :=
  ownCells thr \ ((Finset.univ.map (gEmb thr) ∪ Finset.univ.map (wEmb thr)) ∪ {scell thr})

omit [FloatOps F] in
theorem ownSems0_V :
    (ownSems0 (V d (cV L) (jV L)) : sProp 𝕄)
      = iprop((((bigSep Finset.univ fun k : Fin 6 => semVal (gcell (V d (cV L) (jV L)) k) 0)
          ∗ (bigSep Finset.univ fun k : Fin 6 => semVal (wcell (V d (cV L) (jV L)) k) 0))
          ∗ semVal (scell (V d (cV L) (jV L))) 0)
          ∗ bigSep (otherCells (V d (cV L) (jV L))) fun g => semVal g 0) := by
  unfold SparseCore.Cfg.ownSems0 otherCells
  have hsub : ((Finset.univ.map (gEmb (V d (cV L) (jV L))) ∪ Finset.univ.map (wEmb (V d (cV L) (jV L)))) ∪ {scell (V d (cV L) (jV L))})
      ⊆ ownCells (V d (cV L) (jV L)) := by
    intro g hg
    rw [mem_ownCells]
    rcases Finset.mem_union.mp hg with hg | hg
    · rcases Finset.mem_union.mp hg with hg | hg
      · obtain ⟨k, -, rfl⟩ := Finset.mem_map.mp hg
        refine ⟨rfl, ?_⟩
        show (SemLoc.dma (gsemK k) : SemLoc sig).isScoped .scVector = true
        fin_cases k <;> decide
      · obtain ⟨k, -, rfl⟩ := Finset.mem_map.mp hg
        refine ⟨rfl, ?_⟩
        show (SemLoc.dma (wsemK k) : SemLoc sig).isScoped .scVector = true
        fin_cases k <;> decide
    · rw [Finset.mem_singleton] at hg; subst hg
      exact ⟨rfl, by show (SemLoc.dma (⟨12, by show 12 < 21; omega⟩ : DmaSem sig) : SemLoc sig).isScoped .scVector = true; decide⟩
  have hd1 : Disjoint (Finset.univ.map (gEmb (V d (cV L) (jV L)))) (Finset.univ.map (wEmb (V d (cV L) (jV L)))) := by
    rw [Finset.disjoint_left]; intro g hg hg'
    obtain ⟨k, -, rfl⟩ := Finset.mem_map.mp hg
    obtain ⟨k', -, e⟩ := Finset.mem_map.mp hg'
    have h3 : 6 + k'.val = k.val := congrArg Fin.val (SemLoc.dma.inj (Prod.mk.inj (show wcell _ k' = gcell _ k from e)).2)
    have := k.isLt; omega
  have hd2 : Disjoint (Finset.univ.map (gEmb (V d (cV L) (jV L))) ∪ Finset.univ.map (wEmb (V d (cV L) (jV L)))) {scell (V d (cV L) (jV L))} := by
    rw [Finset.disjoint_singleton_right]; intro hg
    rcases Finset.mem_union.mp hg with hg | hg
    · obtain ⟨k, -, e⟩ := Finset.mem_map.mp hg
      have h3 : k.val = 12 := congrArg Fin.val (SemLoc.dma.inj (Prod.mk.inj (show gcell _ k = scell _ from e)).2)
      have := k.isLt; omega
    · obtain ⟨k, -, e⟩ := Finset.mem_map.mp hg
      have h3 : 6 + k.val = 12 := congrArg Fin.val (SemLoc.dma.inj (Prod.mk.inj (show wcell _ k = scell _ from e)).2)
      have := k.isLt; omega
  rw [SparseCore.bigSep_sdiff_split' hsub, SparseCore.bigSep_union' hd2, SparseCore.bigSep_union' hd1, bigSep_map, bigSep_map, bigSep_singleton]
  rfl

omit [FloatOps F] in
/-- The two scratch buffers are among the tile's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
theorem pts_sI (f : Buf (Elt F) ((V d (cV L) (jV L)).loc cc0_scratch0)) :
    ((sI).view.loc (V d (cV L) (jV L)) ↦{fullShare} f : sProp 𝕄) = (V d (cV L) (jV L)).loc cc0_scratch0 ↦{fullShare} f := rfl
omit [FloatOps F] in
theorem pts_sR (f : Buf (Elt F) ((V d (cV L) (jV L)).loc cc0_scratch1)) :
    ((sR).view.loc (V d (cV L) (jV L)) ↦{fullShare} f : sProp 𝕄) = (V d (cV L) (jV L)).loc cc0_scratch1 ↦{fullShare} f := rfl
omit [FloatOps F] in
theorem pts_tV (q : PosShare TreeShare) (f : Buf (Elt F) (tLoc d)) :
    ((tV).view.loc (V d (cV L) (jV L)) ↦{q} f : sProp 𝕄) = tLoc d ↦{q} f := rfl

/-! ## The ring's slots, the lists, the output's column chunks, the table's read tokens -/

omit [FloatOps F] in
theorem slot_inb (k : Fin 6) : ∀ a, (![k.val, 0, 0] : Fin 3 → Nat) a + S1x128x128.size a ≤ S6x128x128.size a := by
  have := k.isLt; intro a; fin_cases a
  · show k.val + 1 ≤ 6; omega
  · show 0 + 128 ≤ 128; omega
  · show 0 + 128 ≤ 128; omega
omit [FloatOps F] in
theorem row_inb (j : Fin 50) : ∀ a, (![j.val, 0] : Fin 2 → Nat) a + S1x128.size a ≤ S50x128.size a := by
  have := j.isLt; intro a; fin_cases a
  · show j.val + 1 ≤ 50; omega
  · show 0 + 128 ≤ 128; omega
omit [FloatOps F] in
theorem chunk_inb (L : grid0.Coords) (j : Fin 50) :
    ∀ a, (![256 * (L 1).val + 128 * (L 0).val, 128 * j.val] : Fin 2 → Nat) a + S128x128.size a ≤ S4096x6400.size a := by
  have := j.isLt; have h0 : (L 0).val < 2 := (L 0).isLt; have h1 : (L 1).val < 16 := (L 1).isLt; intro a; fin_cases a
  · show 256 * (L 1).val + 128 * (L 0).val + 128 ≤ 4096; omega
  · show 128 * j.val + 128 ≤ 6400; omega

/-- Slot `k` of the six row buffers, squeezed to [128, 128]. -/
abbrev slotK (k : Fin 6) : Memref sig .scVector .vmem S128x128 .f32 :=
  ((sR).slice (Rect.unit (s := S6x128x128) ![k.val, 0, 0] S1x128x128.size (slot_inb k)) (fun _ => rfl)).squeeze S128x128 squeezes_S1x128x128_S128x128
/-- List `j` of the fifty fetched token lists, squeezed to [128]. -/
abbrev rowK (j : Fin 50) : Memref sig .scVector .vmem S128 .i32 :=
  ((sI).slice (Rect.unit (s := S50x128) ![j.val, 0] S1x128.size (row_inb j)) (fun _ => rfl)).squeeze S128 squeezes_S1x128_S128
/-- Column chunk `j` of the worker's output rows: rows `128 w …`, columns `128 j …`. -/
abbrev chunkK (L : grid0.Coords) (j : Fin 50) : Memref sig .scVector .hbm S128x128 .f32 :=
  (oV).slice (Rect.unit (s := S4096x6400) ![256 * (L 1).val + 128 * (L 0).val, 128 * j.val] S128x128.size (chunk_inb L j)) (fun _ => rfl)
/-- The whole table as the body slices it. -/
abbrev tAllK : Memref sig .scVector .hbm S100000x128 .f32 :=
  (tV).slice (Rect.unit (s := S100000x128) ![0, 0] S100000x128.size inb_S100000x128_S100000x128_0_0) (fun _ => rfl)
/-- The worker's read token of the table split again, one token per slot of the ring, and what is left. -/
abbrev ttok (w : Fin 32) (k : Fin 6) : PosShare TreeShare := Transfers.shareTok (tq w) 6 k
abbrev trest (w : Fin 32) : PosShare TreeShare := Transfers.shareDrop (tq w) 6

end Tile

end Cert.KernelIdeal.Sc

end
-- ==== Proof.TileSplit.lean ====
/-
  How a tile's buffers split into the pieces its task's body addresses — the six slots of the row buffers, the fifty
  fetched lists, the fifty column chunks of the worker's output rows — and that the body's own spellings of those
  pieces, through the printed offset functions, are the canonical ones.
-/
import proofs.«203293_g38809324487172_cont_8to1_b_1330_62_alg».proof.Proof.TileDefs
import Idealize.ShloMosaic.Lib.Ring

noncomputable section

namespace Cert.KernelIdeal.Sc

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "iV" => (Memref.whole Cert.KernelIdeal.main_v1_scv : Memref Cert.KernelIdeal.sig Kind.scVector Space.hbm Cert.KernelIdeal.S32x50x128 EltTy.i32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S4096x6400 EltTy.f32)
local notation "sI" => (Memref.whole Cert.KernelIdeal.cc0_scratch0 : Memref Cert.KernelIdeal.sig Kind.scVector Space.vmem Cert.KernelIdeal.S50x128 EltTy.i32)
local notation "sR" => (Memref.whole Cert.KernelIdeal.cc0_scratch1 : Memref Cert.KernelIdeal.sig Kind.scVector Space.vmem Cert.KernelIdeal.S6x128x128 EltTy.f32)

section Split

variable (d : Dev nD) (L : grid0.Coords)

/-! ## The buffers split into the pieces the body addresses -/

/-- Slot `k`'s elements are plane `k` of the row buffers, -/
theorem set_slotK (k : Fin 6) :
    (slotK k).view.set = (Rect.unit (s := S6x128x128) ![k.val, 0, 0] S1x128x128.size (slot_inb k)).set := by
  show (((sR).view.slice (Rect.unit (s := S6x128x128) ![k.val, 0, 0] S1x128x128.size (slot_inb k))).reshape S128x128
    squeezes_S1x128x128_S128x128.numel_eq).set = _
  rw [View.set_reshape]
  show ((View.whole (cc0_scratch1 : Ref sig .scVector)).slice
    (Rect.unit (s := S6x128x128) ![k.val, 0, 0] S1x128x128.size (slot_inb k))).set = _
  rw [View.set_slice]; exact Finset.map_refl
/-- list `j`'s are row `j` of the fetched block, -/
theorem set_rowK (j : Fin 50) :
    (rowK j).view.set = (Rect.unit (s := S50x128) ![j.val, 0] S1x128.size (row_inb j)).set := by
  show (((sI).view.slice (Rect.unit (s := S50x128) ![j.val, 0] S1x128.size (row_inb j))).reshape S128
    squeezes_S1x128_S128.numel_eq).set = _
  rw [View.set_reshape]
  show ((View.whole (cc0_scratch0 : Ref sig .scVector)).slice
    (Rect.unit (s := S50x128) ![j.val, 0] S1x128.size (row_inb j))).set = _
  rw [View.set_slice]; exact Finset.map_refl
/-- and chunk `j`'s are the worker's rows at columns `128 j …`. -/
theorem set_chunkK (j : Fin 50) :
    (chunkK L j).view.set
      = (Rect.unit (s := S4096x6400) ![256 * (L 1).val + 128 * (L 0).val, 128 * j.val] S128x128.size (chunk_inb L j)).set := by
  show ((View.whole (main_v2_scv : Ref sig .scVector)).slice
    (Rect.unit (s := S4096x6400) ![256 * (L 1).val + 128 * (L 0).val, 128 * j.val] S128x128.size (chunk_inb L j))).set = _
  rw [View.set_slice]; exact Finset.map_refl

/-- The pieces' element sets, as sets of the buffers' own indices. -/
def slotSet (k : Fin 6) : Finset S6x128x128.Idx := (slotK k).view.set
def rowSet (j : Fin 50) : Finset S50x128.Idx := (rowK j).view.set
def chunkSet (L : grid0.Coords) (j : Fin 50) : Finset S4096x6400.Idx := (chunkK L j).view.set

theorem slots_disjoint (k k' : Fin 6) (h : k ≠ k') : Disjoint (slotSet k) (slotSet k') := by
  unfold slotSet; rw [set_slotK, set_slotK]
  exact Idealize.ShloMosaic.Ring.lead_disjoint (s := S6x128x128) 0 1 (fun k : Fin 6 => ![k.val, 0, 0]) S1x128x128.size slot_inb
    (fun b => (Nat.one_mul _).symm) rfl k k' h
theorem slots_cover : (Finset.univ : Finset (Fin 6)).biUnion slotSet = Finset.univ :=
  (Finset.biUnion_congr rfl fun k _ => (set_slotK k : slotSet k = _)).trans
    (Idealize.ShloMosaic.Ring.lead_cover (s := S6x128x128) 0 1 (fun k : Fin 6 => ![k.val, 0, 0]) S1x128x128.size slot_inb
      (fun b => (Nat.one_mul _).symm)
      (fun b a ha => match a, ha with
        | 0, ha => absurd rfl ha
        | 1, _ => rfl
        | 2, _ => rfl) rfl
      (fun a ha => match a, ha with
        | 0, ha => absurd rfl ha
        | 1, _ => rfl
        | 2, _ => rfl) rfl)

theorem rows_disjoint (j j' : Fin 50) (h : j ≠ j') : Disjoint (rowSet j) (rowSet j') := by
  unfold rowSet; rw [set_rowK, set_rowK]
  exact Idealize.ShloMosaic.Ring.lead_disjoint (s := S50x128) 0 1 (fun j : Fin 50 => ![j.val, 0]) S1x128.size row_inb
    (fun b => (Nat.one_mul _).symm) rfl j j' h
theorem rows_cover : (Finset.univ : Finset (Fin 50)).biUnion rowSet = Finset.univ :=
  (Finset.biUnion_congr rfl fun j _ => (set_rowK j : rowSet j = _)).trans
    (Idealize.ShloMosaic.Ring.lead_cover (s := S50x128) 0 1 (fun j : Fin 50 => ![j.val, 0]) S1x128.size row_inb
      (fun b => (Nat.one_mul _).symm)
      (fun b a ha => match a, ha with
        | 0, ha => absurd rfl ha
        | 1, _ => rfl) rfl
      (fun a ha => match a, ha with
        | 0, ha => absurd rfl ha
        | 1, _ => rfl) rfl)

theorem chunks_disjoint (j j' : Fin 50) (h : j ≠ j') : Disjoint (chunkSet L j) (chunkSet L j') := by
  unfold chunkSet; rw [set_chunkK, set_chunkK]
  have hv : j.val ≠ j'.val := fun e => h (Fin.ext e)
  refine Rect.unit_disjoint 1 ?_
  show 128 * j.val + 128 ≤ 128 * j'.val ∨ 128 * j'.val + 128 ≤ 128 * j.val
  omega

/-- The fifty chunks cover the worker's rows of the output, and nothing else. -/
theorem chunks_cover : (Finset.univ : Finset (Fin 50)).biUnion (chunkSet L) = oSet (widL L) := by
  ext i
  have hi1 : (i 1).val < 6400 := (i 1).isLt
  have hw : (widL L).val = 2 * (L 1).val + (L 0).val := rfl
  have hm : i ∈ oSet (widL L) ↔ (128 * (widL L).val ≤ (i 0).val ∧ (i 0).val < 128 * (widL L).val + 128) := by
    show i ∈ (oBlk (widL L)).set ↔ _
    rw [Rect.mem_set_unit, Fin.forall_fin_two]
    simp [Shape.partIx, Shape.partSize]
    omega
  rw [hm]
  constructor
  · intro hi
    obtain ⟨j, -, hj⟩ := Finset.mem_biUnion.mp hi
    unfold chunkSet at hj; rw [set_chunkK] at hj
    have h0 := (Rect.mem_set_unit.mp hj) 0
    change 256 * (L 1).val + 128 * (L 0).val ≤ (i 0).val ∧ (i 0).val < 256 * (L 1).val + 128 * (L 0).val + 128 at h0
    omega
  · rintro ⟨h0, h0'⟩
    refine Finset.mem_biUnion.mpr ⟨⟨(i 1).val / 128, by omega⟩, Finset.mem_univ _, ?_⟩
    unfold chunkSet; rw [set_chunkK]
    refine Rect.mem_set_unit.mpr fun a => ?_
    match a with
    | 0 =>
      show 256 * (L 1).val + 128 * (L 0).val ≤ (i 0).val ∧ (i 0).val < 256 * (L 1).val + 128 * (L 0).val + 128
      omega
    | 1 =>
      show 128 * ((i 1).val / 128) ≤ (i 1).val ∧ (i 1).val < 128 * ((i 1).val / 128) + 128
      omega

/-- The six row buffers held whole are the six slots held one by one. -/
theorem slots_split (f : Buf (Elt F) ((V d (cV L) (jV L)).loc cc0_scratch1)) :
    ((V d (cV L) (jV L)).loc cc0_scratch1 ↦{fullShare} f : sProp 𝕄)
      = bigSep Finset.univ fun k : Fin 6 => (slotK k).view.loc (V d (cV L) (jV L)) ↦[(slotK k).view.set]{fullShare} f :=
  Idealize.ShloMosaic.Ring.pointsTo_blocks (ℓ := (V d (cV L) (jV L)).loc cc0_scratch1) slotSet slots_disjoint slots_cover f

/-- The fetched block of lists held whole is the fifty lists held one by one. -/
theorem rows_split (f : Buf (Elt F) ((V d (cV L) (jV L)).loc cc0_scratch0)) :
    ((V d (cV L) (jV L)).loc cc0_scratch0 ↦{fullShare} f : sProp 𝕄)
      = bigSep Finset.univ fun j : Fin 50 => (rowK j).view.loc (V d (cV L) (jV L)) ↦[(rowK j).view.set]{fullShare} f :=
  Idealize.ShloMosaic.Ring.pointsTo_blocks (ℓ := (V d (cV L) (jV L)).loc cc0_scratch0) rowSet rows_disjoint rows_cover f

/-- The worker's output rows are their fifty column chunks. -/
theorem chunks_split (f : Buf (Elt F) (oLoc d)) :
    (oLoc d ↦[oSet (widL L)]{fullShare} f : sProp 𝕄)
      = bigSep Finset.univ fun j : Fin 50 => (chunkK L j).view.loc (V d (cV L) (jV L)) ↦[(chunkK L j).view.set]{fullShare} f := by
  rw [← chunks_cover L]
  exact pointsTo_biUnion (ℓ := oLoc d) Finset.univ (chunkSet L)
    (fun j _ j' _ h => chunks_disjoint L j j' h)

/-- The six slots, each at some contents, join to the row buffers at some contents. -/
theorem slots_join :
    (bigSep Finset.univ fun k : Fin 6 => iprop(∃ f, (slotK k).view.loc (V d (cV L) (jV L)) ↦[(slotK k).view.set]{fullShare} f))
      ⊢ (iprop(∃ f, (V d (cV L) (jV L)).loc cc0_scratch1 ↦{fullShare} f) : sProp 𝕄) := by
  by_cases hne : Nonempty (Buf (Elt F) ((V d (cV L) (jV L)).loc cc0_scratch1))
  · obtain ⟨f₀⟩ := hne
    exact Idealize.ShloMosaic.Ring.pointsTo_blocks_join_exists (ℓ := (V d (cV L) (jV L)).loc cc0_scratch1) slotSet
      slots_disjoint slots_cover f₀
  · rw [← Finset.insert_erase (Finset.mem_univ (0 : Fin 6)), bigSep_insert (Finset.notMem_erase _ _)]
    refine (show iprop((∃ f, (slotK 0).view.loc (V d (cV L) (jV L)) ↦[(slotK 0).view.set]{fullShare} f)
      ∗ bigSep (Finset.univ.erase 0) fun k : Fin 6 => iprop(∃ f, (slotK k).view.loc (V d (cV L) (jV L)) ↦[(slotK k).view.set]{fullShare} f)) ⊢ _ from ?_)
    iintro ⟨⟨%f, H⟩, H'⟩
    exact absurd ⟨f⟩ hne

/-- The fifty lists, each at some contents, join to the block of lists at some contents. -/
theorem rows_join :
    (bigSep Finset.univ fun j : Fin 50 => iprop(∃ f, (rowK j).view.loc (V d (cV L) (jV L)) ↦[(rowK j).view.set]{fullShare} f))
      ⊢ (iprop(∃ f, (V d (cV L) (jV L)).loc cc0_scratch0 ↦{fullShare} f) : sProp 𝕄) := by
  by_cases hne : Nonempty (Buf (Elt F) ((V d (cV L) (jV L)).loc cc0_scratch0))
  · obtain ⟨f₀⟩ := hne
    exact Idealize.ShloMosaic.Ring.pointsTo_blocks_join_exists (ℓ := (V d (cV L) (jV L)).loc cc0_scratch0) rowSet
      rows_disjoint rows_cover f₀
  · rw [← Finset.insert_erase (Finset.mem_univ (0 : Fin 50)), bigSep_insert (Finset.notMem_erase _ _)]
    refine (show iprop((∃ f, (rowK 0).view.loc (V d (cV L) (jV L)) ↦[(rowK 0).view.set]{fullShare} f)
      ∗ bigSep (Finset.univ.erase 0) fun j : Fin 50 => iprop(∃ f, (rowK j).view.loc (V d (cV L) (jV L)) ↦[(rowK j).view.set]{fullShare} f)) ⊢ _ from ?_)
    iintro ⟨⟨%f, H⟩, H'⟩
    exact absurd ⟨f⟩ hne

/-! ## The body's spellings are the canonical ones -/

theorem trip_lt (t : Fin k0_t1_loop.trips) : t.val < 50 := lt_of_lt_of_eq t.isLt trips_eq

/-- A slice of the row buffers at an offset vector that is slot `k`'s is slot `k`, whatever the evidence. -/
theorem slot_at {o : Fin 3 → ℕ} (k : Fin 6) (h : o = ![k.val, 0, 0]) (p : ∀ a, o a + S1x128x128.size a ≤ S6x128x128.size a) :
    ((sR).slice (Rect.unit (s := S6x128x128) o S1x128x128.size p) (fun _ => rfl)).squeeze S128x128 squeezes_S1x128x128_S128x128 = slotK k := by
  subst h; rfl
/-- The same for the fetched lists, -/
theorem row_at {o : Fin 2 → ℕ} (j : Fin 50) (h : o = ![j.val, 0]) (p : ∀ a, o a + S1x128.size a ≤ S50x128.size a) :
    ((sI).slice (Rect.unit (s := S50x128) o S1x128.size p) (fun _ => rfl)).squeeze S128 squeezes_S1x128_S128 = rowK j := by
  subst h; rfl
/-- and for the output's column chunks. -/
theorem chunk_at {o : Fin 2 → ℕ} (j : Fin 50) (h : o = ![256 * (L 1).val + 128 * (L 0).val, 128 * j.val])
    (p : ∀ a, o a + S128x128.size a ≤ S4096x6400.size a) :
    (oV).slice (Rect.unit (s := S4096x6400) o S128x128.size p) (fun _ => rfl) = chunkK L j := by
  subst h; rfl
/-- The cell picked out of the gathers' six at offset `k` is cell `k`; out of the write-outs' six, cell `6 + k`. -/
theorem gsem_at {o : Fin 1 → ℕ} (k : Fin 6) (h : o = ![k.val]) (p : ∀ a, o a + S1.size a ≤ S6.size a) :
    ((cc0_scratch2.slice (Rect.unit (s := S6) o S1.size p)).squeeze S_ squeezes_S1_S_).sem = gsemK k := by
  subst h
  apply Fin.ext
  show 0 + (S6.rowMajor ((Rect.unit (s := S6) ![k.val] S1.size p).emb
    (Shape.reshapeEquiv squeezes_S1_S_.numel_eq fun i => i.elim0))).val = k.val
  rw [Shape.rowMajor_val_one, Rect.emb_apply]
  have hx := ((Shape.reshapeEquiv (s := S1) (s' := S_) squeezes_S1_S_.numel_eq fun i => i.elim0) 0).isLt
  show 0 + (k.val + 1 * _) = k.val
  change _ < 1 at hx
  omega
theorem wsem_at {o : Fin 1 → ℕ} (k : Fin 6) (h : o = ![k.val]) (p : ∀ a, o a + S1.size a ≤ S6.size a) :
    ((cc0_scratch3.slice (Rect.unit (s := S6) o S1.size p)).squeeze S_ squeezes_S1_S_).sem = wsemK k := by
  subst h
  apply Fin.ext
  show 6 + (S6.rowMajor ((Rect.unit (s := S6) ![k.val] S1.size p).emb
    (Shape.reshapeEquiv squeezes_S1_S_.numel_eq fun i => i.elim0))).val = 6 + k.val
  rw [Shape.rowMajor_val_one, Rect.emb_apply]
  have hx := ((Shape.reshapeEquiv (s := S1) (s' := S_) squeezes_S1_S_.numel_eq fun i => i.elim0) 0).isLt
  show 6 + (k.val + 1 * _) = 6 + k.val
  change _ < 1 at hx
  omega

theorem slot_off2 (t : Fin k0_t1_loop.trips) :
    ((sR).slice (Rect.unit (s := S6x128x128) (k0_off2 t) S1x128x128.size (k0_off2_inb t)) (fun _ => rfl)).squeeze S128x128 squeezes_S1x128x128_S128x128
      = slotK ⟨t.val % 6, Nat.mod_lt _ (by norm_num)⟩ :=
  slot_at ⟨t.val % 6, Nat.mod_lt _ (by norm_num)⟩ (off2_eq t) _
theorem slot_off6 (t : Fin k0_t1_loop.trips) (h1 : k0_cond1 t = 1#1) (h2 : k0_cond2 t = 1#1) :
    ((sR).slice (Rect.unit (s := S6x128x128) (k0_off6 t) S1x128x128.size (k0_off6_inb t h1 h2)) (fun _ => rfl)).squeeze S128x128 squeezes_S1x128x128_S128x128
      = slotK ⟨(t.val + 5) % 6, Nat.mod_lt _ (by norm_num)⟩ :=
  slot_at ⟨(t.val + 5) % 6, Nat.mod_lt _ (by norm_num)⟩ (off6_eq t) _
theorem slot_off9 (t : Fin k0_t1_loop.trips) (h1 : k0_cond1 t = 1#1) :
    ((sR).slice (Rect.unit (s := S6x128x128) (k0_off9 t) S1x128x128.size (k0_off9_inb t h1)) (fun _ => rfl)).squeeze S128x128 squeezes_S1x128x128_S128x128
      = slotK ⟨(t.val + 5) % 6, Nat.mod_lt _ (by norm_num)⟩ :=
  slot_at ⟨(t.val + 5) % 6, Nat.mod_lt _ (by norm_num)⟩ (off9_eq t) _
theorem slot_lit0 :
    ((sR).slice (Rect.unit (s := S6x128x128) ![0, 0, 0] S1x128x128.size inb_S6x128x128_S1x128x128_0_0_0) (fun _ => rfl)).squeeze S128x128 squeezes_S1x128x128_S128x128
      = slotK 0 :=
  slot_at 0 rfl _
theorem slot_lit1 :
    ((sR).slice (Rect.unit (s := S6x128x128) ![1, 0, 0] S1x128x128.size inb_S6x128x128_S1x128x128_1_0_0) (fun _ => rfl)).squeeze S128x128 squeezes_S1x128x128_S128x128
      = slotK 1 :=
  slot_at 1 rfl _
theorem slot_lit2 :
    ((sR).slice (Rect.unit (s := S6x128x128) ![2, 0, 0] S1x128x128.size inb_S6x128x128_S1x128x128_2_0_0) (fun _ => rfl)).squeeze S128x128 squeezes_S1x128x128_S128x128
      = slotK 2 :=
  slot_at 2 rfl _
theorem slot_lit3 :
    ((sR).slice (Rect.unit (s := S6x128x128) ![3, 0, 0] S1x128x128.size inb_S6x128x128_S1x128x128_3_0_0) (fun _ => rfl)).squeeze S128x128 squeezes_S1x128x128_S128x128
      = slotK 3 :=
  slot_at 3 rfl _
theorem slot_lit4 :
    ((sR).slice (Rect.unit (s := S6x128x128) ![4, 0, 0] S1x128x128.size inb_S6x128x128_S1x128x128_4_0_0) (fun _ => rfl)).squeeze S128x128 squeezes_S1x128x128_S128x128
      = slotK 4 :=
  slot_at 4 rfl _
theorem slot_lit5 :
    ((sR).slice (Rect.unit (s := S6x128x128) ![5, 0, 0] S1x128x128.size inb_S6x128x128_S1x128x128_5_0_0) (fun _ => rfl)).squeeze S128x128 squeezes_S1x128x128_S128x128
      = slotK 5 :=
  slot_at 5 rfl _

theorem row_off3 (t : Fin k0_t1_loop.trips) :
    ((sI).slice (Rect.unit (s := S50x128) (k0_off3 t) S1x128.size (k0_off3_inb t)) (fun _ => rfl)).squeeze S128 squeezes_S1x128_S128
      = rowK ⟨t.val, trip_lt t⟩ :=
  row_at ⟨t.val, trip_lt t⟩ (k0_off3_eq t) _
theorem row_off10 (t : Fin k0_t1_loop.trips) (h1 : k0_cond1 t = 1#1) :
    ((sI).slice (Rect.unit (s := S50x128) (k0_off10 t) S1x128.size (k0_off10_inb t h1)) (fun _ => rfl)).squeeze S128 squeezes_S1x128_S128
      = rowK ⟨t.val + 5, (cond1_iff t).mp h1⟩ :=
  row_at ⟨t.val + 5, (cond1_iff t).mp h1⟩ (k0_off10_eq t) _
theorem row_lit0 :
    ((sI).slice (Rect.unit (s := S50x128) ![0, 0] S1x128.size inb_S50x128_S1x128_0_0) (fun _ => rfl)).squeeze S128 squeezes_S1x128_S128
      = rowK 0 :=
  row_at 0 rfl _
theorem row_lit1 :
    ((sI).slice (Rect.unit (s := S50x128) ![1, 0] S1x128.size inb_S50x128_S1x128_1_0) (fun _ => rfl)).squeeze S128 squeezes_S1x128_S128
      = rowK 1 :=
  row_at 1 rfl _
theorem row_lit2 :
    ((sI).slice (Rect.unit (s := S50x128) ![2, 0] S1x128.size inb_S50x128_S1x128_2_0) (fun _ => rfl)).squeeze S128 squeezes_S1x128_S128
      = rowK 2 :=
  row_at 2 rfl _
theorem row_lit3 :
    ((sI).slice (Rect.unit (s := S50x128) ![3, 0] S1x128.size inb_S50x128_S1x128_3_0) (fun _ => rfl)).squeeze S128 squeezes_S1x128_S128
      = rowK 3 :=
  row_at 3 rfl _
theorem row_lit4 :
    ((sI).slice (Rect.unit (s := S50x128) ![4, 0] S1x128.size inb_S50x128_S1x128_4_0) (fun _ => rfl)).squeeze S128 squeezes_S1x128_S128
      = rowK 4 :=
  row_at 4 rfl _

theorem chunk_off5 (t : Fin k0_t1_loop.trips) :
    (oV).slice (Rect.unit (s := S4096x6400) (k0_off5 L t) S128x128.size (k0_off5_inb L t)) (fun _ => rfl)
      = chunkK L ⟨t.val, trip_lt t⟩ :=
  chunk_at L ⟨t.val, trip_lt t⟩ (k0_off5_eq L t) _
theorem chunk_off7 (t : Fin k0_t1_loop.trips) (h1 : k0_cond1 t = 1#1) (h2 : k0_cond2 t = 1#1) :
    (oV).slice (Rect.unit (s := S4096x6400) (k0_off7 L t) S128x128.size (k0_off7_inb L t h1 h2)) (fun _ => rfl)
      = chunkK L ⟨t.val - 1, by have := trip_lt t; omega⟩ :=
  chunk_at L ⟨t.val - 1, by have := trip_lt t; omega⟩ (off7_eq L t ((cond2_iff t).mp h2)) _
theorem chunk_off12 :
    (oV).slice (Rect.unit (s := S4096x6400) (k0_off12 L) S128x128.size (k0_off12_inb L)) (fun _ => rfl) = chunkK L 44 :=
  chunk_at L 44 (k0_off12_eq L) _
theorem chunk_off13 :
    (oV).slice (Rect.unit (s := S4096x6400) (k0_off13 L) S128x128.size (k0_off13_inb L)) (fun _ => rfl) = chunkK L 45 :=
  chunk_at L 45 (k0_off13_eq L) _
theorem chunk_off14 :
    (oV).slice (Rect.unit (s := S4096x6400) (k0_off14 L) S128x128.size (k0_off14_inb L)) (fun _ => rfl) = chunkK L 46 :=
  chunk_at L 46 (k0_off14_eq L) _
theorem chunk_off15 :
    (oV).slice (Rect.unit (s := S4096x6400) (k0_off15 L) S128x128.size (k0_off15_inb L)) (fun _ => rfl) = chunkK L 47 :=
  chunk_at L 47 (k0_off15_eq L) _
theorem chunk_off16 :
    (oV).slice (Rect.unit (s := S4096x6400) (k0_off16 L) S128x128.size (k0_off16_inb L)) (fun _ => rfl) = chunkK L 48 :=
  chunk_at L 48 (k0_off16_eq L) _
theorem chunk_off17 :
    (oV).slice (Rect.unit (s := S4096x6400) (k0_off17 L) S128x128.size (k0_off17_inb L)) (fun _ => rfl) = chunkK L 49 :=
  chunk_at L 49 (k0_off17_eq L) _

theorem gsem_off4 (t : Fin k0_t1_loop.trips) :
    ((cc0_scratch2.slice (Rect.unit (s := S6) (k0_off4 t) S1.size (k0_off4_inb t))).squeeze S_ squeezes_S1_S_).sem
      = gsemK ⟨t.val % 6, Nat.mod_lt _ (by norm_num)⟩ :=
  gsem_at ⟨t.val % 6, Nat.mod_lt _ (by norm_num)⟩ (off4_eq t) _
theorem wsem_off4 (t : Fin k0_t1_loop.trips) :
    ((cc0_scratch3.slice (Rect.unit (s := S6) (k0_off4 t) S1.size (k0_off4_inb t))).squeeze S_ squeezes_S1_S_).sem
      = wsemK ⟨t.val % 6, Nat.mod_lt _ (by norm_num)⟩ :=
  wsem_at ⟨t.val % 6, Nat.mod_lt _ (by norm_num)⟩ (off4_eq t) _
theorem wsem_off8 (t : Fin k0_t1_loop.trips) (h1 : k0_cond1 t = 1#1) (h2 : k0_cond2 t = 1#1) :
    ((cc0_scratch3.slice (Rect.unit (s := S6) (k0_off8 t) S1.size (k0_off8_inb t h1 h2))).squeeze S_ squeezes_S1_S_).sem
      = wsemK ⟨(t.val + 5) % 6, Nat.mod_lt _ (by norm_num)⟩ :=
  wsem_at ⟨(t.val + 5) % 6, Nat.mod_lt _ (by norm_num)⟩ (off8_eq t) _
theorem gsem_off11 (t : Fin k0_t1_loop.trips) (h1 : k0_cond1 t = 1#1) :
    ((cc0_scratch2.slice (Rect.unit (s := S6) (k0_off11 t) S1.size (k0_off11_inb t h1))).squeeze S_ squeezes_S1_S_).sem
      = gsemK ⟨(t.val + 5) % 6, Nat.mod_lt _ (by norm_num)⟩ :=
  gsem_at ⟨(t.val + 5) % 6, Nat.mod_lt _ (by norm_num)⟩ (off11_eq t) _
theorem gsem_lit0 :
    ((cc0_scratch2.slice (Rect.unit (s := S6) ![0] S1.size inb_S6_S1_0)).squeeze S_ squeezes_S1_S_).sem = gsemK 0 :=
  gsem_at 0 rfl _
theorem wsem_lit0 :
    ((cc0_scratch3.slice (Rect.unit (s := S6) ![0] S1.size inb_S6_S1_0)).squeeze S_ squeezes_S1_S_).sem = wsemK 0 :=
  wsem_at 0 rfl _
theorem gsem_lit1 :
    ((cc0_scratch2.slice (Rect.unit (s := S6) ![1] S1.size inb_S6_S1_1)).squeeze S_ squeezes_S1_S_).sem = gsemK 1 :=
  gsem_at 1 rfl _
theorem wsem_lit1 :
    ((cc0_scratch3.slice (Rect.unit (s := S6) ![1] S1.size inb_S6_S1_1)).squeeze S_ squeezes_S1_S_).sem = wsemK 1 :=
  wsem_at 1 rfl _
theorem gsem_lit2 :
    ((cc0_scratch2.slice (Rect.unit (s := S6) ![2] S1.size inb_S6_S1_2)).squeeze S_ squeezes_S1_S_).sem = gsemK 2 :=
  gsem_at 2 rfl _
theorem wsem_lit2 :
    ((cc0_scratch3.slice (Rect.unit (s := S6) ![2] S1.size inb_S6_S1_2)).squeeze S_ squeezes_S1_S_).sem = wsemK 2 :=
  wsem_at 2 rfl _
theorem gsem_lit3 :
    ((cc0_scratch2.slice (Rect.unit (s := S6) ![3] S1.size inb_S6_S1_3)).squeeze S_ squeezes_S1_S_).sem = gsemK 3 :=
  gsem_at 3 rfl _
theorem wsem_lit3 :
    ((cc0_scratch3.slice (Rect.unit (s := S6) ![3] S1.size inb_S6_S1_3)).squeeze S_ squeezes_S1_S_).sem = wsemK 3 :=
  wsem_at 3 rfl _
theorem gsem_lit4 :
    ((cc0_scratch2.slice (Rect.unit (s := S6) ![4] S1.size inb_S6_S1_4)).squeeze S_ squeezes_S1_S_).sem = gsemK 4 :=
  gsem_at 4 rfl _
theorem wsem_lit4 :
    ((cc0_scratch3.slice (Rect.unit (s := S6) ![4] S1.size inb_S6_S1_4)).squeeze S_ squeezes_S1_S_).sem = wsemK 4 :=
  wsem_at 4 rfl _
theorem gsem_lit5 :
    ((cc0_scratch2.slice (Rect.unit (s := S6) ![5] S1.size inb_S6_S1_5)).squeeze S_ squeezes_S1_S_).sem = gsemK 5 :=
  gsem_at 5 rfl _
theorem wsem_lit5 :
    ((cc0_scratch3.slice (Rect.unit (s := S6) ![5] S1.size inb_S6_S1_5)).squeeze S_ squeezes_S1_S_).sem = wsemK 5 :=
  wsem_at 5 rfl _

/-! ## The fetched lists' contents -/

/-- The block's index `(j, r)` sits at `(0, j, r)` of the one-block rectangle the body slices. -/
theorem squeeze_ix (j : Fin 50) (r : Fin 128) :
    Shape.reshapeEquiv squeezes_S1x50x128_S50x128.numel_eq (ix2 j r) = (ix3 (0 : Fin 1) j r : S1x50x128.Idx) :=
  Shape.reshapeEquiv_eq_of_rowMajor _ (by
    rw [Shape.rowMajor_val_three, Shape.rowMajor_val_two]
    show ((0 * 50 + j.val) * 128 + r.val) = j.val * 128 + r.val
    omega)

/-- Entry `(j, r)` of the worker's block of the transposed token array is token `j` of batch row `128 w + r`. -/
theorem fI_apply (j : Fin 50) (r : Fin 128) :
    (iRowK L).view.read (Elt F) (xt m d) (ix2 j r)
      = m (aLoc d) (ix2 (n0 := 4096) (n1 := 50) ⟨128 * (widL L).val + r.val, by have := (widL L).isLt; have := r.isLt; omega⟩ j) := by
  rw [View.read_apply]
  refine (cast_eq _ _).trans ?_
  show xt m d ((Rect.unit (s := S32x50x128) (k0_off1 L) S1x50x128.size (k0_off1_inb L)).emb
    (Shape.reshapeEquiv squeezes_S1x50x128_S50x128.numel_eq (ix2 j r))) = _
  rw [squeeze_ix]
  unfold xt
  refine congrArg (m (aLoc d)) (congrArg₂ (ix2 (n0 := 4096) (n1 := 50)) (Fin.ext ?_) (Fin.ext ?_))
  · show 128 * (k0_off1 L 0 + 1 * 0) + (k0_off1 L 2 + 1 * r.val) = 128 * (widL L).val + r.val
    rw [k0_off1_eq]
    show 128 * (2 * (L 1).val + (L 0).val + 1 * 0) + (0 + 1 * r.val) = 128 * (2 * (L 1).val + (L 0).val) + r.val
    omega
  · show k0_off1 L 1 + 1 * j.val = j.val
    rw [k0_off1_eq]
    show 0 + 1 * j.val = j.val
    omega

/-- Under the input domain every fetched token word names a table row. -/
theorem fI_lt (hpre : PreOK m) (i : S50x128.Idx) :
    ((iRowK L).view.read (Elt F) (xt m d) i).toNat < 100000 := by
  obtain ⟨j, r, rfl⟩ : ∃ j r, i = ix2 j r := ⟨i 0, i 1, eq_ix2 i⟩
  rw [fI_apply]
  exact Spec.InRange.toNat_lt (hpre d) _

end Split

end Cert.KernelIdeal.Sc

end
-- ==== Proof.TileInv.lean ====
/-
  The ring's invariant. Before trip `t` of the fifty, group `g` is in one of four states:
    pending   (t + 5 ≤ g): its list and its output chunk rest, untouched;
    gathering (t ≤ g < t + 5): its gather is in flight into slot `g % 6`, on that slot's gather cell;
    writing   (g < t, and g = t - 1 or g ≥ 44): its write-out is in flight from slot `g % 6` to output chunk `g`, on that
              slot's write cell (the write-outs of groups 44 … 49 are waited for after the loop);
    done      (g + 2 ≤ t and g ≤ 43): its chunk holds the gathered values.
  A slot's buffer, its two cells and its read token of the table travel with the group that occupies it; before trip 0
  slot 5 is occupied by no group and holds them itself.
-/
import proofs.«203293_g38809324487172_cont_8to1_b_1330_62_alg».proof.Proof.TileSplit
import Idealize.ShloMosaic.Lib.Ring

noncomputable section

namespace Cert.KernelIdeal.Sc

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "iV" => (Memref.whole Cert.KernelIdeal.main_v1_scv : Memref Cert.KernelIdeal.sig Kind.scVector Space.hbm Cert.KernelIdeal.S32x50x128 EltTy.i32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S4096x6400 EltTy.f32)
local notation "sI" => (Memref.whole Cert.KernelIdeal.cc0_scratch0 : Memref Cert.KernelIdeal.sig Kind.scVector Space.vmem Cert.KernelIdeal.S50x128 EltTy.i32)
local notation "sR" => (Memref.whole Cert.KernelIdeal.cc0_scratch1 : Memref Cert.KernelIdeal.sig Kind.scVector Space.vmem Cert.KernelIdeal.S6x128x128 EltTy.f32)

variable [FloatOps F]

section Inv

variable (d : Dev nD) (L : grid0.Coords)

/-- A group's state. -/
inductive GSt | pend | gath | writ | done
  deriving DecidableEq

/-- Group `g`'s state before trip `t`. -/
def gst (t : ℕ) (g : Fin 50) : GSt :=
  if t + 5 ≤ g.val then .pend else if t ≤ g.val then .gath else if g.val + 2 ≤ t ∧ g.val ≤ 43 then .done else .writ

/-- The slot group `g` runs through. -/
def sl (g : Fin 50) : Fin 6 := ⟨g.val % 6, Nat.mod_lt _ (by norm_num)⟩

variable (fI : Buf (Elt F) ((V d (cV L) (jV L)).loc cc0_scratch0))

/-- The fetched lists name rows of the table. -/
def ListsOK : Prop := ∀ i, (fI i).toNat < 100000

omit [FloatOps F] in
theorem hin_row (hI : ListsOK d L fI) (g : Fin 50) :
    ∀ x, ((rowK g).view.read (Elt F) fI x).toNat < S100000x128.size gathers_S100000x128_S128x128.axis := by
  intro x
  rw [show (rowK g).view.read (Elt F) fI x = fI ((rowK g).view.emb x) from (View.read_apply _ _).trans (cast_eq _ _)]
  exact hI _

/-- What group `g`'s gather delivers into its slot: row `x 0` of it is the table row the list's word `x 0` names. -/
def gpay (hI : ListsOK d L fI) (g : Fin 50) : S128x128.Idx → Elt F .f32 :=
  SparseCore.gatherPayload gathers_S100000x128_S128x128 ((tAllK).view.read (Elt F) (m (tLoc d)))
    (SparseCore.rows ((rowK g).view.read (Elt F) fI) (by decide) (hin_row d L fI hI g))

/-- What group `g`'s write-out carries: its slot read back after the gather landed (over any earlier contents `f0`). -/
def wpay (hI : ListsOK d L fI) (g : Fin 50) (f0 : Buf (Elt F) ((V d (cV L) (jV L)).loc cc0_scratch1)) : S128x128.Idx → Elt F .f32 :=
  ReadAs.same.apply ((slotK (sl g)).view.read (Elt F) ((slotK (sl g)).view.writes (Elt F) f0 [⟨Rect.whole S128x128, gpay m d L fI hI g⟩]))

/-- What a write-out leaves in its output chunk is the gathered output there: the fact about the fetched lists' contents that
    the `done` state rests on. -/
def ChunkVal (hI : ListsOK d L fI) : Prop :=
  ∀ (g : Fin 50) (f0 : Buf (Elt F) ((V d (cV L) (jV L)).loc cc0_scratch1)) (i : Idx (oLoc d)), i ∈ (chunkK L g).view.set →
    (chunkK L g).view.writes (Elt F) (m (oLoc d)) [⟨Rect.whole S128x128, wpay m d L fI hI g f0⟩] i = gout m d i

abbrev rowPts (g : Fin 50) : sProp 𝕄 := (rowK g).view.loc (V d (cV L) (jV L)) ↦[(rowK g).view.set]{fullShare} fI
abbrev chunkPts (g : Fin 50) (f : Buf (Elt F) (oLoc d)) : sProp 𝕄 := (chunkK L g).view.loc (V d (cV L) (jV L)) ↦[(chunkK L g).view.set]{fullShare} f
abbrev slotPts (k : Fin 6) (f : Buf (Elt F) ((V d (cV L) (jV L)).loc cc0_scratch1)) : sProp 𝕄 :=
  (slotK k).view.loc (V d (cV L) (jV L)) ↦[(slotK k).view.set]{fullShare} f
abbrev tokWhole (k : Fin 6) : sProp 𝕄 := (tV).view.loc (V d (cV L) (jV L)) ↦{ttok (widL L) k} m (tLoc d)
abbrev tokLent (k : Fin 6) : sProp 𝕄 := (tV).view.loc (V d (cV L) (jV L)) ↦[(tAllK).view.set]{ttok (widL L) k} m (tLoc d)
abbrev tokRest (k : Fin 6) : sProp 𝕄 := (tV).view.loc (V d (cV L) (jV L)) ↦[Finset.univ \ (tAllK).view.set]{ttok (widL L) k} m (tLoc d)

/-- Group `g`'s gather in flight. -/
def gathFlight (hI : ListsOK d L fI) (g : Fin 50) : sProp 𝕄 :=
  iprop(∃ f0, Transfers.Flight (countersEmb (U := UU)) (V d (cV L) (jV L)) (SemLoc.dma (gsemK (sl g))) (default : HIx 1) 524288
    iprop((slotPts d L (sl g) ((slotK (sl g)).view.writes (Elt F) f0 [⟨Rect.whole S128x128, gpay m d L fI hI g⟩]) ∗ rowPts d L fI g) ∗ tokLent m d L (sl g)))

/-- Group `g`'s write-out in flight. -/
def writFlight (hI : ListsOK d L fI) (g : Fin 50) : sProp 𝕄 :=
  iprop(∃ f0, Transfers.Flight (countersEmb (U := UU)) (V d (cV L) (jV L)) (SemLoc.dma (wsemK (sl g))) (default : HIx 1) 524288
    iprop(chunkPts d L g ((chunkK L g).view.writes (Elt F) (m (oLoc d)) [⟨Rect.whole S128x128, wpay m d L fI hI g f0⟩])
      ∗ slotPts d L (sl g) ((slotK (sl g)).view.writes (Elt F) f0 [⟨Rect.whole S128x128, gpay m d L fI hI g⟩])))

/-- What group `g` holds in each state. -/
def Φ (hI : ListsOK d L fI) (g : Fin 50) : GSt → sProp 𝕄
  | .pend => iprop(rowPts d L fI g ∗ chunkPts d L g (m (oLoc d)))
  | .gath => iprop(chunkPts d L g (m (oLoc d)) ∗ semVal (wcell (V d (cV L) (jV L)) (sl g)) 0 ∗ gathFlight m d L fI hI g ∗ tokRest m d L (sl g))
  | .writ => iprop(rowPts d L fI g ∗ semVal (gcell (V d (cV L) (jV L)) (sl g)) 0 ∗ tokWhole m d L (sl g) ∗ writFlight m d L fI hI g)
  | .done => iprop(rowPts d L fI g ∗ chunkPts d L g (gout m d))

/-- Slot 5 before trip 0: occupied by no group. -/
def free5 : sProp 𝕄 :=
  iprop(semVal (gcell (V d (cV L) (jV L)) 5) 0 ∗ semVal (wcell (V d (cV L) (jV L)) 5) 0 ∗ (∃ f, slotPts d L 5 f) ∗ tokWhole m d L 5)

/-- The loop's invariant before trip `t`. -/
def inv (hI : ListsOK d L fI) (O : CellTallies nD τ sig (HIx 1)) (W : Waits sig (HIx 1)) (t : ℕ) (_ : BitVec 32) : sProp 𝕄 :=
  iprop(Transfers.MayWaits (V d (cV L) (jV L)) (default : HIx 1) O
    ∗ Ring.AtW (Φ m d L fI hI) (gst t)
    ∗ (if t = 0 then free5 m d L else emp)
    ∗ ∃ W', ⌜∀ p ∈ W', p ∈ W ∨ p.2 = none⌝ ∗ owes (V d (cV L) (jV L)) O W')

end Inv

end Cert.KernelIdeal.Sc

end
-- ==== Proof.TileEpilogue.lean ====
/-
  The end of a tile's task. After the fiftieth trip groups 0 … 43 are done and the write-outs of groups 44 … 49 are
  still in flight, from slots 2, 3, 4, 5, 0, 1; the body waits for the six and returns. This module takes the loop's
  invariant apart at its exit, group by group, and — once the six write-outs have landed — puts the tile's holdings
  back together: the fifty output chunks to the tile's rows at the gathered values, the fifty lists and the six
  slots to the two scratch buffers, the six read tokens to the tile's share of the table, the cells to the tile's own.
-/
import proofs.«203293_g38809324487172_cont_8to1_b_1330_62_alg».proof.Proof.TileInv

noncomputable section

namespace Cert.KernelIdeal.Sc

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "iV" => (Memref.whole Cert.KernelIdeal.main_v1_scv : Memref Cert.KernelIdeal.sig Kind.scVector Space.hbm Cert.KernelIdeal.S32x50x128 EltTy.i32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S4096x6400 EltTy.f32)
local notation "sI" => (Memref.whole Cert.KernelIdeal.cc0_scratch0 : Memref Cert.KernelIdeal.sig Kind.scVector Space.vmem Cert.KernelIdeal.S50x128 EltTy.i32)
local notation "sR" => (Memref.whole Cert.KernelIdeal.cc0_scratch1 : Memref Cert.KernelIdeal.sig Kind.scVector Space.vmem Cert.KernelIdeal.S6x128x128 EltTy.f32)

variable [FloatOps F]

section Epilogue

variable (d : Dev nD) (L : grid0.Coords)
variable (fI : Buf (Elt F) ((V d (cV L) (jV L)).loc cc0_scratch0))

local notation "thr" => V d (cV L) (jV L)

/-! ## Fifty groups as the first forty-four and the last six; six slots one by one -/

omit [FloatOps F] in
/-- A conjunction over the fifty groups: over the groups below 44, and groups 44 … 49 one by one. -/
theorem bigSep50_split (Ψ : Fin 50 → sProp 𝕄) :
    bigSep Finset.univ Ψ = iprop((bigSep (Finset.univ.filter fun g : Fin 50 => g.val < 44) Ψ) ∗ Ψ 44 ∗ Ψ 45 ∗ Ψ 46 ∗ Ψ 47 ∗ Ψ 48 ∗ Ψ 49) := by
  rw [bigSep_filter_split Finset.univ (fun g : Fin 50 => g.val < 44)]
  congr 1
  rw [show (Finset.univ.filter fun g : Fin 50 => ¬ g.val < 44) = {44, 45, 46, 47, 48, 49} from by decide]
  rw [bigSep_insert (by decide), bigSep_insert (by decide), bigSep_insert (by decide), bigSep_insert (by decide), bigSep_insert (by decide),
    bigSep_singleton]
  rfl

/-! ## The ring at the loop's exit -/

/-- Groups 0 … 43 done: each holds its list and its output chunk at the gathered values. -/
abbrev doneBelow : sProp 𝕄 :=
  bigSep (Finset.univ.filter fun g : Fin 50 => g.val < 44) fun g => iprop(rowPts d L fI g ∗ chunkPts d L g (gout m d))

/-- Group `g` writing out of slot `k`: its list, the slot's gather cell at zero, the slot's read token whole, and the
    write-out in flight on the slot's write cell, delivering the chunk written and the slot as the gather left it. -/
abbrev writG (hI : ListsOK d L fI) (g : Fin 50) (k : Fin 6) : sProp 𝕄 :=
  iprop(rowPts d L fI g ∗ semVal (gcell thr k) 0 ∗ tokWhole m d L k
    ∗ ∃ f0, Transfers.Flight (countersEmb (U := UU)) thr (SemLoc.dma (wsemK k)) (default : HIx 1) 524288
        iprop(chunkPts d L g ((chunkK L g).view.writes (Elt F) (m (oLoc d)) [⟨Rect.whole S128x128, wpay m d L fI hI g f0⟩])
          ∗ slotPts d L k ((slotK k).view.writes (Elt F) f0 [⟨Rect.whole S128x128, gpay m d L fI hI g⟩])))

omit [FloatOps F] in
theorem gst50_done (g : Fin 50) (h : g.val < 44) : gst 50 g = .done := by
  unfold gst; rw [if_neg (by omega), if_neg (by omega), if_pos ⟨by omega, by omega⟩]

omit [FloatOps F] in
theorem gst50_writ : gst 50 44 = .writ ∧ gst 50 45 = .writ ∧ gst 50 46 = .writ ∧ gst 50 47 = .writ ∧ gst 50 48 = .writ ∧ gst 50 49 = .writ := by
  decide

omit [FloatOps F] in
theorem sl_last : sl 44 = 2 ∧ sl 45 = 3 ∧ sl 46 = 4 ∧ sl 47 = 5 ∧ sl 48 = 0 ∧ sl 49 = 1 := by decide

/-- A writing group holds `writG` at its own slot. -/
theorem Φ_writ (hI : ListsOK d L fI) (g : Fin 50) : Φ m d L fI hI g .writ = writG m d L fI hI g (sl g) := rfl

/-- The ring after the fiftieth trip: the first forty-four groups done, the last six writing out of slots 2, 3, 4, 5, 0, 1. -/
theorem ring50 (hI : ListsOK d L fI) :
    Ring.AtW (Φ m d L fI hI) (gst 50)
      = iprop(doneBelow m d L fI ∗ writG m d L fI hI 44 2 ∗ writG m d L fI hI 45 3 ∗ writG m d L fI hI 46 4 ∗ writG m d L fI hI 47 5
          ∗ writG m d L fI hI 48 0 ∗ writG m d L fI hI 49 1) := by
  unfold Ring.AtW
  rw [bigSep50_split]
  obtain ⟨g44, g45, g46, g47, g48, g49⟩ := gst50_writ
  obtain ⟨s44, s45, s46, s47, s48, s49⟩ := sl_last
  rw [g44, g45, g46, g47, g48, g49, Φ_writ, Φ_writ, Φ_writ, Φ_writ, Φ_writ, Φ_writ, s44, s45, s46, s47, s48, s49]
  congr 1
  all_goals exact bigSep_congr fun g hg => by rw [gst50_done g (Finset.mem_filter.mp hg).2]; rfl

/-- THE INVARIANT AT THE EXIT, taken apart. -/
theorem inv50_open (hI : ListsOK d L fI) (O : CellTallies nD τ sig (HIx 1)) (W : Waits sig (HIx 1)) (r : BitVec 32) :
    inv m d L fI hI O W 50 r
      ⊢ iprop(Transfers.MayWaits thr (default : HIx 1) O ∗ doneBelow m d L fI
          ∗ writG m d L fI hI 44 2 ∗ writG m d L fI hI 45 3 ∗ writG m d L fI hI 46 4 ∗ writG m d L fI hI 47 5
          ∗ writG m d L fI hI 48 0 ∗ writG m d L fI hI 49 1
          ∗ ∃ W', ⌜∀ p ∈ W', p ∈ W ∨ p.2 = none⌝ ∗ owes thr O W') := by
  unfold inv
  rw [ring50, if_neg (by decide : ¬ (50 = 0))]
  iintro ⟨Hmw, ⟨Hd, H44, H45, H46, H47, H48, H49⟩, -, HO⟩
  isplitl [Hmw]; · iexact Hmw
  isplitl [Hd]; · iexact Hd
  isplitl [H44]; · iexact H44
  isplitl [H45]; · iexact H45
  isplitl [H46]; · iexact H46
  isplitl [H47]; · iexact H47
  isplitl [H48]; · iexact H48
  isplitl [H49]; · iexact H49
  iexact HO

/-! ## After the six write-outs have landed -/

/-- Group `g` landed from slot `k`: its list, the slot's two cells at zero, the slot's read token whole, the output chunk
    written and the slot as the gather left it (over earlier contents `f0`). -/
abbrev landG (hI : ListsOK d L fI) (g : Fin 50) (k : Fin 6) (f0 : Buf (Elt F) ((V d (cV L) (jV L)).loc cc0_scratch1)) : sProp 𝕄 :=
  iprop(rowPts d L fI g ∗ semVal (gcell thr k) 0 ∗ tokWhole m d L k ∗ semVal (wcell thr k) 0
    ∗ chunkPts d L g ((chunkK L g).view.writes (Elt F) (m (oLoc d)) [⟨Rect.whole S128x128, wpay m d L fI hI g f0⟩])
    ∗ slotPts d L k ((slotK k).view.writes (Elt F) f0 [⟨Rect.whole S128x128, gpay m d L fI hI g⟩]))

/-- The fifty output chunks, the last six as their write-outs left them, are the tile's rows at the gathered values:
    on its own elements a written chunk holds the gathered values. -/
theorem chunks_join (hI : ListsOK d L fI) (hval : ChunkVal m d L fI hI) (f44 f45 f46 f47 f48 f49 : Buf (Elt F) ((V d (cV L) (jV L)).loc cc0_scratch1)) :
    iprop((bigSep (Finset.univ.filter fun g : Fin 50 => g.val < 44) fun g => chunkPts d L g (gout m d))
        ∗ chunkPts d L 44 ((chunkK L 44).view.writes (Elt F) (m (oLoc d)) [⟨Rect.whole S128x128, wpay m d L fI hI 44 f44⟩])
        ∗ chunkPts d L 45 ((chunkK L 45).view.writes (Elt F) (m (oLoc d)) [⟨Rect.whole S128x128, wpay m d L fI hI 45 f45⟩])
        ∗ chunkPts d L 46 ((chunkK L 46).view.writes (Elt F) (m (oLoc d)) [⟨Rect.whole S128x128, wpay m d L fI hI 46 f46⟩])
        ∗ chunkPts d L 47 ((chunkK L 47).view.writes (Elt F) (m (oLoc d)) [⟨Rect.whole S128x128, wpay m d L fI hI 47 f47⟩])
        ∗ chunkPts d L 48 ((chunkK L 48).view.writes (Elt F) (m (oLoc d)) [⟨Rect.whole S128x128, wpay m d L fI hI 48 f48⟩])
        ∗ chunkPts d L 49 ((chunkK L 49).view.writes (Elt F) (m (oLoc d)) [⟨Rect.whole S128x128, wpay m d L fI hI 49 f49⟩]))
      ⊢ (oBlkPts d (widL L) (gout m d) : sProp 𝕄) := by
  have e (g : Fin 50) (f0 : Buf (Elt F) ((V d (cV L) (jV L)).loc cc0_scratch1)) :
      (chunkPts d L g ((chunkK L g).view.writes (Elt F) (m (oLoc d)) [⟨Rect.whole S128x128, wpay m d L fI hI g f0⟩]) : sProp 𝕄)
        = chunkPts d L g (gout m d) := pointsTo_congr (hval g f0)
  rw [e 44 f44, e 45 f45, e 46 f46, e 47 f47, e 48 f48, e 49 f49, ← bigSep50_split (fun g => chunkPts d L g (gout m d)), ← chunks_split d L (gout m d)]

/-- The fifty lists are the list scratch whole. -/
theorem rows_whole :
    iprop((bigSep (Finset.univ.filter fun g : Fin 50 => g.val < 44) fun g => rowPts d L fI g)
        ∗ rowPts d L fI 44 ∗ rowPts d L fI 45 ∗ rowPts d L fI 46 ∗ rowPts d L fI 47 ∗ rowPts d L fI 48 ∗ rowPts d L fI 49)
      ⊢ (iprop(∃ f, (V d (cV L) (jV L)).loc cc0_scratch0 ↦{fullShare} f) : sProp 𝕄) := by
  rw [← bigSep50_split (fun g => rowPts d L fI g), ← rows_split d L fI]
  iintro H; iexists fI; iexact H

/-- The six slots, each at what its last gather left, are the row buffers whole at some contents. -/
theorem slots_whole (f0 f1 f2 f3 f4 f5 : Buf (Elt F) ((V d (cV L) (jV L)).loc cc0_scratch1)) :
    iprop(slotPts d L 2 f2 ∗ slotPts d L 3 f3 ∗ slotPts d L 4 f4 ∗ slotPts d L 5 f5 ∗ slotPts d L 0 f0 ∗ slotPts d L 1 f1)
      ⊢ (iprop(∃ f, (V d (cV L) (jV L)).loc cc0_scratch1 ↦{fullShare} f) : sProp 𝕄) := by
  have h := slots_join (F := F) d L
  rw [bigSep_W1] at h
  iintro ⟨H2, H3, H4, H5, H0, H1⟩
  iapply h
  isplitl [H0]; · iexists f0; iexact H0
  isplitl [H1]; · iexists f1; iexact H1
  isplitl [H2]; · iexists f2; iexact H2
  isplitl [H3]; · iexists f3; iexact H3
  isplitl [H4]; · iexists f4; iexact H4
  iexists f5; iexact H5

/-- The six slots' read tokens and what was left of the tile's share are the tile's share of the table. -/
theorem toks_whole :
    iprop(tokWhole m d L 2 ∗ tokWhole m d L 3 ∗ tokWhole m d L 4 ∗ tokWhole m d L 5 ∗ tokWhole m d L 0 ∗ tokWhole m d L 1
        ∗ ((tV).view.loc thr ↦{trest (widL L)} m (tLoc d)))
      ⊢ (tTokPts m d (widL L) : sProp 𝕄) := by
  have h := Transfers.pointsTo_toks_join (Ix := HIx 1) (Val := Elt F) (Name := ℕ) (U := UU) (Lvl := ℕ) (ℓ := tLoc d) (S := Finset.univ) (f := m (tLoc d)) (tq (widL L)) 6
  rw [bigSep_W1] at h
  iintro ⟨H2, H3, H4, H5, H0, H1, Hr⟩
  iapply h
  isplitl [Hr]; · iexact Hr
  isplitl [H0]; · iexact H0
  isplitl [H1]; · iexact H1
  isplitl [H2]; · iexact H2
  isplitl [H3]; · iexact H3
  isplitl [H4]; · iexact H4
  iexact H5

omit [FloatOps F] in
/-- The thirteen cells named one by one and the rest are the tile's own cells, all at zero. -/
theorem cells_whole :
    iprop((semVal (gcell thr 2) 0 ∗ semVal (gcell thr 3) 0 ∗ semVal (gcell thr 4) 0 ∗ semVal (gcell thr 5) 0 ∗ semVal (gcell thr 0) 0 ∗ semVal (gcell thr 1) 0)
        ∗ (semVal (wcell thr 2) 0 ∗ semVal (wcell thr 3) 0 ∗ semVal (wcell thr 4) 0 ∗ semVal (wcell thr 5) 0 ∗ semVal (wcell thr 0) 0 ∗ semVal (wcell thr 1) 0)
        ∗ semVal (scell thr) 0 ∗ (bigSep (otherCells thr) fun g => semVal g 0))
      ⊢ (ownSems0 thr : sProp 𝕄) := by
  rw [ownSems0_V, bigSep_W1, bigSep_W1]
  iintro ⟨⟨G2, G3, G4, G5, G0, G1⟩, ⟨W2, W3, W4, W5, W0, W1⟩, Hs, Ho⟩
  isplitr [Ho]
  · isplitr [Hs]
    · isplitl [G0 G1 G2 G3 G4 G5]
      · isplitl [G0]; · iexact G0
        isplitl [G1]; · iexact G1
        isplitl [G2]; · iexact G2
        isplitl [G3]; · iexact G3
        isplitl [G4]; · iexact G4
        iexact G5
      · isplitl [W0]; · iexact W0
        isplitl [W1]; · iexact W1
        isplitl [W2]; · iexact W2
        isplitl [W3]; · iexact W3
        isplitl [W4]; · iexact W4
        iexact W5
    · iexact Hs
  · iexact Ho

/-- THE TILE'S HOLDINGS PUT BACK TOGETHER: the groups below 44 done, the last six landed, and what the ring never held
    — the tile's block of the token array, what was left of its share of the table, the list-fetch cell, the other
    cells, the other scoped buffers — are the task's result, the tile's own buffers and its own cells at zero. -/
theorem final_join (hI : ListsOK d L fI) (hval : ChunkVal m d L fI hI) (O : CellTallies nD τ sig (HIx 1)) (W : Waits sig (HIx 1))
    (f44 f45 f46 f47 f48 f49 : Buf (Elt F) ((V d (cV L) (jV L)).loc cc0_scratch1)) :
    iprop(doneBelow m d L fI ∗ landG m d L fI hI 44 2 f44 ∗ landG m d L fI hI 45 3 f45 ∗ landG m d L fI hI 46 4 f46
        ∗ landG m d L fI hI 47 5 f47 ∗ landG m d L fI hI 48 0 f48 ∗ landG m d L fI hI 49 1 f49
        ∗ (xLoc d ↦[xSet (widL L)]{fullShare} xt m d)
        ∗ ((tV).view.loc thr ↦{trest (widL L)} m (tLoc d))
        ∗ semVal (scell thr) 0 ∗ (bigSep (otherCells thr) fun g => semVal g 0)
        ∗ (bigSep (((ownRefs (τ := τ) (.scVector (cV L) (jV L))).erase ((Proc.scVector (cV L) (jV L)).devRef cc0_scratch0)).erase ((Proc.scVector (cV L) (jV L)).devRef cc0_scratch1)) fun b => iprop(∃ f, ((d, b) : Loc nD τ sig) ↦{fullShare} f))
        ∗ (∃ W', ⌜∀ p ∈ W', p ∈ W ∨ p.2 = none⌝ ∗ owes thr O W'))
      ⊢ (iprop(tdP m d (widL L) ∗ ownBufs thr ∗ ownSems0 thr ∗ ∃ W', ⌜∀ p ∈ W', p ∈ W ∨ p.2 = none⌝ ∗ owes thr O W') : sProp 𝕄) := by
  have hd : (doneBelow m d L fI : sProp 𝕄)
      = iprop((bigSep (Finset.univ.filter fun g : Fin 50 => g.val < 44) fun g => rowPts d L fI g)
          ∗ bigSep (Finset.univ.filter fun g : Fin 50 => g.val < 44) fun g => chunkPts d L g (gout m d)) :=
    bigSep_sep _ (fun g => rowPts d L fI g) (fun g => chunkPts d L g (gout m d))
  unfold tdP xBlkPts
  rw [ownBufs_V d L, hd]
  iintro ⟨⟨Hdr, Hdc⟩, ⟨R44, G2, T2, W2, C44, S2⟩, ⟨R45, G3, T3, W3, C45, S3⟩, ⟨R46, G4, T4, W4, C46, S4⟩, ⟨R47, G5, T5, W5, C47, S5⟩,
    ⟨R48, G0, T0, W0, C48, S0⟩, ⟨R49, G1, T1, W1, C49, S1⟩, Hx, Htr, Hsc, Hoc, Hbufs, HO⟩
  isplitl [Hx T0 T1 T2 T3 T4 T5 Htr Hdc C44 C45 C46 C47 C48 C49]
  · isplitl [Hx]; · iexact Hx
    isplitl [T0 T1 T2 T3 T4 T5 Htr]
    · iapply (toks_whole m d L)
      isplitl [T2]; · iexact T2
      isplitl [T3]; · iexact T3
      isplitl [T4]; · iexact T4
      isplitl [T5]; · iexact T5
      isplitl [T0]; · iexact T0
      isplitl [T1]; · iexact T1
      iexact Htr
    · iapply (chunks_join m d L fI hI hval f44 f45 f46 f47 f48 f49)
      isplitl [Hdc]; · iexact Hdc
      isplitl [C44]; · iexact C44
      isplitl [C45]; · iexact C45
      isplitl [C46]; · iexact C46
      isplitl [C47]; · iexact C47
      isplitl [C48]; · iexact C48
      iexact C49
  isplitl [Hdr R44 R45 R46 R47 R48 R49 S0 S1 S2 S3 S4 S5 Hbufs]
  · isplitl [Hdr R44 R45 R46 R47 R48 R49]
    · iapply (rows_whole d L fI)
      isplitl [Hdr]; · iexact Hdr
      isplitl [R44]; · iexact R44
      isplitl [R45]; · iexact R45
      isplitl [R46]; · iexact R46
      isplitl [R47]; · iexact R47
      isplitl [R48]; · iexact R48
      iexact R49
    isplitl [S0 S1 S2 S3 S4 S5]
    · iapply (slots_whole d L _ _ _ _ _ _)
      isplitl [S2]; · iexact S2
      isplitl [S3]; · iexact S3
      isplitl [S4]; · iexact S4
      isplitl [S5]; · iexact S5
      isplitl [S0]; · iexact S0
      iexact S1
    iexact Hbufs
  isplitl [G0 G1 G2 G3 G4 G5 W0 W1 W2 W3 W4 W5 Hsc Hoc]
  · iapply (cells_whole d L)
    isplitl [G0 G1 G2 G3 G4 G5]
    · isplitl [G2]; · iexact G2
      isplitl [G3]; · iexact G3
      isplitl [G4]; · iexact G4
      isplitl [G5]; · iexact G5
      isplitl [G0]; · iexact G0
      iexact G1
    isplitl [W0 W1 W2 W3 W4 W5]
    · isplitl [W2]; · iexact W2
      isplitl [W3]; · iexact W3
      isplitl [W4]; · iexact W4
      isplitl [W5]; · iexact W5
      isplitl [W0]; · iexact W0
      iexact W1
    isplitl [Hsc]; · iexact Hsc
    iexact Hoc
  iexact HO

/-- info: 'Cert.KernelIdeal.Sc.inv50_open' depends on axioms: [propext, Classical.choice, Quot.sound] -/
#guard_msgs in #print axioms inv50_open

end Epilogue

end Cert.KernelIdeal.Sc

end
-- ==== Proof.TileValue.lean ====
/-
  What a write-out leaves in its output chunk. Chunk `g` of worker `w` is rows `128 w …`, columns `128 g …` of the flat
  output; its write-out carries the slot read back after group `g`'s gather, which is the gather's payload: row `r` of it is
  the table row that word `r` of list `g` names, and that word is token `g` of batch row `128 w + r`. So element `(r, e)` of
  the chunk ends at column `e` of that table row, which is the gathered output at `(128 w + r, 128 g + e)`.
-/
import proofs.«203293_g38809324487172_cont_8to1_b_1330_62_alg».proof.Proof.TileInv

noncomputable section

namespace Cert.KernelIdeal.Sc

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "iV" => (Memref.whole Cert.KernelIdeal.main_v1_scv : Memref Cert.KernelIdeal.sig Kind.scVector Space.hbm Cert.KernelIdeal.S32x50x128 EltTy.i32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S4096x6400 EltTy.f32)
local notation "sI" => (Memref.whole Cert.KernelIdeal.cc0_scratch0 : Memref Cert.KernelIdeal.sig Kind.scVector Space.vmem Cert.KernelIdeal.S50x128 EltTy.i32)
local notation "sR" => (Memref.whole Cert.KernelIdeal.cc0_scratch1 : Memref Cert.KernelIdeal.sig Kind.scVector Space.vmem Cert.KernelIdeal.S6x128x128 EltTy.f32)

variable [FloatOps F]

section Value

variable (d : Dev nD) (L : grid0.Coords)

/-! ## Reading the pieces -/

/-- A whole-chunk write puts the payload's entry `y` at the chunk's element `y`. -/
theorem chunk_writes_at (g : Fin 50) (f : Buf (Elt F) (oLoc d)) (p : S128x128.Idx → Elt F .f32) (y : S128x128.Idx) :
    (chunkK L g).view.writes (Elt F) f [⟨Rect.whole S128x128, p⟩] ((chunkK L g).view.emb y) = p y := by
  have h := congrFun (View.read_writes_whole (chunkK L g).view f p) y
  rw [View.read_apply] at h
  exact (cast_eq _ _).symm.trans h

/-- The chunk's element `(r, e)` is the output's `(128 w + r, 128 g + e)`. -/
theorem chunk_emb (g : Fin 50) (r e : Fin 128) :
    (chunkK L g).view.emb (ix2 r e)
      = (ix2 (n0 := 4096) (n1 := 6400) ⟨128 * (widL L).val + r.val, by have := (widL L).isLt; have := r.isLt; omega⟩
          ⟨128 * g.val + e.val, by have := g.isLt; have := e.isLt; omega⟩ : S4096x6400.Idx) := by
  have hw : (widL L).val = 2 * (L 1).val + (L 0).val := rfl
  funext a
  match a with
  | 0 => exact Fin.ext (by show 256 * (L 1).val + 128 * (L 0).val + 1 * r.val = 128 * (widL L).val + r.val; omega)
  | 1 => exact Fin.ext (by show 128 * g.val + 1 * e.val = 128 * g.val + e.val; omega)

/-- The table read through the body's whole-table slice is the table. -/
theorem tAll_read (f : Buf (Elt F) (tLoc d)) : (tAllK).view.read (Elt F) f = f :=
  Memref.read_access_unit_zero (Elt F) main_arg1_scv (by funext a; fin_cases a <;> rfl) inb_S100000x128_S100000x128_0_0 f

/-- Word `r` of list `g` is entry `(g, r)` of the fetched block. -/
theorem rowK_read (fI : Buf (Elt F) ((V d (cV L) (jV L)).loc cc0_scratch0)) (g : Fin 50) (r : Fin 128) :
    (rowK g).view.read (Elt F) fI (ix1 r) = fI (ix2 g r) := by
  rw [View.read_apply]
  refine (cast_eq _ _).trans ?_
  show fI ((Rect.unit (s := S50x128) ![g.val, 0] S1x128.size (row_inb g)).emb
    (Shape.reshapeEquiv squeezes_S1x128_S128.numel_eq (ix1 r))) = _
  rw [show Shape.reshapeEquiv squeezes_S1x128_S128.numel_eq (ix1 r) = (ix2 (0 : Fin 1) r : S1x128.Idx) from
    Shape.reshapeEquiv_eq_of_rowMajor _ (by
      rw [Shape.rowMajor_val_two, Shape.rowMajor_val_one]
      show 0 * 128 + r.val = r.val
      omega)]
  refine congrArg fI ?_
  funext a
  match a with
  | 0 => exact Fin.ext (by show g.val + 1 * 0 = g.val; omega)
  | 1 => exact Fin.ext (by show 0 + 1 * r.val = r.val; omega)

/-- The row the offset list names for destination row `k` is its word `k`. -/
theorem rows_val {o z : ℕ} (idx : S128.Idx → Elt F .i32) (hn : S128.numel = o) (h : ∀ x, (idx x).toNat < z) (k : Fin o)
    (hk : k.val < 128) : (SparseCore.rows idx hn h k).val = (idx (ix1 ⟨k.val, hk⟩)).toNat := by
  have e : S128.rowMajor.symm (k.cast hn.symm) = ix1 ⟨k.val, hk⟩ := by
    rw [Equiv.symm_apply_eq]
    apply Fin.ext
    rw [Shape.rowMajor_val_one]
    rfl
  show (idx (S128.rowMajor.symm (k.cast hn.symm))).toNat = _
  rw [e]

/-! ## The payloads -/

variable (fI : Buf (Elt F) ((V d (cV L) (jV L)).loc cc0_scratch0))

/-- The write-out carries the gather's payload: the slot's earlier contents drop out. -/
theorem wpay_eq (hI : ListsOK d L fI) (g : Fin 50) (f0 : Buf (Elt F) ((V d (cV L) (jV L)).loc cc0_scratch1)) :
    wpay m d L fI hI g f0 = gpay m d L fI hI g := by
  unfold wpay
  rw [ReadAs.apply_same, View.read_writes_whole]

/-- Entry `(r, e)` of group `g`'s gathered rows: column `e` of the table row that word `r` of list `g` names. -/
theorem gpay_apply (hI : ListsOK d L fI) (g : Fin 50) (r e : Fin 128) :
    gpay m d L fI hI g (ix2 r e) = m (tLoc d) (ix2 (n0 := 100000) (n1 := 128) ⟨(fI (ix2 g r)).toNat, hI _⟩ e) := by
  unfold gpay SparseCore.gatherPayload
  rw [tAll_read]
  refine congrArg (m (tLoc d)) ?_
  funext a
  match a with
  | 0 =>
    apply Fin.ext
    show (gathers_S100000x128_S128x128.idx _ (ix2 r e) gathers_S100000x128_S128x128.axis).val = (fI (ix2 g r)).toNat
    rw [Shape.Gathers.idx_axis]
    refine (rows_val _ _ _ (ix2 r e gathers_S100000x128_S128x128.axis') r.isLt).trans ?_
    exact congrArg BitVec.toNat (rowK_read d L fI g r)
  | 1 =>
    apply Fin.ext
    exact Shape.Gathers.idx_of_ne gathers_S100000x128_S128x128 _ (ix2 r e) 1 (by decide)

/-! ## The gathered output at a chunk's element -/

/-- With the token words in range, the gathered output at `(128 w + r, 128 g + e)` is column `e` of the table row that
    token `g` of batch row `128 w + r` names. -/
theorem gout_apply (hpre : PreOK m) (w : Fin 32) (g : Fin 50) (r e : Fin 128) (hb : 128 * w.val + r.val < 4096)
    (hc : 128 * g.val + e.val < 6400) :
    gout m d (ix2 (n0 := 4096) (n1 := 6400) ⟨128 * w.val + r.val, hb⟩ ⟨128 * g.val + e.val, hc⟩)
      = m (tLoc d) (ix2 (n0 := 100000) (n1 := 128)
          ⟨(m (aLoc d) (ix2 (n0 := 4096) (n1 := 50) ⟨128 * w.val + r.val, hb⟩ g)).toNat, Spec.InRange.toNat_lt (hpre d) _⟩ e) := by
  have ht : Spec.tok ⟨128 * g.val + e.val, hc⟩ = g := Fin.ext (by show (128 * g.val + e.val) / 128 = g.val; omega)
  have hcol : Spec.col ⟨128 * g.val + e.val, hc⟩ = e := Fin.ext (by show (128 * g.val + e.val) % 128 = e.val; omega)
  show m (tLoc d) (ix2 (n0 := 100000) (n1 := 128)
    (Spec.row (m (aLoc d) (ix2 (n0 := 4096) (n1 := 50) ⟨128 * w.val + r.val, hb⟩ (Spec.tok ⟨128 * g.val + e.val, hc⟩))))
    (Spec.col ⟨128 * g.val + e.val, hc⟩)) = _
  rw [ht, hcol]
  refine congrArg (m (tLoc d)) (congrArg₂ (ix2 (n0 := 100000) (n1 := 128)) (Fin.ext ?_) rfl)
  exact Spec.row_val_of_lt _ (Spec.InRange.toNat_lt (hpre d) _)

/-! ## The fetched lists -/

/-- The fetched block of lists names rows of the table, -/
theorem listsOK_lists (hpre : PreOK m) (hfI : fI = (iRowK L).view.read (Elt F) (xt m d)) : ListsOK d L fI := by
  subst hfI; intro i; exact fI_lt m d L hpre i

/-- and every write-out leaves the gathered output in its chunk. -/
theorem chunkVal_lists (hpre : PreOK m) (hfI : fI = (iRowK L).view.read (Elt F) (xt m d)) (hI : ListsOK d L fI) :
    ChunkVal m d L fI hI := by
  intro g f0 i hi
  have hi' : i ∈ Finset.univ.map (chunkK L g).view.emb := hi
  obtain ⟨y, -, rfl⟩ := Finset.mem_map.mp hi'
  obtain ⟨r, e, rfl⟩ : ∃ (r e : Fin 128), y = ix2 r e := ⟨y 0, y 1, eq_ix2 y⟩
  rw [chunk_writes_at, wpay_eq, gpay_apply, chunk_emb, gout_apply m d hpre]
  refine congrArg (m (tLoc d)) (congrArg₂ (ix2 (n0 := 100000) (n1 := 128)) (Fin.ext ?_) rfl)
  show (fI (ix2 g r)).toNat = _
  rw [hfI, fI_apply]

/-- The same for the list scratch as the fetch leaves it, over any earlier contents. -/
theorem listsOK_fetched (hpre : PreOK m) (fs : Buf (Elt F) ((V d (cV L) (jV L)).loc cc0_scratch0)) :
    ListsOK d L (View.write (Elt F) (sI).view fs (ReadAs.same.apply ((iRowK L).view.read (Elt F) (xt m d))) Finset.univ) :=
  listsOK_lists m d L _ hpre (View.write_whole_univ _ _ _)

theorem chunkVal_fetched (hpre : PreOK m) (fs : Buf (Elt F) ((V d (cV L) (jV L)).loc cc0_scratch0)) :
    ChunkVal m d L (View.write (Elt F) (sI).view fs (ReadAs.same.apply ((iRowK L).view.read (Elt F) (xt m d))) Finset.univ)
      (listsOK_fetched m d L hpre fs) :=
  chunkVal_lists m d L _ hpre (View.write_whole_univ _ _ _) _

end Value

end Cert.KernelIdeal.Sc

end
-- ==== Proof.TileStep.lean ====
/-
  One trip of the ring. Trip `t` waits for group `t`'s gather and starts its write-out (gathering → writing); when a
  group `t + 5` exists it then waits for group `t - 1`'s write-out (writing → done; at `t = 0` the slot is the free one)
  and starts group `t + 5`'s gather into the slot that freed (pending → gathering). Every other group keeps its state.
-/
import proofs.«203293_g38809324487172_cont_8to1_b_1330_62_alg».proof.Proof.TileInv

noncomputable section

namespace Cert.KernelIdeal.Sc

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "iV" => (Memref.whole Cert.KernelIdeal.main_v1_scv : Memref Cert.KernelIdeal.sig Kind.scVector Space.hbm Cert.KernelIdeal.S32x50x128 EltTy.i32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S4096x6400 EltTy.f32)
local notation "sI" => (Memref.whole Cert.KernelIdeal.cc0_scratch0 : Memref Cert.KernelIdeal.sig Kind.scVector Space.vmem Cert.KernelIdeal.S50x128 EltTy.i32)
local notation "sR" => (Memref.whole Cert.KernelIdeal.cc0_scratch1 : Memref Cert.KernelIdeal.sig Kind.scVector Space.vmem Cert.KernelIdeal.S6x128x128 EltTy.f32)

variable [FloatOps F]

section Step

variable (d : Dev nD) (L : grid0.Coords)
variable (fI : Buf (Elt F) ((V d (cV L) (jV L)).loc cc0_scratch0))

/-! ## The groups' states from one trip to the next -/

omit [FloatOps F] in
theorem gst_self (t : ℕ) (g : Fin 50) (h : g.val = t) : gst t g = .gath := by
  unfold gst; rw [if_neg (by omega), if_pos (by omega)]
omit [FloatOps F] in
theorem gst_self_succ (t : ℕ) (g : Fin 50) (h : g.val = t) : gst (t + 1) g = .writ := by
  unfold gst; rw [if_neg (by omega), if_neg (by omega), if_neg (by omega)]
omit [FloatOps F] in
theorem gst_prev (t : ℕ) (g : Fin 50) (h : g.val + 1 = t) : gst t g = .writ := by
  unfold gst; rw [if_neg (by omega), if_neg (by omega), if_neg (by omega)]
omit [FloatOps F] in
theorem gst_prev_succ (t : ℕ) (g : Fin 50) (h : g.val + 1 = t) (ht : t + 5 < 50) : gst (t + 1) g = .done := by
  unfold gst; rw [if_neg (by omega), if_neg (by omega), if_pos ⟨by omega, by omega⟩]
omit [FloatOps F] in
theorem gst_next (t : ℕ) (g : Fin 50) (h : g.val = t + 5) : gst t g = .pend := by
  unfold gst; rw [if_pos (by omega)]
omit [FloatOps F] in
theorem gst_next_succ (t : ℕ) (g : Fin 50) (h : g.val = t + 5) : gst (t + 1) g = .gath := by
  unfold gst; rw [if_neg (by omega), if_pos (by omega)]
omit [FloatOps F] in
/-- Every other group keeps its state. -/
theorem gst_other (t : ℕ) (g : Fin 50) (h0 : g.val ≠ t) (h1 : g.val + 1 ≠ t ∨ 50 ≤ t + 5) (h2 : g.val ≠ t + 5) : gst (t + 1) g = gst t g := by
  have := g.isLt
  unfold gst
  split_ifs <;> first | rfl | omega

/-! ## The family with one, two, three groups set apart -/

variable (hI : ListsOK d L fI)

def R1 (st : Fin 50 → GSt) (a : Fin 50) : sProp 𝕄 := bigSep (Finset.univ.erase a) fun g => Φ m d L fI hI g (st g)
def R2 (st : Fin 50 → GSt) (a b : Fin 50) : sProp 𝕄 := bigSep ((Finset.univ.erase a).erase b) fun g => Φ m d L fI hI g (st g)
def R3 (st : Fin 50 → GSt) (a b c : Fin 50) : sProp 𝕄 := bigSep (((Finset.univ.erase a).erase b).erase c) fun g => Φ m d L fI hI g (st g)

theorem open1 (st : Fin 50 → GSt) (a : Fin 50) :
    Ring.AtW (Φ m d L fI hI) st = iprop(Φ m d L fI hI a (st a) ∗ R1 m d L fI hI st a) :=
  SparseCore.bigSep_erase' (Finset.mem_univ a)
theorem open2 (st : Fin 50 → GSt) (a b : Fin 50) (hab : b ≠ a) :
    R1 m d L fI hI st a = iprop(Φ m d L fI hI b (st b) ∗ R2 m d L fI hI st a b) :=
  SparseCore.bigSep_erase' (Finset.mem_erase.mpr ⟨hab, Finset.mem_univ b⟩)
theorem open3 (st : Fin 50 → GSt) (a b c : Fin 50) (hca : c ≠ a) (hcb : c ≠ b) :
    R2 m d L fI hI st a b = iprop(Φ m d L fI hI c (st c) ∗ R3 m d L fI hI st a b c) :=
  SparseCore.bigSep_erase' (Finset.mem_erase.mpr ⟨hcb, Finset.mem_erase.mpr ⟨hca, Finset.mem_univ c⟩⟩)
theorem R1_congr (st st' : Fin 50 → GSt) (a : Fin 50) (h : ∀ g, g ≠ a → st g = st' g) : R1 m d L fI hI st a = R1 m d L fI hI st' a :=
  bigSep_congr fun g hg => by rw [h g (Finset.ne_of_mem_erase hg)]
theorem R2_congr (st st' : Fin 50 → GSt) (a b : Fin 50) (h : ∀ g, g ≠ a → g ≠ b → st g = st' g) : R2 m d L fI hI st a b = R2 m d L fI hI st' a b :=
  bigSep_congr fun g hg => by rw [h g (Finset.ne_of_mem_erase (Finset.mem_of_mem_erase hg)) (Finset.ne_of_mem_erase hg)]
theorem R3_congr (st st' : Fin 50 → GSt) (a b c : Fin 50) (h : ∀ g, g ≠ a → g ≠ b → g ≠ c → st g = st' g) :
    R3 m d L fI hI st a b c = R3 m d L fI hI st' a b c :=
  bigSep_congr fun g hg => by
    rw [h g (Finset.ne_of_mem_erase (Finset.mem_of_mem_erase (Finset.mem_of_mem_erase hg)))
      (Finset.ne_of_mem_erase (Finset.mem_of_mem_erase hg)) (Finset.ne_of_mem_erase hg)]

/-! ## A trip of the last five: no later group to issue -/

set_option maxHeartbeats 2000000 in
theorem step_tail (hval : ChunkVal m d L fI hI) (O : CellTallies nD τ sig (HIx 1)) (W : Waits sig (HIx 1))
    (t : Fin k0_t1_loop.trips) (acc : BitVec 32) (h1 : ¬ k0_cond1 t = 1#1) :
    inv m d L fI hI O W t.val acc ⊢ wp frame (wpE (defs₀ (F := F)) 𝒱₀ (V d (cV L) (jV L)) none) Set.univ
      (k0_t1_body L iV (Memref.isWhole_whole _) tV (Memref.isWhole_whole _) oV (Memref.isWhole_whole _) sI (Memref.isWhole_whole _)
        sR (Memref.isWhole_whole _) cc0_scratch2 cc0_scratch3 cc0_scoped0 t acc)
      (fun r => inv m d L fI hI O W (t.val + 1) r) := by
  have ht50 := trip_lt t
  have ht : ¬ (t.val + 5 < 50) := fun h => h1 ((cond1_iff t).mpr h)
  unfold k0_t1_body
  simp only [k0_part1_eq_skeleton, k0_part1_skel, slot_off2 t, row_off3 t, chunk_off5 L t, gsem_off4 t, wsem_off4 t]
  unfold inv
  rw [open1 m d L fI hI (gst t.val) ⟨t.val, ht50⟩, gst_self t.val ⟨t.val, ht50⟩ rfl, if_neg (by omega : ¬ t.val = 0)]
  show iprop(_ ∗ (iprop(chunkPts d L ⟨t.val, ht50⟩ (m (oLoc d)) ∗ semVal (wcell (V d (cV L) (jV L)) ⟨t.val % 6, Nat.mod_lt _ (by norm_num)⟩) 0
      ∗ gathFlight m d L fI hI ⟨t.val, ht50⟩ ∗ tokRest m d L ⟨t.val % 6, Nat.mod_lt _ (by norm_num)⟩) ∗ _) ∗ emp ∗ _) ⊢ _
  unfold gathFlight
  delta chunkPts slotPts rowPts tokRest tokLent sl
  beta_reduce
  iintro ⟨#Hmw, ⟨⟨Hch, Hwc, ⟨%f0, Hfl⟩, Htr⟩, Hrest⟩, -, %W', %hW', HO⟩
  sl_exec (disch := exact View.amount_pos _ _ (show 0 < S128x128.numel by decide))
  sl_step
  rw [open1 m d L fI hI (gst (t.val + 1)) ⟨t.val, ht50⟩, gst_self_succ t.val ⟨t.val, ht50⟩ rfl,
    R1_congr m d L fI hI (gst (t.val + 1)) (gst t.val) ⟨t.val, ht50⟩
      (fun g hg => gst_other t.val g (fun h => hg (Fin.ext h)) (Or.inr (by omega)) (by have := g.isLt; omega)),
    if_neg (by omega : ¬ t.val + 1 = 0),
    show Φ m d L fI hI ⟨t.val, ht50⟩ GSt.writ = iprop(rowPts d L fI ⟨t.val, ht50⟩ ∗ semVal (gcell (V d (cV L) (jV L)) (sl ⟨t.val, ht50⟩)) 0
      ∗ tokWhole m d L (sl ⟨t.val, ht50⟩) ∗ writFlight m d L fI hI ⟨t.val, ht50⟩) from rfl]
  isplitr; · iexact Hmw
  isplitl [Hfl_dst_and Htr Hfl Hwc Hrest]
  · isplitr [Hrest]
    · isplitl [Hfl_dst_and]; · iexact Hfl_dst_and
      isplitl [Hfl]; · iexact Hfl
      isplitl [Htr]; · iexact Htr
      unfold writFlight; iexists f0; iexact Hwc
    · iexact Hrest
  isplitr; · iempintro
  iexists _; isplitr
  swap; · iexact HO
  ipureintro; intro p hp
  rcases Finset.mem_insert.mp hp with hp | hp; · exact .inr (hp ▸ rfl)
  exact hW' p hp

/-! ## Trip 0: group 5 is issued into the slot no group has used yet -/

set_option maxHeartbeats 4000000 in
theorem step_zero (hval : ChunkVal m d L fI hI) (O : CellTallies nD τ sig (HIx 1)) (W : Waits sig (HIx 1))
    (t : Fin k0_t1_loop.trips) (acc : BitVec 32) (h1 : k0_cond1 t = 1#1) (h2 : ¬ k0_cond2 t = 1#1) :
    inv m d L fI hI O W t.val acc ⊢ wp frame (wpE (defs₀ (F := F)) 𝒱₀ (V d (cV L) (jV L)) none) Set.univ
      (k0_t1_body L iV (Memref.isWhole_whole _) tV (Memref.isWhole_whole _) oV (Memref.isWhole_whole _) sI (Memref.isWhole_whole _)
        sR (Memref.isWhole_whole _) cc0_scratch2 cc0_scratch3 cc0_scoped0 t acc)
      (fun r => inv m d L fI hI O W (t.val + 1) r) := by
  have ht50 := trip_lt t
  have ht5 : t.val + 5 < 50 := (cond1_iff t).mp h1
  have ht0 : t.val = 0 := by have := (cond2_iff t).not.mp h2; omega
  have hca : (⟨t.val + 5, ht5⟩ : Fin 50) ≠ ⟨t.val, ht50⟩ := fun h => by have := congrArg Fin.val h; simp at this
  have e5 : (5 : Fin 6) = ⟨(t.val + 5) % 6, Nat.mod_lt _ (by norm_num)⟩ := Fin.ext (by simp [ht0])
  have hin_c := hin_row d L fI hI ⟨t.val + 5, ht5⟩
  unfold k0_t1_body
  simp only [k0_part1_eq_skeleton, k0_part1_skel, slot_off2 t, row_off3 t, chunk_off5 L t, gsem_off4 t, wsem_off4 t,
    slot_off9 t h1, row_off10 t h1, gsem_off11 t h1]
  unfold inv
  rw [open1 m d L fI hI (gst t.val) ⟨t.val, ht50⟩, open2 m d L fI hI (gst t.val) ⟨t.val, ht50⟩ ⟨t.val + 5, ht5⟩ hca,
    gst_self t.val ⟨t.val, ht50⟩ rfl, gst_next t.val ⟨t.val + 5, ht5⟩ rfl, if_pos ht0,
    show Φ m d L fI hI ⟨t.val, ht50⟩ GSt.gath = iprop(chunkPts d L ⟨t.val, ht50⟩ (m (oLoc d)) ∗ semVal (wcell (V d (cV L) (jV L)) (sl ⟨t.val, ht50⟩)) 0
      ∗ gathFlight m d L fI hI ⟨t.val, ht50⟩ ∗ tokRest m d L (sl ⟨t.val, ht50⟩)) from rfl,
    show Φ m d L fI hI ⟨t.val + 5, ht5⟩ GSt.pend = iprop(rowPts d L fI ⟨t.val + 5, ht5⟩ ∗ chunkPts d L ⟨t.val + 5, ht5⟩ (m (oLoc d))) from rfl]
  unfold gathFlight free5
  rw [e5]
  delta chunkPts slotPts rowPts tokRest tokLent tokWhole sl
  beta_reduce
  iintro ⟨#Hmw, ⟨⟨Hch, Hwc, ⟨%f0, Hfl⟩, Htr⟩, ⟨Hrowc, Hchc⟩, Hrest⟩, ⟨Hg5, Hw5, ⟨%f5, Hs5⟩, Ht5⟩, %W', %hW', HO⟩
  sl_exec (disch := exact View.amount_pos _ _ (show 0 < S128x128.numel by decide))
  sl_step
  rw [open1 m d L fI hI (gst (t.val + 1)) ⟨t.val, ht50⟩, open2 m d L fI hI (gst (t.val + 1)) ⟨t.val, ht50⟩ ⟨t.val + 5, ht5⟩ hca,
    gst_self_succ t.val ⟨t.val, ht50⟩ rfl, gst_next_succ t.val ⟨t.val + 5, ht5⟩ rfl,
    R2_congr m d L fI hI (gst (t.val + 1)) (gst t.val) ⟨t.val, ht50⟩ ⟨t.val + 5, ht5⟩
      (fun g hga hgc => gst_other t.val g (fun h => hga (Fin.ext h)) (Or.inl (by omega)) (fun h => hgc (Fin.ext h))),
    if_neg (by omega : ¬ t.val + 1 = 0),
    show Φ m d L fI hI ⟨t.val, ht50⟩ GSt.writ = iprop(rowPts d L fI ⟨t.val, ht50⟩ ∗ semVal (gcell (V d (cV L) (jV L)) (sl ⟨t.val, ht50⟩)) 0
      ∗ tokWhole m d L (sl ⟨t.val, ht50⟩) ∗ writFlight m d L fI hI ⟨t.val, ht50⟩) from rfl,
    show Φ m d L fI hI ⟨t.val + 5, ht5⟩ GSt.gath = iprop(chunkPts d L ⟨t.val + 5, ht5⟩ (m (oLoc d)) ∗ semVal (wcell (V d (cV L) (jV L)) (sl ⟨t.val + 5, ht5⟩)) 0
      ∗ gathFlight m d L fI hI ⟨t.val + 5, ht5⟩ ∗ tokRest m d L (sl ⟨t.val + 5, ht5⟩)) from rfl]
  isplitr; · iexact Hmw
  isplitl [Hfl_dst_and Htr Hfl Hwc Hchc Hw5 Hg5 Ht5 Hrest]
  · isplitl [Hfl_dst_and Htr Hfl Hwc]
    · isplitl [Hfl_dst_and]; · iexact Hfl_dst_and
      isplitl [Hfl]; · iexact Hfl
      isplitl [Htr]; · iexact Htr
      unfold writFlight; iexists f0; iexact Hwc
    · isplitl [Hchc Hw5 Hg5 Ht5]
      · isplitl [Hchc]; · iexact Hchc
        isplitl [Hw5]; · iexact Hw5
        isplitl [Hg5]; · unfold gathFlight; iexists f5; iexact Hg5
        iexact Ht5
      · iexact Hrest
  isplitr; · iempintro
  iexists _; isplitr
  swap; · iexact HO
  ipureintro; intro p hp
  rcases Finset.mem_insert.mp hp with hp | hp; · exact .inr (hp ▸ rfl)
  exact hW' p hp

/-! ## A middle trip: the previous group's write-out is waited for and its slot goes to group `t + 5` -/

set_option maxHeartbeats 4000000 in
theorem step_mid (hval : ChunkVal m d L fI hI) (O : CellTallies nD τ sig (HIx 1)) (W : Waits sig (HIx 1))
    (t : Fin k0_t1_loop.trips) (acc : BitVec 32) (h1 : k0_cond1 t = 1#1) (h2 : k0_cond2 t = 1#1) :
    inv m d L fI hI O W t.val acc ⊢ wp frame (wpE (defs₀ (F := F)) 𝒱₀ (V d (cV L) (jV L)) none) Set.univ
      (k0_t1_body L iV (Memref.isWhole_whole _) tV (Memref.isWhole_whole _) oV (Memref.isWhole_whole _) sI (Memref.isWhole_whole _)
        sR (Memref.isWhole_whole _) cc0_scratch2 cc0_scratch3 cc0_scoped0 t acc)
      (fun r => inv m d L fI hI O W (t.val + 1) r) := by
  have ht50 := trip_lt t
  have ht5 : t.val + 5 < 50 := (cond1_iff t).mp h1
  have ht1 : 1 ≤ t.val := (cond2_iff t).mp h2
  have hb50 : t.val - 1 < 50 := by omega
  have hba : (⟨t.val - 1, hb50⟩ : Fin 50) ≠ ⟨t.val, ht50⟩ := fun h => by have := congrArg Fin.val h; simp at this; omega
  have hca : (⟨t.val + 5, ht5⟩ : Fin 50) ≠ ⟨t.val, ht50⟩ := fun h => by have := congrArg Fin.val h; simp at this
  have hcb : (⟨t.val + 5, ht5⟩ : Fin 50) ≠ ⟨t.val - 1, hb50⟩ := fun h => by have := congrArg Fin.val h; simp at this; omega
  have eb : sl ⟨t.val - 1, hb50⟩ = ⟨(t.val + 5) % 6, Nat.mod_lt _ (by norm_num)⟩ := Fin.ext (by show (t.val - 1) % 6 = (t.val + 5) % 6; omega)
  have hin_c := hin_row d L fI hI ⟨t.val + 5, ht5⟩
  unfold k0_t1_body
  simp only [k0_part1_eq_skeleton, k0_part1_skel, slot_off2 t, row_off3 t, chunk_off5 L t, gsem_off4 t, wsem_off4 t,
    slot_off6 t h1 h2, chunk_off7 L t h1 h2, wsem_off8 t h1 h2, slot_off9 t h1, row_off10 t h1, gsem_off11 t h1]
  unfold inv
  rw [open1 m d L fI hI (gst t.val) ⟨t.val, ht50⟩, open2 m d L fI hI (gst t.val) ⟨t.val, ht50⟩ ⟨t.val - 1, hb50⟩ hba,
    open3 m d L fI hI (gst t.val) ⟨t.val, ht50⟩ ⟨t.val - 1, hb50⟩ ⟨t.val + 5, ht5⟩ hca hcb,
    gst_self t.val ⟨t.val, ht50⟩ rfl, gst_prev t.val ⟨t.val - 1, hb50⟩ (by show t.val - 1 + 1 = t.val; omega), gst_next t.val ⟨t.val + 5, ht5⟩ rfl,
    if_neg (by omega : ¬ t.val = 0),
    show Φ m d L fI hI ⟨t.val, ht50⟩ GSt.gath = iprop(chunkPts d L ⟨t.val, ht50⟩ (m (oLoc d)) ∗ semVal (wcell (V d (cV L) (jV L)) (sl ⟨t.val, ht50⟩)) 0
      ∗ gathFlight m d L fI hI ⟨t.val, ht50⟩ ∗ tokRest m d L (sl ⟨t.val, ht50⟩)) from rfl,
    show Φ m d L fI hI ⟨t.val - 1, hb50⟩ GSt.writ = iprop(rowPts d L fI ⟨t.val - 1, hb50⟩ ∗ semVal (gcell (V d (cV L) (jV L)) (sl ⟨t.val - 1, hb50⟩)) 0
      ∗ tokWhole m d L (sl ⟨t.val - 1, hb50⟩) ∗ writFlight m d L fI hI ⟨t.val - 1, hb50⟩) from rfl,
    show Φ m d L fI hI ⟨t.val + 5, ht5⟩ GSt.pend = iprop(rowPts d L fI ⟨t.val + 5, ht5⟩ ∗ chunkPts d L ⟨t.val + 5, ht5⟩ (m (oLoc d))) from rfl]
  unfold gathFlight writFlight
  rw [eb]
  delta chunkPts slotPts rowPts tokRest tokLent tokWhole sl
  beta_reduce
  iintro ⟨#Hmw, ⟨⟨Hch, Hwc, ⟨%f0, Hfl⟩, Htr⟩, ⟨Hrowb, Hgb, Htb, ⟨%fb, Hflb⟩⟩, ⟨Hrowc, Hchc⟩, Hrest⟩, -, %W', %hW', HO⟩
  sl_exec (disch := exact View.amount_pos _ _ (show 0 < S128x128.numel by decide))
  sl_step
  rw [open1 m d L fI hI (gst (t.val + 1)) ⟨t.val, ht50⟩, open2 m d L fI hI (gst (t.val + 1)) ⟨t.val, ht50⟩ ⟨t.val - 1, hb50⟩ hba,
    open3 m d L fI hI (gst (t.val + 1)) ⟨t.val, ht50⟩ ⟨t.val - 1, hb50⟩ ⟨t.val + 5, ht5⟩ hca hcb,
    gst_self_succ t.val ⟨t.val, ht50⟩ rfl, gst_prev_succ t.val ⟨t.val - 1, hb50⟩ (by show t.val - 1 + 1 = t.val; omega) ht5,
    gst_next_succ t.val ⟨t.val + 5, ht5⟩ rfl,
    R3_congr m d L fI hI (gst (t.val + 1)) (gst t.val) ⟨t.val, ht50⟩ ⟨t.val - 1, hb50⟩ ⟨t.val + 5, ht5⟩
      (fun g hga hgb hgc => gst_other t.val g (fun h => hga (Fin.ext h))
        (Or.inl (fun h => hgb (Fin.ext (by show g.val = t.val - 1; omega)))) (fun h => hgc (Fin.ext h))),
    if_neg (by omega : ¬ t.val + 1 = 0),
    show Φ m d L fI hI ⟨t.val, ht50⟩ GSt.writ = iprop(rowPts d L fI ⟨t.val, ht50⟩ ∗ semVal (gcell (V d (cV L) (jV L)) (sl ⟨t.val, ht50⟩)) 0
      ∗ tokWhole m d L (sl ⟨t.val, ht50⟩) ∗ writFlight m d L fI hI ⟨t.val, ht50⟩) from rfl,
    show Φ m d L fI hI ⟨t.val - 1, hb50⟩ GSt.done = iprop(rowPts d L fI ⟨t.val - 1, hb50⟩ ∗ chunkPts d L ⟨t.val - 1, hb50⟩ (gout m d)) from rfl,
    show Φ m d L fI hI ⟨t.val + 5, ht5⟩ GSt.gath = iprop(chunkPts d L ⟨t.val + 5, ht5⟩ (m (oLoc d)) ∗ semVal (wcell (V d (cV L) (jV L)) (sl ⟨t.val + 5, ht5⟩)) 0
      ∗ gathFlight m d L fI hI ⟨t.val + 5, ht5⟩ ∗ tokRest m d L (sl ⟨t.val + 5, ht5⟩)) from rfl]
  isplitr; · iexact Hmw
  isplitl [Hfl_dst_and Htr Hfl Hwc Hrowb Hflb_dst Hchc Hflb Hgb Htb Hrest]
  · isplitl [Hfl_dst_and Htr Hfl Hwc]
    · isplitl [Hfl_dst_and]; · iexact Hfl_dst_and
      isplitl [Hfl]; · iexact Hfl
      isplitl [Htr]; · iexact Htr
      unfold writFlight; iexists f0; iexact Hwc
    · isplitl [Hrowb Hflb_dst]
      · isplitl [Hrowb]; · iexact Hrowb
        iapply (Entails.of_eq (pointsTo_congr (hval ⟨t.val - 1, hb50⟩ fb))); iexact Hflb_dst
      · isplitl [Hchc Hflb Hgb Htb]
        · isplitl [Hchc]; · iexact Hchc
          isplitl [Hflb]; · iexact Hflb
          isplitl [Hgb]
          · unfold gathFlight
            iexists ((slotK ⟨(t.val + 5) % 6, Nat.mod_lt _ (by norm_num)⟩).view.writes (Elt F) fb [⟨Rect.whole S128x128, gpay m d L fI hI ⟨t.val - 1, hb50⟩⟩])
            iexact Hgb
          iexact Htb
        · iexact Hrest
  isplitr; · iempintro
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

/-! ## One trip, whichever it is -/

theorem step (hval : ChunkVal m d L fI hI) (O : CellTallies nD τ sig (HIx 1)) (W : Waits sig (HIx 1))
    (t : Fin k0_t1_loop.trips) (acc : BitVec 32) :
    inv m d L fI hI O W t.val acc ⊢ wp frame (wpE (defs₀ (F := F)) 𝒱₀ (V d (cV L) (jV L)) none) Set.univ
      (k0_t1_body L iV (Memref.isWhole_whole _) tV (Memref.isWhole_whole _) oV (Memref.isWhole_whole _) sI (Memref.isWhole_whole _)
        sR (Memref.isWhole_whole _) cc0_scratch2 cc0_scratch3 cc0_scoped0 t acc)
      (fun r => inv m d L fI hI O W (t.val + 1) r) := by
  by_cases h1 : k0_cond1 t = 1#1
  · by_cases h2 : k0_cond2 t = 1#1
    · exact step_mid m d L fI hI hval O W t acc h1 h2
    · exact step_zero m d L fI hI hval O W t acc h1 h2
  · exact step_tail m d L fI hI hval O W t acc h1

end Step

end Cert.KernelIdeal.Sc

end
-- ==== Proof.Tile.lean ====
/-
  One tile's task. Worker `w = 2 i + c` fetches its block of the transposed token array into its list scratch, then runs
  fifty groups through a ring of six row buffers: group `j` gathers the table rows that list `j` names into slot
  `j % 6` and writes that slot out to columns `128 j … 128 j + 127` of the worker's output rows; five gathers are in
  flight ahead of the group being written, and a slot is reused for group `j + 6` only after group `j`'s write-out
  has been waited for. Every gather and every write-out completes on the semaphore of its own slot.
-/
import proofs.«203293_g38809324487172_cont_8to1_b_1330_62_alg».proof.Proof.TileInv
import proofs.«203293_g38809324487172_cont_8to1_b_1330_62_alg».proof.Proof.TileSplit
import proofs.«203293_g38809324487172_cont_8to1_b_1330_62_alg».proof.Proof.TileEpilogue
import proofs.«203293_g38809324487172_cont_8to1_b_1330_62_alg».proof.Proof.TileValue
import proofs.«203293_g38809324487172_cont_8to1_b_1330_62_alg».proof.Proof.TileStep

noncomputable section

namespace Cert.KernelIdeal.Sc

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "iV" => (Memref.whole Cert.KernelIdeal.main_v1_scv : Memref Cert.KernelIdeal.sig Kind.scVector Space.hbm Cert.KernelIdeal.S32x50x128 EltTy.i32)
local notation "tV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S4096x6400 EltTy.f32)
local notation "sI" => (Memref.whole Cert.KernelIdeal.cc0_scratch0 : Memref Cert.KernelIdeal.sig Kind.scVector Space.vmem Cert.KernelIdeal.S50x128 EltTy.i32)
local notation "sR" => (Memref.whole Cert.KernelIdeal.cc0_scratch1 : Memref Cert.KernelIdeal.sig Kind.scVector Space.vmem Cert.KernelIdeal.S6x128x128 EltTy.f32)

variable [FloatOps F]

section Tile

variable (d : Dev nD) (L : grid0.Coords)

/-! ## Families over six slots and fifty groups, opened -/

omit [FloatOps F] in
theorem fin6_split (Ψ : Fin 6 → sProp 𝕄) : bigSep Finset.univ Ψ = iprop(Ψ 0 ∗ Ψ 1 ∗ Ψ 2 ∗ Ψ 3 ∗ Ψ 4 ∗ Ψ 5) :=
  (BI.bigSep_univ_eq_bigSepL [0, 1, 2, 3, 4, 5] (by decide) (by decide) Ψ).trans rfl

/-- The five groups whose gathers the prologue issues. -/
def S5 : Finset (Fin 50) := {0, 1, 2, 3, 4}

omit [FloatOps F] in
theorem split5 (Ψ : Fin 50 → sProp 𝕄) :
    bigSep Finset.univ Ψ = iprop((Ψ 0 ∗ Ψ 1 ∗ Ψ 2 ∗ Ψ 3 ∗ Ψ 4) ∗ bigSep (Finset.univ \ S5) Ψ) := by
  rw [SparseCore.bigSep_sdiff_split' (Finset.subset_univ S5), BI.bigSep_eq_bigSepL_of_eq [0, 1, 2, 3, 4] (by decide) (by decide)]
  rfl

section Init

variable (fI : Buf (Elt F) ((V d (cV L) (jV L)).loc cc0_scratch0)) (hI : ListsOK d L fI)

/-- Before trip 0: groups 0 … 4 have their gathers in flight, every later group is pending. -/
theorem atw0_eq : Ring.AtW (Φ m d L fI hI) (gst 0)
    = iprop((Φ m d L fI hI 0 .gath ∗ Φ m d L fI hI 1 .gath ∗ Φ m d L fI hI 2 .gath ∗ Φ m d L fI hI 3 .gath ∗ Φ m d L fI hI 4 .gath)
        ∗ (bigSep (Finset.univ \ S5) (fun g => rowPts d L fI g) ∗ bigSep (Finset.univ \ S5) (fun g => chunkPts d L g (m (oLoc d))))) := by
  unfold Ring.AtW
  rw [split5]
  have h5 : ∀ g ∈ (Finset.univ \ S5 : Finset (Fin 50)), gst 0 g = .pend := by decide
  have e : bigSep (Finset.univ \ S5) (fun g => Φ m d L fI hI g (gst 0 g))
      = iprop(bigSep (Finset.univ \ S5) (fun g => rowPts d L fI g) ∗ bigSep (Finset.univ \ S5) (fun g => chunkPts d L g (m (oLoc d)))) :=
    (BI.bigSep_congr (fun g hg => by rw [h5 g hg]; rfl)).trans (BI.bigSep_sep' _ _ _)
  rw [e]
  rfl

/-- A group whose gather is in flight, from its pieces. -/
theorem gath_intro (g : Fin 50) (f0 : Buf (Elt F) ((V d (cV L) (jV L)).loc cc0_scratch1)) :
    iprop(chunkPts d L g (m (oLoc d)) ∗ semVal (wcell (V d (cV L) (jV L)) (sl g)) 0
      ∗ Transfers.Flight (countersEmb (U := UU)) (V d (cV L) (jV L)) (SemLoc.dma (gsemK (sl g))) (default : HIx 1) 524288
          iprop((slotPts d L (sl g) ((slotK (sl g)).view.writes (Elt F) f0 [⟨Rect.whole S128x128, gpay m d L fI hI g⟩]) ∗ rowPts d L fI g) ∗ tokLent m d L (sl g))
      ∗ tokRest m d L (sl g))
      ⊢ Φ m d L fI hI g .gath := by
  show _ ⊢ iprop(chunkPts d L g (m (oLoc d)) ∗ semVal (wcell (V d (cV L) (jV L)) (sl g)) 0 ∗ gathFlight m d L fI hI g ∗ tokRest m d L (sl g))
  iintro ⟨Hc, Hw, Hfl, Ht⟩
  isplitl [Hc]; · iexact Hc
  isplitl [Hw]; · iexact Hw
  isplitl [Hfl]; · unfold gathFlight; iexists f0; iexact Hfl
  iexact Ht

end Init

set_option maxHeartbeats 4000000 in
/-- The task on the tile at grid point `L` of device `d`. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ goP m d (widL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_body L iV (Memref.isWhole_whole _) tV (Memref.isWhole_whole _) oV (Memref.isWhole_whole _)
            sI (Memref.isWhole_whole _) sR (Memref.isWhole_whole _) cc0_scratch2 cc0_scratch3 cc0_scoped0)
          fun _ => iprop(tdP m d (widL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__gather_body_eq_skeleton]; unfold cc0__gather_body_skel
  rw [(K (F := F)).scopedBufs_V hF d (cV L) (jV L), SparseCore.Cfg.scopedSems0_V (Val := Elt F) d (cV L) (jV L), ownSems0_V, ownBufs_V]
  unfold goP xBlkPts tTokPts oBlkPts
  iintro ⟨#Hlv, -, ⟨Hx, Ht, Ho⟩, ⟨⟨%fs, Hs⟩, ⟨%fr, Hr⟩, Hbufs⟩, ⟨⟨⟨Hg, Hw⟩, Hsc⟩, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (pts_iRowK (F := F) d L _).symm) $$ Hx
  ihave Hs' := (Entails.of_eq (pts_sI (F := F) d L _).symm) $$ Hs
  -- the list fetch and its wait
  sl_exec
  -- the fetched lists: they name rows of the table
  have hI : ListsOK d L (View.write (Elt F) (sI).view fs (tile_body.sl.dma0 m d L) Finset.univ) := by
    intro i
    rw [show View.write (Elt F) (sI).view fs (tile_body.sl.dma0 m d L) Finset.univ = tile_body.sl.dma0 m d L from View.write_whole_univ _ _ _]
    exact fI_lt m d L hpre i
  have hval : ChunkVal m d L _ hI := chunkVal_lists m d L _ hpre (View.write_whole_univ _ _ _) hI
  have hin0 := hin_row d L _ hI 0
  have hin1 := hin_row d L _ hI 1
  have hin2 := hin_row d L _ hI 2
  have hin3 := hin_row d L _ hI 3
  have hin4 := hin_row d L _ hI 4
  -- the row buffers slot by slot, the cells one by one, the table's read token one per slot
  ihave Hr2 := (Entails.of_eq ((slots_split (F := F) d L fr).trans (fin6_split _))) $$ Hr
  icases Hr2 with ⟨Hr0, Hr1, Hr2, Hr3, Hr4, Hr5⟩
  ihave Hg2 := (Entails.of_eq (fin6_split _)) $$ Hg
  icases Hg2 with ⟨Hg0, Hg1, Hg2, Hg3, Hg4, Hg5⟩
  ihave Hw2 := (Entails.of_eq (fin6_split _)) $$ Hw
  icases Hw2 with ⟨Hw0, Hw1, Hw2, Hw3, Hw4, Hw5⟩
  ihave Ht2 := (Transfers.pointsTo_toks_split (tq (widL L)) 6) $$ Ht
  icases Ht2 with ⟨Htr, Htk⟩
  ihave Htk2 := (Entails.of_eq (fin6_split _)) $$ Htk
  icases Htk2 with ⟨Ht0, Ht1, Ht2, Ht3, Ht4, Ht5⟩
  ihave Ht0' := (Entails.of_eq (pts_tV (F := F) d L _ _).symm) $$ Ht0
  ihave Ht1' := (Entails.of_eq (pts_tV (F := F) d L _ _).symm) $$ Ht1
  ihave Ht2' := (Entails.of_eq (pts_tV (F := F) d L _ _).symm) $$ Ht2
  ihave Ht3' := (Entails.of_eq (pts_tV (F := F) d L _ _).symm) $$ Ht3
  ihave Ht4' := (Entails.of_eq (pts_tV (F := F) d L _ _).symm) $$ Ht4
  ihave Ht5' := (Entails.of_eq (pts_tV (F := F) d L _ _).symm) $$ Ht5
  -- the fifty lists and the fifty column chunks, the first five apart
  ihave Hs2 := (Entails.of_eq ((rows_split (F := F) d L _).trans (split5 _))) $$ Hs'
  icases Hs2 with ⟨⟨Hl0, Hl1, Hl2, Hl3, Hl4⟩, Hlrest⟩
  ihave Ho2 := (Entails.of_eq ((chunks_split (F := F) d L _).trans (split5 _))) $$ Ho
  icases Ho2 with ⟨⟨Hc0, Hc1, Hc2, Hc3, Hc4⟩, Hcrest⟩
  -- the five gathers
  sl_exec
  -- the ring
  sl_for (inv m d L _ hI O W) $$ [Hmw Hc0 Hc1 Hc2 Hc3 Hc4 Hcrest Hw0 Hw1 Hw2 Hw3 Hw4 Hw5 Hlrest Hg0 Hg1 Hg2 Hg3 Hg4 Ht0' Ht1' Ht2' Ht3' Ht4' Hr5 Hg5 Ht5' HO]
  case region =>
    intro k acc
    exact step m d L _ hI hval O W k acc
  · unfold inv
    isplitl [Hmw]; · iexact Hmw
    isplitl [Hc0 Hc1 Hc2 Hc3 Hc4 Hcrest Hw0 Hw1 Hw2 Hw3 Hw4 Hlrest Hg0 Hg1 Hg2 Hg3 Hg4 Ht0' Ht1' Ht2' Ht3' Ht4']
    · iapply (Entails.of_eq (atw0_eq m d L _ hI).symm)
      isplitr [Hlrest Hcrest]
      · isplitl [Hc0 Hw0 Hg0 Ht0']
        · iapply (gath_intro m d L _ hI 0 fr)
          isplitl [Hc0]; · iexact Hc0
          isplitl [Hw0]; · iexact Hw0
          isplitl [Hg0]; · iexact Hg0
          iexact Ht0'
        isplitl [Hc1 Hw1 Hg1 Ht1']
        · iapply (gath_intro m d L _ hI 1 fr)
          isplitl [Hc1]; · iexact Hc1
          isplitl [Hw1]; · iexact Hw1
          isplitl [Hg1]; · iexact Hg1
          iexact Ht1'
        isplitl [Hc2 Hw2 Hg2 Ht2']
        · iapply (gath_intro m d L _ hI 2 fr)
          isplitl [Hc2]; · iexact Hc2
          isplitl [Hw2]; · iexact Hw2
          isplitl [Hg2]; · iexact Hg2
          iexact Ht2'
        isplitl [Hc3 Hw3 Hg3 Ht3']
        · iapply (gath_intro m d L _ hI 3 fr)
          isplitl [Hc3]; · iexact Hc3
          isplitl [Hw3]; · iexact Hw3
          isplitl [Hg3]; · iexact Hg3
          iexact Ht3'
        · iapply (gath_intro m d L _ hI 4 fr)
          isplitl [Hc4]; · iexact Hc4
          isplitl [Hw4]; · iexact Hw4
          isplitl [Hg4]; · iexact Hg4
          iexact Ht4'
      · isplitl [Hlrest]; · iexact Hlrest
        iexact Hcrest
    isplitl [Hg5 Hw5 Hr5 Ht5']
    · rw [if_pos rfl]
      unfold free5
      isplitl [Hg5]; · iexact Hg5
      isplitl [Hw5]; · iexact Hw5
      isplitl [Hr5]; · iexists fr; iexact Hr5
      iexact Ht5'
    iexists _; isplitr
    swap; · iexact HO
    ipureintro; intro p hp
    rcases Finset.mem_insert.mp hp with hp | hp; · exact .inr (hp ▸ rfl)
    exact .inl hp
  iintro %r HI
  rw [show Scf.trips k0_t1_loop.lb k0_t1_loop.ub k0_t1_loop.st = 50 from trips_eq]
  ihave HI' := (inv50_open m d L _ hI O W r) $$ HI
  icases HI' with ⟨#Hmw2, Hdone, ⟨Hl44, Hg2, Ht2, %f44, Hfl44⟩, ⟨Hl45, Hg3, Ht3, %f45, Hfl45⟩, ⟨Hl46, Hg4, Ht4, %f46, Hfl46⟩, ⟨Hl47, Hg5, Ht5, %f47, Hfl47⟩, ⟨Hl48, Hg0, Ht0, %f48, Hfl48⟩, ⟨Hl49, Hg1, Ht1, %f49, Hfl49⟩, %W', %hW', HO⟩
  -- the six last write-outs' waits
  sl_exec
  sl_step
  rw [← ownSems0_V (F := F) d L, ← ownBufs_V (F := F) d L]
  iapply (final_join m d L _ hI hval O W f44 f45 f46 f47 f48 f49)
  isplitl [Hdone]; · iexact Hdone
  isplitl [Hl44 Hg2 Ht2 Hfl44 Hfl44_dst Hfl44_src]
  · isplitl [Hl44]; · iexact Hl44
    isplitl [Hg2]; · iexact Hg2
    isplitl [Ht2]; · iexact Ht2
    isplitl [Hfl44]; · iexact Hfl44
    isplitl [Hfl44_dst]; · iexact Hfl44_dst
    iexact Hfl44_src
  isplitl [Hl45 Hg3 Ht3 Hfl45 Hfl45_dst Hfl45_src]
  · isplitl [Hl45]; · iexact Hl45
    isplitl [Hg3]; · iexact Hg3
    isplitl [Ht3]; · iexact Ht3
    isplitl [Hfl45]; · iexact Hfl45
    isplitl [Hfl45_dst]; · iexact Hfl45_dst
    iexact Hfl45_src
  isplitl [Hl46 Hg4 Ht4 Hfl46 Hfl46_dst Hfl46_src]
  · isplitl [Hl46]; · iexact Hl46
    isplitl [Hg4]; · iexact Hg4
    isplitl [Ht4]; · iexact Ht4
    isplitl [Hfl46]; · iexact Hfl46
    isplitl [Hfl46_dst]; · iexact Hfl46_dst
    iexact Hfl46_src
  isplitl [Hl47 Hg5 Ht5 Hfl47 Hfl47_dst Hfl47_src]
  · isplitl [Hl47]; · iexact Hl47
    isplitl [Hg5]; · iexact Hg5
    isplitl [Ht5]; · iexact Ht5
    isplitl [Hfl47]; · iexact Hfl47
    isplitl [Hfl47_dst]; · iexact Hfl47_dst
    iexact Hfl47_src
  isplitl [Hl48 Hg0 Ht0 Hfl48 Hfl48_dst Hfl48_src]
  · isplitl [Hl48]; · iexact Hl48
    isplitl [Hg0]; · iexact Hg0
    isplitl [Ht0]; · iexact Ht0
    isplitl [Hfl48]; · iexact Hfl48
    isplitl [Hfl48_dst]; · iexact Hfl48_dst
    iexact Hfl48_src
  isplitl [Hl49 Hg1 Ht1 Hfl49 Hfl49_dst Hfl49_src]
  · isplitl [Hl49]; · iexact Hl49
    isplitl [Hg1]; · iexact Hg1
    isplitl [Ht1]; · iexact Ht1
    isplitl [Hfl49]; · iexact Hfl49
    isplitl [Hfl49_dst]; · iexact Hfl49_dst
    iexact Hfl49_src
  isplitl [Hx']; · iapply (Entails.of_eq (pts_iRowK (F := F) d L _)); iexact Hx'
  isplitl [Htr]; · iexact Htr
  isplitl [Hsc]; · iexact Hsc
  isplitl [Hsems]; · iexact Hsems
  isplitl [Hbufs]; · iexact Hbufs
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather_body (coordsV c s)
          iV (Memref.isWhole_whole _) tV (Memref.isWhole_whole _) oV (Memref.isWhole_whole _)
          sI (Memref.isWhole_whole _) sR (Memref.isWhole_whole _) cc0_scratch2 cc0_scratch3 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Tile

end Cert.KernelIdeal.Sc

end
-- ==== Proof.TileOffsBits.lean ====
/-
  The ring's arithmetic. Group `t` of the fifty lives in slot `t % 6` of the six row buffers; group `t + 5` (issued in
  trip `t`) and group `t - 1` (whose write-out trip `t` waits for) share slot `(t + 5) % 6`. The kernel computes these
  slots by signed remainders of 32-bit words; over the fifty trips they are the plain remainders, decided here.
-/
import proofs.«203293_g38809324487172_cont_8to1_b_1330_62_alg».proof.Proof.Gen.Kernel

namespace Cert.Kernel.Sc

open Cert.Kernel Cert.Kernel.Gen Idealize.ShloMosaic

theorem trips_eq : k0_t1_loop.trips = 50 := by decide +kernel

theorem off2_eq : ∀ t : Fin k0_t1_loop.trips, k0_off2 t = ![t.val % 6, 0, 0] := by decide +kernel
theorem off4_eq : ∀ t : Fin k0_t1_loop.trips, k0_off4 t = ![t.val % 6] := by decide +kernel
theorem off6_eq : ∀ t : Fin k0_t1_loop.trips, k0_off6 t = ![(t.val + 5) % 6, 0, 0] := by decide +kernel
theorem off8_eq : ∀ t : Fin k0_t1_loop.trips, k0_off8 t = ![(t.val + 5) % 6] := by decide +kernel
theorem off9_eq : ∀ t : Fin k0_t1_loop.trips, k0_off9 t = ![(t.val + 5) % 6, 0, 0] := by decide +kernel
theorem off11_eq : ∀ t : Fin k0_t1_loop.trips, k0_off11 t = ![(t.val + 5) % 6] := by decide +kernel
theorem cond1_iff : ∀ t : Fin k0_t1_loop.trips, k0_cond1 t = 1#1 ↔ t.val + 5 < 50 := by decide +kernel
theorem cond2_iff : ∀ t : Fin k0_t1_loop.trips, k0_cond2 t = 1#1 ↔ 1 ≤ t.val := by decide +kernel
theorem off7_eq : ∀ (i : grid0.Coords) (t : Fin k0_t1_loop.trips), 1 ≤ t.val → k0_off7 i t = ![256 * (i 1).val + 128 * (i 0).val, 128 * (t.val - 1)] := by decide +kernel

end Cert.Kernel.Sc
-- ==== Proof.TileDefsBits.lean ====
/-
  A tile's holdings, spelt as its task's body addresses them: the worker's block of the transposed token array, the two
  scratch buffers, and the thirteen DMA cells — six for the ring's gathers, six for its write-outs, one for the list fetch.
-/
import proofs.«203293_g38809324487172_cont_8to1_b_1330_62_alg».proof.Proof.SetupBits
import proofs.«203293_g38809324487172_cont_8to1_b_1330_62_alg».proof.Proof.TileOffsBits

noncomputable section

namespace Cert.Kernel.Sc

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "iV" => (Memref.whole Cert.Kernel.main_v1_scv : Memref Cert.Kernel.sig Kind.scVector Space.hbm Cert.Kernel.S32x50x128 EltTy.i32)
local notation "tV" => (Memref.whole Cert.Kernel.main_arg1_scv : Memref Cert.Kernel.sig Kind.scVector Space.hbm Cert.Kernel.S100000x128 EltTy.f32)
local notation "oV" => (Memref.whole Cert.Kernel.main_v2_scv : Memref Cert.Kernel.sig Kind.scVector Space.hbm Cert.Kernel.S4096x6400 EltTy.f32)
local notation "sI" => (Memref.whole Cert.Kernel.cc0_scratch0 : Memref Cert.Kernel.sig Kind.scVector Space.vmem Cert.Kernel.S50x128 EltTy.i32)
local notation "sR" => (Memref.whole Cert.Kernel.cc0_scratch1 : Memref Cert.Kernel.sig Kind.scVector Space.vmem Cert.Kernel.S6x128x128 EltTy.f32)

variable [FloatOps F]

section Tile

variable (d : Dev nD) (L : grid0.Coords)

abbrev cV (L : grid0.Coords) : Fin τ.nSC := (L 0).castLE hcore0
abbrev jV (L : grid0.Coords) : Fin τ.nSub := (L 1).castLE hsub0
/-- The worker number of the tile at grid point `L`. -/
def widL (L : grid0.Coords) : Fin 32 := wid ⟨(L 0).val, (L 0).isLt⟩ ⟨(L 1).val, (L 1).isLt⟩

/-! ## The task's holdings, spelt as the body addresses them -/

/-- The worker's block of the transposed token array as the body slices it: block `2 i + c`, squeezed to [50, 128]. -/
abbrev iRowK (L : grid0.Coords) : Memref sig .scVector .hbm S50x128 .i32 :=
  ((iV).slice (Rect.unit (s := S32x50x128) (k0_off1 L) S1x50x128.size (k0_off1_inb L)) (fun _ => rfl)).squeeze S50x128 squeezes_S1x50x128_S50x128

omit [FloatOps F] in
theorem xBlkK_eq : Rect.unit (s := S32x50x128) (k0_off1 L) S1x50x128.size (k0_off1_inb L) = xBlk (widL L) := by
  unfold xBlk Rect.part Rect.block
  congr 1 <;> funext a
  · rw [k0_off1_eq]
    match a with
    | 0 => simp [Shape.partIx, Shape.partSize, widL, wid]
    | 1 => simp [Shape.partIx, Shape.partSize]
    | 2 => simp [Shape.partIx, Shape.partSize]
  · match a with
    | 0 => simp [Shape.partSize]
    | 1 => simp [Shape.partSize]
    | 2 => simp [Shape.partSize]

omit [FloatOps F] in
theorem set_iRowK : (iRowK L).view.set = xSet (widL L) := by
  show (((iV).view.slice (Rect.unit (s := S32x50x128) (k0_off1 L) S1x50x128.size (k0_off1_inb L))).reshape S50x128 squeezes_S1x50x128_S50x128.numel_eq).set = _
  rw [View.set_reshape]
  show ((View.whole (main_v1_scv : Ref sig .scVector)).slice (Rect.unit (s := S32x50x128) (k0_off1 L) S1x50x128.size (k0_off1_inb L))).set = (xBlk (widL L)).set
  rw [View.set_slice, xBlkK_eq]; exact Finset.map_refl

omit [FloatOps F] in
theorem pts_iRowK (f : Buf (Elt F) (xLoc d)) :
    ((iRowK L).view.loc (V d (cV L) (jV L)) ↦[(iRowK L).view.set]{fullShare} f : sProp 𝕄) = xLoc d ↦[xSet (widL L)]{fullShare} f := by
  rw [set_iRowK]

/-- The cell of the list fetch, and the ring's cells: slot `k`'s gather completes on cell `k`, its write-out on cell `6 + k`. -/
abbrev scell (thr : Thread nD τ) : GSem nD τ sig := (thr, .dma (⟨12, by show 12 < 21; omega⟩ : DmaSem sig))
abbrev gsemK (k : Fin 6) : DmaSem sig := ⟨k.val, by have := k.isLt; show k.val < 21; omega⟩
abbrev wsemK (k : Fin 6) : DmaSem sig := ⟨6 + k.val, by have := k.isLt; show 6 + k.val < 21; omega⟩
abbrev gcell (thr : Thread nD τ) (k : Fin 6) : GSem nD τ sig := (thr, .dma (gsemK k))
abbrev wcell (thr : Thread nD τ) (k : Fin 6) : GSem nD τ sig := (thr, .dma (wsemK k))

def gEmb (thr : Thread nD τ) : Fin 6 ↪ GSem nD τ sig := ⟨gcell thr, fun a b h => by
  simp only [gcell, gsemK, Prod.mk.injEq, SemLoc.dma.injEq, Fin.mk.injEq, _root_.true_and] at h; exact Fin.ext h⟩
def wEmb (thr : Thread nD τ) : Fin 6 ↪ GSem nD τ sig := ⟨wcell thr, fun a b h => by
  simp only [wcell, wsemK, Prod.mk.injEq, SemLoc.dma.injEq, Fin.mk.injEq, _root_.true_and] at h; exact Fin.ext (by omega)⟩

/-- The tile's thirteen DMA cells named one by one, beside the rest of its scoped cells. -/
def otherCells (thr : Thread nD τ) : Finset (GSem nD τ sig) :=
  ownCells thr \ ((Finset.univ.map (gEmb thr) ∪ Finset.univ.map (wEmb thr)) ∪ {scell thr})

omit [FloatOps F] in
theorem ownSems0_V :
    (ownSems0 (V d (cV L) (jV L)) : sProp 𝕄)
      = iprop((((bigSep Finset.univ fun k : Fin 6 => semVal (gcell (V d (cV L) (jV L)) k) 0)
          ∗ (bigSep Finset.univ fun k : Fin 6 => semVal (wcell (V d (cV L) (jV L)) k) 0))
          ∗ semVal (scell (V d (cV L) (jV L))) 0)
          ∗ bigSep (otherCells (V d (cV L) (jV L))) fun g => semVal g 0) := by
  unfold SparseCore.Cfg.ownSems0 otherCells
  have hsub : ((Finset.univ.map (gEmb (V d (cV L) (jV L))) ∪ Finset.univ.map (wEmb (V d (cV L) (jV L)))) ∪ {scell (V d (cV L) (jV L))})
      ⊆ ownCells (V d (cV L) (jV L)) := by
    intro g hg
    rw [mem_ownCells]
    rcases Finset.mem_union.mp hg with hg | hg
    · rcases Finset.mem_union.mp hg with hg | hg
      · obtain ⟨k, -, rfl⟩ := Finset.mem_map.mp hg
        refine ⟨rfl, ?_⟩
        show (SemLoc.dma (gsemK k) : SemLoc sig).isScoped .scVector = true
        fin_cases k <;> decide
      · obtain ⟨k, -, rfl⟩ := Finset.mem_map.mp hg
        refine ⟨rfl, ?_⟩
        show (SemLoc.dma (wsemK k) : SemLoc sig).isScoped .scVector = true
        fin_cases k <;> decide
    · rw [Finset.mem_singleton] at hg; subst hg
      exact ⟨rfl, by show (SemLoc.dma (⟨12, by show 12 < 21; omega⟩ : DmaSem sig) : SemLoc sig).isScoped .scVector = true; decide⟩
  have hd1 : Disjoint (Finset.univ.map (gEmb (V d (cV L) (jV L)))) (Finset.univ.map (wEmb (V d (cV L) (jV L)))) := by
    rw [Finset.disjoint_left]; intro g hg hg'
    obtain ⟨k, -, rfl⟩ := Finset.mem_map.mp hg
    obtain ⟨k', -, e⟩ := Finset.mem_map.mp hg'
    have h3 : 6 + k'.val = k.val := congrArg Fin.val (SemLoc.dma.inj (Prod.mk.inj (show wcell _ k' = gcell _ k from e)).2)
    have := k.isLt; omega
  have hd2 : Disjoint (Finset.univ.map (gEmb (V d (cV L) (jV L))) ∪ Finset.univ.map (wEmb (V d (cV L) (jV L)))) {scell (V d (cV L) (jV L))} := by
    rw [Finset.disjoint_singleton_right]; intro hg
    rcases Finset.mem_union.mp hg with hg | hg
    · obtain ⟨k, -, e⟩ := Finset.mem_map.mp hg
      have h3 : k.val = 12 := congrArg Fin.val (SemLoc.dma.inj (Prod.mk.inj (show gcell _ k = scell _ from e)).2)
      have := k.isLt; omega
    · obtain ⟨k, -, e⟩ := Finset.mem_map.mp hg
      have h3 : 6 + k.val = 12 := congrArg Fin.val (SemLoc.dma.inj (Prod.mk.inj (show wcell _ k = scell _ from e)).2)
      have := k.isLt; omega
  rw [SparseCore.bigSep_sdiff_split' hsub, SparseCore.bigSep_union' hd2, SparseCore.bigSep_union' hd1, bigSep_map, bigSep_map, bigSep_singleton]
  rfl

omit [FloatOps F] in
/-- The two scratch buffers are among the tile's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
theorem pts_sI (f : Buf (Elt F) ((V d (cV L) (jV L)).loc cc0_scratch0)) :
    ((sI).view.loc (V d (cV L) (jV L)) ↦{fullShare} f : sProp 𝕄) = (V d (cV L) (jV L)).loc cc0_scratch0 ↦{fullShare} f := rfl
omit [FloatOps F] in
theorem pts_sR (f : Buf (Elt F) ((V d (cV L) (jV L)).loc cc0_scratch1)) :
    ((sR).view.loc (V d (cV L) (jV L)) ↦{fullShare} f : sProp 𝕄) = (V d (cV L) (jV L)).loc cc0_scratch1 ↦{fullShare} f := rfl
omit [FloatOps F] in
theorem pts_tV (q : PosShare TreeShare) (f : Buf (Elt F) (tLoc d)) :
    ((tV).view.loc (V d (cV L) (jV L)) ↦{q} f : sProp 𝕄) = tLoc d ↦{q} f := rfl

/-! ## The ring's slots, the lists, the output's column chunks, the table's read tokens -/

omit [FloatOps F] in
theorem slot_inb (k : Fin 6) : ∀ a, (![k.val, 0, 0] : Fin 3 → Nat) a + S1x128x128.size a ≤ S6x128x128.size a := by
  have := k.isLt; intro a; fin_cases a
  · show k.val + 1 ≤ 6; omega
  · show 0 + 128 ≤ 128; omega
  · show 0 + 128 ≤ 128; omega
omit [FloatOps F] in
theorem row_inb (j : Fin 50) : ∀ a, (![j.val, 0] : Fin 2 → Nat) a + S1x128.size a ≤ S50x128.size a := by
  have := j.isLt; intro a; fin_cases a
  · show j.val + 1 ≤ 50; omega
  · show 0 + 128 ≤ 128; omega
omit [FloatOps F] in
theorem chunk_inb (L : grid0.Coords) (j : Fin 50) :
    ∀ a, (![256 * (L 1).val + 128 * (L 0).val, 128 * j.val] : Fin 2 → Nat) a + S128x128.size a ≤ S4096x6400.size a := by
  have := j.isLt; have h0 : (L 0).val < 2 := (L 0).isLt; have h1 : (L 1).val < 16 := (L 1).isLt; intro a; fin_cases a
  · show 256 * (L 1).val + 128 * (L 0).val + 128 ≤ 4096; omega
  · show 128 * j.val + 128 ≤ 6400; omega

/-- Slot `k` of the six row buffers, squeezed to [128, 128]. -/
abbrev slotK (k : Fin 6) : Memref sig .scVector .vmem S128x128 .f32 :=
  ((sR).slice (Rect.unit (s := S6x128x128) ![k.val, 0, 0] S1x128x128.size (slot_inb k)) (fun _ => rfl)).squeeze S128x128 squeezes_S1x128x128_S128x128
/-- List `j` of the fifty fetched token lists, squeezed to [128]. -/
abbrev rowK (j : Fin 50) : Memref sig .scVector .vmem S128 .i32 :=
  ((sI).slice (Rect.unit (s := S50x128) ![j.val, 0] S1x128.size (row_inb j)) (fun _ => rfl)).squeeze S128 squeezes_S1x128_S128
/-- Column chunk `j` of the worker's output rows: rows `128 w …`, columns `128 j …`. -/
abbrev chunkK (L : grid0.Coords) (j : Fin 50) : Memref sig .scVector .hbm S128x128 .f32 :=
  (oV).slice (Rect.unit (s := S4096x6400) ![256 * (L 1).val + 128 * (L 0).val, 128 * j.val] S128x128.size (chunk_inb L j)) (fun _ => rfl)
/-- The whole table as the body slices it. -/
abbrev tAllK : Memref sig .scVector .hbm S100000x128 .f32 :=
  (tV).slice (Rect.unit (s := S100000x128) ![0, 0] S100000x128.size inb_S100000x128_S100000x128_0_0) (fun _ => rfl)
/-- The worker's read token of the table split again, one token per slot of the ring, and what is left. -/
abbrev ttok (w : Fin 32) (k : Fin 6) : PosShare TreeShare := Transfers.shareTok (tq w) 6 k
abbrev trest (w : Fin 32) : PosShare TreeShare := Transfers.shareDrop (tq w) 6

end Tile

end Cert.Kernel.Sc

end
-- ==== Proof.TileSplitBits.lean ====
/-
  How a tile's buffers split into the pieces its task's body addresses — the six slots of the row buffers, the fifty
  fetched lists, the fifty column chunks of the worker's output rows — and that the body's own spellings of those
  pieces, through the printed offset functions, are the canonical ones.
-/
import proofs.«203293_g38809324487172_cont_8to1_b_1330_62_alg».proof.Proof.TileDefsBits
import Idealize.ShloMosaic.Lib.Ring

noncomputable section

namespace Cert.Kernel.Sc

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "iV" => (Memref.whole Cert.Kernel.main_v1_scv : Memref Cert.Kernel.sig Kind.scVector Space.hbm Cert.Kernel.S32x50x128 EltTy.i32)
local notation "tV" => (Memref.whole Cert.Kernel.main_arg1_scv : Memref Cert.Kernel.sig Kind.scVector Space.hbm Cert.Kernel.S100000x128 EltTy.f32)
local notation "oV" => (Memref.whole Cert.Kernel.main_v2_scv : Memref Cert.Kernel.sig Kind.scVector Space.hbm Cert.Kernel.S4096x6400 EltTy.f32)
local notation "sI" => (Memref.whole Cert.Kernel.cc0_scratch0 : Memref Cert.Kernel.sig Kind.scVector Space.vmem Cert.Kernel.S50x128 EltTy.i32)
local notation "sR" => (Memref.whole Cert.Kernel.cc0_scratch1 : Memref Cert.Kernel.sig Kind.scVector Space.vmem Cert.Kernel.S6x128x128 EltTy.f32)

section Split

variable (d : Dev nD) (L : grid0.Coords)

/-! ## The buffers split into the pieces the body addresses -/

/-- Slot `k`'s elements are plane `k` of the row buffers, -/
theorem set_slotK (k : Fin 6) :
    (slotK k).view.set = (Rect.unit (s := S6x128x128) ![k.val, 0, 0] S1x128x128.size (slot_inb k)).set := by
  show (((sR).view.slice (Rect.unit (s := S6x128x128) ![k.val, 0, 0] S1x128x128.size (slot_inb k))).reshape S128x128
    squeezes_S1x128x128_S128x128.numel_eq).set = _
  rw [View.set_reshape]
  show ((View.whole (cc0_scratch1 : Ref sig .scVector)).slice
    (Rect.unit (s := S6x128x128) ![k.val, 0, 0] S1x128x128.size (slot_inb k))).set = _
  rw [View.set_slice]; exact Finset.map_refl
/-- list `j`'s are row `j` of the fetched block, -/
theorem set_rowK (j : Fin 50) :
    (rowK j).view.set = (Rect.unit (s := S50x128) ![j.val, 0] S1x128.size (row_inb j)).set := by
  show (((sI).view.slice (Rect.unit (s := S50x128) ![j.val, 0] S1x128.size (row_inb j))).reshape S128
    squeezes_S1x128_S128.numel_eq).set = _
  rw [View.set_reshape]
  show ((View.whole (cc0_scratch0 : Ref sig .scVector)).slice
    (Rect.unit (s := S50x128) ![j.val, 0] S1x128.size (row_inb j))).set = _
  rw [View.set_slice]; exact Finset.map_refl
/-- and chunk `j`'s are the worker's rows at columns `128 j …`. -/
theorem set_chunkK (j : Fin 50) :
    (chunkK L j).view.set
      = (Rect.unit (s := S4096x6400) ![256 * (L 1).val + 128 * (L 0).val, 128 * j.val] S128x128.size (chunk_inb L j)).set := by
  show ((View.whole (main_v2_scv : Ref sig .scVector)).slice
    (Rect.unit (s := S4096x6400) ![256 * (L 1).val + 128 * (L 0).val, 128 * j.val] S128x128.size (chunk_inb L j))).set = _
  rw [View.set_slice]; exact Finset.map_refl

/-- The pieces' element sets, as sets of the buffers' own indices. -/
def slotSet (k : Fin 6) : Finset S6x128x128.Idx := (slotK k).view.set
def rowSet (j : Fin 50) : Finset S50x128.Idx := (rowK j).view.set
def chunkSet (L : grid0.Coords) (j : Fin 50) : Finset S4096x6400.Idx := (chunkK L j).view.set

theorem slots_disjoint (k k' : Fin 6) (h : k ≠ k') : Disjoint (slotSet k) (slotSet k') := by
  unfold slotSet; rw [set_slotK, set_slotK]
  exact Idealize.ShloMosaic.Ring.lead_disjoint (s := S6x128x128) 0 1 (fun k : Fin 6 => ![k.val, 0, 0]) S1x128x128.size slot_inb
    (fun b => (Nat.one_mul _).symm) rfl k k' h
theorem slots_cover : (Finset.univ : Finset (Fin 6)).biUnion slotSet = Finset.univ :=
  (Finset.biUnion_congr rfl fun k _ => (set_slotK k : slotSet k = _)).trans
    (Idealize.ShloMosaic.Ring.lead_cover (s := S6x128x128) 0 1 (fun k : Fin 6 => ![k.val, 0, 0]) S1x128x128.size slot_inb
      (fun b => (Nat.one_mul _).symm)
      (fun b a ha => match a, ha with
        | 0, ha => absurd rfl ha
        | 1, _ => rfl
        | 2, _ => rfl) rfl
      (fun a ha => match a, ha with
        | 0, ha => absurd rfl ha
        | 1, _ => rfl
        | 2, _ => rfl) rfl)

theorem rows_disjoint (j j' : Fin 50) (h : j ≠ j') : Disjoint (rowSet j) (rowSet j') := by
  unfold rowSet; rw [set_rowK, set_rowK]
  exact Idealize.ShloMosaic.Ring.lead_disjoint (s := S50x128) 0 1 (fun j : Fin 50 => ![j.val, 0]) S1x128.size row_inb
    (fun b => (Nat.one_mul _).symm) rfl j j' h
theorem rows_cover : (Finset.univ : Finset (Fin 50)).biUnion rowSet = Finset.univ :=
  (Finset.biUnion_congr rfl fun j _ => (set_rowK j : rowSet j = _)).trans
    (Idealize.ShloMosaic.Ring.lead_cover (s := S50x128) 0 1 (fun j : Fin 50 => ![j.val, 0]) S1x128.size row_inb
      (fun b => (Nat.one_mul _).symm)
      (fun b a ha => match a, ha with
        | 0, ha => absurd rfl ha
        | 1, _ => rfl) rfl
      (fun a ha => match a, ha with
        | 0, ha => absurd rfl ha
        | 1, _ => rfl) rfl)

theorem chunks_disjoint (j j' : Fin 50) (h : j ≠ j') : Disjoint (chunkSet L j) (chunkSet L j') := by
  unfold chunkSet; rw [set_chunkK, set_chunkK]
  have hv : j.val ≠ j'.val := fun e => h (Fin.ext e)
  refine Rect.unit_disjoint 1 ?_
  show 128 * j.val + 128 ≤ 128 * j'.val ∨ 128 * j'.val + 128 ≤ 128 * j.val
  omega

/-- The fifty chunks cover the worker's rows of the output, and nothing else. -/
theorem chunks_cover : (Finset.univ : Finset (Fin 50)).biUnion (chunkSet L) = oSet (widL L) := by
  ext i
  have hi1 : (i 1).val < 6400 := (i 1).isLt
  have hw : (widL L).val = 2 * (L 1).val + (L 0).val := rfl
  have hm : i ∈ oSet (widL L) ↔ (128 * (widL L).val ≤ (i 0).val ∧ (i 0).val < 128 * (widL L).val + 128) := by
    show i ∈ (oBlk (widL L)).set ↔ _
    rw [Rect.mem_set_unit, Fin.forall_fin_two]
    simp [Shape.partIx, Shape.partSize]
    omega
  rw [hm]
  constructor
  · intro hi
    obtain ⟨j, -, hj⟩ := Finset.mem_biUnion.mp hi
    unfold chunkSet at hj; rw [set_chunkK] at hj
    have h0 := (Rect.mem_set_unit.mp hj) 0
    change 256 * (L 1).val + 128 * (L 0).val ≤ (i 0).val ∧ (i 0).val < 256 * (L 1).val + 128 * (L 0).val + 128 at h0
    omega
  · rintro ⟨h0, h0'⟩
    refine Finset.mem_biUnion.mpr ⟨⟨(i 1).val / 128, by omega⟩, Finset.mem_univ _, ?_⟩
    unfold chunkSet; rw [set_chunkK]
    refine Rect.mem_set_unit.mpr fun a => ?_
    match a with
    | 0 =>
      show 256 * (L 1).val + 128 * (L 0).val ≤ (i 0).val ∧ (i 0).val < 256 * (L 1).val + 128 * (L 0).val + 128
      omega
    | 1 =>
      show 128 * ((i 1).val / 128) ≤ (i 1).val ∧ (i 1).val < 128 * ((i 1).val / 128) + 128
      omega

/-- The six row buffers held whole are the six slots held one by one. -/
theorem slots_split (f : Buf (Elt F) ((V d (cV L) (jV L)).loc cc0_scratch1)) :
    ((V d (cV L) (jV L)).loc cc0_scratch1 ↦{fullShare} f : sProp 𝕄)
      = bigSep Finset.univ fun k : Fin 6 => (slotK k).view.loc (V d (cV L) (jV L)) ↦[(slotK k).view.set]{fullShare} f :=
  Idealize.ShloMosaic.Ring.pointsTo_blocks (ℓ := (V d (cV L) (jV L)).loc cc0_scratch1) slotSet slots_disjoint slots_cover f

/-- The fetched block of lists held whole is the fifty lists held one by one. -/
theorem rows_split (f : Buf (Elt F) ((V d (cV L) (jV L)).loc cc0_scratch0)) :
    ((V d (cV L) (jV L)).loc cc0_scratch0 ↦{fullShare} f : sProp 𝕄)
      = bigSep Finset.univ fun j : Fin 50 => (rowK j).view.loc (V d (cV L) (jV L)) ↦[(rowK j).view.set]{fullShare} f :=
  Idealize.ShloMosaic.Ring.pointsTo_blocks (ℓ := (V d (cV L) (jV L)).loc cc0_scratch0) rowSet rows_disjoint rows_cover f

/-- The worker's output rows are their fifty column chunks. -/
theorem chunks_split (f : Buf (Elt F) (oLoc d)) :
    (oLoc d ↦[oSet (widL L)]{fullShare} f : sProp 𝕄)
      = bigSep Finset.univ fun j : Fin 50 => (chunkK L j).view.loc (V d (cV L) (jV L)) ↦[(chunkK L j).view.set]{fullShare} f := by
  rw [← chunks_cover L]
  exact pointsTo_biUnion (ℓ := oLoc d) Finset.univ (chunkSet L)
    (fun j _ j' _ h => chunks_disjoint L j j' h)

/-- The six slots, each at some contents, join to the row buffers at some contents. -/
theorem slots_join :
    (bigSep Finset.univ fun k : Fin 6 => iprop(∃ f, (slotK k).view.loc (V d (cV L) (jV L)) ↦[(slotK k).view.set]{fullShare} f))
      ⊢ (iprop(∃ f, (V d (cV L) (jV L)).loc cc0_scratch1 ↦{fullShare} f) : sProp 𝕄) := by
  by_cases hne : Nonempty (Buf (Elt F) ((V d (cV L) (jV L)).loc cc0_scratch1))
  · obtain ⟨f₀⟩ := hne
    exact Idealize.ShloMosaic.Ring.pointsTo_blocks_join_exists (ℓ := (V d (cV L) (jV L)).loc cc0_scratch1) slotSet
      slots_disjoint slots_cover f₀
  · rw [← Finset.insert_erase (Finset.mem_univ (0 : Fin 6)), bigSep_insert (Finset.notMem_erase _ _)]
    refine (show iprop((∃ f, (slotK 0).view.loc (V d (cV L) (jV L)) ↦[(slotK 0).view.set]{fullShare} f)
      ∗ bigSep (Finset.univ.erase 0) fun k : Fin 6 => iprop(∃ f, (slotK k).view.loc (V d (cV L) (jV L)) ↦[(slotK k).view.set]{fullShare} f)) ⊢ _ from ?_)
    iintro ⟨⟨%f, H⟩, H'⟩
    exact absurd ⟨f⟩ hne

/-- The fifty lists, each at some contents, join to the block of lists at some contents. -/
theorem rows_join :
    (bigSep Finset.univ fun j : Fin 50 => iprop(∃ f, (rowK j).view.loc (V d (cV L) (jV L)) ↦[(rowK j).view.set]{fullShare} f))
      ⊢ (iprop(∃ f, (V d (cV L) (jV L)).loc cc0_scratch0 ↦{fullShare} f) : sProp 𝕄) := by
  by_cases hne : Nonempty (Buf (Elt F) ((V d (cV L) (jV L)).loc cc0_scratch0))
  · obtain ⟨f₀⟩ := hne
    exact Idealize.ShloMosaic.Ring.pointsTo_blocks_join_exists (ℓ := (V d (cV L) (jV L)).loc cc0_scratch0) rowSet
      rows_disjoint rows_cover f₀
  · rw [← Finset.insert_erase (Finset.mem_univ (0 : Fin 50)), bigSep_insert (Finset.notMem_erase _ _)]
    refine (show iprop((∃ f, (rowK 0).view.loc (V d (cV L) (jV L)) ↦[(rowK 0).view.set]{fullShare} f)
      ∗ bigSep (Finset.univ.erase 0) fun j : Fin 50 => iprop(∃ f, (rowK j).view.loc (V d (cV L) (jV L)) ↦[(rowK j).view.set]{fullShare} f)) ⊢ _ from ?_)
    iintro ⟨⟨%f, H⟩, H'⟩
    exact absurd ⟨f⟩ hne

/-! ## The body's spellings are the canonical ones -/

theorem trip_lt (t : Fin k0_t1_loop.trips) : t.val < 50 := lt_of_lt_of_eq t.isLt trips_eq

/-- A slice of the row buffers at an offset vector that is slot `k`'s is slot `k`, whatever the evidence. -/
theorem slot_at {o : Fin 3 → ℕ} (k : Fin 6) (h : o = ![k.val, 0, 0]) (p : ∀ a, o a + S1x128x128.size a ≤ S6x128x128.size a) :
    ((sR).slice (Rect.unit (s := S6x128x128) o S1x128x128.size p) (fun _ => rfl)).squeeze S128x128 squeezes_S1x128x128_S128x128 = slotK k := by
  subst h; rfl
/-- The same for the fetched lists, -/
theorem row_at {o : Fin 2 → ℕ} (j : Fin 50) (h : o = ![j.val, 0]) (p : ∀ a, o a + S1x128.size a ≤ S50x128.size a) :
    ((sI).slice (Rect.unit (s := S50x128) o S1x128.size p) (fun _ => rfl)).squeeze S128 squeezes_S1x128_S128 = rowK j := by
  subst h; rfl
/-- and for the output's column chunks. -/
theorem chunk_at {o : Fin 2 → ℕ} (j : Fin 50) (h : o = ![256 * (L 1).val + 128 * (L 0).val, 128 * j.val])
    (p : ∀ a, o a + S128x128.size a ≤ S4096x6400.size a) :
    (oV).slice (Rect.unit (s := S4096x6400) o S128x128.size p) (fun _ => rfl) = chunkK L j := by
  subst h; rfl
/-- The cell picked out of the gathers' six at offset `k` is cell `k`; out of the write-outs' six, cell `6 + k`. -/
theorem gsem_at {o : Fin 1 → ℕ} (k : Fin 6) (h : o = ![k.val]) (p : ∀ a, o a + S1.size a ≤ S6.size a) :
    ((cc0_scratch2.slice (Rect.unit (s := S6) o S1.size p)).squeeze S_ squeezes_S1_S_).sem = gsemK k := by
  subst h
  apply Fin.ext
  show 0 + (S6.rowMajor ((Rect.unit (s := S6) ![k.val] S1.size p).emb
    (Shape.reshapeEquiv squeezes_S1_S_.numel_eq fun i => i.elim0))).val = k.val
  rw [Shape.rowMajor_val_one, Rect.emb_apply]
  have hx := ((Shape.reshapeEquiv (s := S1) (s' := S_) squeezes_S1_S_.numel_eq fun i => i.elim0) 0).isLt
  show 0 + (k.val + 1 * _) = k.val
  change _ < 1 at hx
  omega
theorem wsem_at {o : Fin 1 → ℕ} (k : Fin 6) (h : o = ![k.val]) (p : ∀ a, o a + S1.size a ≤ S6.size a) :
    ((cc0_scratch3.slice (Rect.unit (s := S6) o S1.size p)).squeeze S_ squeezes_S1_S_).sem = wsemK k := by
  subst h
  apply Fin.ext
  show 6 + (S6.rowMajor ((Rect.unit (s := S6) ![k.val] S1.size p).emb
    (Shape.reshapeEquiv squeezes_S1_S_.numel_eq fun i => i.elim0))).val = 6 + k.val
  rw [Shape.rowMajor_val_one, Rect.emb_apply]
  have hx := ((Shape.reshapeEquiv (s := S1) (s' := S_) squeezes_S1_S_.numel_eq fun i => i.elim0) 0).isLt
  show 6 + (k.val + 1 * _) = 6 + k.val
  change _ < 1 at hx
  omega

theorem slot_off2 (t : Fin k0_t1_loop.trips) :
    ((sR).slice (Rect.unit (s := S6x128x128) (k0_off2 t) S1x128x128.size (k0_off2_inb t)) (fun _ => rfl)).squeeze S128x128 squeezes_S1x128x128_S128x128
      = slotK ⟨t.val % 6, Nat.mod_lt _ (by norm_num)⟩ :=
  slot_at ⟨t.val % 6, Nat.mod_lt _ (by norm_num)⟩ (off2_eq t) _
theorem slot_off6 (t : Fin k0_t1_loop.trips) (h1 : k0_cond1 t = 1#1) (h2 : k0_cond2 t = 1#1) :
    ((sR).slice (Rect.unit (s := S6x128x128) (k0_off6 t) S1x128x128.size (k0_off6_inb t h1 h2)) (fun _ => rfl)).squeeze S128x128 squeezes_S1x128x128_S128x128
      = slotK ⟨(t.val + 5) % 6, Nat.mod_lt _ (by norm_num)⟩ :=
  slot_at ⟨(t.val + 5) % 6, Nat.mod_lt _ (by norm_num)⟩ (off6_eq t) _
theorem slot_off9 (t : Fin k0_t1_loop.trips) (h1 : k0_cond1 t = 1#1) :
    ((sR).slice (Rect.unit (s := S6x128x128) (k0_off9 t) S1x128x128.size (k0_off9_inb t h1)) (fun _ => rfl)).squeeze S128x128 squeezes_S1x128x128_S128x128
      = slotK ⟨(t.val + 5) % 6, Nat.mod_lt _ (by norm_num)⟩ :=
  slot_at ⟨(t.val + 5) % 6, Nat.mod_lt _ (by norm_num)⟩ (off9_eq t) _
theorem slot_lit0 :
    ((sR).slice (Rect.unit (s := S6x128x128) ![0, 0, 0] S1x128x128.size inb_S6x128x128_S1x128x128_0_0_0) (fun _ => rfl)).squeeze S128x128 squeezes_S1x128x128_S128x128
      = slotK 0 :=
  slot_at 0 rfl _
theorem slot_lit1 :
    ((sR).slice (Rect.unit (s := S6x128x128) ![1, 0, 0] S1x128x128.size inb_S6x128x128_S1x128x128_1_0_0) (fun _ => rfl)).squeeze S128x128 squeezes_S1x128x128_S128x128
      = slotK 1 :=
  slot_at 1 rfl _
theorem slot_lit2 :
    ((sR).slice (Rect.unit (s := S6x128x128) ![2, 0, 0] S1x128x128.size inb_S6x128x128_S1x128x128_2_0_0) (fun _ => rfl)).squeeze S128x128 squeezes_S1x128x128_S128x128
      = slotK 2 :=
  slot_at 2 rfl _
theorem slot_lit3 :
    ((sR).slice (Rect.unit (s := S6x128x128) ![3, 0, 0] S1x128x128.size inb_S6x128x128_S1x128x128_3_0_0) (fun _ => rfl)).squeeze S128x128 squeezes_S1x128x128_S128x128
      = slotK 3 :=
  slot_at 3 rfl _
theorem slot_lit4 :
    ((sR).slice (Rect.unit (s := S6x128x128) ![4, 0, 0] S1x128x128.size inb_S6x128x128_S1x128x128_4_0_0) (fun _ => rfl)).squeeze S128x128 squeezes_S1x128x128_S128x128
      = slotK 4 :=
  slot_at 4 rfl _
theorem slot_lit5 :
    ((sR).slice (Rect.unit (s := S6x128x128) ![5, 0, 0] S1x128x128.size inb_S6x128x128_S1x128x128_5_0_0) (fun _ => rfl)).squeeze S128x128 squeezes_S1x128x128_S128x128
      = slotK 5 :=
  slot_at 5 rfl _

theorem row_off3 (t : Fin k0_t1_loop.trips) :
    ((sI).slice (Rect.unit (s := S50x128) (k0_off3 t) S1x128.size (k0_off3_inb t)) (fun _ => rfl)).squeeze S128 squeezes_S1x128_S128
      = rowK ⟨t.val, trip_lt t⟩ :=
  row_at ⟨t.val, trip_lt t⟩ (k0_off3_eq t) _
theorem row_off10 (t : Fin k0_t1_loop.trips) (h1 : k0_cond1 t = 1#1) :
    ((sI).slice (Rect.unit (s := S50x128) (k0_off10 t) S1x128.size (k0_off10_inb t h1)) (fun _ => rfl)).squeeze S128 squeezes_S1x128_S128
      = rowK ⟨t.val + 5, (cond1_iff t).mp h1⟩ :=
  row_at ⟨t.val + 5, (cond1_iff t).mp h1⟩ (k0_off10_eq t) _
theorem row_lit0 :
    ((sI).slice (Rect.unit (s := S50x128) ![0, 0] S1x128.size inb_S50x128_S1x128_0_0) (fun _ => rfl)).squeeze S128 squeezes_S1x128_S128
      = rowK 0 :=
  row_at 0 rfl _
theorem row_lit1 :
    ((sI).slice (Rect.unit (s := S50x128) ![1, 0] S1x128.size inb_S50x128_S1x128_1_0) (fun _ => rfl)).squeeze S128 squeezes_S1x128_S128
      = rowK 1 :=
  row_at 1 rfl _
theorem row_lit2 :
    ((sI).slice (Rect.unit (s := S50x128) ![2, 0] S1x128.size inb_S50x128_S1x128_2_0) (fun _ => rfl)).squeeze S128 squeezes_S1x128_S128
      = rowK 2 :=
  row_at 2 rfl _
theorem row_lit3 :
    ((sI).slice (Rect.unit (s := S50x128) ![3, 0] S1x128.size inb_S50x128_S1x128_3_0) (fun _ => rfl)).squeeze S128 squeezes_S1x128_S128
      = rowK 3 :=
  row_at 3 rfl _
theorem row_lit4 :
    ((sI).slice (Rect.unit (s := S50x128) ![4, 0] S1x128.size inb_S50x128_S1x128_4_0) (fun _ => rfl)).squeeze S128 squeezes_S1x128_S128
      = rowK 4 :=
  row_at 4 rfl _

theorem chunk_off5 (t : Fin k0_t1_loop.trips) :
    (oV).slice (Rect.unit (s := S4096x6400) (k0_off5 L t) S128x128.size (k0_off5_inb L t)) (fun _ => rfl)
      = chunkK L ⟨t.val, trip_lt t⟩ :=
  chunk_at L ⟨t.val, trip_lt t⟩ (k0_off5_eq L t) _
theorem chunk_off7 (t : Fin k0_t1_loop.trips) (h1 : k0_cond1 t = 1#1) (h2 : k0_cond2 t = 1#1) :
    (oV).slice (Rect.unit (s := S4096x6400) (k0_off7 L t) S128x128.size (k0_off7_inb L t h1 h2)) (fun _ => rfl)
      = chunkK L ⟨t.val - 1, by have := trip_lt t; omega⟩ :=
  chunk_at L ⟨t.val - 1, by have := trip_lt t; omega⟩ (off7_eq L t ((cond2_iff t).mp h2)) _
theorem chunk_off12 :
    (oV).slice (Rect.unit (s := S4096x6400) (k0_off12 L) S128x128.size (k0_off12_inb L)) (fun _ => rfl) = chunkK L 44 :=
  chunk_at L 44 (k0_off12_eq L) _
theorem chunk_off13 :
    (oV).slice (Rect.unit (s := S4096x6400) (k0_off13 L) S128x128.size (k0_off13_inb L)) (fun _ => rfl) = chunkK L 45 :=
  chunk_at L 45 (k0_off13_eq L) _
theorem chunk_off14 :
    (oV).slice (Rect.unit (s := S4096x6400) (k0_off14 L) S128x128.size (k0_off14_inb L)) (fun _ => rfl) = chunkK L 46 :=
  chunk_at L 46 (k0_off14_eq L) _
theorem chunk_off15 :
    (oV).slice (Rect.unit (s := S4096x6400) (k0_off15 L) S128x128.size (k0_off15_inb L)) (fun _ => rfl) = chunkK L 47 :=
  chunk_at L 47 (k0_off15_eq L) _
theorem chunk_off16 :
    (oV).slice (Rect.unit (s := S4096x6400) (k0_off16 L) S128x128.size (k0_off16_inb L)) (fun _ => rfl) = chunkK L 48 :=
  chunk_at L 48 (k0_off16_eq L) _
theorem chunk_off17 :
    (oV).slice (Rect.unit (s := S4096x6400) (k0_off17 L) S128x128.size (k0_off17_inb L)) (fun _ => rfl) = chunkK L 49 :=
  chunk_at L 49 (k0_off17_eq L) _

theorem gsem_off4 (t : Fin k0_t1_loop.trips) :
    ((cc0_scratch2.slice (Rect.unit (s := S6) (k0_off4 t) S1.size (k0_off4_inb t))).squeeze S_ squeezes_S1_S_).sem
      = gsemK ⟨t.val % 6, Nat.mod_lt _ (by norm_num)⟩ :=
  gsem_at ⟨t.val % 6, Nat.mod_lt _ (by norm_num)⟩ (off4_eq t) _
theorem wsem_off4 (t : Fin k0_t1_loop.trips) :
    ((cc0_scratch3.slice (Rect.unit (s := S6) (k0_off4 t) S1.size (k0_off4_inb t))).squeeze S_ squeezes_S1_S_).sem
      = wsemK ⟨t.val % 6, Nat.mod_lt _ (by norm_num)⟩ :=
  wsem_at ⟨t.val % 6, Nat.mod_lt _ (by norm_num)⟩ (off4_eq t) _
theorem wsem_off8 (t : Fin k0_t1_loop.trips) (h1 : k0_cond1 t = 1#1) (h2 : k0_cond2 t = 1#1) :
    ((cc0_scratch3.slice (Rect.unit (s := S6) (k0_off8 t) S1.size (k0_off8_inb t h1 h2))).squeeze S_ squeezes_S1_S_).sem
      = wsemK ⟨(t.val + 5) % 6, Nat.mod_lt _ (by norm_num)⟩ :=
  wsem_at ⟨(t.val + 5) % 6, Nat.mod_lt _ (by norm_num)⟩ (off8_eq t) _
theorem gsem_off11 (t : Fin k0_t1_loop.trips) (h1 : k0_cond1 t = 1#1) :
    ((cc0_scratch2.slice (Rect.unit (s := S6) (k0_off11 t) S1.size (k0_off11_inb t h1))).squeeze S_ squeezes_S1_S_).sem
      = gsemK ⟨(t.val + 5) % 6, Nat.mod_lt _ (by norm_num)⟩ :=
  gsem_at ⟨(t.val + 5) % 6, Nat.mod_lt _ (by norm_num)⟩ (off11_eq t) _
theorem gsem_lit0 :
    ((cc0_scratch2.slice (Rect.unit (s := S6) ![0] S1.size inb_S6_S1_0)).squeeze S_ squeezes_S1_S_).sem = gsemK 0 :=
  gsem_at 0 rfl _
theorem wsem_lit0 :
    ((cc0_scratch3.slice (Rect.unit (s := S6) ![0] S1.size inb_S6_S1_0)).squeeze S_ squeezes_S1_S_).sem = wsemK 0 :=
  wsem_at 0 rfl _
theorem gsem_lit1 :
    ((cc0_scratch2.slice (Rect.unit (s := S6) ![1] S1.size inb_S6_S1_1)).squeeze S_ squeezes_S1_S_).sem = gsemK 1 :=
  gsem_at 1 rfl _
theorem wsem_lit1 :
    ((cc0_scratch3.slice (Rect.unit (s := S6) ![1] S1.size inb_S6_S1_1)).squeeze S_ squeezes_S1_S_).sem = wsemK 1 :=
  wsem_at 1 rfl _
theorem gsem_lit2 :
    ((cc0_scratch2.slice (Rect.unit (s := S6) ![2] S1.size inb_S6_S1_2)).squeeze S_ squeezes_S1_S_).sem = gsemK 2 :=
  gsem_at 2 rfl _
theorem wsem_lit2 :
    ((cc0_scratch3.slice (Rect.unit (s := S6) ![2] S1.size inb_S6_S1_2)).squeeze S_ squeezes_S1_S_).sem = wsemK 2 :=
  wsem_at 2 rfl _
theorem gsem_lit3 :
    ((cc0_scratch2.slice (Rect.unit (s := S6) ![3] S1.size inb_S6_S1_3)).squeeze S_ squeezes_S1_S_).sem = gsemK 3 :=
  gsem_at 3 rfl _
theorem wsem_lit3 :
    ((cc0_scratch3.slice (Rect.unit (s := S6) ![3] S1.size inb_S6_S1_3)).squeeze S_ squeezes_S1_S_).sem = wsemK 3 :=
  wsem_at 3 rfl _
theorem gsem_lit4 :
    ((cc0_scratch2.slice (Rect.unit (s := S6) ![4] S1.size inb_S6_S1_4)).squeeze S_ squeezes_S1_S_).sem = gsemK 4 :=
  gsem_at 4 rfl _
theorem wsem_lit4 :
    ((cc0_scratch3.slice (Rect.unit (s := S6) ![4] S1.size inb_S6_S1_4)).squeeze S_ squeezes_S1_S_).sem = wsemK 4 :=
  wsem_at 4 rfl _
theorem gsem_lit5 :
    ((cc0_scratch2.slice (Rect.unit (s := S6) ![5] S1.size inb_S6_S1_5)).squeeze S_ squeezes_S1_S_).sem = gsemK 5 :=
  gsem_at 5 rfl _
theorem wsem_lit5 :
    ((cc0_scratch3.slice (Rect.unit (s := S6) ![5] S1.size inb_S6_S1_5)).squeeze S_ squeezes_S1_S_).sem = wsemK 5 :=
  wsem_at 5 rfl _

/-! ## The fetched lists' contents -/

/-- The block's index `(j, r)` sits at `(0, j, r)` of the one-block rectangle the body slices. -/
theorem squeeze_ix (j : Fin 50) (r : Fin 128) :
    Shape.reshapeEquiv squeezes_S1x50x128_S50x128.numel_eq (ix2 j r) = (ix3 (0 : Fin 1) j r : S1x50x128.Idx) :=
  Shape.reshapeEquiv_eq_of_rowMajor _ (by
    rw [Shape.rowMajor_val_three, Shape.rowMajor_val_two]
    show ((0 * 50 + j.val) * 128 + r.val) = j.val * 128 + r.val
    omega)

/-- Entry `(j, r)` of the worker's block of the transposed token array is token `j` of batch row `128 w + r`. -/
theorem fI_apply (j : Fin 50) (r : Fin 128) :
    (iRowK L).view.read (Elt F) (xt m d) (ix2 j r)
      = m (aLoc d) (ix2 (n0 := 4096) (n1 := 50) ⟨128 * (widL L).val + r.val, by have := (widL L).isLt; have := r.isLt; omega⟩ j) := by
  rw [View.read_apply]
  refine (cast_eq _ _).trans ?_
  show xt m d ((Rect.unit (s := S32x50x128) (k0_off1 L) S1x50x128.size (k0_off1_inb L)).emb
    (Shape.reshapeEquiv squeezes_S1x50x128_S50x128.numel_eq (ix2 j r))) = _
  rw [squeeze_ix]
  unfold xt
  refine congrArg (m (aLoc d)) (congrArg₂ (ix2 (n0 := 4096) (n1 := 50)) (Fin.ext ?_) (Fin.ext ?_))
  · show 128 * (k0_off1 L 0 + 1 * 0) + (k0_off1 L 2 + 1 * r.val) = 128 * (widL L).val + r.val
    rw [k0_off1_eq]
    show 128 * (2 * (L 1).val + (L 0).val + 1 * 0) + (0 + 1 * r.val) = 128 * (2 * (L 1).val + (L 0).val) + r.val
    omega
  · show k0_off1 L 1 + 1 * j.val = j.val
    rw [k0_off1_eq]
    show 0 + 1 * j.val = j.val
    omega

/-- Under the input domain every fetched token word names a table row. -/
theorem fI_lt (hpre : PreOK m) (i : S50x128.Idx) :
    ((iRowK L).view.read (Elt F) (xt m d) i).toNat < 100000 := by
  obtain ⟨j, r, rfl⟩ : ∃ j r, i = ix2 j r := ⟨i 0, i 1, eq_ix2 i⟩
  rw [fI_apply]
  exact Spec.InRange.toNat_lt (hpre d) _

end Split

end Cert.Kernel.Sc

end
-- ==== Proof.TileInvBits.lean ====
/-
  The ring's invariant. Before trip `t` of the fifty, group `g` is in one of four states:
    pending   (t + 5 ≤ g): its list and its output chunk rest, untouched;
    gathering (t ≤ g < t + 5): its gather is in flight into slot `g % 6`, on that slot's gather cell;
    writing   (g < t, and g = t - 1 or g ≥ 44): its write-out is in flight from slot `g % 6` to output chunk `g`, on that
              slot's write cell (the write-outs of groups 44 … 49 are waited for after the loop);
    done      (g + 2 ≤ t and g ≤ 43): its chunk holds the gathered values.
  A slot's buffer, its two cells and its read token of the table travel with the group that occupies it; before trip 0
  slot 5 is occupied by no group and holds them itself.
-/
import proofs.«203293_g38809324487172_cont_8to1_b_1330_62_alg».proof.Proof.TileSplitBits
import Idealize.ShloMosaic.Lib.Ring

noncomputable section

namespace Cert.Kernel.Sc

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "iV" => (Memref.whole Cert.Kernel.main_v1_scv : Memref Cert.Kernel.sig Kind.scVector Space.hbm Cert.Kernel.S32x50x128 EltTy.i32)
local notation "tV" => (Memref.whole Cert.Kernel.main_arg1_scv : Memref Cert.Kernel.sig Kind.scVector Space.hbm Cert.Kernel.S100000x128 EltTy.f32)
local notation "oV" => (Memref.whole Cert.Kernel.main_v2_scv : Memref Cert.Kernel.sig Kind.scVector Space.hbm Cert.Kernel.S4096x6400 EltTy.f32)
local notation "sI" => (Memref.whole Cert.Kernel.cc0_scratch0 : Memref Cert.Kernel.sig Kind.scVector Space.vmem Cert.Kernel.S50x128 EltTy.i32)
local notation "sR" => (Memref.whole Cert.Kernel.cc0_scratch1 : Memref Cert.Kernel.sig Kind.scVector Space.vmem Cert.Kernel.S6x128x128 EltTy.f32)

variable [FloatOps F]

section Inv

variable (d : Dev nD) (L : grid0.Coords)

/-- A group's state. -/
inductive GSt | pend | gath | writ | done
  deriving DecidableEq

/-- Group `g`'s state before trip `t`. -/
def gst (t : ℕ) (g : Fin 50) : GSt :=
  if t + 5 ≤ g.val then .pend else if t ≤ g.val then .gath else if g.val + 2 ≤ t ∧ g.val ≤ 43 then .done else .writ

/-- The slot group `g` runs through. -/
def sl (g : Fin 50) : Fin 6 := ⟨g.val % 6, Nat.mod_lt _ (by norm_num)⟩

variable (fI : Buf (Elt F) ((V d (cV L) (jV L)).loc cc0_scratch0))

/-- The fetched lists name rows of the table. -/
def ListsOK : Prop := ∀ i, (fI i).toNat < 100000

omit [FloatOps F] in
theorem hin_row (hI : ListsOK d L fI) (g : Fin 50) :
    ∀ x, ((rowK g).view.read (Elt F) fI x).toNat < S100000x128.size gathers_S100000x128_S128x128.axis := by
  intro x
  rw [show (rowK g).view.read (Elt F) fI x = fI ((rowK g).view.emb x) from (View.read_apply _ _).trans (cast_eq _ _)]
  exact hI _

/-- What group `g`'s gather delivers into its slot: row `x 0` of it is the table row the list's word `x 0` names. -/
def gpay (hI : ListsOK d L fI) (g : Fin 50) : S128x128.Idx → Elt F .f32 :=
  SparseCore.gatherPayload gathers_S100000x128_S128x128 ((tAllK).view.read (Elt F) (m (tLoc d)))
    (SparseCore.rows ((rowK g).view.read (Elt F) fI) (by decide) (hin_row d L fI hI g))

/-- What group `g`'s write-out carries: its slot read back after the gather landed (over any earlier contents `f0`). -/
def wpay (hI : ListsOK d L fI) (g : Fin 50) (f0 : Buf (Elt F) ((V d (cV L) (jV L)).loc cc0_scratch1)) : S128x128.Idx → Elt F .f32 :=
  ReadAs.same.apply ((slotK (sl g)).view.read (Elt F) ((slotK (sl g)).view.writes (Elt F) f0 [⟨Rect.whole S128x128, gpay m d L fI hI g⟩]))

/-- What a write-out leaves in its output chunk is the gathered output there: the fact about the fetched lists' contents that
    the `done` state rests on. -/
def ChunkVal (hI : ListsOK d L fI) : Prop :=
  ∀ (g : Fin 50) (f0 : Buf (Elt F) ((V d (cV L) (jV L)).loc cc0_scratch1)) (i : Idx (oLoc d)), i ∈ (chunkK L g).view.set →
    (chunkK L g).view.writes (Elt F) (m (oLoc d)) [⟨Rect.whole S128x128, wpay m d L fI hI g f0⟩] i = gout m d i

abbrev rowPts (g : Fin 50) : sProp 𝕄 := (rowK g).view.loc (V d (cV L) (jV L)) ↦[(rowK g).view.set]{fullShare} fI
abbrev chunkPts (g : Fin 50) (f : Buf (Elt F) (oLoc d)) : sProp 𝕄 := (chunkK L g).view.loc (V d (cV L) (jV L)) ↦[(chunkK L g).view.set]{fullShare} f
abbrev slotPts (k : Fin 6) (f : Buf (Elt F) ((V d (cV L) (jV L)).loc cc0_scratch1)) : sProp 𝕄 :=
  (slotK k).view.loc (V d (cV L) (jV L)) ↦[(slotK k).view.set]{fullShare} f
abbrev tokWhole (k : Fin 6) : sProp 𝕄 := (tV).view.loc (V d (cV L) (jV L)) ↦{ttok (widL L) k} m (tLoc d)
abbrev tokLent (k : Fin 6) : sProp 𝕄 := (tV).view.loc (V d (cV L) (jV L)) ↦[(tAllK).view.set]{ttok (widL L) k} m (tLoc d)
abbrev tokRest (k : Fin 6) : sProp 𝕄 := (tV).view.loc (V d (cV L) (jV L)) ↦[Finset.univ \ (tAllK).view.set]{ttok (widL L) k} m (tLoc d)

/-- Group `g`'s gather in flight. -/
def gathFlight (hI : ListsOK d L fI) (g : Fin 50) : sProp 𝕄 :=
  iprop(∃ f0, Transfers.Flight (countersEmb (U := UU)) (V d (cV L) (jV L)) (SemLoc.dma (gsemK (sl g))) (default : HIx 1) 524288
    iprop((slotPts d L (sl g) ((slotK (sl g)).view.writes (Elt F) f0 [⟨Rect.whole S128x128, gpay m d L fI hI g⟩]) ∗ rowPts d L fI g) ∗ tokLent m d L (sl g)))

/-- Group `g`'s write-out in flight. -/
def writFlight (hI : ListsOK d L fI) (g : Fin 50) : sProp 𝕄 :=
  iprop(∃ f0, Transfers.Flight (countersEmb (U := UU)) (V d (cV L) (jV L)) (SemLoc.dma (wsemK (sl g))) (default : HIx 1) 524288
    iprop(chunkPts d L g ((chunkK L g).view.writes (Elt F) (m (oLoc d)) [⟨Rect.whole S128x128, wpay m d L fI hI g f0⟩])
      ∗ slotPts d L (sl g) ((slotK (sl g)).view.writes (Elt F) f0 [⟨Rect.whole S128x128, gpay m d L fI hI g⟩])))

/-- What group `g` holds in each state. -/
def Φ (hI : ListsOK d L fI) (g : Fin 50) : GSt → sProp 𝕄
  | .pend => iprop(rowPts d L fI g ∗ chunkPts d L g (m (oLoc d)))
  | .gath => iprop(chunkPts d L g (m (oLoc d)) ∗ semVal (wcell (V d (cV L) (jV L)) (sl g)) 0 ∗ gathFlight m d L fI hI g ∗ tokRest m d L (sl g))
  | .writ => iprop(rowPts d L fI g ∗ semVal (gcell (V d (cV L) (jV L)) (sl g)) 0 ∗ tokWhole m d L (sl g) ∗ writFlight m d L fI hI g)
  | .done => iprop(rowPts d L fI g ∗ chunkPts d L g (gout m d))

/-- Slot 5 before trip 0: occupied by no group. -/
def free5 : sProp 𝕄 :=
  iprop(semVal (gcell (V d (cV L) (jV L)) 5) 0 ∗ semVal (wcell (V d (cV L) (jV L)) 5) 0 ∗ (∃ f, slotPts d L 5 f) ∗ tokWhole m d L 5)

/-- The loop's invariant before trip `t`. -/
def inv (hI : ListsOK d L fI) (O : CellTallies nD τ sig (HIx 1)) (W : Waits sig (HIx 1)) (t : ℕ) (_ : BitVec 32) : sProp 𝕄 :=
  iprop(Transfers.MayWaits (V d (cV L) (jV L)) (default : HIx 1) O
    ∗ Ring.AtW (Φ m d L fI hI) (gst t)
    ∗ (if t = 0 then free5 m d L else emp)
    ∗ ∃ W', ⌜∀ p ∈ W', p ∈ W ∨ p.2 = none⌝ ∗ owes (V d (cV L) (jV L)) O W')

end Inv

end Cert.Kernel.Sc

end
-- ==== Proof.TileEpilogueBits.lean ====
/-
  The end of a tile's task. After the fiftieth trip groups 0 … 43 are done and the write-outs of groups 44 … 49 are
  still in flight, from slots 2, 3, 4, 5, 0, 1; the body waits for the six and returns. This module takes the loop's
  invariant apart at its exit, group by group, and — once the six write-outs have landed — puts the tile's holdings
  back together: the fifty output chunks to the tile's rows at the gathered values, the fifty lists and the six
  slots to the two scratch buffers, the six read tokens to the tile's share of the table, the cells to the tile's own.
-/
import proofs.«203293_g38809324487172_cont_8to1_b_1330_62_alg».proof.Proof.TileInvBits

noncomputable section

namespace Cert.Kernel.Sc

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "iV" => (Memref.whole Cert.Kernel.main_v1_scv : Memref Cert.Kernel.sig Kind.scVector Space.hbm Cert.Kernel.S32x50x128 EltTy.i32)
local notation "tV" => (Memref.whole Cert.Kernel.main_arg1_scv : Memref Cert.Kernel.sig Kind.scVector Space.hbm Cert.Kernel.S100000x128 EltTy.f32)
local notation "oV" => (Memref.whole Cert.Kernel.main_v2_scv : Memref Cert.Kernel.sig Kind.scVector Space.hbm Cert.Kernel.S4096x6400 EltTy.f32)
local notation "sI" => (Memref.whole Cert.Kernel.cc0_scratch0 : Memref Cert.Kernel.sig Kind.scVector Space.vmem Cert.Kernel.S50x128 EltTy.i32)
local notation "sR" => (Memref.whole Cert.Kernel.cc0_scratch1 : Memref Cert.Kernel.sig Kind.scVector Space.vmem Cert.Kernel.S6x128x128 EltTy.f32)

variable [FloatOps F]

section Epilogue

variable (d : Dev nD) (L : grid0.Coords)
variable (fI : Buf (Elt F) ((V d (cV L) (jV L)).loc cc0_scratch0))

local notation "thr" => V d (cV L) (jV L)

/-! ## Fifty groups as the first forty-four and the last six; six slots one by one -/

omit [FloatOps F] in
/-- A conjunction over the fifty groups: over the groups below 44, and groups 44 … 49 one by one. -/
theorem bigSep50_split (Ψ : Fin 50 → sProp 𝕄) :
    bigSep Finset.univ Ψ = iprop((bigSep (Finset.univ.filter fun g : Fin 50 => g.val < 44) Ψ) ∗ Ψ 44 ∗ Ψ 45 ∗ Ψ 46 ∗ Ψ 47 ∗ Ψ 48 ∗ Ψ 49) := by
  rw [bigSep_filter_split Finset.univ (fun g : Fin 50 => g.val < 44)]
  congr 1
  rw [show (Finset.univ.filter fun g : Fin 50 => ¬ g.val < 44) = {44, 45, 46, 47, 48, 49} from by decide]
  rw [bigSep_insert (by decide), bigSep_insert (by decide), bigSep_insert (by decide), bigSep_insert (by decide), bigSep_insert (by decide),
    bigSep_singleton]
  rfl

/-! ## The ring at the loop's exit -/

/-- Groups 0 … 43 done: each holds its list and its output chunk at the gathered values. -/
abbrev doneBelow : sProp 𝕄 :=
  bigSep (Finset.univ.filter fun g : Fin 50 => g.val < 44) fun g => iprop(rowPts d L fI g ∗ chunkPts d L g (gout m d))

/-- Group `g` writing out of slot `k`: its list, the slot's gather cell at zero, the slot's read token whole, and the
    write-out in flight on the slot's write cell, delivering the chunk written and the slot as the gather left it. -/
abbrev writG (hI : ListsOK d L fI) (g : Fin 50) (k : Fin 6) : sProp 𝕄 :=
  iprop(rowPts d L fI g ∗ semVal (gcell thr k) 0 ∗ tokWhole m d L k
    ∗ ∃ f0, Transfers.Flight (countersEmb (U := UU)) thr (SemLoc.dma (wsemK k)) (default : HIx 1) 524288
        iprop(chunkPts d L g ((chunkK L g).view.writes (Elt F) (m (oLoc d)) [⟨Rect.whole S128x128, wpay m d L fI hI g f0⟩])
          ∗ slotPts d L k ((slotK k).view.writes (Elt F) f0 [⟨Rect.whole S128x128, gpay m d L fI hI g⟩])))

omit [FloatOps F] in
theorem gst50_done (g : Fin 50) (h : g.val < 44) : gst 50 g = .done := by
  unfold gst; rw [if_neg (by omega), if_neg (by omega), if_pos ⟨by omega, by omega⟩]

omit [FloatOps F] in
theorem gst50_writ : gst 50 44 = .writ ∧ gst 50 45 = .writ ∧ gst 50 46 = .writ ∧ gst 50 47 = .writ ∧ gst 50 48 = .writ ∧ gst 50 49 = .writ := by
  decide

omit [FloatOps F] in
theorem sl_last : sl 44 = 2 ∧ sl 45 = 3 ∧ sl 46 = 4 ∧ sl 47 = 5 ∧ sl 48 = 0 ∧ sl 49 = 1 := by decide

/-- A writing group holds `writG` at its own slot. -/
theorem Φ_writ (hI : ListsOK d L fI) (g : Fin 50) : Φ m d L fI hI g .writ = writG m d L fI hI g (sl g) := rfl

/-- The ring after the fiftieth trip: the first forty-four groups done, the last six writing out of slots 2, 3, 4, 5, 0, 1. -/
theorem ring50 (hI : ListsOK d L fI) :
    Ring.AtW (Φ m d L fI hI) (gst 50)
      = iprop(doneBelow m d L fI ∗ writG m d L fI hI 44 2 ∗ writG m d L fI hI 45 3 ∗ writG m d L fI hI 46 4 ∗ writG m d L fI hI 47 5
          ∗ writG m d L fI hI 48 0 ∗ writG m d L fI hI 49 1) := by
  unfold Ring.AtW
  rw [bigSep50_split]
  obtain ⟨g44, g45, g46, g47, g48, g49⟩ := gst50_writ
  obtain ⟨s44, s45, s46, s47, s48, s49⟩ := sl_last
  rw [g44, g45, g46, g47, g48, g49, Φ_writ, Φ_writ, Φ_writ, Φ_writ, Φ_writ, Φ_writ, s44, s45, s46, s47, s48, s49]
  congr 1
  all_goals exact bigSep_congr fun g hg => by rw [gst50_done g (Finset.mem_filter.mp hg).2]; rfl

/-- THE INVARIANT AT THE EXIT, taken apart. -/
theorem inv50_open (hI : ListsOK d L fI) (O : CellTallies nD τ sig (HIx 1)) (W : Waits sig (HIx 1)) (r : BitVec 32) :
    inv m d L fI hI O W 50 r
      ⊢ iprop(Transfers.MayWaits thr (default : HIx 1) O ∗ doneBelow m d L fI
          ∗ writG m d L fI hI 44 2 ∗ writG m d L fI hI 45 3 ∗ writG m d L fI hI 46 4 ∗ writG m d L fI hI 47 5
          ∗ writG m d L fI hI 48 0 ∗ writG m d L fI hI 49 1
          ∗ ∃ W', ⌜∀ p ∈ W', p ∈ W ∨ p.2 = none⌝ ∗ owes thr O W') := by
  unfold inv
  rw [ring50, if_neg (by decide : ¬ (50 = 0))]
  iintro ⟨Hmw, ⟨Hd, H44, H45, H46, H47, H48, H49⟩, -, HO⟩
  isplitl [Hmw]; · iexact Hmw
  isplitl [Hd]; · iexact Hd
  isplitl [H44]; · iexact H44
  isplitl [H45]; · iexact H45
  isplitl [H46]; · iexact H46
  isplitl [H47]; · iexact H47
  isplitl [H48]; · iexact H48
  isplitl [H49]; · iexact H49
  iexact HO

/-! ## After the six write-outs have landed -/

/-- Group `g` landed from slot `k`: its list, the slot's two cells at zero, the slot's read token whole, the output chunk
    written and the slot as the gather left it (over earlier contents `f0`). -/
abbrev landG (hI : ListsOK d L fI) (g : Fin 50) (k : Fin 6) (f0 : Buf (Elt F) ((V d (cV L) (jV L)).loc cc0_scratch1)) : sProp 𝕄 :=
  iprop(rowPts d L fI g ∗ semVal (gcell thr k) 0 ∗ tokWhole m d L k ∗ semVal (wcell thr k) 0
    ∗ chunkPts d L g ((chunkK L g).view.writes (Elt F) (m (oLoc d)) [⟨Rect.whole S128x128, wpay m d L fI hI g f0⟩])
    ∗ slotPts d L k ((slotK k).view.writes (Elt F) f0 [⟨Rect.whole S128x128, gpay m d L fI hI g⟩]))

/-- The fifty output chunks, the last six as their write-outs left them, are the tile's rows at the gathered values:
    on its own elements a written chunk holds the gathered values. -/
theorem chunks_join (hI : ListsOK d L fI) (hval : ChunkVal m d L fI hI) (f44 f45 f46 f47 f48 f49 : Buf (Elt F) ((V d (cV L) (jV L)).loc cc0_scratch1)) :
    iprop((bigSep (Finset.univ.filter fun g : Fin 50 => g.val < 44) fun g => chunkPts d L g (gout m d))
        ∗ chunkPts d L 44 ((chunkK L 44).view.writes (Elt F) (m (oLoc d)) [⟨Rect.whole S128x128, wpay m d L fI hI 44 f44⟩])
        ∗ chunkPts d L 45 ((chunkK L 45).view.writes (Elt F) (m (oLoc d)) [⟨Rect.whole S128x128, wpay m d L fI hI 45 f45⟩])
        ∗ chunkPts d L 46 ((chunkK L 46).view.writes (Elt F) (m (oLoc d)) [⟨Rect.whole S128x128, wpay m d L fI hI 46 f46⟩])
        ∗ chunkPts d L 47 ((chunkK L 47).view.writes (Elt F) (m (oLoc d)) [⟨Rect.whole S128x128, wpay m d L fI hI 47 f47⟩])
        ∗ chunkPts d L 48 ((chunkK L 48).view.writes (Elt F) (m (oLoc d)) [⟨Rect.whole S128x128, wpay m d L fI hI 48 f48⟩])
        ∗ chunkPts d L 49 ((chunkK L 49).view.writes (Elt F) (m (oLoc d)) [⟨Rect.whole S128x128, wpay m d L fI hI 49 f49⟩]))
      ⊢ (oBlkPts d (widL L) (gout m d) : sProp 𝕄) := by
  have e (g : Fin 50) (f0 : Buf (Elt F) ((V d (cV L) (jV L)).loc cc0_scratch1)) :
      (chunkPts d L g ((chunkK L g).view.writes (Elt F) (m (oLoc d)) [⟨Rect.whole S128x128, wpay m d L fI hI g f0⟩]) : sProp 𝕄)
        = chunkPts d L g (gout m d) := pointsTo_congr (hval g f0)
  rw [e 44 f44, e 45 f45, e 46 f46, e 47 f47, e 48 f48, e 49 f49, ← bigSep50_split (fun g => chunkPts d L g (gout m d)), ← chunks_split d L (gout m d)]

/-- The fifty lists are the list scratch whole. -/
theorem rows_whole :
    iprop((bigSep (Finset.univ.filter fun g : Fin 50 => g.val < 44) fun g => rowPts d L fI g)
        ∗ rowPts d L fI 44 ∗ rowPts d L fI 45 ∗ rowPts d L fI 46 ∗ rowPts d L fI 47 ∗ rowPts d L fI 48 ∗ rowPts d L fI 49)
      ⊢ (iprop(∃ f, (V d (cV L) (jV L)).loc cc0_scratch0 ↦{fullShare} f) : sProp 𝕄) := by
  rw [← bigSep50_split (fun g => rowPts d L fI g), ← rows_split d L fI]
  iintro H; iexists fI; iexact H

/-- The six slots, each at what its last gather left, are the row buffers whole at some contents. -/
theorem slots_whole (f0 f1 f2 f3 f4 f5 : Buf (Elt F) ((V d (cV L) (jV L)).loc cc0_scratch1)) :
    iprop(slotPts d L 2 f2 ∗ slotPts d L 3 f3 ∗ slotPts d L 4 f4 ∗ slotPts d L 5 f5 ∗ slotPts d L 0 f0 ∗ slotPts d L 1 f1)
      ⊢ (iprop(∃ f, (V d (cV L) (jV L)).loc cc0_scratch1 ↦{fullShare} f) : sProp 𝕄) := by
  have h := slots_join (F := F) d L
  rw [bigSep_W1] at h
  iintro ⟨H2, H3, H4, H5, H0, H1⟩
  iapply h
  isplitl [H0]; · iexists f0; iexact H0
  isplitl [H1]; · iexists f1; iexact H1
  isplitl [H2]; · iexists f2; iexact H2
  isplitl [H3]; · iexists f3; iexact H3
  isplitl [H4]; · iexists f4; iexact H4
  iexists f5; iexact H5

/-- The six slots' read tokens and what was left of the tile's share are the tile's share of the table. -/
theorem toks_whole :
    iprop(tokWhole m d L 2 ∗ tokWhole m d L 3 ∗ tokWhole m d L 4 ∗ tokWhole m d L 5 ∗ tokWhole m d L 0 ∗ tokWhole m d L 1
        ∗ ((tV).view.loc thr ↦{trest (widL L)} m (tLoc d)))
      ⊢ (tTokPts m d (widL L) : sProp 𝕄) := by
  have h := Transfers.pointsTo_toks_join (Ix := HIx 1) (Val := Elt F) (Name := ℕ) (U := UU) (Lvl := ℕ) (ℓ := tLoc d) (S := Finset.univ) (f := m (tLoc d)) (tq (widL L)) 6
  rw [bigSep_W1] at h
  iintro ⟨H2, H3, H4, H5, H0, H1, Hr⟩
  iapply h
  isplitl [Hr]; · iexact Hr
  isplitl [H0]; · iexact H0
  isplitl [H1]; · iexact H1
  isplitl [H2]; · iexact H2
  isplitl [H3]; · iexact H3
  isplitl [H4]; · iexact H4
  iexact H5

omit [FloatOps F] in
/-- The thirteen cells named one by one and the rest are the tile's own cells, all at zero. -/
theorem cells_whole :
    iprop((semVal (gcell thr 2) 0 ∗ semVal (gcell thr 3) 0 ∗ semVal (gcell thr 4) 0 ∗ semVal (gcell thr 5) 0 ∗ semVal (gcell thr 0) 0 ∗ semVal (gcell thr 1) 0)
        ∗ (semVal (wcell thr 2) 0 ∗ semVal (wcell thr 3) 0 ∗ semVal (wcell thr 4) 0 ∗ semVal (wcell thr 5) 0 ∗ semVal (wcell thr 0) 0 ∗ semVal (wcell thr 1) 0)
        ∗ semVal (scell thr) 0 ∗ (bigSep (otherCells thr) fun g => semVal g 0))
      ⊢ (ownSems0 thr : sProp 𝕄) := by
  rw [ownSems0_V, bigSep_W1, bigSep_W1]
  iintro ⟨⟨G2, G3, G4, G5, G0, G1⟩, ⟨W2, W3, W4, W5, W0, W1⟩, Hs, Ho⟩
  isplitr [Ho]
  · isplitr [Hs]
    · isplitl [G0 G1 G2 G3 G4 G5]
      · isplitl [G0]; · iexact G0
        isplitl [G1]; · iexact G1
        isplitl [G2]; · iexact G2
        isplitl [G3]; · iexact G3
        isplitl [G4]; · iexact G4
        iexact G5
      · isplitl [W0]; · iexact W0
        isplitl [W1]; · iexact W1
        isplitl [W2]; · iexact W2
        isplitl [W3]; · iexact W3
        isplitl [W4]; · iexact W4
        iexact W5
    · iexact Hs
  · iexact Ho

/-- THE TILE'S HOLDINGS PUT BACK TOGETHER: the groups below 44 done, the last six landed, and what the ring never held
    — the tile's block of the token array, what was left of its share of the table, the list-fetch cell, the other
    cells, the other scoped buffers — are the task's result, the tile's own buffers and its own cells at zero. -/
theorem final_join (hI : ListsOK d L fI) (hval : ChunkVal m d L fI hI) (O : CellTallies nD τ sig (HIx 1)) (W : Waits sig (HIx 1))
    (f44 f45 f46 f47 f48 f49 : Buf (Elt F) ((V d (cV L) (jV L)).loc cc0_scratch1)) :
    iprop(doneBelow m d L fI ∗ landG m d L fI hI 44 2 f44 ∗ landG m d L fI hI 45 3 f45 ∗ landG m d L fI hI 46 4 f46
        ∗ landG m d L fI hI 47 5 f47 ∗ landG m d L fI hI 48 0 f48 ∗ landG m d L fI hI 49 1 f49
        ∗ (xLoc d ↦[xSet (widL L)]{fullShare} xt m d)
        ∗ ((tV).view.loc thr ↦{trest (widL L)} m (tLoc d))
        ∗ semVal (scell thr) 0 ∗ (bigSep (otherCells thr) fun g => semVal g 0)
        ∗ (bigSep (((ownRefs (τ := τ) (.scVector (cV L) (jV L))).erase ((Proc.scVector (cV L) (jV L)).devRef cc0_scratch0)).erase ((Proc.scVector (cV L) (jV L)).devRef cc0_scratch1)) fun b => iprop(∃ f, ((d, b) : Loc nD τ sig) ↦{fullShare} f))
        ∗ (∃ W', ⌜∀ p ∈ W', p ∈ W ∨ p.2 = none⌝ ∗ owes thr O W'))
      ⊢ (iprop(tdP m d (widL L) ∗ ownBufs thr ∗ ownSems0 thr ∗ ∃ W', ⌜∀ p ∈ W', p ∈ W ∨ p.2 = none⌝ ∗ owes thr O W') : sProp 𝕄) := by
  have hd : (doneBelow m d L fI : sProp 𝕄)
      = iprop((bigSep (Finset.univ.filter fun g : Fin 50 => g.val < 44) fun g => rowPts d L fI g)
          ∗ bigSep (Finset.univ.filter fun g : Fin 50 => g.val < 44) fun g => chunkPts d L g (gout m d)) :=
    bigSep_sep _ (fun g => rowPts d L fI g) (fun g => chunkPts d L g (gout m d))
  unfold tdP xBlkPts
  rw [ownBufs_V d L, hd]
  iintro ⟨⟨Hdr, Hdc⟩, ⟨R44, G2, T2, W2, C44, S2⟩, ⟨R45, G3, T3, W3, C45, S3⟩, ⟨R46, G4, T4, W4, C46, S4⟩, ⟨R47, G5, T5, W5, C47, S5⟩,
    ⟨R48, G0, T0, W0, C48, S0⟩, ⟨R49, G1, T1, W1, C49, S1⟩, Hx, Htr, Hsc, Hoc, Hbufs, HO⟩
  isplitl [Hx T0 T1 T2 T3 T4 T5 Htr Hdc C44 C45 C46 C47 C48 C49]
  · isplitl [Hx]; · iexact Hx
    isplitl [T0 T1 T2 T3 T4 T5 Htr]
    · iapply (toks_whole m d L)
      isplitl [T2]; · iexact T2
      isplitl [T3]; · iexact T3
      isplitl [T4]; · iexact T4
      isplitl [T5]; · iexact T5
      isplitl [T0]; · iexact T0
      isplitl [T1]; · iexact T1
      iexact Htr
    · iapply (chunks_join m d L fI hI hval f44 f45 f46 f47 f48 f49)
      isplitl [Hdc]; · iexact Hdc
      isplitl [C44]; · iexact C44
      isplitl [C45]; · iexact C45
      isplitl [C46]; · iexact C46
      isplitl [C47]; · iexact C47
      isplitl [C48]; · iexact C48
      iexact C49
  isplitl [Hdr R44 R45 R46 R47 R48 R49 S0 S1 S2 S3 S4 S5 Hbufs]
  · isplitl [Hdr R44 R45 R46 R47 R48 R49]
    · iapply (rows_whole d L fI)
      isplitl [Hdr]; · iexact Hdr
      isplitl [R44]; · iexact R44
      isplitl [R45]; · iexact R45
      isplitl [R46]; · iexact R46
      isplitl [R47]; · iexact R47
      isplitl [R48]; · iexact R48
      iexact R49
    isplitl [S0 S1 S2 S3 S4 S5]
    · iapply (slots_whole d L _ _ _ _ _ _)
      isplitl [S2]; · iexact S2
      isplitl [S3]; · iexact S3
      isplitl [S4]; · iexact S4
      isplitl [S5]; · iexact S5
      isplitl [S0]; · iexact S0
      iexact S1
    iexact Hbufs
  isplitl [G0 G1 G2 G3 G4 G5 W0 W1 W2 W3 W4 W5 Hsc Hoc]
  · iapply (cells_whole d L)
    isplitl [G0 G1 G2 G3 G4 G5]
    · isplitl [G2]; · iexact G2
      isplitl [G3]; · iexact G3
      isplitl [G4]; · iexact G4
      isplitl [G5]; · iexact G5
      isplitl [G0]; · iexact G0
      iexact G1
    isplitl [W0 W1 W2 W3 W4 W5]
    · isplitl [W2]; · iexact W2
      isplitl [W3]; · iexact W3
      isplitl [W4]; · iexact W4
      isplitl [W5]; · iexact W5
      isplitl [W0]; · iexact W0
      iexact W1
    isplitl [Hsc]; · iexact Hsc
    iexact Hoc
  iexact HO

/-- info: 'Cert.Kernel.Sc.inv50_open' depends on axioms: [propext, Classical.choice, Quot.sound] -/
#guard_msgs in #print axioms inv50_open

end Epilogue

end Cert.Kernel.Sc

end
-- ==== Proof.TileValueBits.lean ====
/-
  What a write-out leaves in its output chunk. Chunk `g` of worker `w` is rows `128 w …`, columns `128 g …` of the flat
  output; its write-out carries the slot read back after group `g`'s gather, which is the gather's payload: row `r` of it is
  the table row that word `r` of list `g` names, and that word is token `g` of batch row `128 w + r`. So element `(r, e)` of
  the chunk ends at column `e` of that table row, which is the gathered output at `(128 w + r, 128 g + e)`.
-/
import proofs.«203293_g38809324487172_cont_8to1_b_1330_62_alg».proof.Proof.TileInvBits

noncomputable section

namespace Cert.Kernel.Sc

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "iV" => (Memref.whole Cert.Kernel.main_v1_scv : Memref Cert.Kernel.sig Kind.scVector Space.hbm Cert.Kernel.S32x50x128 EltTy.i32)
local notation "tV" => (Memref.whole Cert.Kernel.main_arg1_scv : Memref Cert.Kernel.sig Kind.scVector Space.hbm Cert.Kernel.S100000x128 EltTy.f32)
local notation "oV" => (Memref.whole Cert.Kernel.main_v2_scv : Memref Cert.Kernel.sig Kind.scVector Space.hbm Cert.Kernel.S4096x6400 EltTy.f32)
local notation "sI" => (Memref.whole Cert.Kernel.cc0_scratch0 : Memref Cert.Kernel.sig Kind.scVector Space.vmem Cert.Kernel.S50x128 EltTy.i32)
local notation "sR" => (Memref.whole Cert.Kernel.cc0_scratch1 : Memref Cert.Kernel.sig Kind.scVector Space.vmem Cert.Kernel.S6x128x128 EltTy.f32)

variable [FloatOps F]

section Value

variable (d : Dev nD) (L : grid0.Coords)

/-! ## Reading the pieces -/

/-- A whole-chunk write puts the payload's entry `y` at the chunk's element `y`. -/
theorem chunk_writes_at (g : Fin 50) (f : Buf (Elt F) (oLoc d)) (p : S128x128.Idx → Elt F .f32) (y : S128x128.Idx) :
    (chunkK L g).view.writes (Elt F) f [⟨Rect.whole S128x128, p⟩] ((chunkK L g).view.emb y) = p y := by
  have h := congrFun (View.read_writes_whole (chunkK L g).view f p) y
  rw [View.read_apply] at h
  exact (cast_eq _ _).symm.trans h

/-- The chunk's element `(r, e)` is the output's `(128 w + r, 128 g + e)`. -/
theorem chunk_emb (g : Fin 50) (r e : Fin 128) :
    (chunkK L g).view.emb (ix2 r e)
      = (ix2 (n0 := 4096) (n1 := 6400) ⟨128 * (widL L).val + r.val, by have := (widL L).isLt; have := r.isLt; omega⟩
          ⟨128 * g.val + e.val, by have := g.isLt; have := e.isLt; omega⟩ : S4096x6400.Idx) := by
  have hw : (widL L).val = 2 * (L 1).val + (L 0).val := rfl
  funext a
  match a with
  | 0 => exact Fin.ext (by show 256 * (L 1).val + 128 * (L 0).val + 1 * r.val = 128 * (widL L).val + r.val; omega)
  | 1 => exact Fin.ext (by show 128 * g.val + 1 * e.val = 128 * g.val + e.val; omega)

/-- The table read through the body's whole-table slice is the table. -/
theorem tAll_read (f : Buf (Elt F) (tLoc d)) : (tAllK).view.read (Elt F) f = f :=
  Memref.read_access_unit_zero (Elt F) main_arg1_scv (by funext a; fin_cases a <;> rfl) inb_S100000x128_S100000x128_0_0 f

/-- Word `r` of list `g` is entry `(g, r)` of the fetched block. -/
theorem rowK_read (fI : Buf (Elt F) ((V d (cV L) (jV L)).loc cc0_scratch0)) (g : Fin 50) (r : Fin 128) :
    (rowK g).view.read (Elt F) fI (ix1 r) = fI (ix2 g r) := by
  rw [View.read_apply]
  refine (cast_eq _ _).trans ?_
  show fI ((Rect.unit (s := S50x128) ![g.val, 0] S1x128.size (row_inb g)).emb
    (Shape.reshapeEquiv squeezes_S1x128_S128.numel_eq (ix1 r))) = _
  rw [show Shape.reshapeEquiv squeezes_S1x128_S128.numel_eq (ix1 r) = (ix2 (0 : Fin 1) r : S1x128.Idx) from
    Shape.reshapeEquiv_eq_of_rowMajor _ (by
      rw [Shape.rowMajor_val_two, Shape.rowMajor_val_one]
      show 0 * 128 + r.val = r.val
      omega)]
  refine congrArg fI ?_
  funext a
  match a with
  | 0 => exact Fin.ext (by show g.val + 1 * 0 = g.val; omega)
  | 1 => exact Fin.ext (by show 0 + 1 * r.val = r.val; omega)

/-- The row the offset list names for destination row `k` is its word `k`. -/
theorem rows_val {o z : ℕ} (idx : S128.Idx → Elt F .i32) (hn : S128.numel = o) (h : ∀ x, (idx x).toNat < z) (k : Fin o)
    (hk : k.val < 128) : (SparseCore.rows idx hn h k).val = (idx (ix1 ⟨k.val, hk⟩)).toNat := by
  have e : S128.rowMajor.symm (k.cast hn.symm) = ix1 ⟨k.val, hk⟩ := by
    rw [Equiv.symm_apply_eq]
    apply Fin.ext
    rw [Shape.rowMajor_val_one]
    rfl
  show (idx (S128.rowMajor.symm (k.cast hn.symm))).toNat = _
  rw [e]

/-! ## The payloads -/

variable (fI : Buf (Elt F) ((V d (cV L) (jV L)).loc cc0_scratch0))

/-- The write-out carries the gather's payload: the slot's earlier contents drop out. -/
theorem wpay_eq (hI : ListsOK d L fI) (g : Fin 50) (f0 : Buf (Elt F) ((V d (cV L) (jV L)).loc cc0_scratch1)) :
    wpay m d L fI hI g f0 = gpay m d L fI hI g := by
  unfold wpay
  rw [ReadAs.apply_same, View.read_writes_whole]

/-- Entry `(r, e)` of group `g`'s gathered rows: column `e` of the table row that word `r` of list `g` names. -/
theorem gpay_apply (hI : ListsOK d L fI) (g : Fin 50) (r e : Fin 128) :
    gpay m d L fI hI g (ix2 r e) = m (tLoc d) (ix2 (n0 := 100000) (n1 := 128) ⟨(fI (ix2 g r)).toNat, hI _⟩ e) := by
  unfold gpay SparseCore.gatherPayload
  rw [tAll_read]
  refine congrArg (m (tLoc d)) ?_
  funext a
  match a with
  | 0 =>
    apply Fin.ext
    show (gathers_S100000x128_S128x128.idx _ (ix2 r e) gathers_S100000x128_S128x128.axis).val = (fI (ix2 g r)).toNat
    rw [Shape.Gathers.idx_axis]
    refine (rows_val _ _ _ (ix2 r e gathers_S100000x128_S128x128.axis') r.isLt).trans ?_
    exact congrArg BitVec.toNat (rowK_read d L fI g r)
  | 1 =>
    apply Fin.ext
    exact Shape.Gathers.idx_of_ne gathers_S100000x128_S128x128 _ (ix2 r e) 1 (by decide)

/-! ## The gathered output at a chunk's element -/

/-- With the token words in range, the gathered output at `(128 w + r, 128 g + e)` is column `e` of the table row that
    token `g` of batch row `128 w + r` names. -/
theorem gout_apply (hpre : PreOK m) (w : Fin 32) (g : Fin 50) (r e : Fin 128) (hb : 128 * w.val + r.val < 4096)
    (hc : 128 * g.val + e.val < 6400) :
    gout m d (ix2 (n0 := 4096) (n1 := 6400) ⟨128 * w.val + r.val, hb⟩ ⟨128 * g.val + e.val, hc⟩)
      = m (tLoc d) (ix2 (n0 := 100000) (n1 := 128)
          ⟨(m (aLoc d) (ix2 (n0 := 4096) (n1 := 50) ⟨128 * w.val + r.val, hb⟩ g)).toNat, Spec.InRange.toNat_lt (hpre d) _⟩ e) := by
  have ht : Spec.tok ⟨128 * g.val + e.val, hc⟩ = g := Fin.ext (by show (128 * g.val + e.val) / 128 = g.val; omega)
  have hcol : Spec.col ⟨128 * g.val + e.val, hc⟩ = e := Fin.ext (by show (128 * g.val + e.val) % 128 = e.val; omega)
  show m (tLoc d) (ix2 (n0 := 100000) (n1 := 128)
    (Spec.row (m (aLoc d) (ix2 (n0 := 4096) (n1 := 50) ⟨128 * w.val + r.val, hb⟩ (Spec.tok ⟨128 * g.val + e.val, hc⟩))))
    (Spec.col ⟨128 * g.val + e.val, hc⟩)) = _
  rw [ht, hcol]
  refine congrArg (m (tLoc d)) (congrArg₂ (ix2 (n0 := 100000) (n1 := 128)) (Fin.ext ?_) rfl)
  exact Spec.row_val_of_lt _ (Spec.InRange.toNat_lt (hpre d) _)

/-! ## The fetched lists -/

/-- The fetched block of lists names rows of the table, -/
theorem listsOK_lists (hpre : PreOK m) (hfI : fI = (iRowK L).view.read (Elt F) (xt m d)) : ListsOK d L fI := by
  subst hfI; intro i; exact fI_lt m d L hpre i

/-- and every write-out leaves the gathered output in its chunk. -/
theorem chunkVal_lists (hpre : PreOK m) (hfI : fI = (iRowK L).view.read (Elt F) (xt m d)) (hI : ListsOK d L fI) :
    ChunkVal m d L fI hI := by
  intro g f0 i hi
  have hi' : i ∈ Finset.univ.map (chunkK L g).view.emb := hi
  obtain ⟨y, -, rfl⟩ := Finset.mem_map.mp hi'
  obtain ⟨r, e, rfl⟩ : ∃ (r e : Fin 128), y = ix2 r e := ⟨y 0, y 1, eq_ix2 y⟩
  rw [chunk_writes_at, wpay_eq, gpay_apply, chunk_emb, gout_apply m d hpre]
  refine congrArg (m (tLoc d)) (congrArg₂ (ix2 (n0 := 100000) (n1 := 128)) (Fin.ext ?_) rfl)
  show (fI (ix2 g r)).toNat = _
  rw [hfI, fI_apply]

/-- The same for the list scratch as the fetch leaves it, over any earlier contents. -/
theorem listsOK_fetched (hpre : PreOK m) (fs : Buf (Elt F) ((V d (cV L) (jV L)).loc cc0_scratch0)) :
    ListsOK d L (View.write (Elt F) (sI).view fs (ReadAs.same.apply ((iRowK L).view.read (Elt F) (xt m d))) Finset.univ) :=
  listsOK_lists m d L _ hpre (View.write_whole_univ _ _ _)

theorem chunkVal_fetched (hpre : PreOK m) (fs : Buf (Elt F) ((V d (cV L) (jV L)).loc cc0_scratch0)) :
    ChunkVal m d L (View.write (Elt F) (sI).view fs (ReadAs.same.apply ((iRowK L).view.read (Elt F) (xt m d))) Finset.univ)
      (listsOK_fetched m d L hpre fs) :=
  chunkVal_lists m d L _ hpre (View.write_whole_univ _ _ _) _

end Value

end Cert.Kernel.Sc

end
-- ==== Proof.TileStepBits.lean ====
/-
  One trip of the ring. Trip `t` waits for group `t`'s gather and starts its write-out (gathering → writing); when a
  group `t + 5` exists it then waits for group `t - 1`'s write-out (writing → done; at `t = 0` the slot is the free one)
  and starts group `t + 5`'s gather into the slot that freed (pending → gathering). Every other group keeps its state.
-/
import proofs.«203293_g38809324487172_cont_8to1_b_1330_62_alg».proof.Proof.TileInvBits

noncomputable section

namespace Cert.Kernel.Sc

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "iV" => (Memref.whole Cert.Kernel.main_v1_scv : Memref Cert.Kernel.sig Kind.scVector Space.hbm Cert.Kernel.S32x50x128 EltTy.i32)
local notation "tV" => (Memref.whole Cert.Kernel.main_arg1_scv : Memref Cert.Kernel.sig Kind.scVector Space.hbm Cert.Kernel.S100000x128 EltTy.f32)
local notation "oV" => (Memref.whole Cert.Kernel.main_v2_scv : Memref Cert.Kernel.sig Kind.scVector Space.hbm Cert.Kernel.S4096x6400 EltTy.f32)
local notation "sI" => (Memref.whole Cert.Kernel.cc0_scratch0 : Memref Cert.Kernel.sig Kind.scVector Space.vmem Cert.Kernel.S50x128 EltTy.i32)
local notation "sR" => (Memref.whole Cert.Kernel.cc0_scratch1 : Memref Cert.Kernel.sig Kind.scVector Space.vmem Cert.Kernel.S6x128x128 EltTy.f32)

variable [FloatOps F]

section Step

variable (d : Dev nD) (L : grid0.Coords)
variable (fI : Buf (Elt F) ((V d (cV L) (jV L)).loc cc0_scratch0))

/-! ## The groups' states from one trip to the next -/

omit [FloatOps F] in
theorem gst_self (t : ℕ) (g : Fin 50) (h : g.val = t) : gst t g = .gath := by
  unfold gst; rw [if_neg (by omega), if_pos (by omega)]
omit [FloatOps F] in
theorem gst_self_succ (t : ℕ) (g : Fin 50) (h : g.val = t) : gst (t + 1) g = .writ := by
  unfold gst; rw [if_neg (by omega), if_neg (by omega), if_neg (by omega)]
omit [FloatOps F] in
theorem gst_prev (t : ℕ) (g : Fin 50) (h : g.val + 1 = t) : gst t g = .writ := by
  unfold gst; rw [if_neg (by omega), if_neg (by omega), if_neg (by omega)]
omit [FloatOps F] in
theorem gst_prev_succ (t : ℕ) (g : Fin 50) (h : g.val + 1 = t) (ht : t + 5 < 50) : gst (t + 1) g = .done := by
  unfold gst; rw [if_neg (by omega), if_neg (by omega), if_pos ⟨by omega, by omega⟩]
omit [FloatOps F] in
theorem gst_next (t : ℕ) (g : Fin 50) (h : g.val = t + 5) : gst t g = .pend := by
  unfold gst; rw [if_pos (by omega)]
omit [FloatOps F] in
theorem gst_next_succ (t : ℕ) (g : Fin 50) (h : g.val = t + 5) : gst (t + 1) g = .gath := by
  unfold gst; rw [if_neg (by omega), if_pos (by omega)]
omit [FloatOps F] in
/-- Every other group keeps its state. -/
theorem gst_other (t : ℕ) (g : Fin 50) (h0 : g.val ≠ t) (h1 : g.val + 1 ≠ t ∨ 50 ≤ t + 5) (h2 : g.val ≠ t + 5) : gst (t + 1) g = gst t g := by
  have := g.isLt
  unfold gst
  split_ifs <;> first | rfl | omega

/-! ## The family with one, two, three groups set apart -/

variable (hI : ListsOK d L fI)

def R1 (st : Fin 50 → GSt) (a : Fin 50) : sProp 𝕄 := bigSep (Finset.univ.erase a) fun g => Φ m d L fI hI g (st g)
def R2 (st : Fin 50 → GSt) (a b : Fin 50) : sProp 𝕄 := bigSep ((Finset.univ.erase a).erase b) fun g => Φ m d L fI hI g (st g)
def R3 (st : Fin 50 → GSt) (a b c : Fin 50) : sProp 𝕄 := bigSep (((Finset.univ.erase a).erase b).erase c) fun g => Φ m d L fI hI g (st g)

theorem open1 (st : Fin 50 → GSt) (a : Fin 50) :
    Ring.AtW (Φ m d L fI hI) st = iprop(Φ m d L fI hI a (st a) ∗ R1 m d L fI hI st a) :=
  SparseCore.bigSep_erase' (Finset.mem_univ a)
theorem open2 (st : Fin 50 → GSt) (a b : Fin 50) (hab : b ≠ a) :
    R1 m d L fI hI st a = iprop(Φ m d L fI hI b (st b) ∗ R2 m d L fI hI st a b) :=
  SparseCore.bigSep_erase' (Finset.mem_erase.mpr ⟨hab, Finset.mem_univ b⟩)
theorem open3 (st : Fin 50 → GSt) (a b c : Fin 50) (hca : c ≠ a) (hcb : c ≠ b) :
    R2 m d L fI hI st a b = iprop(Φ m d L fI hI c (st c) ∗ R3 m d L fI hI st a b c) :=
  SparseCore.bigSep_erase' (Finset.mem_erase.mpr ⟨hcb, Finset.mem_erase.mpr ⟨hca, Finset.mem_univ c⟩⟩)
theorem R1_congr (st st' : Fin 50 → GSt) (a : Fin 50) (h : ∀ g, g ≠ a → st g = st' g) : R1 m d L fI hI st a = R1 m d L fI hI st' a :=
  bigSep_congr fun g hg => by rw [h g (Finset.ne_of_mem_erase hg)]
theorem R2_congr (st st' : Fin 50 → GSt) (a b : Fin 50) (h : ∀ g, g ≠ a → g ≠ b → st g = st' g) : R2 m d L fI hI st a b = R2 m d L fI hI st' a b :=
  bigSep_congr fun g hg => by rw [h g (Finset.ne_of_mem_erase (Finset.mem_of_mem_erase hg)) (Finset.ne_of_mem_erase hg)]
theorem R3_congr (st st' : Fin 50 → GSt) (a b c : Fin 50) (h : ∀ g, g ≠ a → g ≠ b → g ≠ c → st g = st' g) :
    R3 m d L fI hI st a b c = R3 m d L fI hI st' a b c :=
  bigSep_congr fun g hg => by
    rw [h g (Finset.ne_of_mem_erase (Finset.mem_of_mem_erase (Finset.mem_of_mem_erase hg)))
      (Finset.ne_of_mem_erase (Finset.mem_of_mem_erase hg)) (Finset.ne_of_mem_erase hg)]

/-! ## A trip of the last five: no later group to issue -/

set_option maxHeartbeats 2000000 in
theorem step_tail (hval : ChunkVal m d L fI hI) (O : CellTallies nD τ sig (HIx 1)) (W : Waits sig (HIx 1))
    (t : Fin k0_t1_loop.trips) (acc : BitVec 32) (h1 : ¬ k0_cond1 t = 1#1) :
    inv m d L fI hI O W t.val acc ⊢ wp frame (wpE (defs₀ (F := F)) 𝒱₀ (V d (cV L) (jV L)) none) Set.univ
      (k0_t1_body L iV (Memref.isWhole_whole _) tV (Memref.isWhole_whole _) oV (Memref.isWhole_whole _) sI (Memref.isWhole_whole _)
        sR (Memref.isWhole_whole _) cc0_scratch2 cc0_scratch3 cc0_scoped0 t acc)
      (fun r => inv m d L fI hI O W (t.val + 1) r) := by
  have ht50 := trip_lt t
  have ht : ¬ (t.val + 5 < 50) := fun h => h1 ((cond1_iff t).mpr h)
  unfold k0_t1_body
  simp only [k0_part1_eq_skeleton, k0_part1_skel, slot_off2 t, row_off3 t, chunk_off5 L t, gsem_off4 t, wsem_off4 t]
  unfold inv
  rw [open1 m d L fI hI (gst t.val) ⟨t.val, ht50⟩, gst_self t.val ⟨t.val, ht50⟩ rfl, if_neg (by omega : ¬ t.val = 0)]
  show iprop(_ ∗ (iprop(chunkPts d L ⟨t.val, ht50⟩ (m (oLoc d)) ∗ semVal (wcell (V d (cV L) (jV L)) ⟨t.val % 6, Nat.mod_lt _ (by norm_num)⟩) 0
      ∗ gathFlight m d L fI hI ⟨t.val, ht50⟩ ∗ tokRest m d L ⟨t.val % 6, Nat.mod_lt _ (by norm_num)⟩) ∗ _) ∗ emp ∗ _) ⊢ _
  unfold gathFlight
  delta chunkPts slotPts rowPts tokRest tokLent sl
  beta_reduce
  iintro ⟨#Hmw, ⟨⟨Hch, Hwc, ⟨%f0, Hfl⟩, Htr⟩, Hrest⟩, -, %W', %hW', HO⟩
  sl_exec (disch := exact View.amount_pos _ _ (show 0 < S128x128.numel by decide))
  sl_step
  rw [open1 m d L fI hI (gst (t.val + 1)) ⟨t.val, ht50⟩, gst_self_succ t.val ⟨t.val, ht50⟩ rfl,
    R1_congr m d L fI hI (gst (t.val + 1)) (gst t.val) ⟨t.val, ht50⟩
      (fun g hg => gst_other t.val g (fun h => hg (Fin.ext h)) (Or.inr (by omega)) (by have := g.isLt; omega)),
    if_neg (by omega : ¬ t.val + 1 = 0),
    show Φ m d L fI hI ⟨t.val, ht50⟩ GSt.writ = iprop(rowPts d L fI ⟨t.val, ht50⟩ ∗ semVal (gcell (V d (cV L) (jV L)) (sl ⟨t.val, ht50⟩)) 0
      ∗ tokWhole m d L (sl ⟨t.val, ht50⟩) ∗ writFlight m d L fI hI ⟨t.val, ht50⟩) from rfl]
  isplitr; · iexact Hmw
  isplitl [Hfl_dst_and Htr Hfl Hwc Hrest]
  · isplitr [Hrest]
    · isplitl [Hfl_dst_and]; · iexact Hfl_dst_and
      isplitl [Hfl]; · iexact Hfl
      isplitl [Htr]; · iexact Htr
      unfold writFlight; iexists f0; iexact Hwc
    · iexact Hrest
  isplitr; · iempintro
  iexists _; isplitr
  swap; · iexact HO
  ipureintro; intro p hp
  rcases Finset.mem_insert.mp hp with hp | hp; · exact .inr (hp ▸ rfl)
  exact hW' p hp

/-! ## Trip 0: group 5 is issued into the slot no group has used yet -/

set_option maxHeartbeats 4000000 in
theorem step_zero (hval : ChunkVal m d L fI hI) (O : CellTallies nD τ sig (HIx 1)) (W : Waits sig (HIx 1))
    (t : Fin k0_t1_loop.trips) (acc : BitVec 32) (h1 : k0_cond1 t = 1#1) (h2 : ¬ k0_cond2 t = 1#1) :
    inv m d L fI hI O W t.val acc ⊢ wp frame (wpE (defs₀ (F := F)) 𝒱₀ (V d (cV L) (jV L)) none) Set.univ
      (k0_t1_body L iV (Memref.isWhole_whole _) tV (Memref.isWhole_whole _) oV (Memref.isWhole_whole _) sI (Memref.isWhole_whole _)
        sR (Memref.isWhole_whole _) cc0_scratch2 cc0_scratch3 cc0_scoped0 t acc)
      (fun r => inv m d L fI hI O W (t.val + 1) r) := by
  have ht50 := trip_lt t
  have ht5 : t.val + 5 < 50 := (cond1_iff t).mp h1
  have ht0 : t.val = 0 := by have := (cond2_iff t).not.mp h2; omega
  have hca : (⟨t.val + 5, ht5⟩ : Fin 50) ≠ ⟨t.val, ht50⟩ := fun h => by have := congrArg Fin.val h; simp at this
  have e5 : (5 : Fin 6) = ⟨(t.val + 5) % 6, Nat.mod_lt _ (by norm_num)⟩ := Fin.ext (by simp [ht0])
  have hin_c := hin_row d L fI hI ⟨t.val + 5, ht5⟩
  unfold k0_t1_body
  simp only [k0_part1_eq_skeleton, k0_part1_skel, slot_off2 t, row_off3 t, chunk_off5 L t, gsem_off4 t, wsem_off4 t,
    slot_off9 t h1, row_off10 t h1, gsem_off11 t h1]
  unfold inv
  rw [open1 m d L fI hI (gst t.val) ⟨t.val, ht50⟩, open2 m d L fI hI (gst t.val) ⟨t.val, ht50⟩ ⟨t.val + 5, ht5⟩ hca,
    gst_self t.val ⟨t.val, ht50⟩ rfl, gst_next t.val ⟨t.val + 5, ht5⟩ rfl, if_pos ht0,
    show Φ m d L fI hI ⟨t.val, ht50⟩ GSt.gath = iprop(chunkPts d L ⟨t.val, ht50⟩ (m (oLoc d)) ∗ semVal (wcell (V d (cV L) (jV L)) (sl ⟨t.val, ht50⟩)) 0
      ∗ gathFlight m d L fI hI ⟨t.val, ht50⟩ ∗ tokRest m d L (sl ⟨t.val, ht50⟩)) from rfl,
    show Φ m d L fI hI ⟨t.val + 5, ht5⟩ GSt.pend = iprop(rowPts d L fI ⟨t.val + 5, ht5⟩ ∗ chunkPts d L ⟨t.val + 5, ht5⟩ (m (oLoc d))) from rfl]
  unfold gathFlight free5
  rw [e5]
  delta chunkPts slotPts rowPts tokRest tokLent tokWhole sl
  beta_reduce
  iintro ⟨#Hmw, ⟨⟨Hch, Hwc, ⟨%f0, Hfl⟩, Htr⟩, ⟨Hrowc, Hchc⟩, Hrest⟩, ⟨Hg5, Hw5, ⟨%f5, Hs5⟩, Ht5⟩, %W', %hW', HO⟩
  sl_exec (disch := exact View.amount_pos _ _ (show 0 < S128x128.numel by decide))
  sl_step
  rw [open1 m d L fI hI (gst (t.val + 1)) ⟨t.val, ht50⟩, open2 m d L fI hI (gst (t.val + 1)) ⟨t.val, ht50⟩ ⟨t.val + 5, ht5⟩ hca,
    gst_self_succ t.val ⟨t.val, ht50⟩ rfl, gst_next_succ t.val ⟨t.val + 5, ht5⟩ rfl,
    R2_congr m d L fI hI (gst (t.val + 1)) (gst t.val) ⟨t.val, ht50⟩ ⟨t.val + 5, ht5⟩
      (fun g hga hgc => gst_other t.val g (fun h => hga (Fin.ext h)) (Or.inl (by omega)) (fun h => hgc (Fin.ext h))),
    if_neg (by omega : ¬ t.val + 1 = 0),
    show Φ m d L fI hI ⟨t.val, ht50⟩ GSt.writ = iprop(rowPts d L fI ⟨t.val, ht50⟩ ∗ semVal (gcell (V d (cV L) (jV L)) (sl ⟨t.val, ht50⟩)) 0
      ∗ tokWhole m d L (sl ⟨t.val, ht50⟩) ∗ writFlight m d L fI hI ⟨t.val, ht50⟩) from rfl,
    show Φ m d L fI hI ⟨t.val + 5, ht5⟩ GSt.gath = iprop(chunkPts d L ⟨t.val + 5, ht5⟩ (m (oLoc d)) ∗ semVal (wcell (V d (cV L) (jV L)) (sl ⟨t.val + 5, ht5⟩)) 0
      ∗ gathFlight m d L fI hI ⟨t.val + 5, ht5⟩ ∗ tokRest m d L (sl ⟨t.val + 5, ht5⟩)) from rfl]
  isplitr; · iexact Hmw
  isplitl [Hfl_dst_and Htr Hfl Hwc Hchc Hw5 Hg5 Ht5 Hrest]
  · isplitl [Hfl_dst_and Htr Hfl Hwc]
    · isplitl [Hfl_dst_and]; · iexact Hfl_dst_and
      isplitl [Hfl]; · iexact Hfl
      isplitl [Htr]; · iexact Htr
      unfold writFlight; iexists f0; iexact Hwc
    · isplitl [Hchc Hw5 Hg5 Ht5]
      · isplitl [Hchc]; · iexact Hchc
        isplitl [Hw5]; · iexact Hw5
        isplitl [Hg5]; · unfold gathFlight; iexists f5; iexact Hg5
        iexact Ht5
      · iexact Hrest
  isplitr; · iempintro
  iexists _; isplitr
  swap; · iexact HO
  ipureintro; intro p hp
  rcases Finset.mem_insert.mp hp with hp | hp; · exact .inr (hp ▸ rfl)
  exact hW' p hp

/-! ## A middle trip: the previous group's write-out is waited for and its slot goes to group `t + 5` -/

set_option maxHeartbeats 4000000 in
theorem step_mid (hval : ChunkVal m d L fI hI) (O : CellTallies nD τ sig (HIx 1)) (W : Waits sig (HIx 1))
    (t : Fin k0_t1_loop.trips) (acc : BitVec 32) (h1 : k0_cond1 t = 1#1) (h2 : k0_cond2 t = 1#1) :
    inv m d L fI hI O W t.val acc ⊢ wp frame (wpE (defs₀ (F := F)) 𝒱₀ (V d (cV L) (jV L)) none) Set.univ
      (k0_t1_body L iV (Memref.isWhole_whole _) tV (Memref.isWhole_whole _) oV (Memref.isWhole_whole _) sI (Memref.isWhole_whole _)
        sR (Memref.isWhole_whole _) cc0_scratch2 cc0_scratch3 cc0_scoped0 t acc)
      (fun r => inv m d L fI hI O W (t.val + 1) r) := by
  have ht50 := trip_lt t
  have ht5 : t.val + 5 < 50 := (cond1_iff t).mp h1
  have ht1 : 1 ≤ t.val := (cond2_iff t).mp h2
  have hb50 : t.val - 1 < 50 := by omega
  have hba : (⟨t.val - 1, hb50⟩ : Fin 50) ≠ ⟨t.val, ht50⟩ := fun h => by have := congrArg Fin.val h; simp at this; omega
  have hca : (⟨t.val + 5, ht5⟩ : Fin 50) ≠ ⟨t.val, ht50⟩ := fun h => by have := congrArg Fin.val h; simp at this
  have hcb : (⟨t.val + 5, ht5⟩ : Fin 50) ≠ ⟨t.val - 1, hb50⟩ := fun h => by have := congrArg Fin.val h; simp at this; omega
  have eb : sl ⟨t.val - 1, hb50⟩ = ⟨(t.val + 5) % 6, Nat.mod_lt _ (by norm_num)⟩ := Fin.ext (by show (t.val - 1) % 6 = (t.val + 5) % 6; omega)
  have hin_c := hin_row d L fI hI ⟨t.val + 5, ht5⟩
  unfold k0_t1_body
  simp only [k0_part1_eq_skeleton, k0_part1_skel, slot_off2 t, row_off3 t, chunk_off5 L t, gsem_off4 t, wsem_off4 t,
    slot_off6 t h1 h2, chunk_off7 L t h1 h2, wsem_off8 t h1 h2, slot_off9 t h1, row_off10 t h1, gsem_off11 t h1]
  unfold inv
  rw [open1 m d L fI hI (gst t.val) ⟨t.val, ht50⟩, open2 m d L fI hI (gst t.val) ⟨t.val, ht50⟩ ⟨t.val - 1, hb50⟩ hba,
    open3 m d L fI hI (gst t.val) ⟨t.val, ht50⟩ ⟨t.val - 1, hb50⟩ ⟨t.val + 5, ht5⟩ hca hcb,
    gst_self t.val ⟨t.val, ht50⟩ rfl, gst_prev t.val ⟨t.val - 1, hb50⟩ (by show t.val - 1 + 1 = t.val; omega), gst_next t.val ⟨t.val + 5, ht5⟩ rfl,
    if_neg (by omega : ¬ t.val = 0),
    show Φ m d L fI hI ⟨t.val, ht50⟩ GSt.gath = iprop(chunkPts d L ⟨t.val, ht50⟩ (m (oLoc d)) ∗ semVal (wcell (V d (cV L) (jV L)) (sl ⟨t.val, ht50⟩)) 0
      ∗ gathFlight m d L fI hI ⟨t.val, ht50⟩ ∗ tokRest m d L (sl ⟨t.val, ht50⟩)) from rfl,
    show Φ m d L fI hI ⟨t.val - 1, hb50⟩ GSt.writ = iprop(rowPts d L fI ⟨t.val - 1, hb50⟩ ∗ semVal (gcell (V d (cV L) (jV L)) (sl ⟨t.val - 1, hb50⟩)) 0
      ∗ tokWhole m d L (sl ⟨t.val - 1, hb50⟩) ∗ writFlight m d L fI hI ⟨t.val - 1, hb50⟩) from rfl,
    show Φ m d L fI hI ⟨t.val + 5, ht5⟩ GSt.pend = iprop(rowPts d L fI ⟨t.val + 5, ht5⟩ ∗ chunkPts d L ⟨t.val + 5, ht5⟩ (m (oLoc d))) from rfl]
  unfold gathFlight writFlight
  rw [eb]
  delta chunkPts slotPts rowPts tokRest tokLent tokWhole sl
  beta_reduce
  iintro ⟨#Hmw, ⟨⟨Hch, Hwc, ⟨%f0, Hfl⟩, Htr⟩, ⟨Hrowb, Hgb, Htb, ⟨%fb, Hflb⟩⟩, ⟨Hrowc, Hchc⟩, Hrest⟩, -, %W', %hW', HO⟩
  sl_exec (disch := exact View.amount_pos _ _ (show 0 < S128x128.numel by decide))
  sl_step
  rw [open1 m d L fI hI (gst (t.val + 1)) ⟨t.val, ht50⟩, open2 m d L fI hI (gst (t.val + 1)) ⟨t.val, ht50⟩ ⟨t.val - 1, hb50⟩ hba,
    open3 m d L fI hI (gst (t.val + 1)) ⟨t.val, ht50⟩ ⟨t.val - 1, hb50⟩ ⟨t.val + 5, ht5⟩ hca hcb,
    gst_self_succ t.val ⟨t.val, ht50⟩ rfl, gst_prev_succ t.val ⟨t.val - 1, hb50⟩ (by show t.val - 1 + 1 = t.val; omega) ht5,
    gst_next_succ t.val ⟨t.val + 5, ht5⟩ rfl,
    R3_congr m d L fI hI (gst (t.val + 1)) (gst t.val) ⟨t.val, ht50⟩ ⟨t.val - 1, hb50⟩ ⟨t.val + 5, ht5⟩
      (fun g hga hgb hgc => gst_other t.val g (fun h => hga (Fin.ext h))
        (Or.inl (fun h => hgb (Fin.ext (by show g.val = t.val - 1; omega)))) (fun h => hgc (Fin.ext h))),
    if_neg (by omega : ¬ t.val + 1 = 0),
    show Φ m d L fI hI ⟨t.val, ht50⟩ GSt.writ = iprop(rowPts d L fI ⟨t.val, ht50⟩ ∗ semVal (gcell (V d (cV L) (jV L)) (sl ⟨t.val, ht50⟩)) 0
      ∗ tokWhole m d L (sl ⟨t.val, ht50⟩) ∗ writFlight m d L fI hI ⟨t.val, ht50⟩) from rfl,
    show Φ m d L fI hI ⟨t.val - 1, hb50⟩ GSt.done = iprop(rowPts d L fI ⟨t.val - 1, hb50⟩ ∗ chunkPts d L ⟨t.val - 1, hb50⟩ (gout m d)) from rfl,
    show Φ m d L fI hI ⟨t.val + 5, ht5⟩ GSt.gath = iprop(chunkPts d L ⟨t.val + 5, ht5⟩ (m (oLoc d)) ∗ semVal (wcell (V d (cV L) (jV L)) (sl ⟨t.val + 5, ht5⟩)) 0
      ∗ gathFlight m d L fI hI ⟨t.val + 5, ht5⟩ ∗ tokRest m d L (sl ⟨t.val + 5, ht5⟩)) from rfl]
  isplitr; · iexact Hmw
  isplitl [Hfl_dst_and Htr Hfl Hwc Hrowb Hflb_dst Hchc Hflb Hgb Htb Hrest]
  · isplitl [Hfl_dst_and Htr Hfl Hwc]
    · isplitl [Hfl_dst_and]; · iexact Hfl_dst_and
      isplitl [Hfl]; · iexact Hfl
      isplitl [Htr]; · iexact Htr
      unfold writFlight; iexists f0; iexact Hwc
    · isplitl [Hrowb Hflb_dst]
      · isplitl [Hrowb]; · iexact Hrowb
        iapply (Entails.of_eq (pointsTo_congr (hval ⟨t.val - 1, hb50⟩ fb))); iexact Hflb_dst
      · isplitl [Hchc Hflb Hgb Htb]
        · isplitl [Hchc]; · iexact Hchc
          isplitl [Hflb]; · iexact Hflb
          isplitl [Hgb]
          · unfold gathFlight
            iexists ((slotK ⟨(t.val + 5) % 6, Nat.mod_lt _ (by norm_num)⟩).view.writes (Elt F) fb [⟨Rect.whole S128x128, gpay m d L fI hI ⟨t.val - 1, hb50⟩⟩])
            iexact Hgb
          iexact Htb
        · iexact Hrest
  isplitr; · iempintro
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

/-! ## One trip, whichever it is -/

theorem step (hval : ChunkVal m d L fI hI) (O : CellTallies nD τ sig (HIx 1)) (W : Waits sig (HIx 1))
    (t : Fin k0_t1_loop.trips) (acc : BitVec 32) :
    inv m d L fI hI O W t.val acc ⊢ wp frame (wpE (defs₀ (F := F)) 𝒱₀ (V d (cV L) (jV L)) none) Set.univ
      (k0_t1_body L iV (Memref.isWhole_whole _) tV (Memref.isWhole_whole _) oV (Memref.isWhole_whole _) sI (Memref.isWhole_whole _)
        sR (Memref.isWhole_whole _) cc0_scratch2 cc0_scratch3 cc0_scoped0 t acc)
      (fun r => inv m d L fI hI O W (t.val + 1) r) := by
  by_cases h1 : k0_cond1 t = 1#1
  · by_cases h2 : k0_cond2 t = 1#1
    · exact step_mid m d L fI hI hval O W t acc h1 h2
    · exact step_zero m d L fI hI hval O W t acc h1 h2
  · exact step_tail m d L fI hI hval O W t acc h1

end Step

end Cert.Kernel.Sc

end
-- ==== Proof.TileBits.lean ====
/-
  One tile's task. Worker `w = 2 i + c` fetches its block of the transposed token array into its list scratch, then runs
  fifty groups through a ring of six row buffers: group `j` gathers the table rows that list `j` names into slot
  `j % 6` and writes that slot out to columns `128 j … 128 j + 127` of the worker's output rows; five gathers are in
  flight ahead of the group being written, and a slot is reused for group `j + 6` only after group `j`'s write-out
  has been waited for. Every gather and every write-out completes on the semaphore of its own slot.
-/
import proofs.«203293_g38809324487172_cont_8to1_b_1330_62_alg».proof.Proof.TileInvBits
import proofs.«203293_g38809324487172_cont_8to1_b_1330_62_alg».proof.Proof.TileSplitBits
import proofs.«203293_g38809324487172_cont_8to1_b_1330_62_alg».proof.Proof.TileEpilogueBits
import proofs.«203293_g38809324487172_cont_8to1_b_1330_62_alg».proof.Proof.TileValueBits
import proofs.«203293_g38809324487172_cont_8to1_b_1330_62_alg».proof.Proof.TileStepBits

noncomputable section

namespace Cert.Kernel.Sc

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "iV" => (Memref.whole Cert.Kernel.main_v1_scv : Memref Cert.Kernel.sig Kind.scVector Space.hbm Cert.Kernel.S32x50x128 EltTy.i32)
local notation "tV" => (Memref.whole Cert.Kernel.main_arg1_scv : Memref Cert.Kernel.sig Kind.scVector Space.hbm Cert.Kernel.S100000x128 EltTy.f32)
local notation "oV" => (Memref.whole Cert.Kernel.main_v2_scv : Memref Cert.Kernel.sig Kind.scVector Space.hbm Cert.Kernel.S4096x6400 EltTy.f32)
local notation "sI" => (Memref.whole Cert.Kernel.cc0_scratch0 : Memref Cert.Kernel.sig Kind.scVector Space.vmem Cert.Kernel.S50x128 EltTy.i32)
local notation "sR" => (Memref.whole Cert.Kernel.cc0_scratch1 : Memref Cert.Kernel.sig Kind.scVector Space.vmem Cert.Kernel.S6x128x128 EltTy.f32)

variable [FloatOps F]

section Tile

variable (d : Dev nD) (L : grid0.Coords)

/-! ## Families over six slots and fifty groups, opened -/

omit [FloatOps F] in
theorem fin6_split (Ψ : Fin 6 → sProp 𝕄) : bigSep Finset.univ Ψ = iprop(Ψ 0 ∗ Ψ 1 ∗ Ψ 2 ∗ Ψ 3 ∗ Ψ 4 ∗ Ψ 5) :=
  (BI.bigSep_univ_eq_bigSepL [0, 1, 2, 3, 4, 5] (by decide) (by decide) Ψ).trans rfl

/-- The five groups whose gathers the prologue issues. -/
def S5 : Finset (Fin 50) := {0, 1, 2, 3, 4}

omit [FloatOps F] in
theorem split5 (Ψ : Fin 50 → sProp 𝕄) :
    bigSep Finset.univ Ψ = iprop((Ψ 0 ∗ Ψ 1 ∗ Ψ 2 ∗ Ψ 3 ∗ Ψ 4) ∗ bigSep (Finset.univ \ S5) Ψ) := by
  rw [SparseCore.bigSep_sdiff_split' (Finset.subset_univ S5), BI.bigSep_eq_bigSepL_of_eq [0, 1, 2, 3, 4] (by decide) (by decide)]
  rfl

section Init

variable (fI : Buf (Elt F) ((V d (cV L) (jV L)).loc cc0_scratch0)) (hI : ListsOK d L fI)

/-- Before trip 0: groups 0 … 4 have their gathers in flight, every later group is pending. -/
theorem atw0_eq : Ring.AtW (Φ m d L fI hI) (gst 0)
    = iprop((Φ m d L fI hI 0 .gath ∗ Φ m d L fI hI 1 .gath ∗ Φ m d L fI hI 2 .gath ∗ Φ m d L fI hI 3 .gath ∗ Φ m d L fI hI 4 .gath)
        ∗ (bigSep (Finset.univ \ S5) (fun g => rowPts d L fI g) ∗ bigSep (Finset.univ \ S5) (fun g => chunkPts d L g (m (oLoc d))))) := by
  unfold Ring.AtW
  rw [split5]
  have h5 : ∀ g ∈ (Finset.univ \ S5 : Finset (Fin 50)), gst 0 g = .pend := by decide
  have e : bigSep (Finset.univ \ S5) (fun g => Φ m d L fI hI g (gst 0 g))
      = iprop(bigSep (Finset.univ \ S5) (fun g => rowPts d L fI g) ∗ bigSep (Finset.univ \ S5) (fun g => chunkPts d L g (m (oLoc d)))) :=
    (BI.bigSep_congr (fun g hg => by rw [h5 g hg]; rfl)).trans (BI.bigSep_sep' _ _ _)
  rw [e]
  rfl

/-- A group whose gather is in flight, from its pieces. -/
theorem gath_intro (g : Fin 50) (f0 : Buf (Elt F) ((V d (cV L) (jV L)).loc cc0_scratch1)) :
    iprop(chunkPts d L g (m (oLoc d)) ∗ semVal (wcell (V d (cV L) (jV L)) (sl g)) 0
      ∗ Transfers.Flight (countersEmb (U := UU)) (V d (cV L) (jV L)) (SemLoc.dma (gsemK (sl g))) (default : HIx 1) 524288
          iprop((slotPts d L (sl g) ((slotK (sl g)).view.writes (Elt F) f0 [⟨Rect.whole S128x128, gpay m d L fI hI g⟩]) ∗ rowPts d L fI g) ∗ tokLent m d L (sl g))
      ∗ tokRest m d L (sl g))
      ⊢ Φ m d L fI hI g .gath := by
  show _ ⊢ iprop(chunkPts d L g (m (oLoc d)) ∗ semVal (wcell (V d (cV L) (jV L)) (sl g)) 0 ∗ gathFlight m d L fI hI g ∗ tokRest m d L (sl g))
  iintro ⟨Hc, Hw, Hfl, Ht⟩
  isplitl [Hc]; · iexact Hc
  isplitl [Hw]; · iexact Hw
  isplitl [Hfl]; · unfold gathFlight; iexists f0; iexact Hfl
  iexact Ht

end Init

set_option maxHeartbeats 4000000 in
/-- The task on the tile at grid point `L` of device `d`. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ goP m d (widL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_body L iV (Memref.isWhole_whole _) tV (Memref.isWhole_whole _) oV (Memref.isWhole_whole _)
            sI (Memref.isWhole_whole _) sR (Memref.isWhole_whole _) cc0_scratch2 cc0_scratch3 cc0_scoped0)
          fun _ => iprop(tdP m d (widL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__gather_body_eq_skeleton]; unfold cc0__gather_body_skel
  rw [(K (F := F)).scopedBufs_V hF d (cV L) (jV L), SparseCore.Cfg.scopedSems0_V (Val := Elt F) d (cV L) (jV L), ownSems0_V, ownBufs_V]
  unfold goP xBlkPts tTokPts oBlkPts
  iintro ⟨#Hlv, -, ⟨Hx, Ht, Ho⟩, ⟨⟨%fs, Hs⟩, ⟨%fr, Hr⟩, Hbufs⟩, ⟨⟨⟨Hg, Hw⟩, Hsc⟩, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (pts_iRowK (F := F) d L _).symm) $$ Hx
  ihave Hs' := (Entails.of_eq (pts_sI (F := F) d L _).symm) $$ Hs
  -- the list fetch and its wait
  sl_exec
  -- the fetched lists: they name rows of the table
  have hI : ListsOK d L (View.write (Elt F) (sI).view fs (tile_body.sl.dma0 m d L) Finset.univ) := by
    intro i
    rw [show View.write (Elt F) (sI).view fs (tile_body.sl.dma0 m d L) Finset.univ = tile_body.sl.dma0 m d L from View.write_whole_univ _ _ _]
    exact fI_lt m d L hpre i
  have hval : ChunkVal m d L _ hI := chunkVal_lists m d L _ hpre (View.write_whole_univ _ _ _) hI
  have hin0 := hin_row d L _ hI 0
  have hin1 := hin_row d L _ hI 1
  have hin2 := hin_row d L _ hI 2
  have hin3 := hin_row d L _ hI 3
  have hin4 := hin_row d L _ hI 4
  -- the row buffers slot by slot, the cells one by one, the table's read token one per slot
  ihave Hr2 := (Entails.of_eq ((slots_split (F := F) d L fr).trans (fin6_split _))) $$ Hr
  icases Hr2 with ⟨Hr0, Hr1, Hr2, Hr3, Hr4, Hr5⟩
  ihave Hg2 := (Entails.of_eq (fin6_split _)) $$ Hg
  icases Hg2 with ⟨Hg0, Hg1, Hg2, Hg3, Hg4, Hg5⟩
  ihave Hw2 := (Entails.of_eq (fin6_split _)) $$ Hw
  icases Hw2 with ⟨Hw0, Hw1, Hw2, Hw3, Hw4, Hw5⟩
  ihave Ht2 := (Transfers.pointsTo_toks_split (tq (widL L)) 6) $$ Ht
  icases Ht2 with ⟨Htr, Htk⟩
  ihave Htk2 := (Entails.of_eq (fin6_split _)) $$ Htk
  icases Htk2 with ⟨Ht0, Ht1, Ht2, Ht3, Ht4, Ht5⟩
  ihave Ht0' := (Entails.of_eq (pts_tV (F := F) d L _ _).symm) $$ Ht0
  ihave Ht1' := (Entails.of_eq (pts_tV (F := F) d L _ _).symm) $$ Ht1
  ihave Ht2' := (Entails.of_eq (pts_tV (F := F) d L _ _).symm) $$ Ht2
  ihave Ht3' := (Entails.of_eq (pts_tV (F := F) d L _ _).symm) $$ Ht3
  ihave Ht4' := (Entails.of_eq (pts_tV (F := F) d L _ _).symm) $$ Ht4
  ihave Ht5' := (Entails.of_eq (pts_tV (F := F) d L _ _).symm) $$ Ht5
  -- the fifty lists and the fifty column chunks, the first five apart
  ihave Hs2 := (Entails.of_eq ((rows_split (F := F) d L _).trans (split5 _))) $$ Hs'
  icases Hs2 with ⟨⟨Hl0, Hl1, Hl2, Hl3, Hl4⟩, Hlrest⟩
  ihave Ho2 := (Entails.of_eq ((chunks_split (F := F) d L _).trans (split5 _))) $$ Ho
  icases Ho2 with ⟨⟨Hc0, Hc1, Hc2, Hc3, Hc4⟩, Hcrest⟩
  -- the five gathers
  sl_exec
  -- the ring
  sl_for (inv m d L _ hI O W) $$ [Hmw Hc0 Hc1 Hc2 Hc3 Hc4 Hcrest Hw0 Hw1 Hw2 Hw3 Hw4 Hw5 Hlrest Hg0 Hg1 Hg2 Hg3 Hg4 Ht0' Ht1' Ht2' Ht3' Ht4' Hr5 Hg5 Ht5' HO]
  case region =>
    intro k acc
    exact step m d L _ hI hval O W k acc
  · unfold inv
    isplitl [Hmw]; · iexact Hmw
    isplitl [Hc0 Hc1 Hc2 Hc3 Hc4 Hcrest Hw0 Hw1 Hw2 Hw3 Hw4 Hlrest Hg0 Hg1 Hg2 Hg3 Hg4 Ht0' Ht1' Ht2' Ht3' Ht4']
    · iapply (Entails.of_eq (atw0_eq m d L _ hI).symm)
      isplitr [Hlrest Hcrest]
      · isplitl [Hc0 Hw0 Hg0 Ht0']
        · iapply (gath_intro m d L _ hI 0 fr)
          isplitl [Hc0]; · iexact Hc0
          isplitl [Hw0]; · iexact Hw0
          isplitl [Hg0]; · iexact Hg0
          iexact Ht0'
        isplitl [Hc1 Hw1 Hg1 Ht1']
        · iapply (gath_intro m d L _ hI 1 fr)
          isplitl [Hc1]; · iexact Hc1
          isplitl [Hw1]; · iexact Hw1
          isplitl [Hg1]; · iexact Hg1
          iexact Ht1'
        isplitl [Hc2 Hw2 Hg2 Ht2']
        · iapply (gath_intro m d L _ hI 2 fr)
          isplitl [Hc2]; · iexact Hc2
          isplitl [Hw2]; · iexact Hw2
          isplitl [Hg2]; · iexact Hg2
          iexact Ht2'
        isplitl [Hc3 Hw3 Hg3 Ht3']
        · iapply (gath_intro m d L _ hI 3 fr)
          isplitl [Hc3]; · iexact Hc3
          isplitl [Hw3]; · iexact Hw3
          isplitl [Hg3]; · iexact Hg3
          iexact Ht3'
        · iapply (gath_intro m d L _ hI 4 fr)
          isplitl [Hc4]; · iexact Hc4
          isplitl [Hw4]; · iexact Hw4
          isplitl [Hg4]; · iexact Hg4
          iexact Ht4'
      · isplitl [Hlrest]; · iexact Hlrest
        iexact Hcrest
    isplitl [Hg5 Hw5 Hr5 Ht5']
    · rw [if_pos rfl]
      unfold free5
      isplitl [Hg5]; · iexact Hg5
      isplitl [Hw5]; · iexact Hw5
      isplitl [Hr5]; · iexists fr; iexact Hr5
      iexact Ht5'
    iexists _; isplitr
    swap; · iexact HO
    ipureintro; intro p hp
    rcases Finset.mem_insert.mp hp with hp | hp; · exact .inr (hp ▸ rfl)
    exact .inl hp
  iintro %r HI
  rw [show Scf.trips k0_t1_loop.lb k0_t1_loop.ub k0_t1_loop.st = 50 from trips_eq]
  ihave HI' := (inv50_open m d L _ hI O W r) $$ HI
  icases HI' with ⟨#Hmw2, Hdone, ⟨Hl44, Hg2, Ht2, %f44, Hfl44⟩, ⟨Hl45, Hg3, Ht3, %f45, Hfl45⟩, ⟨Hl46, Hg4, Ht4, %f46, Hfl46⟩, ⟨Hl47, Hg5, Ht5, %f47, Hfl47⟩, ⟨Hl48, Hg0, Ht0, %f48, Hfl48⟩, ⟨Hl49, Hg1, Ht1, %f49, Hfl49⟩, %W', %hW', HO⟩
  -- the six last write-outs' waits
  sl_exec
  sl_step
  rw [← ownSems0_V (F := F) d L, ← ownBufs_V (F := F) d L]
  iapply (final_join m d L _ hI hval O W f44 f45 f46 f47 f48 f49)
  isplitl [Hdone]; · iexact Hdone
  isplitl [Hl44 Hg2 Ht2 Hfl44 Hfl44_dst Hfl44_src]
  · isplitl [Hl44]; · iexact Hl44
    isplitl [Hg2]; · iexact Hg2
    isplitl [Ht2]; · iexact Ht2
    isplitl [Hfl44]; · iexact Hfl44
    isplitl [Hfl44_dst]; · iexact Hfl44_dst
    iexact Hfl44_src
  isplitl [Hl45 Hg3 Ht3 Hfl45 Hfl45_dst Hfl45_src]
  · isplitl [Hl45]; · iexact Hl45
    isplitl [Hg3]; · iexact Hg3
    isplitl [Ht3]; · iexact Ht3
    isplitl [Hfl45]; · iexact Hfl45
    isplitl [Hfl45_dst]; · iexact Hfl45_dst
    iexact Hfl45_src
  isplitl [Hl46 Hg4 Ht4 Hfl46 Hfl46_dst Hfl46_src]
  · isplitl [Hl46]; · iexact Hl46
    isplitl [Hg4]; · iexact Hg4
    isplitl [Ht4]; · iexact Ht4
    isplitl [Hfl46]; · iexact Hfl46
    isplitl [Hfl46_dst]; · iexact Hfl46_dst
    iexact Hfl46_src
  isplitl [Hl47 Hg5 Ht5 Hfl47 Hfl47_dst Hfl47_src]
  · isplitl [Hl47]; · iexact Hl47
    isplitl [Hg5]; · iexact Hg5
    isplitl [Ht5]; · iexact Ht5
    isplitl [Hfl47]; · iexact Hfl47
    isplitl [Hfl47_dst]; · iexact Hfl47_dst
    iexact Hfl47_src
  isplitl [Hl48 Hg0 Ht0 Hfl48 Hfl48_dst Hfl48_src]
  · isplitl [Hl48]; · iexact Hl48
    isplitl [Hg0]; · iexact Hg0
    isplitl [Ht0]; · iexact Ht0
    isplitl [Hfl48]; · iexact Hfl48
    isplitl [Hfl48_dst]; · iexact Hfl48_dst
    iexact Hfl48_src
  isplitl [Hl49 Hg1 Ht1 Hfl49 Hfl49_dst Hfl49_src]
  · isplitl [Hl49]; · iexact Hl49
    isplitl [Hg1]; · iexact Hg1
    isplitl [Ht1]; · iexact Ht1
    isplitl [Hfl49]; · iexact Hfl49
    isplitl [Hfl49_dst]; · iexact Hfl49_dst
    iexact Hfl49_src
  isplitl [Hx']; · iapply (Entails.of_eq (pts_iRowK (F := F) d L _)); iexact Hx'
  isplitl [Htr]; · iexact Htr
  isplitl [Hsc]; · iexact Hsc
  isplitl [Hsems]; · iexact Hsems
  isplitl [Hbufs]; · iexact Hbufs
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather_body (coordsV c s)
          iV (Memref.isWhole_whole _) tV (Memref.isWhole_whole _) oV (Memref.isWhole_whole _)
          sI (Memref.isWhole_whole _) sR (Memref.isWhole_whole _) cc0_scratch2 cc0_scratch3 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Tile

end Cert.Kernel.Sc

end
-- ==== Proof.lean ====
/-
  The certificate's claim: both kernel programs run to the end with their arguments unchanged, so does the reference,
  and at the extended reals the kernel's result is the reference's — from the launch of the SparseCore program, one
  tile's task, the TensorCore region and the reference's run.
-/
import proofs.«203293_g38809324487172_cont_8to1_b_1330_62_alg».proof.Defs
import proofs.«203293_g38809324487172_cont_8to1_b_1330_62_alg».proof.Proof.Claims
import proofs.«203293_g38809324487172_cont_8to1_b_1330_62_alg».proof.Proof.Tile
import proofs.«203293_g38809324487172_cont_8to1_b_1330_62_alg».proof.Proof.TileBits

noncomputable section

namespace Cert.Proof

open Idealize.ShloMosaic Idealize.SL.Sem

theorem claim : Cert.Claim :=
  claim_of (fun m hpre => Cert.Kernel.Sc.tileObl (F := Bits) m Cert.Kernel.Sc.facts hpre)
    (fun m hpre => Cert.KernelIdeal.Sc.tileObl (F := Ideal) m Cert.KernelIdeal.Sc.facts hpre)

end Cert.Proof

end
